-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x4096x64 : Shape := ⟨4, ![4, 16, 4096, 64]⟩
abbrev S1x16x4096x2 : Shape := ⟨4, ![1, 16, 4096, 2]⟩
abbrev S1000000x4 : Shape := ⟨2, ![1000000, 4]⟩
abbrev S1000000 : Shape := ⟨1, ![1000000]⟩
abbrev S2x64 : Shape := ⟨2, ![2, 64]⟩
abbrev S64 : Shape := ⟨1, ![64]⟩
abbrev S64x64 : Shape := ⟨2, ![64, 64]⟩
abbrev S128x64 : Shape := ⟨2, ![128, 64]⟩
abbrev S_ : Shape := ⟨0, ![]⟩

class Facts : Prop where
  bcast_S_S4x16x4096x64 : S_.BroadcastsInDim S4x16x4096x64 (![] : Fin 0 → Fin S4x16x4096x64.rank)
  reducesTo_S4x16x4096x64_S_d0_1_2_3 : S4x16x4096x64.ReducesTo [0, 1, 2, 3] S_
  h_S_ : 0 < S_.numel
  bcast_S_S1x16x4096x2 : S_.BroadcastsInDim S1x16x4096x2 (![] : Fin 0 → Fin S1x16x4096x2.rank)
  reducesTo_S1x16x4096x2_S_d0_1_2_3 : S1x16x4096x2.ReducesTo [0, 1, 2, 3] S_
  bcast_S_S1000000 : S_.BroadcastsInDim S1000000 (![] : Fin 0 → Fin S1000000.rank)
  reducesTo_S1000000_S_d0 : S1000000.ReducesTo [0] S_
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_

variable [Facts]

def fn_part4 {F : FTy → Type} [FloatOps F] (main_arg15 : FVec F S64 .f32) (main_arg16 : FVec F S64 .f32) (main_arg17 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  main_v83

def fn_part3 {F : FTy → Type} [FloatOps F] (main_arg12 : FVec F S64 .f32) (main_arg13 : FVec F S64 .f32) (main_arg14 : FVec F S128x64 .f32) (main_arg15 : FVec F S64 .f32) (main_arg16 : FVec F S64 .f32) (main_arg17 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S128x64 .f32 := Host.absf main_arg14
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg15 main_arg16 main_arg17 main_v63 main_v67

def fn_part2 {F : FTy → Type} [FloatOps F] (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S128x64 .f32) (main_arg15 : FVec F S64 .f32) (main_arg16 : FVec F S64 .f32) (main_arg17 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_v48 main_v49 main_v50

def fn_part1 {F : FTy → Type} [FloatOps F] (main_arg5 : FVec F S64 .f32) (main_arg6 : FVec F S64x64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S128x64 .f32) (main_arg15 : FVec F S64 .f32) (main_arg16 : FVec F S64 .f32) (main_arg17 : FVec F S64 .f32) (main_v13 : IVec S_ 1) (main_v16 : IVec S2x64 1) : IVec S_ 1 :=
  let main_c_5 : IVec S_ 1 := constantI S_ 1 1#1
  let main_v17 : IVec S_ 1 := (fun x v => Host.reduce IntOp.andi x v reducesTo_S2x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S4x16x4096x64 .f32) (main_arg1 : FVec F S1x16x4096x2 .f32) (main_arg2 : IVec S1000000x4 32) (main_arg3 : FVec F S1000000 .f32) (main_arg4 : FVec F S2x64 .f32) (main_arg5 : FVec F S64 .f32) (main_arg6 : FVec F S64x64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S128x64 .f32) (main_arg15 : FVec F S64 .f32) (main_arg16 : FVec F S64 .f32) (main_arg17 : FVec F S64 .f32) : IVec S_ 1 :=
  let main_v0 : FVec F S4x16x4096x64 .f32 := Host.absf main_arg0
  let main_cst : FVec F S_ .f32 := constant S_ .f32 0x7F800000#32
  let main_v1 : FVec F S4x16x4096x64 .f32 := broadcastInDim S4x16x4096x64 ![] bcast_S_S4x16x4096x64 main_cst
  let main_v2 : IVec S4x16x4096x64 1 := cmpf .olt main_v0 main_v1
  let main_c : IVec S_ 1 := constantI S_ 1 1#1
  let main_v3 : IVec S_ 1 := (fun x v => Host.reduce IntOp.andi x v reducesTo_S4x16x4096x64_S_d0_1_2_3 h_S_) main_v2 main_c
  let main_v4 : FVec F S1x16x4096x2 .f32 := Host.absf main_arg1
  let main_cst_0 : FVec F S_ .f32 := constant S_ .f32 0x7F800000#32
  let main_v5 : FVec F S1x16x4096x2 .f32 := broadcastInDim S1x16x4096x2 ![] bcast_S_S1x16x4096x2 main_cst_0
  let main_v6 : IVec S1x16x4096x2 1 := cmpf .olt main_v4 main_v5
  let main_c_1 : IVec S_ 1 := constantI S_ 1 1#1
  let main_v7 : IVec S_ 1 := (fun x v => Host.reduce IntOp.andi x v reducesTo_S1x16x4096x2_S_d0_1_2_3 h_S_) main_v6 main_c_1
  let main_v8 : IVec S_ 1 := andi main_v3 main_v7
  let main_v9 : FVec F S1000000 .f32 := Host.absf main_arg3
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S2x64 .f32 := Host.absf main_arg4
  let main_cst_4 : FVec F S_ .f32 := constant S_ .f32 0x7F800000#32
  let main_v15 : FVec F S2x64 .f32 := broadcastInDim S2x64 ![] bcast_S_S2x64 main_cst_4
  let main_v16 : IVec S2x64 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S4x16x4096x64 : Shape := ⟨4, ![4, 16, 4096, 64]⟩
abbrev S1x16x4096x2 : Shape := ⟨4, ![1, 16, 4096, 2]⟩
abbrev S1000000x4 : Shape := ⟨2, ![1000000, 4]⟩
abbrev S1000000 : Shape := ⟨1, ![1000000]⟩
abbrev S2x64 : Shape := ⟨2, ![2, 64]⟩
abbrev S64 : Shape := ⟨1, ![64]⟩
abbrev S64x64 : Shape := ⟨2, ![64, 64]⟩
abbrev S128x64 : Shape := ⟨2, ![128, 64]⟩
abbrev S262144x64 : Shape := ⟨2, ![262144, 64]⟩
abbrev S4x16x4096x2 : Shape := ⟨4, ![4, 16, 4096, 2]⟩
abbrev S262144x2 : Shape := ⟨2, ![262144, 2]⟩
abbrev S1000000x1 : Shape := ⟨2, ![1000000, 1]⟩
abbrev S_ : Shape := ⟨0, ![]⟩
abbrev S1003520 : Shape := ⟨1, ![1003520]⟩
abbrev S1003520x1 : Shape := ⟨2, ![1003520, 1]⟩
abbrev S1003520x64 : Shape := ⟨2, ![1003520, 64]⟩
abbrev S1003520x2 : Shape := ⟨2, ![1003520, 2]⟩
abbrev S1x64 : Shape := ⟨2, ![1, 64]⟩
abbrev S4096x2 : Shape := ⟨2, ![4096, 2]⟩
abbrev S4096x64 : Shape := ⟨2, ![4096, 64]⟩
abbrev S4096x1 : Shape := ⟨2, ![4096, 1]⟩
abbrev S4096 : Shape := ⟨1, ![4096]⟩
abbrev S262144 : Shape := ⟨1, ![262144]⟩
abbrev S262144x1 : Shape := ⟨2, ![262144, 1]⟩

abbrev nBuf : Space → Nat
  | .hbm => 127
  | .vmem => 31
  | .smem => 0
  | _ => 0

abbrev bufTy : (tb : Table) → Fin (tcTables nBuf tb) → BufTy
  | .hbm, ⟨0, _⟩ => ⟨S4x16x4096x64, .f32⟩
  | .hbm, ⟨1, _⟩ => ⟨S1x16x4096x2, .f32⟩
  | .hbm, ⟨2, _⟩ => ⟨S1000000x4, .i32⟩
  | .hbm, ⟨3, _⟩ => ⟨S1000000, .f32⟩
  | .hbm, ⟨4, _⟩ => ⟨S2x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S128x64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S262144x64, .f32⟩
  | .hbm, ⟨19, _⟩ => ⟨S262144x64, .bf16⟩
  | .hbm, ⟨20, _⟩ => ⟨S4x16x4096x2, .f32⟩
  | .hbm, ⟨21, _⟩ => ⟨S262144x2, .f32⟩
  | .hbm, ⟨22, _⟩ => ⟨S1000000x1, .i32⟩
  | .hbm, ⟨23, _⟩ => ⟨S1000000, .i32⟩
  | .hbm, ⟨24, _⟩ => ⟨S1000000x1, .i32⟩
  | .hbm, ⟨25, _⟩ => ⟨S1000000, .i32⟩
  | .hbm, ⟨26, _⟩ => ⟨S1000000x1, .i32⟩
  | .hbm, ⟨27, _⟩ => ⟨S1000000, .i32⟩
  | .hbm, ⟨28, _⟩ => ⟨S1000000x1, .i32⟩
  | .hbm, ⟨29, _⟩ => ⟨S1000000, .i32⟩
  | .hbm, ⟨30, _⟩ => ⟨S_, .i32⟩
  | .hbm, ⟨31, _⟩ => ⟨S1000000, .i32⟩
  | .hbm, ⟨32, _⟩ => ⟨S1000000, .i32⟩
  | .hbm, ⟨33, _⟩ => ⟨S1000000, .i32⟩
  | .hbm, ⟨34, _⟩ => ⟨S_, .i32⟩
  | .hbm, ⟨35, _⟩ => ⟨S1000000, .i32⟩
  | .hbm, ⟨36, _⟩ => ⟨S1000000, .i32⟩
  | .hbm, ⟨37, _⟩ => ⟨S1000000, .i32⟩
  | .hbm, ⟨38, _⟩ => ⟨S_, .i32⟩
  | .hbm, ⟨39, _⟩ => ⟨S1000000, .i32⟩
  | .hbm, ⟨40, _⟩ => ⟨S1000000, .i32⟩
  | .hbm, ⟨41, _⟩ => ⟨S1000000, .i32⟩
  | .hbm, ⟨42, _⟩ => ⟨S_, .i32⟩
  | .hbm, ⟨43, _⟩ => ⟨S1000000, .i32⟩
  | .hbm, ⟨44, _⟩ => ⟨S1000000, .i32⟩
  | .hbm, ⟨45, _⟩ => ⟨S_, .i32⟩
  | .hbm, ⟨46, _⟩ => ⟨S1000000, .i32⟩
  | .hbm, ⟨47, _⟩ => ⟨S1000000, .i32⟩
  | .hbm, ⟨48, _⟩ => ⟨S1000000, .i32⟩
  | .hbm, ⟨49, _⟩ => ⟨S_, .i32⟩
  | .hbm, ⟨50, _⟩ => ⟨S_, .i32⟩
  | .hbm, ⟨51, _⟩ => ⟨S1003520, .i32⟩
  | .hbm, ⟨52, _⟩ => ⟨S_, .i32⟩
  | .hbm, ⟨53, _⟩ => ⟨S_, .i32⟩
  | .hbm, ⟨54, _⟩ => ⟨S1003520, .i32⟩
  | .hbm, ⟨55, _⟩ => ⟨S_, .i32⟩
  | .hbm, ⟨56, _⟩ => ⟨S_, .f32⟩
  | .hbm, ⟨57, _⟩ => ⟨S1003520, .f32⟩
  | .hbm, ⟨58, _⟩ => ⟨S1003520x1, .f32⟩
  | .hbm, ⟨59, _⟩ => ⟨S_, .i32⟩
  | .hbm, ⟨60, _⟩ => ⟨S1003520, .i32⟩
  | .hbm, ⟨61, _⟩ => ⟨S1003520, .i1⟩
  | .hbm, ⟨62, _⟩ => ⟨S_, .i32⟩
  | .hbm, ⟨63, _⟩ => ⟨S1003520, .i32⟩
  | .hbm, ⟨64, _⟩ => ⟨S1003520, .i32⟩
  | .hbm, ⟨65, _⟩ => ⟨S1003520, .i32⟩
  | .hbm, ⟨66, _⟩ => ⟨S1003520x1, .i32⟩
  | .hbm, ⟨67, _⟩ => ⟨S1003520x64, .bf16⟩
  | .hbm, ⟨68, _⟩ => ⟨S_, .i32⟩
  | .hbm, ⟨69, _⟩ => ⟨S1003520, .i32⟩
  | .hbm, ⟨70, _⟩ => ⟨S1003520, .i1⟩
  | .hbm, ⟨71, _⟩ => ⟨S_, .i32⟩
  | .hbm, ⟨72, _⟩ => ⟨S1003520, .i32⟩
  | .hbm, ⟨73, _⟩ => ⟨S1003520, .i32⟩
  | .hbm, ⟨74, _⟩ => ⟨S1003520, .i32⟩
  | .hbm, ⟨75, _⟩ => ⟨S1003520x1, .i32⟩
  | .hbm, ⟨76, _⟩ => ⟨S1003520x2, .f32⟩
  | .hbm, ⟨77, _⟩ => ⟨S_, .i32⟩
  | .hbm, ⟨78, _⟩ => ⟨S1003520, .i32⟩
  | .hbm, ⟨79, _⟩ => ⟨S1003520, .i1⟩
  | .hbm, ⟨80, _⟩ => ⟨S_, .i32⟩
  | .hbm, ⟨81, _⟩ => ⟨S1003520, .i32⟩
  | .hbm, ⟨82, _⟩ => ⟨S1003520, .i32⟩
  | .hbm, ⟨83, _⟩ => ⟨S1003520, .i32⟩
  | .hbm, ⟨84, _⟩ => ⟨S1003520x1, .i32⟩
  | .hbm, ⟨85, _⟩ => ⟨S1003520x2, .f32⟩
  | .hbm, ⟨86, _⟩ => ⟨S1003520x2, .f32⟩
  | .hbm, ⟨87, _⟩ => ⟨S1x64, .f32⟩
  | .hbm, ⟨88, _⟩ => ⟨S1x64, .f32⟩
  | .hbm, ⟨89, _⟩ => ⟨S1x64, .f32⟩
  | .hbm, ⟨90, _⟩ => ⟨S1x64, .f32⟩
  | .hbm, ⟨91, _⟩ => ⟨S1x64, .f32⟩
  | .hbm, ⟨92, _⟩ => ⟨S1003520x64, .f32⟩
  | .hbm, ⟨93, _⟩ => ⟨S_, .f32⟩
  | .hbm, ⟨94, _⟩ => ⟨S262144x64, .f32⟩
  | .hbm, ⟨95, _⟩ => ⟨S_, .i32⟩
  | .hbm, ⟨96, _⟩ => ⟨S1003520, .i32⟩
  | .hbm, ⟨97, _⟩ => ⟨S1003520, .i1⟩
  | .hbm, ⟨98, _⟩ => ⟨S_, .i32⟩
  | .hbm, ⟨99, _⟩ => ⟨S1003520, .i32⟩
  | .hbm, ⟨100, _⟩ => ⟨S1003520, .i32⟩
  | .hbm, ⟨101, _⟩ => ⟨S1003520, .i32⟩
  | .hbm, ⟨102, _⟩ => ⟨S1003520x1, .i32⟩
  | .hbm, ⟨103, _⟩ => ⟨S262144x64, .f32⟩
  | .hbm, ⟨104, _⟩ => ⟨S_, .f32⟩
  | .hbm, ⟨105, _⟩ => ⟨S262144, .f32⟩
  | .hbm, ⟨106, _⟩ => ⟨S_, .i32⟩
  | .hbm, ⟨107, _⟩ => ⟨S1000000, .i32⟩
  | .hbm, ⟨108, _⟩ => ⟨S1000000, .i1⟩
  | .hbm, ⟨109, _⟩ => ⟨S_, .i32⟩
  | .hbm, ⟨110, _⟩ => ⟨S1000000, .i32⟩
  | .hbm, ⟨111, _⟩ => ⟨S1000000, .i32⟩
  | .hbm, ⟨112, _⟩ => ⟨S1000000, .i32⟩
  | .hbm, ⟨113, _⟩ => ⟨S1000000x1, .i32⟩
  | .hbm, ⟨114, _⟩ => ⟨S_, .f32⟩
  | .hbm, ⟨115, _⟩ => ⟨S1000000, .f32⟩
  | .hbm, ⟨116, _⟩ => ⟨S262144, .f32⟩
  | .hbm, ⟨117, _⟩ => ⟨S262144x1, .f32⟩
  | .hbm, ⟨118, _⟩ => ⟨S64x64, .f32⟩
  | .hbm, ⟨119, _⟩ => ⟨S64x64, .f32⟩
  | .hbm, ⟨120, _⟩ => ⟨S1x64, .f32⟩
  | .hbm, ⟨121, _⟩ => ⟨S1x64, .f32⟩
  | .hbm, ⟨122, _⟩ => ⟨S1x64, .f32⟩
  | .hbm, ⟨123, _⟩ => ⟨S1x64, .f32⟩
  | .hbm, ⟨124, _⟩ => ⟨S1x64, .f32⟩
  | .hbm, ⟨125, _⟩ => ⟨S262144x64, .f32⟩
  | .hbm, ⟨126, _⟩ => ⟨S4x16x4096x64, .f32⟩
  | .local _ .vmem, ⟨0, _⟩ => ⟨S4096x2, .f32⟩
  | .local _ .vmem, ⟨1, _⟩ => ⟨S4096x2, .f32⟩
  | .local _ .vmem, ⟨2, _⟩ => ⟨S4096x64, .bf16⟩
  | .local _ .vmem, ⟨3, _⟩ => ⟨S4096x64, .bf16⟩
  | .local _ .vmem, ⟨4, _⟩ => ⟨S4096x1, .f32⟩
  | .local _ .vmem, ⟨5, _⟩ => ⟨S4096x1, .f32⟩
  | .local _ .vmem, ⟨6, _⟩ => ⟨S2x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S4096x64, .f32⟩
  | .local _ .vmem, ⟨15, _⟩ => ⟨S4096x64, .f32⟩
  | .local _ .vmem, ⟨16, _⟩ => ⟨S4096x64, .f32⟩
  | .local _ .vmem, ⟨17, _⟩ => ⟨S4096x64, .f32⟩
  | .local _ .vmem, ⟨18, _⟩ => ⟨S4096x64, .f32⟩
  | .local _ .vmem, ⟨19, _⟩ => ⟨S4096x64, .f32⟩
  | .local _ .vmem, ⟨20, _⟩ => ⟨S4096x1, .f32⟩
  | .local _ .vmem, ⟨21, _⟩ => ⟨S4096x1, .f32⟩
  | .local _ .vmem, ⟨22, _⟩ => ⟨S64x64, .f32⟩
  | .local _ .vmem, ⟨23, _⟩ => ⟨S64x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S4096x64, .f32⟩
  | .local _ .vmem, ⟨30, _⟩ => ⟨S4096x64, .f32⟩
  | _, _ => ⟨S4x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_2 : Ref sig .tc := ⟨.hbm, 42, rfl⟩
abbrev main_v21 : Ref sig .tc := ⟨.hbm, 43, rfl⟩
abbrev main_v22 : Ref sig .tc := ⟨.hbm, 44, rfl⟩
abbrev main_c_3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_4 : Ref sig .tc := ⟨.hbm, 49, rfl⟩
abbrev main_call0_v0 : Ref sig .tc := ⟨.hbm, 50, rfl⟩
abbrev main_v26 : Ref sig .tc := ⟨.hbm, 51, rfl⟩
abbrev main_c_5 : Ref sig .tc := ⟨.hbm, 52, rfl⟩
abbrev main_call1_v0 : Ref sig .tc := ⟨.hbm, 53, rfl⟩
abbrev main_v27 : Ref sig .tc := ⟨.hbm, 54, rfl⟩
abbrev main_c_6 : Ref sig .tc := ⟨.hbm, 55, rfl⟩
abbrev main_call2_v0 : Ref sig .tc := ⟨.hbm, 56, rfl⟩
abbrev main_v28 : Ref sig .tc := ⟨.hbm, 57, rfl⟩
abbrev main_v29 : Ref sig .tc := ⟨.hbm, 58, rfl⟩
abbrev main_c_7 : Ref sig .tc := ⟨.hbm, 59, rfl⟩
abbrev main_v30 : Ref sig .tc := ⟨.hbm, 60, rfl⟩
abbrev main_v31 : Ref sig .tc := ⟨.hbm, 61, rfl⟩
abbrev main_c_8 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_c_9 : Ref sig .tc := ⟨.hbm, 68, rfl⟩
abbrev main_v37 : Ref sig .tc := ⟨.hbm, 69, rfl⟩
abbrev main_v38 : Ref sig .tc := ⟨.hbm, 70, rfl⟩
abbrev main_c_10 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_c_11 : Ref sig .tc := ⟨.hbm, 77, rfl⟩
abbrev main_v44 : Ref sig .tc := ⟨.hbm, 78, rfl⟩
abbrev main_v45 : Ref sig .tc := ⟨.hbm, 79, rfl⟩
abbrev main_c_12 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst : Ref sig .tc := ⟨.hbm, 93, rfl⟩
abbrev main_v58 : Ref sig .tc := ⟨.hbm, 94, rfl⟩
abbrev main_c_13 : Ref sig .tc := ⟨.hbm, 95, rfl⟩
abbrev main_v59 : Ref sig .tc := ⟨.hbm, 96, rfl⟩
abbrev main_v60 : Ref sig .tc := ⟨.hbm, 97, rfl⟩
abbrev main_c_14 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_15 : Ref sig .tc := ⟨.hbm, 104, rfl⟩
abbrev main_v66 : Ref sig .tc := ⟨.hbm, 105, rfl⟩
abbrev main_c_16 : Ref sig .tc := ⟨.hbm, 106, rfl⟩
abbrev main_v67 : Ref sig .tc := ⟨.hbm, 107, rfl⟩
abbrev main_v68 : Ref sig .tc := ⟨.hbm, 108, rfl⟩
abbrev main_c_17 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_18 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg10_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem10_1 : DmaSem sig := 30

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4096x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S4096x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  shapeCasts_S4x16x4096x64_S262144x64 : S4x16x4096x64.ShapeCasts S262144x64
  bitsLt_bf16_f32 : FTy.bits .bf16 < FTy.bits .f32
  bcast_S1x16x4096x2_S4x16x4096x2_0_1_2_3 : S1x16x4096x2.BroadcastsInDim S4x16x4096x2 (![0, 1, 2, 3] : Fin 4 → Fin S4x16x4096x2.rank)
  shapeCasts_S4x16x4096x2_S262144x2 : S4x16x4096x2.ShapeCasts S262144x2
  slices_S1000000x4_S1000000x1_0_0 : S1000000x4.Slices ![0, 0] S1000000x1
  shapeCasts_S1000000x1_S1000000 : S1000000x1.ShapeCasts S1000000
  slices_S1000000x4_S1000000x1_0_1 : S1000000x4.Slices ![0, 1] S1000000x1
  slices_S1000000x4_S1000000x1_0_2 : S1000000x4.Slices ![0, 2] S1000000x1
  slices_S1000000x4_S1000000x1_0_3 : S1000000x4.Slices ![0, 3] S1000000x1
  bcast_S_S1000000 : S_.BroadcastsInDim S1000000 (![] : Fin 0 → Fin S1000000.rank)
  pads_S1000000_S1003520_035200 : S1000000.Pads (![0] : Fin 1 → Nat) ![3520] ![0] S1003520
  h_S_ : 0 < S_.numel
  shapeCasts_S1003520_S1003520x1 : S1003520.ShapeCasts S1003520x1
  bcast_S_S1003520 : S_.BroadcastsInDim S1003520 (![] : Fin 0 → Fin S1003520.rank)
  bcast_S1003520_S1003520x1_0 : S1003520.BroadcastsInDim S1003520x1 (![0] : Fin 1 → Fin S1003520x1.rank)
  shapeCasts_S64_S1x64 : S64.ShapeCasts S1x64
  inb_S4096x2_S4096x2_0_0 : ∀ a, (![0, 0] : Fin 2 → Nat) a + S4096x2.size a ≤ S4096x2.size a
  h_S4096x2 : 0 < S4096x2.numel
  shapeCasts_S4096x2_S4096x2 : S4096x2.ShapeCasts S4096x2
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S2x64_S2x64_0_0 : ∀ a, (![0, 0] : Fin 2 → Nat) a + S2x64.size a ≤ S2x64.size a
  h_S2x64 : 0 < S2x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S64x64_S64x64_0_0 : ∀ a, (![0, 0] : Fin 2 → Nat) a + S64x64.size a ≤ S64x64.size a
  h_S64x64 : 0 < S64x64.numel
  reduces_S4096x64_S4096 : S4096x64.Reduces [1] S4096
  shapeCasts_S4096_S4096x1 : S4096.ShapeCasts S4096x1
  broadcasts_S4096x1_S4096x64 : S4096x1.Broadcasts S4096x64
  bcast_S_S262144x64 : S_.BroadcastsInDim S262144x64 (![] : Fin 0 → Fin S262144x64.rank)
  bcast_S_S262144 : S_.BroadcastsInDim S262144 (![] : Fin 0 → Fin S262144.rank)
  bcast_S1000000_S1000000x1_0 : S1000000.BroadcastsInDim S1000000x1 (![0] : Fin 1 → Fin S1000000x1.rank)
  shapeCasts_S262144_S262144x1 : S262144.ShapeCasts S262144x1
  slices_S128x64_S64x64_0_0 : S128x64.Slices ![0, 0] S64x64
  slices_S128x64_S64x64_64_0 : S128x64.Slices ![64, 0] S64x64
  shapeCasts_S64x64_S64x64 : S64x64.ShapeCasts S64x64
  shapeCasts_S262144x64_S4x16x4096x64 : S262144x64.ShapeCasts S4x16x4096x64
  gather_S262144x64_S1003520x1_S1003520x64_1_0_n_n_0_1_164_wf : GatherDims.WF S262144x64 S1003520x1 S1003520x64 [1] [0] [] [0] [] 1 ![1, 64]
  gather_S262144x2_S1003520x1_S1003520x2_1_0_n_n_0_1_12_wf : GatherDims.WF S262144x2 S1003520x1 S1003520x2 [1] [0] [] [0] [] 1 ![1, 2]
  dot_S4096x2_S2x64_S4096x64_1_0_0_1_n_n_wf : DotDims.WF S4096x2 S2x64 S4096x64 [1] [0] [0] [1] [] []
  dot_S4096x64_S64x64_S4096x64_1_0_0_1_n_n_wf : DotDims.WF S4096x64 S64x64 S4096x64 [1] [0] [0] [1] [] []
  scatter_S262144x64_S1003520x1_S1003520x64_1_0_0_1_wf : ScatterDims.WF S262144x64 S1003520x1 S1003520x64 [1] [0] [0] 1
  scatter_S262144_S1000000x1_S1000000_n_0_0_1_wf : ScatterDims.WF S262144 S1000000x1 S1000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x2.size a ≤ S1003520x2.size a
  hwx0_0 : ∀ i : grid0.Coords, EltTy.bits .f32 = 32 ∨ (Rect.block (s := S1003520x2) S4096x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S1003520x64.size a
  hwx0_1 : ∀ i : grid0.Coords, EltTy.bits .bf16 = 32 ∨ (Rect.block (s := S1003520x64) S4096x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S1003520x1.size a
  hwx0_2 : ∀ i : grid0.Coords, EltTy.bits .f32 = 32 ∨ (Rect.block (s := S1003520x1) S4096x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x64.size a ≤ S2x64.size a
  hwx0_3 : ∀ i : grid0.Coords, EltTy.bits .f32 = 32 ∨ (Rect.block (s := S2x64) S2x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4096x64.size a ≤ S1003520x64.size a
  hwx0_11 : ∀ i : grid0.Coords, EltTy.bits .f32 = 32 ∨ (Rect.block (s := S1003520x64) S4096x64.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S262144x64.size a
  hwx1_0 : ∀ i : grid1.Coords, EltTy.bits .f32 = 32 ∨ (Rect.block (s := S262144x64) S4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S262144x64.size a
  hwx1_1 : ∀ i : grid1.Coords, EltTy.bits .f32 = 32 ∨ (Rect.block (s := S262144x64) S4096x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x1.size a ≤ S262144x1.size a
  hwx1_2 : ∀ i : grid1.Coords, EltTy.bits .f32 = 32 ∨ (Rect.block (s := S262144x1) S4096x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S4096x64.size a ≤ S262144x64.size a
  hwx1_10 : ∀ i : grid1.Coords, EltTy.bits .f32 = 32 ∨ (Rect.block (s := S262144x64) S4096x64.size (cc1_transform_10 i) (hinb1_10 i)).WholeWords (EltTy.packing .f32)

variable [Facts₀]

def gather_S262144x64_S1003520x1_S1003520x64_1_0_n_n_0_1_164 : GatherDims S262144x64 S1003520x1 S1003520x64 where
  offsetDims := [1]
  collapsedSliceDims := [0]
  operandBatchingDims := []
  startIndicesBatchingDims := []
  startIndexMap := [0]
  indexVectorDim := 1
  sliceSizes := ![1, 64]
  wf := gather_S262144x64_S1003520x1_S1003520x64_1_0_n_n_0_1_164_wf
def gather_S262144x2_S1003520x1_S1003520x2_1_0_n_n_0_1_12 : GatherDims S262144x2 S1003520x1 S1003520x2 where
  offsetDims := [1]
  collapsedSliceDims := [0]
  operandBatchingDims := []
  startIndicesBatchingDims := []
  startIndexMap := [0]
  indexVectorDim := 1
  sliceSizes := ![1, 2]
  wf := gather_S262144x2_S1003520x1_S1003520x2_1_0_n_n_0_1_12_wf
def dot_S4096x2_S2x64_S4096x64_1_0_0_1_n_n : DotDims S4096x2 S2x64 S4096x64 where
  lhsContracting := [1]
  rhsContracting := [0]
  lhsNonContracting := [0]
  rhsNonContracting := [1]
  lhsBatch := []
  rhsBatch := []
  wf := dot_S4096x2_S2x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def scatter_S262144x64_S1003520x1_S1003520x64_1_0_0_1 : ScatterDims S262144x64 S1003520x1 S1003520x64 where
  updateWindowDims := [1]
  insertedWindowDims := [0]
  scatterDimsToOperandDims := [0]
  indexVectorDim := 1
  wf := scatter_S262144x64_S1003520x1_S1003520x64_1_0_0_1_wf
def scatter_S262144_S1000000x1_S1000000_n_0_0_1 : ScatterDims S262144 S1000000x1 S1000000 where
  updateWindowDims := []
  insertedWindowDims := [0]
  scatterDimsToOperandDims := [0]
  indexVectorDim := 1
  wf := scatter_S262144_S1000000x1_S1000000_n_0_0_1_wf

abbrev win0_0 : Pipeline.Window sig grid0 :=
  Pipeline.Window.ofSpec (Memref.whole main_v51) S4096x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S2x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v52) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v53) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v54) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v55) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v56) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v57) S4096x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v0) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v65) S4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v75) S4096x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v76) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v77) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v78) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v79) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v80) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v81) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v82) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v83) S4096x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S4x16x4096x64 : Shape := ⟨4, ![4, 16, 4096, 64]⟩
abbrev S1x16x4096x2 : Shape := ⟨4, ![1, 16, 4096, 2]⟩
abbrev S1000000x4 : Shape := ⟨2, ![1000000, 4]⟩
abbrev S1000000 : Shape := ⟨1, ![1000000]⟩
abbrev S2x64 : Shape := ⟨2, ![2, 64]⟩
abbrev S64 : Shape := ⟨1, ![64]⟩
abbrev S64x64 : Shape := ⟨2, ![64, 64]⟩
abbrev S128x64 : Shape := ⟨2, ![128, 64]⟩
abbrev S262144x64 : Shape := ⟨2, ![262144, 64]⟩
abbrev S4x16x4096x2 : Shape := ⟨4, ![4, 16, 4096, 2]⟩
abbrev S262144x2 : Shape := ⟨2, ![262144, 2]⟩
abbrev S1000000x1 : Shape := ⟨2, ![1000000, 1]⟩
abbrev S_ : Shape := ⟨0, ![]⟩
abbrev S1000000x64 : Shape := ⟨2, ![1000000, 64]⟩
abbrev S1000000x2 : Shape := ⟨2, ![1000000, 2]⟩
abbrev S1x64 : Shape := ⟨2, ![1, 64]⟩
abbrev S262144 : Shape := ⟨1, ![262144]⟩
abbrev S262144x1 : Shape := ⟨2, ![262144, 1]⟩
abbrev S262144x128 : Shape := ⟨2, ![262144, 128]⟩

abbrev nBuf : Space → Nat
  | .hbm => 226
  | .vmem => 0
  | .smem => 0
  | _ => 0

abbrev hbmTy0_0 (i : Nat) : BufTy := match i % 128 with
  | 0 => ⟨S4x16x4096x64, .f32⟩
  | 1 => ⟨S1x16x4096x2, .f32⟩
  | 2 => ⟨S1000000x4, .i32⟩
  | 3 => ⟨S1000000, .f32⟩
  | 4 => ⟨S2x64, .f32⟩
  | 5 => ⟨S64, .f32⟩
  | 6 => ⟨S64x64, .f32⟩
  | 7 => ⟨S64, .f32⟩
  | 8 => ⟨S64, .f32⟩
  | 9 => ⟨S64, .f32⟩
  | 10 => ⟨S64x64, .f32⟩
  | 11 => ⟨S64, .f32⟩
  | 12 => ⟨S64, .f32⟩
  | 13 => ⟨S64, .f32⟩
  | 14 => ⟨S128x64, .f32⟩
  | 15 => ⟨S64, .f32⟩
  | 16 => ⟨S64, .f32⟩
  | 17 => ⟨S64, .f32⟩
  | 18 => ⟨S262144x64, .f32⟩
  | 19 => ⟨S4x16x4096x2, .f32⟩
  | 20 => ⟨S262144x2, .f32⟩
  | 21 => ⟨S1000000x1, .i32⟩
  | 22 => ⟨S1000000, .i32⟩
  | 23 => ⟨S1000000x1, .i32⟩
  | 24 => ⟨S1000000, .i32⟩
  | 25 => ⟨S1000000x1, .i32⟩
  | 26 => ⟨S1000000, .i32⟩
  | 27 => ⟨S1000000x1, .i32⟩
  | 28 => ⟨S1000000, .i32⟩
  | 29 => ⟨S_, .i32⟩
  | 30 => ⟨S1000000, .i32⟩
  | 31 => ⟨S1000000, .i32⟩
  | 32 => ⟨S1000000, .i32⟩
  | 33 => ⟨S_, .i32⟩
  | 34 => ⟨S1000000, .i32⟩
  | 35 => ⟨S1000000, .i32⟩
  | 36 => ⟨S1000000, .i32⟩
  | 37 => ⟨S_, .i32⟩
  | 38 => ⟨S1000000, .i32⟩
  | 39 => ⟨S1000000, .i32⟩
  | 40 => ⟨S1000000, .i32⟩
  | 41 => ⟨S_, .i32⟩
  | 42 => ⟨S1000000, .i32⟩
  | 43 => ⟨S1000000, .i32⟩
  | 44 => ⟨S_, .i32⟩
  | 45 => ⟨S1000000, .i32⟩
  | 46 => ⟨S1000000, .i32⟩
  | 47 => ⟨S1000000, .i32⟩
  | 48 => ⟨S_, .i32⟩
  | 49 => ⟨S1000000, .i32⟩
  | 50 => ⟨S1000000, .i1⟩
  | 51 => ⟨S_, .i32⟩
  | 52 => ⟨S1000000, .i32⟩
  | 53 => ⟨S1000000, .i32⟩
  | 54 => ⟨S1000000, .i32⟩
  | 55 => ⟨S1000000x1, .i32⟩
  | 56 => ⟨S1000000x64, .f32⟩
  | 57 => ⟨S_, .i32⟩
  | 58 => ⟨S1000000, .i32⟩
  | 59 => ⟨S1000000, .i1⟩
  | 60 => ⟨S_, .i32⟩
  | 61 => ⟨S1000000, .i32⟩
  | 62 => ⟨S1000000, .i32⟩
  | 63 => ⟨S1000000, .i32⟩
  | 64 => ⟨S1000000x1, .i32⟩
  | 65 => ⟨S1000000x2, .f32⟩
  | 66 => ⟨S_, .i32⟩
  | 67 => ⟨S1000000, .i32⟩
  | 68 => ⟨S1000000, .i1⟩
  | 69 => ⟨S_, .i32⟩
  | 70 => ⟨S1000000, .i32⟩
  | 71 => ⟨S1000000, .i32⟩
  | 72 => ⟨S1000000, .i32⟩
  | 73 => ⟨S1000000x1, .i32⟩
  | 74 => ⟨S1000000x2, .f32⟩
  | 75 => ⟨S1000000x2, .f32⟩
  | 76 => ⟨S1000000x64, .f32⟩
  | 77 => ⟨S1x64, .f32⟩
  | 78 => ⟨S1000000x64, .f32⟩
  | 79 => ⟨S1000000x64, .f32⟩
  | 80 => ⟨S_, .f32⟩
  | 81 => ⟨S1000000x64, .f32⟩
  | 82 => ⟨S1000000x64, .i1⟩
  | 83 => ⟨S_, .f32⟩
  | 84 => ⟨S1000000x64, .f32⟩
  | 85 => ⟨S1000000x64, .f32⟩
  | 86 => ⟨S1000000x64, .f32⟩
  | 87 => ⟨S1000000x64, .f32⟩
  | 88 => ⟨S1x64, .f32⟩
  | 89 => ⟨S1000000x64, .f32⟩
  | 90 => ⟨S1000000x64, .f32⟩
  | 91 => ⟨S_, .f32⟩
  | 92 => ⟨S1000000, .f32⟩
  | 93 => ⟨S1000000x1, .f32⟩
  | 94 => ⟨S_, .f32⟩
  | 95 => ⟨S1000000x1, .f32⟩
  | 96 => ⟨S1000000x1, .f32⟩
  | 97 => ⟨S1000000x64, .f32⟩
  | 98 => ⟨S1000000x64, .f32⟩
  | 99 => ⟨S1000000x64, .f32⟩
  | 100 => ⟨S_, .f32⟩
  | 101 => ⟨S1000000, .f32⟩
  | 102 => ⟨S1000000x1, .f32⟩
  | 103 => ⟨S_, .f32⟩
  | 104 => ⟨S1000000x1, .f32⟩
  | 105 => ⟨S1000000x1, .f32⟩
  | 106 => ⟨S1000000x64, .f32⟩
  | 107 => ⟨S1000000x64, .f32⟩
  | 108 => ⟨S_, .f32⟩
  | 109 => ⟨S1000000x1, .f32⟩
  | 110 => ⟨S1000000x1, .f32⟩
  | 111 => ⟨S1000000x1, .f32⟩
  | 112 => ⟨S1000000x64, .f32⟩
  | 113 => ⟨S1000000x64, .f32⟩
  | 114 => ⟨S1x64, .f32⟩
  | 115 => ⟨S1000000x64, .f32⟩
  | 116 => ⟨S1000000x64, .f32⟩
  | 117 => ⟨S1x64, .f32⟩
  | 118 => ⟨S1000000x64, .f32⟩
  | 119 => ⟨S1000000x64, .f32⟩
  | 120 => ⟨S1000000x64, .f32⟩
  | 121 => ⟨S1000000x64, .f32⟩
  | 122 => ⟨S1x64, .f32⟩
  | 123 => ⟨S1000000x64, .f32⟩
  | 124 => ⟨S1000000x64, .f32⟩
  | 125 => ⟨S_, .f32⟩
  | 126 => ⟨S262144x64, .f32⟩
  | 127 => ⟨S1000000x1, .f32⟩
  | _ => ⟨S4x16x4096x64, .f32⟩

abbrev hbmTy0_1 (i : Nat) : BufTy := match i % 128 with
  | 0 => ⟨S1000000x64, .f32⟩
  | 1 => ⟨S1000000x64, .f32⟩
  | 2 => ⟨S_, .i32⟩
  | 3 => ⟨S1000000, .i32⟩
  | 4 => ⟨S1000000, .i1⟩
  | 5 => ⟨S_, .i32⟩
  | 6 => ⟨S1000000, .i32⟩
  | 7 => ⟨S1000000, .i32⟩
  | 8 => ⟨S1000000, .i32⟩
  | 9 => ⟨S1000000x1, .i32⟩
  | 10 => ⟨S262144x64, .f32⟩
  | 11 => ⟨S_, .f32⟩
  | 12 => ⟨S262144, .f32⟩
  | 13 => ⟨S262144x1, .f32⟩
  | 14 => ⟨S_, .f32⟩
  | 15 => ⟨S262144x1, .f32⟩
  | 16 => ⟨S262144x1, .f32⟩
  | 17 => ⟨S262144x64, .f32⟩
  | 18 => ⟨S262144x64, .f32⟩
  | 19 => ⟨S262144x64, .f32⟩
  | 20 => ⟨S_, .f32⟩
  | 21 => ⟨S262144, .f32⟩
  | 22 => ⟨S262144x1, .f32⟩
  | 23 => ⟨S_, .f32⟩
  | 24 => ⟨S262144x1, .f32⟩
  | 25 => ⟨S262144x1, .f32⟩
  | 26 => ⟨S262144x64, .f32⟩
  | 27 => ⟨S262144x64, .f32⟩
  | 28 => ⟨S_, .f32⟩
  | 29 => ⟨S262144x1, .f32⟩
  | 30 => ⟨S262144x1, .f32⟩
  | 31 => ⟨S262144x1, .f32⟩
  | 32 => ⟨S262144x64, .f32⟩
  | 33 => ⟨S262144x64, .f32⟩
  | 34 => ⟨S1x64, .f32⟩
  | 35 => ⟨S262144x64, .f32⟩
  | 36 => ⟨S262144x64, .f32⟩
  | 37 => ⟨S1x64, .f32⟩
  | 38 => ⟨S262144x64, .f32⟩
  | 39 => ⟨S262144x64, .f32⟩
  | 40 => ⟨S_, .i1⟩
  | 41 => ⟨S262144, .i1⟩
  | 42 => ⟨S_, .i32⟩
  | 43 => ⟨S1000000, .i32⟩
  | 44 => ⟨S1000000, .i1⟩
  | 45 => ⟨S_, .i32⟩
  | 46 => ⟨S1000000, .i32⟩
  | 47 => ⟨S1000000, .i32⟩
  | 48 => ⟨S1000000, .i32⟩
  | 49 => ⟨S1000000x1, .i32⟩
  | 50 => ⟨S_, .i1⟩
  | 51 => ⟨S1000000, .i1⟩
  | 52 => ⟨S262144, .i1⟩
  | 53 => ⟨S262144x128, .f32⟩
  | 54 => ⟨S262144x64, .f32⟩
  | 55 => ⟨S1x64, .f32⟩
  | 56 => ⟨S262144x64, .f32⟩
  | 57 => ⟨S262144x64, .f32⟩
  | 58 => ⟨S_, .f32⟩
  | 59 => ⟨S262144, .f32⟩
  | 60 => ⟨S262144x1, .f32⟩
  | 61 => ⟨S_, .f32⟩
  | 62 => ⟨S262144x1, .f32⟩
  | 63 => ⟨S262144x1, .f32⟩
  | 64 => ⟨S262144x64, .f32⟩
  | 65 => ⟨S262144x64, .f32⟩
  | 66 => ⟨S262144x64, .f32⟩
  | 67 => ⟨S_, .f32⟩
  | 68 => ⟨S262144, .f32⟩
  | 69 => ⟨S262144x1, .f32⟩
  | 70 => ⟨S_, .f32⟩
  | 71 => ⟨S262144x1, .f32⟩
  | 72 => ⟨S262144x1, .f32⟩
  | 73 => ⟨S262144x64, .f32⟩
  | 74 => ⟨S262144x64, .f32⟩
  | 75 => ⟨S_, .f32⟩
  | 76 => ⟨S262144x1, .f32⟩
  | 77 => ⟨S262144x1, .f32⟩
  | 78 => ⟨S262144x1, .f32⟩
  | 79 => ⟨S262144x64, .f32⟩
  | 80 => ⟨S262144x64, .f32⟩
  | 81 => ⟨S1x64, .f32⟩
  | 82 => ⟨S262144x64, .f32⟩
  | 83 => ⟨S262144x64, .f32⟩
  | 84 => ⟨S1x64, .f32⟩
  | 85 => ⟨S262144x64, .f32⟩
  | 86 => ⟨S262144x64, .f32⟩
  | 87 => ⟨S_, .f32⟩
  | 88 => ⟨S262144x64, .f32⟩
  | 89 => ⟨S262144x64, .i1⟩
  | 90 => ⟨S_, .f32⟩
  | 91 => ⟨S262144x64, .f32⟩
  | 92 => ⟨S262144x64, .f32⟩
  | 93 => ⟨S262144x64, .f32⟩
  | 94 => ⟨S262144x1, .i1⟩
  | 95 => ⟨S262144x64, .i1⟩
  | 96 => ⟨S262144x64, .f32⟩
  | 97 => ⟨S4x16x4096x64, .f32⟩
  | _ => ⟨S4x16x4096x64, .f32⟩

abbrev hbmTy (i : Nat) : BufTy := match i / 128 with
  | 0 => hbmTy0_0 i
  | 1 => hbmTy0_1 i
  | _ => ⟨S4x16x4096x64, .f32⟩

abbrev bufTy : (tb : Table) → Fin (tcTables nBuf tb) → BufTy
  | .hbm, ⟨i, _⟩ => hbmTy i
  | _, _ => ⟨S4x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_1 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_2 : Ref sig .tc := ⟨.hbm, 41, rfl⟩
abbrev main_v20 : Ref sig .tc := ⟨.hbm, 42, rfl⟩
abbrev main_v21 : Ref sig .tc := ⟨.hbm, 43, rfl⟩
abbrev main_c_3 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_4 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_c_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_8 : Ref sig .tc := ⟨.hbm, 66, rfl⟩
abbrev main_v39 : Ref sig .tc := ⟨.hbm, 67, rfl⟩
abbrev main_v40 : Ref sig .tc := ⟨.hbm, 68, rfl⟩
abbrev main_c_9 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_call0_cst : Ref sig .tc := ⟨.hbm, 80, rfl⟩
abbrev main_call0_v0 : Ref sig .tc := ⟨.hbm, 81, rfl⟩
abbrev main_call0_v1 : Ref sig .tc := ⟨.hbm, 82, rfl⟩
abbrev main_call0_cst_0 : Ref sig .tc := ⟨.hbm, 83, rfl⟩
abbrev main_call0_v2 : Ref sig .tc := ⟨.hbm, 84, rfl⟩
abbrev main_call0_v3 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst : Ref sig .tc := ⟨.hbm, 91, rfl⟩
abbrev main_v56 : Ref sig .tc := ⟨.hbm, 92, rfl⟩
abbrev main_v57 : Ref sig .tc := ⟨.hbm, 93, rfl⟩
abbrev main_cst_10 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_11 : Ref sig .tc := ⟨.hbm, 100, rfl⟩
abbrev main_v63 : Ref sig .tc := ⟨.hbm, 101, rfl⟩
abbrev main_v64 : Ref sig .tc := ⟨.hbm, 102, rfl⟩
abbrev main_cst_12 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_13 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_14 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_c_15 : Ref sig .tc := ⟨.hbm, 130, rfl⟩
abbrev main_v89 : Ref sig .tc := ⟨.hbm, 131, rfl⟩
abbrev main_v90 : Ref sig .tc := ⟨.hbm, 132, rfl⟩
abbrev main_c_16 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_17 : Ref sig .tc := ⟨.hbm, 139, rfl⟩
abbrev main_v96 : Ref sig .tc := ⟨.hbm, 140, rfl⟩
abbrev main_v97 : Ref sig .tc := ⟨.hbm, 141, rfl⟩
abbrev main_cst_18 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_19 : Ref sig .tc := ⟨.hbm, 148, rfl⟩
abbrev main_v103 : Ref sig .tc := ⟨.hbm, 149, rfl⟩
abbrev main_v104 : Ref sig .tc := ⟨.hbm, 150, rfl⟩
abbrev main_cst_20 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_cst_21 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_c_22 : Ref sig .tc := ⟨.hbm, 168, rfl⟩
abbrev main_v120 : Ref sig .tc := ⟨.hbm, 169, rfl⟩
abbrev main_c_23 : Ref sig .tc := ⟨.hbm, 170, rfl⟩
abbrev main_v121 : Ref sig .tc := ⟨.hbm, 171, rfl⟩
abbrev main_v122 : Ref sig .tc := ⟨.hbm, 172, rfl⟩
abbrev main_c_24 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_c_25 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_cst_26 : Ref sig .tc := ⟨.hbm, 186, rfl⟩
abbrev main_v134 : Ref sig .tc := ⟨.hbm, 187, rfl⟩
abbrev main_v135 : Ref sig .tc := ⟨.hbm, 188, rfl⟩
abbrev main_cst_27 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_cst_28 : Ref sig .tc := ⟨.hbm, 195, rfl⟩
abbrev main_v141 : Ref sig .tc := ⟨.hbm, 196, rfl⟩
abbrev main_v142 : Ref sig .tc := ⟨.hbm, 197, rfl⟩
abbrev main_cst_29 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_cst_30 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_call1_cst : Ref sig .tc := ⟨.hbm, 215, rfl⟩
abbrev main_call1_v0 : Ref sig .tc := ⟨.hbm, 216, rfl⟩
abbrev main_call1_v1 : Ref sig .tc := ⟨.hbm, 217, rfl⟩
abbrev main_call1_cst_0 : Ref sig .tc := ⟨.hbm, 218, rfl⟩
abbrev main_call1_v2 : Ref sig .tc := ⟨.hbm, 219, rfl⟩
abbrev main_call1_v3 : Ref sig .tc := ⟨.hbm, 220, rfl⟩
abbrev main_v158 : Ref sig .tc := ⟨.hbm, 221, rfl⟩
abbrev main_v159 : Ref sig .tc := ⟨.hbm, 222, rfl⟩
abbrev main_call2_v0 : Ref sig .tc := ⟨.hbm, 223, rfl⟩
abbrev main_v160 : Ref sig .tc := ⟨.hbm, 224, rfl⟩
abbrev main_v161 : Ref sig .tc := ⟨.hbm, 225, rfl⟩

abbrev nD : Nat := 1
abbrev τ : Topo := Topo.v7x

variable {F : FTy → Type} [FloatOps F]

class Facts₀ : Prop where
  shapeCasts_S4x16x4096x64_S262144x64 : S4x16x4096x64.ShapeCasts S262144x64
  bcast_S1x16x4096x2_S4x16x4096x2_0_1_2_3 : S1x16x4096x2.BroadcastsInDim S4x16x4096x2 (![0, 1, 2, 3] : Fin 4 → Fin S4x16x4096x2.rank)
  shapeCasts_S4x16x4096x2_S262144x2 : S4x16x4096x2.ShapeCasts S262144x2
  slices_S1000000x4_S1000000x1_0_0 : S1000000x4.Slices ![0, 0] S1000000x1
  shapeCasts_S1000000x1_S1000000 : S1000000x1.ShapeCasts S1000000
  slices_S1000000x4_S1000000x1_0_1 : S1000000x4.Slices ![0, 1] S1000000x1
  slices_S1000000x4_S1000000x1_0_2 : S1000000x4.Slices ![0, 2] S1000000x1
  slices_S1000000x4_S1000000x1_0_3 : S1000000x4.Slices ![0, 3] S1000000x1
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  reducesTo_S1000000x64_S1000000_d1 : S1000000x64.ReducesTo [1] S1000000
  h_S_ : 0 < S_.numel
  bcast_S_S1000000x1 : S_.BroadcastsInDim S1000000x1 (![] : Fin 0 → Fin S1000000x1.rank)
  bcast_S1000000x1_S1000000x64_0_1 : S1000000x1.BroadcastsInDim S1000000x64 (![0, 1] : Fin 2 → Fin S1000000x64.rank)
  bcast_S_S262144x64 : S_.BroadcastsInDim S262144x64 (![] : Fin 0 → Fin S262144x64.rank)
  reducesTo_S262144x64_S262144_d1 : S262144x64.ReducesTo [1] S262144
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x64_0_1 : S262144x1.BroadcastsInDim S262144x64 (![0, 1] : Fin 2 → Fin S262144x64.rank)
  bcast_S1x64_S262144x64_0_1 : S1x64.BroadcastsInDim S262144x64 (![0, 1] : Fin 2 → Fin S262144x64.rank)
  bcast_S_S262144 : S_.BroadcastsInDim S262144 (![] : Fin 0 → Fin S262144.rank)
  concatenates_S262144x64_S262144x64_S262144x128_d1 : Shape.Concatenates [S262144x64, S262144x64] S262144x128 1
  shapeCasts_S262144x64_S4x16x4096x64 : S262144x64.ShapeCasts S4x16x4096x64
  gather_S262144x64_S1000000x1_S1000000x64_1_0_n_n_0_1_164_wf : GatherDims.WF S262144x64 S1000000x1 S1000000x64 [1] [0] [] [0] [] 1 ![1, 64]
  gather_S262144x2_S1000000x1_S1000000x2_1_0_n_n_0_1_12_wf : GatherDims.WF S262144x2 S1000000x1 S1000000x2 [1] [0] [] [0] [] 1 ![1, 2]
  dot_S1000000x2_S2x64_S1000000x64_1_0_0_1_n_n_wf : DotDims.WF S1000000x2 S2x64 S1000000x64 [1] [0] [0] [1] [] []
  dot_S1000000x64_S64x64_S1000000x64_1_0_0_1_n_n_wf : DotDims.WF S1000000x64 S64x64 S1000000x64 [1] [0] [0] [1] [] []
  scatter_S262144x64_S1000000x1_S1000000x64_1_0_0_1_wf : ScatterDims.WF S262144x64 S1000000x1 S1000000x64 [1] [0] [0] 1
  scatter_S262144_S1000000x1_S1000000_n_0_0_1_wf : ScatterDims.WF S262144 S1000000x1 S1000000 [] [0] [0] 1
  dot_S262144x128_S128x64_S262144x64_1_0_0_1_n_n_wf : DotDims.WF S262144x128 S128x64 S262144x64 [1] [0] [0] [1] [] []

variable [Facts₀]

def gather_S262144x64_S1000000x1_S1000000x64_1_0_n_n_0_1_164 : GatherDims S262144x64 S1000000x1 S1000000x64 where
  offsetDims := [1]
  collapsedSliceDims := [0]
  operandBatchingDims := []
  startIndicesBatchingDims := []
  startIndexMap := [0]
  indexVectorDim := 1
  sliceSizes := ![1, 64]
  wf := gather_S262144x64_S1000000x1_S1000000x64_1_0_n_n_0_1_164_wf
def gather_S262144x2_S1000000x1_S1000000x2_1_0_n_n_0_1_12 : GatherDims S262144x2 S1000000x1 S1000000x2 where
  offsetDims := [1]
  collapsedSliceDims := [0]
  operandBatchingDims := []
  startIndicesBatchingDims := []
  startIndexMap := [0]
  indexVectorDim := 1
  sliceSizes := ![1, 2]
  wf := gather_S262144x2_S1000000x1_S1000000x2_1_0_n_n_0_1_12_wf
def dot_S1000000x2_S2x64_S1000000x64_1_0_0_1_n_n : DotDims S1000000x2 S2x64 S1000000x64 where
  lhsContracting := [1]
  rhsContracting := [0]
  lhsNonContracting := [0]
  rhsNonContracting := [1]
  lhsBatch := []
  rhsBatch := []
  wf := dot_S1000000x2_S2x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def scatter_S262144x64_S1000000x1_S1000000x64_1_0_0_1 : ScatterDims S262144x64 S1000000x1 S1000000x64 where
  updateWindowDims := [1]
  insertedWindowDims := [0]
  scatterDimsToOperandDims := [0]
  indexVectorDim := 1
  wf := scatter_S262144x64_S1000000x1_S1000000x64_1_0_0_1_wf
def scatter_S262144_S1000000x1_S1000000_n_0_0_1 : ScatterDims S262144 S1000000x1 S1000000 where
  updateWindowDims := []
  insertedWindowDims := [0]
  scatterDimsToOperandDims := [0]
  indexVectorDim := 1
  wf := scatter_S262144_S1000000x1_S1000000_n_0_0_1_wf
def dot_S262144x128_S128x64_S262144x64_1_0_0_1_n_n : DotDims S262144x128 S128x64 S262144x64 where
  lhsContracting := [1]
  rhsContracting := [0]
  lhsNonContracting := [0]
  rhsNonContracting := [1]
  lhsBatch := []
  rhsBatch := []
  wf := dot_S262144x128_S128x64_S262144x64_1_0_0_1_n_n_wf

class Facts : Prop extends Facts₀ where

variable [Facts]
-- ==== Proof.KerRun.lean ====
/-
  The run of the idealized program's @main, with its result named.

  From any launch memory with zero counters every weakly fair execution of @main on the TensorCores terminates without a
  fault; in every final state the result buffer holds the contents the boundary fold gives it after the last host
  stretch, and the eighteen argument arrays are as launched.  The run is the segments' launch of the generated frame; the
  last thread state holds every unscoped buffer at the last boundary's contents, from which the result buffer is read
  beside the arguments.
-/
import proofs.«164651_j61959198212617_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: @main terminates, the result buffer ends at the last boundary's contents, the arguments end as launched. -/
theorem run_res : θ_run defs (onTc (τ := τ) (main (F := F))) ⟨m, fun _ => 0, ρ⟩ (fun r => ∀ c : Dev nD,
      r.2.mem ((c.tc : Thread nD τ).loc main_v84) = W11 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v84 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c),
       (h c _ (mem_uc main_arg17 (by decide))).trans (W11_main_arg17 m ρ c)⟩)

end Cert.KernelIdeal.Hand

end
-- ==== Proof.RefOps.lean ====
/-
  The reference function as a straight line: its 208 array operations in program order, the three called
  functions' bodies listed where they are called, over that call's own buffers; and the run of that line: every
  weakly fair execution ends with each buffer at the fold of the operations over the launch contents.
-/
import proofs.«164651_j61959198212617_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reference's 208 operations, in order.  The rectifier's seven (zero, its repeat, the comparison, the slope, its
    repeat, the product, the selection) stand where it is called, at extents [1000000, 64] and [262144, 64]; the
    row selection's two (the mask repeated along the rows, the selection) likewise. -/
abbrev ops : List (HloOp τ sig (Elt F)) :=
  [ StableHlo.reshape main_arg0 main_v0 rfl shapeCasts_S4x16x4096x64_S262144x64,
    StableHlo.unary main_arg1 main_v1 (broadcastInDim S4x16x4096x2 ![0, 1, 2, 3] bcast_S1x16x4096x2_S4x16x4096x2_0_1_2_3 : (⟨S1x16x4096x2, .f32⟩ : BufTy).Contents (Elt F) → (⟨S4x16x4096x2, .f32⟩ : BufTy).Contents (Elt F)),
    StableHlo.reshape main_v1 main_v2 rfl shapeCasts_S4x16x4096x2_S262144x2,
    StableHlo.unary main_arg2 main_v3 ((extractStridedSlice S1000000x1 ![0, 0] · slices_S1000000x4_S1000000x1_0_0) : (⟨S1000000x4, .i32⟩ : BufTy).Contents (Elt F) → (⟨S1000000x1, .i32⟩ : BufTy).Contents (Elt F)),
    StableHlo.reshape main_v3 main_v4 rfl shapeCasts_S1000000x1_S1000000,
    StableHlo.unary main_arg2 main_v5 ((extractStridedSlice S1000000x1 ![0, 1] · slices_S1000000x4_S1000000x1_0_1) : (⟨S1000000x4, .i32⟩ : BufTy).Contents (Elt F) → (⟨S1000000x1, .i32⟩ : BufTy).Contents (Elt F)),
    StableHlo.reshape main_v5 main_v6 rfl shapeCasts_S1000000x1_S1000000,
    StableHlo.unary main_arg2 main_v7 ((extractStridedSlice S1000000x1 ![0, 2] · slices_S1000000x4_S1000000x1_0_2) : (⟨S1000000x4, .i32⟩ : BufTy).Contents (Elt F) → (⟨S1000000x1, .i32⟩ : BufTy).Contents (Elt F)),
    StableHlo.reshape main_v7 main_v8 rfl shapeCasts_S1000000x1_S1000000,
    StableHlo.unary main_arg2 main_v9 ((extractStridedSlice S1000000x1 ![0, 3] · slices_S1000000x4_S1000000x1_0_3) : (⟨S1000000x4, .i32⟩ : BufTy).Contents (Elt F) → (⟨S1000000x1, .i32⟩ : BufTy).Contents (Elt F)),
    StableHlo.reshape main_v9 main_v10 rfl shapeCasts_S1000000x1_S1000000,
    StableHlo.nullary main_c (constantI S_ 32 16#32),
    StableHlo.unary main_c main_v11 (broadcastInDim S1000000 ![] bcast_S_S1000000 : (⟨S_, .i32⟩ : BufTy).Contents (Elt F) → (⟨S1000000, .i32⟩ : BufTy).Contents (Elt F)),
    StableHlo.binary main_v4 main_v11 main_v12 (muli : (⟨S1000000, .i32⟩ : BufTy).Contents (Elt F) → (⟨S1000000, .i32⟩ : BufTy).Contents (Elt F) → (⟨S1000000, .i32⟩ : BufTy).Contents (Elt F)),
    StableHlo.binary main_v12 main_v6 main_v13 (addi : (⟨S1000000, .i32⟩ : BufTy).Contents (Elt F) → (⟨S1000000, .i32⟩ : BufTy).Contents (Elt F) → (⟨S1000000, .i32⟩ : BufTy).Contents (Elt F)),
    StableHlo.nullary main_c_0 (constantI S_ 32 4096#32),
    StableHlo.unary main_c_0 main_v14 (broadcastInDim S1000000 ![] bcast_S_S1000000 : (⟨S_, .i32⟩ : BufTy).Contents (Elt F) → (⟨S1000000, .i32⟩ : BufTy).Contents (Elt F)),
    StableHlo.binary main_v13 main_v14 main_v15 (muli : (⟨S1000000, .i32⟩ : BufTy).Contents (Elt F) → (⟨S1000000, .i32⟩ : BufTy).Contents (Elt F) → (⟨S1000000, .i32⟩ : BufTy).Contents (Elt F)),
    StableHlo.binary main_v15 main_v8 main_v16 (addi : (⟨S1000000, .i32⟩ : BufTy).Contents (Elt F) → (⟨S1000000, .i32⟩ : BufTy).Contents (Elt F) → (⟨S1000000, .i32⟩ : BufTy).Contents (Elt F)),
    StableHlo.nullary main_c_1 (constantI S_ 32 16#32),
    StableHlo.unary main_c_1 main_v17 (broadcastInDim S1000000 ![] bcast_S_S1000000 : (⟨S_, .i32⟩ : BufTy).Contents (Elt F) → (⟨S1000000, .i32⟩ : BufTy).Contents (Elt F)),
    StableHlo.binary main_v4 main_v17 main_v18 (muli : (⟨S1000000, .i32⟩ : BufTy).Contents (Elt F) → (⟨S1000000, .i32⟩ : BufTy).Contents (Elt F) → (⟨S1000000, .i32⟩ : BufTy).Contents (Elt F)),
    StableHlo.binary main_v18 main_v6 main_v19 (addi : (⟨S1000000, .i32⟩ : BufTy).Contents (Elt F) → (⟨S1000000, .i32⟩ : BufTy).Contents (Elt F) → (⟨S1000000, .i32⟩ : BufTy).Contents (Elt F)),
    StableHlo.nullary main_c_2 (constantI S_ 32 1#32),
    StableHlo.unary main_c_2 main_v20 (broadcastInDim S1000000 ![] bcast_S_S1000000 : (⟨S_, .i32⟩ : BufTy).Contents (Elt F) → (⟨S1000000, .i32⟩ : BufTy).Contents (Elt F)),
    StableHlo.binary main_v19 main_v20 main_v21 (addi : (⟨S1000000, .i32⟩ : BufTy).Contents (Elt F) → (⟨S1000000, .i32⟩ : BufTy).Contents (Elt F) → (⟨S1000000, .i32⟩ : BufTy).Contents (Elt F)),
    StableHlo.nullary main_c_3 (constantI S_ 32 4096#32),
    StableHlo.unary main_c_3 main_v22 (broadcastInDim S1000000 ![] bcast_S_S1000000 : (⟨S_, .i32⟩ : BufTy).Contents (Elt F) → (⟨S1000000, .i32⟩ : BufTy).Contents (Elt F)),
    StableHlo.binary main_v21 main_v22 main_v23 (muli : (⟨S1000000, .i32⟩ : BufTy).Contents (Elt F) → (⟨S1000000, .i32⟩ : BufTy).Contents (Elt F) → (⟨S1000000, .i32⟩ : BufTy).Contents (Elt F)),
    StableHlo.binary main_v23 main_v10 main_v24 (addi : (⟨S1000000, .i32⟩ : BufTy).Contents (Elt F) → (⟨S1000000, .i32⟩ : BufTy).Contents (Elt F) → (⟨S1000000, .i32⟩ : BufTy).Contents (Elt F)),
    StableHlo.nullary main_c_4 (constantI S_ 32 0#32),
    StableHlo.unary main_c_4 main_v25 (broadcastInDim S1000000 ![] bcast_S_S1000000 : (⟨S_, .i32⟩ : BufTy).Contents (Elt F) → (⟨S1000000, .i32⟩ : BufTy).Contents (Elt F)),
    StableHlo.binary main_v16 main_v25 main_v26 (cmpi .slt : (⟨S1000000, .i32⟩ : BufTy).Contents (Elt F) → (⟨S1000000, .i32⟩ : BufTy).Contents (Elt F) → (⟨S1000000, .i1⟩ : BufTy).Contents (Elt F)),
    StableHlo.nullary main_c_5 (constantI S_ 32 262144#32),
    StableHlo.unary main_c_5 main_v27 (broadcastInDim S1000000 ![] bcast_S_S1000000 : (⟨S_, .i32⟩ : BufTy).Contents (Elt F) → (⟨S1000000, .i32⟩ : BufTy).Contents (Elt F)),
    StableHlo.binary main_v16 main_v27 main_v28 (addi : (⟨S1000000, .i32⟩ : BufTy).Contents (Elt F) → (⟨S1000000, .i32⟩ : BufTy).Contents (Elt F) → (⟨S1000000, .i32⟩ : BufTy).Contents (Elt F)),
    StableHlo.ternary main_v26 main_v28 main_v16 main_v29 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v29 main_v30 (broadcastInDim S1000000x1 ![0] bcast_S1000000_S1000000x1_0 : (⟨S1000000, .i32⟩ : BufTy).Contents (Elt F) → (⟨S1000000x1, .i32⟩ : BufTy).Contents (Elt F)),
    StableHlo.binary main_v0 main_v30 main_v31 ((fun x i => Host.gather gather_S262144x64_S1000000x1_S1000000x64_1_0_n_n_0_1_164 x i) : (⟨S262144x64, .f32⟩ : BufTy).Contents (Elt F) → (⟨S1000000x1, .i32⟩ : BufTy).Contents (Elt F) → (⟨S1000000x64, .f32⟩ : BufTy).Contents (Elt F)),
    StableHlo.nullary main_c_6 (constantI S_ 32 0#32),
    StableHlo.unary main_c_6 main_v32 (broadcastInDim S1000000 ![] bcast_S_S1000000 : (⟨S_, .i32⟩ : BufTy).Contents (Elt F) → (⟨S1000000, .i32⟩ : BufTy).Contents (Elt F)),
    StableHlo.binary main_v24 main_v32 main_v33 (cmpi .slt : (⟨S1000000, .i32⟩ : BufTy).Contents (Elt F) → (⟨S1000000, .i32⟩ : BufTy).Contents (Elt F) → (⟨S1000000, .i1⟩ : BufTy).Contents (Elt F)),
    StableHlo.nullary main_c_7 (constantI S_ 32 262144#32),
    StableHlo.unary main_c_7 main_v34 (broadcastInDim S1000000 ![] bcast_S_S1000000 : (⟨S_, .i32⟩ : BufTy).Contents (Elt F) → (⟨S1000000, .i32⟩ : BufTy).Contents (Elt F)),
    StableHlo.binary main_v24 main_v34 main_v35 (addi : (⟨S1000000, .i32⟩ : BufTy).Contents (Elt F) → (⟨S1000000, .i32⟩ : BufTy).Contents (Elt F) → (⟨S1000000, .i32⟩ : BufTy).Contents (Elt F)),
    StableHlo.ternary main_v33 main_v35 main_v24 main_v36 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v36 main_v37 (broadcastInDim S1000000x1 ![0] bcast_S1000000_S1000000x1_0 : (⟨S1000000, .i32⟩ : BufTy).Contents (Elt F) → (⟨S1000000x1, .i32⟩ : BufTy).Contents (Elt F)),
    StableHlo.binary main_v2 main_v37 main_v38 ((fun x i => Host.gather gather_S262144x2_S1000000x1_S1000000x2_1_0_n_n_0_1_12 x i) : (⟨S262144x2, .f32⟩ : BufTy).Contents (Elt F) → (⟨S1000000x1, .i32⟩ : BufTy).Contents (Elt F) → (⟨S1000000x2, .f32⟩ : BufTy).Contents (Elt F)),
    StableHlo.nullary main_c_8 (constantI S_ 32 0#32),
    StableHlo.unary main_c_8 main_v39 (broadcastInDim S1000000 ![] bcast_S_S1000000 : (⟨S_, .i32⟩ : BufTy).Contents (Elt F) → (⟨S1000000, .i32⟩ : BufTy).Contents (Elt F)),
    StableHlo.binary main_v16 main_v39 main_v40 (cmpi .slt : (⟨S1000000, .i32⟩ : BufTy).Contents (Elt F) → (⟨S1000000, .i32⟩ : BufTy).Contents (Elt F) → (⟨S1000000, .i1⟩ : BufTy).Contents (Elt F)),
    StableHlo.nullary main_c_9 (constantI S_ 32 262144#32),
    StableHlo.unary main_c_9 main_v41 (broadcastInDim S1000000 ![] bcast_S_S1000000 : (⟨S_, .i32⟩ : BufTy).Contents (Elt F) → (⟨S1000000, .i32⟩ : BufTy).Contents (Elt F)),
    StableHlo.binary main_v16 main_v41 main_v42 (addi : (⟨S1000000, .i32⟩ : BufTy).Contents (Elt F) → (⟨S1000000, .i32⟩ : BufTy).Contents (Elt F) → (⟨S1000000, .i32⟩ : BufTy).Contents (Elt F)),
    StableHlo.ternary main_v40 main_v42 main_v16 main_v43 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v43 main_v44 (broadcastInDim S1000000x1 ![0] bcast_S1000000_S1000000x1_0 : (⟨S1000000, .i32⟩ : BufTy).Contents (Elt F) → (⟨S1000000x1, .i32⟩ : BufTy).Contents (Elt F)),
    StableHlo.binary main_v2 main_v44 main_v45 ((fun x i => Host.gather gather_S262144x2_S1000000x1_S1000000x2_1_0_n_n_0_1_12 x i) : (⟨S262144x2, .f32⟩ : BufTy).Contents (Elt F) → (⟨S1000000x1, .i32⟩ : BufTy).Contents (Elt F) → (⟨S1000000x2, .f32⟩ : BufTy).Contents (Elt F)),
    StableHlo.binary main_v38 main_v45 main_v46 (subf : (⟨S1000000x2, .f32⟩ : BufTy).Contents (Elt F) → (⟨S1000000x2, .f32⟩ : BufTy).Contents (Elt F) → (⟨S1000000x2, .f32⟩ : BufTy).Contents (Elt F)),
    StableHlo.binary main_v46 main_arg4 main_v47 ((fun l r => Host.dotGeneral dot_S1000000x2_S2x64_S1000000x64_1_0_0_1_n_n none l r) : (⟨S1000000x2, .f32⟩ : BufTy).Contents (Elt F) → (⟨S2x64, .f32⟩ : BufTy).Contents (Elt F) → (⟨S1000000x64, .f32⟩ : BufTy).Contents (Elt F)),
    StableHlo.unary main_arg5 main_v48 (broadcastInDim S1x64 ![1] bcast_S64_S1x64_1 : (⟨S64, .f32⟩ : BufTy).Contents (Elt F) → (⟨S1x64, .f32⟩ : BufTy).Contents (Elt F)),
    StableHlo.unary main_v48 main_v49 (broadcastInDim S1000000x64 ![0, 1] bcast_S1x64_S1000000x64_0_1 : (⟨S1x64, .f32⟩ : BufTy).Contents (Elt F) → (⟨S1000000x64, .f32⟩ : BufTy).Contents (Elt F)),
    StableHlo.binary main_v47 main_v49 main_v50 (addf : (⟨S1000000x64, .f32⟩ : BufTy).Contents (Elt F) → (⟨S1000000x64, .f32⟩ : BufTy).Contents (Elt F) → (⟨S1000000x64, .f32⟩ : BufTy).Contents (Elt F)),
    StableHlo.TRef.nullary main_call0.cst (constant S_ .f32 0x00000000#32),
    StableHlo.TRef.unary main_call0.cst main_call0.v0 (broadcastInDim S1000000x64 ![] bcast_S_S1000000x64),
    StableHlo.TRef.binary (.of main_v50 : StableHlo.TRef sig ⟨S1000000x64, .f32⟩) main_call0.v0 main_call0.v1 (cmpf .oge),
    StableHlo.TRef.nullary main_call0.cst_0 (constant S_ .f32 0x3C23D70A#32),
    StableHlo.TRef.unary main_call0.cst_0 main_call0.v2 (broadcastInDim S1000000x64 ![] bcast_S_S1000000x64),
    StableHlo.TRef.binary main_call0.v2 (.of main_v50 : StableHlo.TRef sig ⟨S1000000x64, .f32⟩) main_call0.v3 mulf,
    StableHlo.TRef.ternary main_call0.v1 (.of main_v50 : StableHlo.TRef sig ⟨S1000000x64, .f32⟩) main_call0.v3 main_call0.call0.v0 select,
    StableHlo.binary main_v51 main_arg6 main_v52 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.unary main_arg7 main_v53 (broadcastInDim S1x64 ![1] bcast_S64_S1x64_1 : (⟨S64, .f32⟩ : BufTy).Contents (Elt F) → (⟨S1x64, .f32⟩ : BufTy).Contents (Elt F)),
    StableHlo.unary main_v53 main_v54 (broadcastInDim S1000000x64 ![0, 1] bcast_S1x64_S1000000x64_0_1 : (⟨S1x64, .f32⟩ : BufTy).Contents (Elt F) → (⟨S1000000x64, .f32⟩ : BufTy).Contents (Elt F)),
    StableHlo.binary main_v52 main_v54 main_v55 (addf : (⟨S1000000x64, .f32⟩ : BufTy).Contents (Elt F) → (⟨S1000000x64, .f32⟩ : BufTy).Contents (Elt F) → (⟨S1000000x64, .f32⟩ : BufTy).Contents (Elt F)),
    StableHlo.nullary main_cst (constant S_ .f32 0x00000000#32),
    StableHlo.binary main_v55 main_cst main_v56 ((fun x v => Host.reduceAdd x v reducesTo_S1000000x64_S1000000_d1 h_S_) : (⟨S1000000x64, .f32⟩ : BufTy).Contents (Elt F) → (⟨S_, .f32⟩ : BufTy).Contents (Elt F) → (⟨S1000000, .f32⟩ : BufTy).Contents (Elt F)),
    StableHlo.unary main_v56 main_v57 (broadcastInDim S1000000x1 ![0] bcast_S1000000_S1000000x1_0 : (⟨S1000000, .f32⟩ : BufTy).Contents (Elt F) → (⟨S1000000x1, .f32⟩ : BufTy).Contents (Elt F)),
    StableHlo.nullary main_cst_10 (constant S_ .f32 0x42800000#32),
    StableHlo.unary main_cst_10 main_v58 (broadcastInDim S1000000x1 ![] bcast_S_S1000000x1 : (⟨S_, .f32⟩ : BufTy).Contents (Elt F) → (⟨S1000000x1, .f32⟩ : BufTy).Contents (Elt F)),
    StableHlo.binary main_v57 main_v58 main_v59 (Host.divf : (⟨S1000000x1, .f32⟩ : BufTy).Contents (Elt F) → (⟨S1000000x1, .f32⟩ : BufTy).Contents (Elt F) → (⟨S1000000x1, .f32⟩ : BufTy).Contents (Elt F)),
    StableHlo.unary main_v59 main_v60 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v55 main_v60 main_v61 (subf : (⟨S1000000x64, .f32⟩ : BufTy).Contents (Elt F) → (⟨S1000000x64, .f32⟩ : BufTy).Contents (Elt F) → (⟨S1000000x64, .f32⟩ : BufTy).Contents (Elt F)),
    StableHlo.binary main_v61 main_v61 main_v62 (mulf : (⟨S1000000x64, .f32⟩ : BufTy).Contents (Elt F) → (⟨S1000000x64, .f32⟩ : BufTy).Contents (Elt F) → (⟨S1000000x64, .f32⟩ : BufTy).Contents (Elt F)),
    StableHlo.nullary main_cst_11 (constant S_ .f32 0x00000000#32),
    StableHlo.binary main_v62 main_cst_11 main_v63 ((fun x v => Host.reduceAdd x v reducesTo_S1000000x64_S1000000_d1 h_S_) : (⟨S1000000x64, .f32⟩ : BufTy).Contents (Elt F) → (⟨S_, .f32⟩ : BufTy).Contents (Elt F) → (⟨S1000000, .f32⟩ : BufTy).Contents (Elt F)),
    StableHlo.unary main_v63 main_v64 (broadcastInDim S1000000x1 ![0] bcast_S1000000_S1000000x1_0 : (⟨S1000000, .f32⟩ : BufTy).Contents (Elt F) → (⟨S1000000x1, .f32⟩ : BufTy).Contents (Elt F)),
    StableHlo.nullary main_cst_12 (constant S_ .f32 0x42800000#32),
    StableHlo.unary main_cst_12 main_v65 (broadcastInDim S1000000x1 ![] bcast_S_S1000000x1 : (⟨S_, .f32⟩ : BufTy).Contents (Elt F) → (⟨S1000000x1, .f32⟩ : BufTy).Contents (Elt F)),
    StableHlo.binary main_v64 main_v65 main_v66 (Host.divf : (⟨S1000000x1, .f32⟩ : BufTy).Contents (Elt F) → (⟨S1000000x1, .f32⟩ : BufTy).Contents (Elt F) → (⟨S1000000x1, .f32⟩ : BufTy).Contents (Elt F)),
    StableHlo.unary main_v59 main_v67 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v55 main_v67 main_v68 (subf : (⟨S1000000x64, .f32⟩ : BufTy).Contents (Elt F) → (⟨S1000000x64, .f32⟩ : BufTy).Contents (Elt F) → (⟨S1000000x64, .f32⟩ : BufTy).Contents (Elt F)),
    StableHlo.nullary main_cst_13 (constant S_ .f32 0x3727C5AC#32),
    StableHlo.unary main_cst_13 main_v69 (broadcastInDim S1000000x1 ![] bcast_S_S1000000x1 : (⟨S_, .f32⟩ : BufTy).Contents (Elt F) → (⟨S1000000x1, .f32⟩ : BufTy).Contents (Elt F)),
    StableHlo.binary main_v66 main_v69 main_v70 (addf : (⟨S1000000x1, .f32⟩ : BufTy).Contents (Elt F) → (⟨S1000000x1, .f32⟩ : BufTy).Contents (Elt F) → (⟨S1000000x1, .f32⟩ : BufTy).Contents (Elt F)),
    StableHlo.unary main_v70 main_v71 (Host.rsqrt : (⟨S1000000x1, .f32⟩ : BufTy).Contents (Elt F) → (⟨S1000000x1, .f32⟩ : BufTy).Contents (Elt F)),
    StableHlo.unary main_v71 main_v72 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v68 main_v72 main_v73 (mulf : (⟨S1000000x64, .f32⟩ : BufTy).Contents (Elt F) → (⟨S1000000x64, .f32⟩ : BufTy).Contents (Elt F) → (⟨S1000000x64, .f32⟩ : BufTy).Contents (Elt F)),
    StableHlo.unary main_arg8 main_v74 (broadcastInDim S1x64 ![1] bcast_S64_S1x64_1 : (⟨S64, .f32⟩ : BufTy).Contents (Elt F) → (⟨S1x64, .f32⟩ : BufTy).Contents (Elt F)),
    StableHlo.unary main_v74 main_v75 (broadcastInDim S1000000x64 ![0, 1] bcast_S1x64_S1000000x64_0_1 : (⟨S1x64, .f32⟩ : BufTy).Contents (Elt F) → (⟨S1000000x64, .f32⟩ : BufTy).Contents (Elt F)),
    StableHlo.binary main_v73 main_v75 main_v76 (mulf : (⟨S1000000x64, .f32⟩ : BufTy).Contents (Elt F) → (⟨S1000000x64, .f32⟩ : BufTy).Contents (Elt F) → (⟨S1000000x64, .f32⟩ : BufTy).Contents (Elt F)),
    StableHlo.unary main_arg9 main_v77 (broadcastInDim S1x64 ![1] bcast_S64_S1x64_1 : (⟨S64, .f32⟩ : BufTy).Contents (Elt F) → (⟨S1x64, .f32⟩ : BufTy).Contents (Elt F)),
    StableHlo.unary main_v77 main_v78 (broadcastInDim S1000000x64 ![0, 1] bcast_S1x64_S1000000x64_0_1 : (⟨S1x64, .f32⟩ : BufTy).Contents (Elt F) → (⟨S1000000x64, .f32⟩ : BufTy).Contents (Elt F)),
    StableHlo.binary main_v76 main_v78 main_v79 (addf : (⟨S1000000x64, .f32⟩ : BufTy).Contents (Elt F) → (⟨S1000000x64, .f32⟩ : BufTy).Contents (Elt F) → (⟨S1000000x64, .f32⟩ : BufTy).Contents (Elt F)),
    StableHlo.binary main_v31 main_v79 main_v80 (addf : (⟨S1000000x64, .f32⟩ : BufTy).Contents (Elt F) → (⟨S1000000x64, .f32⟩ : BufTy).Contents (Elt F) → (⟨S1000000x64, .f32⟩ : BufTy).Contents (Elt F)),
    StableHlo.binary main_v80 main_arg10 main_v81 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.unary main_arg11 main_v82 (broadcastInDim S1x64 ![1] bcast_S64_S1x64_1 : (⟨S64, .f32⟩ : BufTy).Contents (Elt F) → (⟨S1x64, .f32⟩ : BufTy).Contents (Elt F)),
    StableHlo.unary main_v82 main_v83 (broadcastInDim S1000000x64 ![0, 1] bcast_S1x64_S1000000x64_0_1 : (⟨S1x64, .f32⟩ : BufTy).Contents (Elt F) → (⟨S1000000x64, .f32⟩ : BufTy).Contents (Elt F)),
    StableHlo.binary main_v81 main_v83 main_v84 (addf : (⟨S1000000x64, .f32⟩ : BufTy).Contents (Elt F) → (⟨S1000000x64, .f32⟩ : BufTy).Contents (Elt F) → (⟨S1000000x64, .f32⟩ : BufTy).Contents (Elt F)),
    StableHlo.nullary main_cst_14 (constant S_ .f32 0x00000000#32),
    StableHlo.unary main_cst_14 main_v85 (broadcastInDim S262144x64 ![] bcast_S_S262144x64 : (⟨S_, .f32⟩ : BufTy).Contents (Elt F) → (⟨S262144x64, .f32⟩ : BufTy).Contents (Elt F)),
    StableHlo.unary main_arg3 main_v86 (broadcastInDim S1000000x1 ![0] bcast_S1000000_S1000000x1_0 : (⟨S1000000, .f32⟩ : BufTy).Contents (Elt F) → (⟨S1000000x1, .f32⟩ : BufTy).Contents (Elt F)),
    StableHlo.unary main_v86 main_v87 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v84 main_v87 main_v88 (mulf : (⟨S1000000x64, .f32⟩ : BufTy).Contents (Elt F) → (⟨S1000000x64, .f32⟩ : BufTy).Contents (Elt F) → (⟨S1000000x64, .f32⟩ : BufTy).Contents (Elt F)),
    StableHlo.nullary main_c_15 (constantI S_ 32 0#32),
    StableHlo.unary main_c_15 main_v89 (broadcastInDim S1000000 ![] bcast_S_S1000000 : (⟨S_, .i32⟩ : BufTy).Contents (Elt F) → (⟨S1000000, .i32⟩ : BufTy).Contents (Elt F)),
    StableHlo.binary main_v24 main_v89 main_v90 (cmpi .slt : (⟨S1000000, .i32⟩ : BufTy).Contents (Elt F) → (⟨S1000000, .i32⟩ : BufTy).Contents (Elt F) → (⟨S1000000, .i1⟩ : BufTy).Contents (Elt F)),
    StableHlo.nullary main_c_16 (constantI S_ 32 262144#32),
    StableHlo.unary main_c_16 main_v91 (broadcastInDim S1000000 ![] bcast_S_S1000000 : (⟨S_, .i32⟩ : BufTy).Contents (Elt F) → (⟨S1000000, .i32⟩ : BufTy).Contents (Elt F)),
    StableHlo.binary main_v24 main_v91 main_v92 (addi : (⟨S1000000, .i32⟩ : BufTy).Contents (Elt F) → (⟨S1000000, .i32⟩ : BufTy).Contents (Elt F) → (⟨S1000000, .i32⟩ : BufTy).Contents (Elt F)),
    StableHlo.ternary main_v90 main_v92 main_v24 main_v93 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v93 main_v94 (broadcastInDim S1000000x1 ![0] bcast_S1000000_S1000000x1_0 : (⟨S1000000, .i32⟩ : BufTy).Contents (Elt F) → (⟨S1000000x1, .i32⟩ : BufTy).Contents (Elt F)),
    StableHlo.ternary main_v85 main_v94 main_v88 main_v95 ((fun x i u => Host.scatterAdd scatter_S262144x64_S1000000x1_S1000000x64_1_0_0_1 x i u) : (⟨S262144x64, .f32⟩ : BufTy).Contents (Elt F) → (⟨S1000000x1, .i32⟩ : BufTy).Contents (Elt F) → (⟨S1000000x64, .f32⟩ : BufTy).Contents (Elt F) → (⟨S262144x64, .f32⟩ : BufTy).Contents (Elt F)),
    StableHlo.nullary main_cst_17 (constant S_ .f32 0x00000000#32),
    StableHlo.binary main_v95 main_cst_17 main_v96 ((fun x v => Host.reduceAdd x v reducesTo_S262144x64_S262144_d1 h_S_) : (⟨S262144x64, .f32⟩ : BufTy).Contents (Elt F) → (⟨S_, .f32⟩ : BufTy).Contents (Elt F) → (⟨S262144, .f32⟩ : BufTy).Contents (Elt F)),
    StableHlo.unary main_v96 main_v97 (broadcastInDim S262144x1 ![0] bcast_S262144_S262144x1_0 : (⟨S262144, .f32⟩ : BufTy).Contents (Elt F) → (⟨S262144x1, .f32⟩ : BufTy).Contents (Elt F)),
    StableHlo.nullary main_cst_18 (constant S_ .f32 0x42800000#32),
    StableHlo.unary main_cst_18 main_v98 (broadcastInDim S262144x1 ![] bcast_S_S262144x1 : (⟨S_, .f32⟩ : BufTy).Contents (Elt F) → (⟨S262144x1, .f32⟩ : BufTy).Contents (Elt F)),
    StableHlo.binary main_v97 main_v98 main_v99 (Host.divf : (⟨S262144x1, .f32⟩ : BufTy).Contents (Elt F) → (⟨S262144x1, .f32⟩ : BufTy).Contents (Elt F) → (⟨S262144x1, .f32⟩ : BufTy).Contents (Elt F)),
    StableHlo.unary main_v99 main_v100 (broadcastInDim S262144x64 ![0, 1] bcast_S262144x1_S262144x64_0_1 : (⟨S262144x1, .f32⟩ : BufTy).Contents (Elt F) → (⟨S262144x64, .f32⟩ : BufTy).Contents (Elt F)),
    StableHlo.binary main_v95 main_v100 main_v101 (subf : (⟨S262144x64, .f32⟩ : BufTy).Contents (Elt F) → (⟨S262144x64, .f32⟩ : BufTy).Contents (Elt F) → (⟨S262144x64, .f32⟩ : BufTy).Contents (Elt F)),
    StableHlo.binary main_v101 main_v101 main_v102 (mulf : (⟨S262144x64, .f32⟩ : BufTy).Contents (Elt F) → (⟨S262144x64, .f32⟩ : BufTy).Contents (Elt F) → (⟨S262144x64, .f32⟩ : BufTy).Contents (Elt F)),
    StableHlo.nullary main_cst_19 (constant S_ .f32 0x00000000#32),
    StableHlo.binary main_v102 main_cst_19 main_v103 ((fun x v => Host.reduceAdd x v reducesTo_S262144x64_S262144_d1 h_S_) : (⟨S262144x64, .f32⟩ : BufTy).Contents (Elt F) → (⟨S_, .f32⟩ : BufTy).Contents (Elt F) → (⟨S262144, .f32⟩ : BufTy).Contents (Elt F)),
    StableHlo.unary main_v103 main_v104 (broadcastInDim S262144x1 ![0] bcast_S262144_S262144x1_0 : (⟨S262144, .f32⟩ : BufTy).Contents (Elt F) → (⟨S262144x1, .f32⟩ : BufTy).Contents (Elt F)),
    StableHlo.nullary main_cst_20 (constant S_ .f32 0x42800000#32),
    StableHlo.unary main_cst_20 main_v105 (broadcastInDim S262144x1 ![] bcast_S_S262144x1 : (⟨S_, .f32⟩ : BufTy).Contents (Elt F) → (⟨S262144x1, .f32⟩ : BufTy).Contents (Elt F)),
    StableHlo.binary main_v104 main_v105 main_v106 (Host.divf : (⟨S262144x1, .f32⟩ : BufTy).Contents (Elt F) → (⟨S262144x1, .f32⟩ : BufTy).Contents (Elt F) → (⟨S262144x1, .f32⟩ : BufTy).Contents (Elt F)),
    StableHlo.unary main_v99 main_v107 (broadcastInDim S262144x64 ![0, 1] bcast_S262144x1_S262144x64_0_1 : (⟨S262144x1, .f32⟩ : BufTy).Contents (Elt F) → (⟨S262144x64, .f32⟩ : BufTy).Contents (Elt F)),
    StableHlo.binary main_v95 main_v107 main_v108 (subf : (⟨S262144x64, .f32⟩ : BufTy).Contents (Elt F) → (⟨S262144x64, .f32⟩ : BufTy).Contents (Elt F) → (⟨S262144x64, .f32⟩ : BufTy).Contents (Elt F)),
    StableHlo.nullary main_cst_21 (constant S_ .f32 0x3727C5AC#32),
    StableHlo.unary main_cst_21 main_v109 (broadcastInDim S262144x1 ![] bcast_S_S262144x1 : (⟨S_, .f32⟩ : BufTy).Contents (Elt F) → (⟨S262144x1, .f32⟩ : BufTy).Contents (Elt F)),
    StableHlo.binary main_v106 main_v109 main_v110 (addf : (⟨S262144x1, .f32⟩ : BufTy).Contents (Elt F) → (⟨S262144x1, .f32⟩ : BufTy).Contents (Elt F) → (⟨S262144x1, .f32⟩ : BufTy).Contents (Elt F)),
    StableHlo.unary main_v110 main_v111 (Host.rsqrt : (⟨S262144x1, .f32⟩ : BufTy).Contents (Elt F) → (⟨S262144x1, .f32⟩ : BufTy).Contents (Elt F)),
    StableHlo.unary main_v111 main_v112 (broadcastInDim S262144x64 ![0, 1] bcast_S262144x1_S262144x64_0_1 : (⟨S262144x1, .f32⟩ : BufTy).Contents (Elt F) → (⟨S262144x64, .f32⟩ : BufTy).Contents (Elt F)),
    StableHlo.binary main_v108 main_v112 main_v113 (mulf : (⟨S262144x64, .f32⟩ : BufTy).Contents (Elt F) → (⟨S262144x64, .f32⟩ : BufTy).Contents (Elt F) → (⟨S262144x64, .f32⟩ : BufTy).Contents (Elt F)),
    StableHlo.unary main_arg12 main_v114 (broadcastInDim S1x64 ![1] bcast_S64_S1x64_1 : (⟨S64, .f32⟩ : BufTy).Contents (Elt F) → (⟨S1x64, .f32⟩ : BufTy).Contents (Elt F)),
    StableHlo.unary main_v114 main_v115 (broadcastInDim S262144x64 ![0, 1] bcast_S1x64_S262144x64_0_1 : (⟨S1x64, .f32⟩ : BufTy).Contents (Elt F) → (⟨S262144x64, .f32⟩ : BufTy).Contents (Elt F)),
    StableHlo.binary main_v113 main_v115 main_v116 (mulf : (⟨S262144x64, .f32⟩ : BufTy).Contents (Elt F) → (⟨S262144x64, .f32⟩ : BufTy).Contents (Elt F) → (⟨S262144x64, .f32⟩ : BufTy).Contents (Elt F)),
    StableHlo.unary main_arg13 main_v117 (broadcastInDim S1x64 ![1] bcast_S64_S1x64_1 : (⟨S64, .f32⟩ : BufTy).Contents (Elt F) → (⟨S1x64, .f32⟩ : BufTy).Contents (Elt F)),
    StableHlo.unary main_v117 main_v118 (broadcastInDim S262144x64 ![0, 1] bcast_S1x64_S262144x64_0_1 : (⟨S1x64, .f32⟩ : BufTy).Contents (Elt F) → (⟨S262144x64, .f32⟩ : BufTy).Contents (Elt F)),
    StableHlo.binary main_v116 main_v118 main_v119 (addf : (⟨S262144x64, .f32⟩ : BufTy).Contents (Elt F) → (⟨S262144x64, .f32⟩ : BufTy).Contents (Elt F) → (⟨S262144x64, .f32⟩ : BufTy).Contents (Elt F)),
    StableHlo.nullary main_c_22 (constantI S_ 1 0#1),
    StableHlo.unary main_c_22 main_v120 (broadcastInDim S262144 ![] bcast_S_S262144 : (⟨S_, .i1⟩ : BufTy).Contents (Elt F) → (⟨S262144, .i1⟩ : BufTy).Contents (Elt F)),
    StableHlo.nullary main_c_23 (constantI S_ 32 0#32),
    StableHlo.unary main_c_23 main_v121 (broadcastInDim S1000000 ![] bcast_S_S1000000 : (⟨S_, .i32⟩ : BufTy).Contents (Elt F) → (⟨S1000000, .i32⟩ : BufTy).Contents (Elt F)),
    StableHlo.binary main_v24 main_v121 main_v122 (cmpi .slt : (⟨S1000000, .i32⟩ : BufTy).Contents (Elt F) → (⟨S1000000, .i32⟩ : BufTy).Contents (Elt F) → (⟨S1000000, .i1⟩ : BufTy).Contents (Elt F)),
    StableHlo.nullary main_c_24 (constantI S_ 32 262144#32),
    StableHlo.unary main_c_24 main_v123 (broadcastInDim S1000000 ![] bcast_S_S1000000 : (⟨S_, .i32⟩ : BufTy).Contents (Elt F) → (⟨S1000000, .i32⟩ : BufTy).Contents (Elt F)),
    StableHlo.binary main_v24 main_v123 main_v124 (addi : (⟨S1000000, .i32⟩ : BufTy).Contents (Elt F) → (⟨S1000000, .i32⟩ : BufTy).Contents (Elt F) → (⟨S1000000, .i32⟩ : BufTy).Contents (Elt F)),
    StableHlo.ternary main_v122 main_v124 main_v24 main_v125 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v125 main_v126 (broadcastInDim S1000000x1 ![0] bcast_S1000000_S1000000x1_0 : (⟨S1000000, .i32⟩ : BufTy).Contents (Elt F) → (⟨S1000000x1, .i32⟩ : BufTy).Contents (Elt F)),
    StableHlo.nullary main_c_25 (constantI S_ 1 1#1),
    StableHlo.unary main_c_25 main_v127 (broadcastInDim S1000000 ![] bcast_S_S1000000 : (⟨S_, .i1⟩ : BufTy).Contents (Elt F) → (⟨S1000000, .i1⟩ : BufTy).Contents (Elt F)),
    StableHlo.ternary main_v120 main_v126 main_v127 main_v128 ((fun x i u => Host.scatter scatter_S262144_S1000000x1_S1000000_n_0_0_1 (fun _ b => b) x i u) : (⟨S262144, .i1⟩ : BufTy).Contents (Elt F) → (⟨S1000000x1, .i32⟩ : BufTy).Contents (Elt F) → (⟨S1000000, .i1⟩ : BufTy).Contents (Elt F) → (⟨S262144, .i1⟩ : BufTy).Contents (Elt F)),
    StableHlo.binary main_v0 main_v119 main_v129 ((fun a b => concatenate S262144x128 1 [⟨S262144x64, a⟩, ⟨S262144x64, b⟩] concatenates_S262144x64_S262144x64_S262144x128_d1) : (⟨S262144x64, .f32⟩ : BufTy).Contents (Elt F) → (⟨S262144x64, .f32⟩ : BufTy).Contents (Elt F) → (⟨S262144x128, .f32⟩ : BufTy).Contents (Elt F)),
    StableHlo.binary main_v129 main_arg14 main_v130 ((fun l r => Host.dotGeneral dot_S262144x128_S128x64_S262144x64_1_0_0_1_n_n none l r) : (⟨S262144x128, .f32⟩ : BufTy).Contents (Elt F) → (⟨S128x64, .f32⟩ : BufTy).Contents (Elt F) → (⟨S262144x64, .f32⟩ : BufTy).Contents (Elt F)),
    StableHlo.unary main_arg15 main_v131 (broadcastInDim S1x64 ![1] bcast_S64_S1x64_1 : (⟨S64, .f32⟩ : BufTy).Contents (Elt F) → (⟨S1x64, .f32⟩ : BufTy).Contents (Elt F)),
    StableHlo.unary main_v131 main_v132 (broadcastInDim S262144x64 ![0, 1] bcast_S1x64_S262144x64_0_1 : (⟨S1x64, .f32⟩ : BufTy).Contents (Elt F) → (⟨S262144x64, .f32⟩ : BufTy).Contents (Elt F)),
    StableHlo.binary main_v130 main_v132 main_v133 (addf : (⟨S262144x64, .f32⟩ : BufTy).Contents (Elt F) → (⟨S262144x64, .f32⟩ : BufTy).Contents (Elt F) → (⟨S262144x64, .f32⟩ : BufTy).Contents (Elt F)),
    StableHlo.nullary main_cst_26 (constant S_ .f32 0x00000000#32),
    StableHlo.binary main_v133 main_cst_26 main_v134 ((fun x v => Host.reduceAdd x v reducesTo_S262144x64_S262144_d1 h_S_) : (⟨S262144x64, .f32⟩ : BufTy).Contents (Elt F) → (⟨S_, .f32⟩ : BufTy).Contents (Elt F) → (⟨S262144, .f32⟩ : BufTy).Contents (Elt F)),
    StableHlo.unary main_v134 main_v135 (broadcastInDim S262144x1 ![0] bcast_S262144_S262144x1_0 : (⟨S262144, .f32⟩ : BufTy).Contents (Elt F) → (⟨S262144x1, .f32⟩ : BufTy).Contents (Elt F)),
    StableHlo.nullary main_cst_27 (constant S_ .f32 0x42800000#32),
    StableHlo.unary main_cst_27 main_v136 (broadcastInDim S262144x1 ![] bcast_S_S262144x1 : (⟨S_, .f32⟩ : BufTy).Contents (Elt F) → (⟨S262144x1, .f32⟩ : BufTy).Contents (Elt F)),
    StableHlo.binary main_v135 main_v136 main_v137 (Host.divf : (⟨S262144x1, .f32⟩ : BufTy).Contents (Elt F) → (⟨S262144x1, .f32⟩ : BufTy).Contents (Elt F) → (⟨S262144x1, .f32⟩ : BufTy).Contents (Elt F)),
    StableHlo.unary main_v137 main_v138 (broadcastInDim S262144x64 ![0, 1] bcast_S262144x1_S262144x64_0_1 : (⟨S262144x1, .f32⟩ : BufTy).Contents (Elt F) → (⟨S262144x64, .f32⟩ : BufTy).Contents (Elt F)),
    StableHlo.binary main_v133 main_v138 main_v139 (subf : (⟨S262144x64, .f32⟩ : BufTy).Contents (Elt F) → (⟨S262144x64, .f32⟩ : BufTy).Contents (Elt F) → (⟨S262144x64, .f32⟩ : BufTy).Contents (Elt F)),
    StableHlo.binary main_v139 main_v139 main_v140 (mulf : (⟨S262144x64, .f32⟩ : BufTy).Contents (Elt F) → (⟨S262144x64, .f32⟩ : BufTy).Contents (Elt F) → (⟨S262144x64, .f32⟩ : BufTy).Contents (Elt F)),
    StableHlo.nullary main_cst_28 (constant S_ .f32 0x00000000#32),
    StableHlo.binary main_v140 main_cst_28 main_v141 ((fun x v => Host.reduceAdd x v reducesTo_S262144x64_S262144_d1 h_S_) : (⟨S262144x64, .f32⟩ : BufTy).Contents (Elt F) → (⟨S_, .f32⟩ : BufTy).Contents (Elt F) → (⟨S262144, .f32⟩ : BufTy).Contents (Elt F)),
    StableHlo.unary main_v141 main_v142 (broadcastInDim S262144x1 ![0] bcast_S262144_S262144x1_0 : (⟨S262144, .f32⟩ : BufTy).Contents (Elt F) → (⟨S262144x1, .f32⟩ : BufTy).Contents (Elt F)),
    StableHlo.nullary main_cst_29 (constant S_ .f32 0x42800000#32),
    StableHlo.unary main_cst_29 main_v143 (broadcastInDim S262144x1 ![] bcast_S_S262144x1 : (⟨S_, .f32⟩ : BufTy).Contents (Elt F) → (⟨S262144x1, .f32⟩ : BufTy).Contents (Elt F)),
    StableHlo.binary main_v142 main_v143 main_v144 (Host.divf : (⟨S262144x1, .f32⟩ : BufTy).Contents (Elt F) → (⟨S262144x1, .f32⟩ : BufTy).Contents (Elt F) → (⟨S262144x1, .f32⟩ : BufTy).Contents (Elt F)),
    StableHlo.unary main_v137 main_v145 (broadcastInDim S262144x64 ![0, 1] bcast_S262144x1_S262144x64_0_1 : (⟨S262144x1, .f32⟩ : BufTy).Contents (Elt F) → (⟨S262144x64, .f32⟩ : BufTy).Contents (Elt F)),
    StableHlo.binary main_v133 main_v145 main_v146 (subf : (⟨S262144x64, .f32⟩ : BufTy).Contents (Elt F) → (⟨S262144x64, .f32⟩ : BufTy).Contents (Elt F) → (⟨S262144x64, .f32⟩ : BufTy).Contents (Elt F)),
    StableHlo.nullary main_cst_30 (constant S_ .f32 0x3727C5AC#32),
    StableHlo.unary main_cst_30 main_v147 (broadcastInDim S262144x1 ![] bcast_S_S262144x1 : (⟨S_, .f32⟩ : BufTy).Contents (Elt F) → (⟨S262144x1, .f32⟩ : BufTy).Contents (Elt F)),
    StableHlo.binary main_v144 main_v147 main_v148 (addf : (⟨S262144x1, .f32⟩ : BufTy).Contents (Elt F) → (⟨S262144x1, .f32⟩ : BufTy).Contents (Elt F) → (⟨S262144x1, .f32⟩ : BufTy).Contents (Elt F)),
    StableHlo.unary main_v148 main_v149 (Host.rsqrt : (⟨S262144x1, .f32⟩ : BufTy).Contents (Elt F) → (⟨S262144x1, .f32⟩ : BufTy).Contents (Elt F)),
    StableHlo.unary main_v149 main_v150 (broadcastInDim S262144x64 ![0, 1] bcast_S262144x1_S262144x64_0_1 : (⟨S262144x1, .f32⟩ : BufTy).Contents (Elt F) → (⟨S262144x64, .f32⟩ : BufTy).Contents (Elt F)),
    StableHlo.binary main_v146 main_v150 main_v151 (mulf : (⟨S262144x64, .f32⟩ : BufTy).Contents (Elt F) → (⟨S262144x64, .f32⟩ : BufTy).Contents (Elt F) → (⟨S262144x64, .f32⟩ : BufTy).Contents (Elt F)),
    StableHlo.unary main_arg16 main_v152 (broadcastInDim S1x64 ![1] bcast_S64_S1x64_1 : (⟨S64, .f32⟩ : BufTy).Contents (Elt F) → (⟨S1x64, .f32⟩ : BufTy).Contents (Elt F)),
    StableHlo.unary main_v152 main_v153 (broadcastInDim S262144x64 ![0, 1] bcast_S1x64_S262144x64_0_1 : (⟨S1x64, .f32⟩ : BufTy).Contents (Elt F) → (⟨S262144x64, .f32⟩ : BufTy).Contents (Elt F)),
    StableHlo.binary main_v151 main_v153 main_v154 (mulf : (⟨S262144x64, .f32⟩ : BufTy).Contents (Elt F) → (⟨S262144x64, .f32⟩ : BufTy).Contents (Elt F) → (⟨S262144x64, .f32⟩ : BufTy).Contents (Elt F)),
    StableHlo.unary main_arg17 main_v155 (broadcastInDim S1x64 ![1] bcast_S64_S1x64_1 : (⟨S64, .f32⟩ : BufTy).Contents (Elt F) → (⟨S1x64, .f32⟩ : BufTy).Contents (Elt F)),
    StableHlo.unary main_v155 main_v156 (broadcastInDim S262144x64 ![0, 1] bcast_S1x64_S262144x64_0_1 : (⟨S1x64, .f32⟩ : BufTy).Contents (Elt F) → (⟨S262144x64, .f32⟩ : BufTy).Contents (Elt F)),
    StableHlo.binary main_v154 main_v156 main_v157 (addf : (⟨S262144x64, .f32⟩ : BufTy).Contents (Elt F) → (⟨S262144x64, .f32⟩ : BufTy).Contents (Elt F) → (⟨S262144x64, .f32⟩ : BufTy).Contents (Elt F)),
    StableHlo.TRef.nullary main_call1.cst (constant S_ .f32 0x00000000#32),
    StableHlo.TRef.unary main_call1.cst main_call1.v0 (broadcastInDim S262144x64 ![] bcast_S_S262144x64),
    StableHlo.TRef.binary (.of main_v157 : StableHlo.TRef sig ⟨S262144x64, .f32⟩) main_call1.v0 main_call1.v1 (cmpf .oge),
    StableHlo.TRef.nullary main_call1.cst_0 (constant S_ .f32 0x3C23D70A#32),
    StableHlo.TRef.unary main_call1.cst_0 main_call1.v2 (broadcastInDim S262144x64 ![] bcast_S_S262144x64),
    StableHlo.TRef.binary main_call1.v2 (.of main_v157 : StableHlo.TRef sig ⟨S262144x64, .f32⟩) main_call1.v3 mulf,
    StableHlo.TRef.ternary main_call1.v1 (.of main_v157 : StableHlo.TRef sig ⟨S262144x64, .f32⟩) main_call1.v3 main_call1.call0.v0 select,
    StableHlo.unary main_v128 main_v159 (broadcastInDim S262144x1 ![0] bcast_S262144_S262144x1_0 : (⟨S262144, .i1⟩ : BufTy).Contents (Elt F) → (⟨S262144x1, .i1⟩ : BufTy).Contents (Elt F)),
    StableHlo.TRef.unary (.of main_v159 : StableHlo.TRef sig ⟨S262144x1, .i1⟩) main_call2.v0 (broadcastInDim S262144x64 ![0, 1] bcast_S262144x1_S262144x64_0_1),
    StableHlo.TRef.ternary main_call2.v0 (.of main_v158 : StableHlo.TRef sig ⟨S262144x64, .f32⟩) (.of main_v0 : StableHlo.TRef sig ⟨S262144x64, .f32⟩) main_call2.v1 select,
    StableHlo.reshape main_v160 main_v161 rfl shapeCasts_S262144x64_S4x16x4096x64 ]

/-- The operations of statements 1–60. -/
abbrev w0 : List (HloOp τ sig (Elt F)) :=
  [ StableHlo.reshape main_arg0 main_v0 rfl shapeCasts_S4x16x4096x64_S262144x64,
    StableHlo.unary main_arg1 main_v1 (broadcastInDim S4x16x4096x2 ![0, 1, 2, 3] bcast_S1x16x4096x2_S4x16x4096x2_0_1_2_3 : (⟨S1x16x4096x2, .f32⟩ : BufTy).Contents (Elt F) → (⟨S4x16x4096x2, .f32⟩ : BufTy).Contents (Elt F)),
    StableHlo.reshape main_v1 main_v2 rfl shapeCasts_S4x16x4096x2_S262144x2,
    StableHlo.unary main_arg2 main_v3 ((extractStridedSlice S1000000x1 ![0, 0] · slices_S1000000x4_S1000000x1_0_0) : (⟨S1000000x4, .i32⟩ : BufTy).Contents (Elt F) → (⟨S1000000x1, .i32⟩ : BufTy).Contents (Elt F)),
    StableHlo.reshape main_v3 main_v4 rfl shapeCasts_S1000000x1_S1000000,
    StableHlo.unary main_arg2 main_v5 ((extractStridedSlice S1000000x1 ![0, 1] · slices_S1000000x4_S1000000x1_0_1) : (⟨S1000000x4, .i32⟩ : BufTy).Contents (Elt F) → (⟨S1000000x1, .i32⟩ : BufTy).Contents (Elt F)),
    StableHlo.reshape main_v5 main_v6 rfl shapeCasts_S1000000x1_S1000000,
    StableHlo.unary main_arg2 main_v7 ((extractStridedSlice S1000000x1 ![0, 2] · slices_S1000000x4_S1000000x1_0_2) : (⟨S1000000x4, .i32⟩ : BufTy).Contents (Elt F) → (⟨S1000000x1, .i32⟩ : BufTy).Contents (Elt F)),
    StableHlo.reshape main_v7 main_v8 rfl shapeCasts_S1000000x1_S1000000,
    StableHlo.unary main_arg2 main_v9 ((extractStridedSlice S1000000x1 ![0, 3] · slices_S1000000x4_S1000000x1_0_3) : (⟨S1000000x4, .i32⟩ : BufTy).Contents (Elt F) → (⟨S1000000x1, .i32⟩ : BufTy).Contents (Elt F)),
    StableHlo.reshape main_v9 main_v10 rfl shapeCasts_S1000000x1_S1000000,
    StableHlo.nullary main_c (constantI S_ 32 16#32),
    StableHlo.unary main_c main_v11 (broadcastInDim S1000000 ![] bcast_S_S1000000 : (⟨S_, .i32⟩ : BufTy).Contents (Elt F) → (⟨S1000000, .i32⟩ : BufTy).Contents (Elt F)),
    StableHlo.binary main_v4 main_v11 main_v12 (muli : (⟨S1000000, .i32⟩ : BufTy).Contents (Elt F) → (⟨S1000000, .i32⟩ : BufTy).Contents (Elt F) → (⟨S1000000, .i32⟩ : BufTy).Contents (Elt F)),
    StableHlo.binary main_v12 main_v6 main_v13 (addi : (⟨S1000000, .i32⟩ : BufTy).Contents (Elt F) → (⟨S1000000, .i32⟩ : BufTy).Contents (Elt F) → (⟨S1000000, .i32⟩ : BufTy).Contents (Elt F)),
    StableHlo.nullary main_c_0 (constantI S_ 32 4096#32),
    StableHlo.unary main_c_0 main_v14 (broadcastInDim S1000000 ![] bcast_S_S1000000 : (⟨S_, .i32⟩ : BufTy).Contents (Elt F) → (⟨S1000000, .i32⟩ : BufTy).Contents (Elt F)),
    StableHlo.binary main_v13 main_v14 main_v15 (muli : (⟨S1000000, .i32⟩ : BufTy).Contents (Elt F) → (⟨S1000000, .i32⟩ : BufTy).Contents (Elt F) → (⟨S1000000, .i32⟩ : BufTy).Contents (Elt F)),
    StableHlo.binary main_v15 main_v8 main_v16 (addi : (⟨S1000000, .i32⟩ : BufTy).Contents (Elt F) → (⟨S1000000, .i32⟩ : BufTy).Contents (Elt F) → (⟨S1000000, .i32⟩ : BufTy).Contents (Elt F)),
    StableHlo.nullary main_c_1 (constantI S_ 32 16#32),
    StableHlo.unary main_c_1 main_v17 (broadcastInDim S1000000 ![] bcast_S_S1000000 : (⟨S_, .i32⟩ : BufTy).Contents (Elt F) → (⟨S1000000, .i32⟩ : BufTy).Contents (Elt F)),
    StableHlo.binary main_v4 main_v17 main_v18 (muli : (⟨S1000000, .i32⟩ : BufTy).Contents (Elt F) → (⟨S1000000, .i32⟩ : BufTy).Contents (Elt F) → (⟨S1000000, .i32⟩ : BufTy).Contents (Elt F)),
    StableHlo.binary main_v18 main_v6 main_v19 (addi : (⟨S1000000, .i32⟩ : BufTy).Contents (Elt F) → (⟨S1000000, .i32⟩ : BufTy).Contents (Elt F) → (⟨S1000000, .i32⟩ : BufTy).Contents (Elt F)),
    StableHlo.nullary main_c_2 (constantI S_ 32 1#32),
    StableHlo.unary main_c_2 main_v20 (broadcastInDim S1000000 ![] bcast_S_S1000000 : (⟨S_, .i32⟩ : BufTy).Contents (Elt F) → (⟨S1000000, .i32⟩ : BufTy).Contents (Elt F)),
    StableHlo.binary main_v19 main_v20 main_v21 (addi : (⟨S1000000, .i32⟩ : BufTy).Contents (Elt F) → (⟨S1000000, .i32⟩ : BufTy).Contents (Elt F) → (⟨S1000000, .i32⟩ : BufTy).Contents (Elt F)),
    StableHlo.nullary main_c_3 (constantI S_ 32 4096#32),
    StableHlo.unary main_c_3 main_v22 (broadcastInDim S1000000 ![] bcast_S_S1000000 : (⟨S_, .i32⟩ : BufTy).Contents (Elt F) → (⟨S1000000, .i32⟩ : BufTy).Contents (Elt F)),
    StableHlo.binary main_v21 main_v22 main_v23 (muli : (⟨S1000000, .i32⟩ : BufTy).Contents (Elt F) → (⟨S1000000, .i32⟩ : BufTy).Contents (Elt F) → (⟨S1000000, .i32⟩ : BufTy).Contents (Elt F)),
    StableHlo.binary main_v23 main_v10 main_v24 (addi : (⟨S1000000, .i32⟩ : BufTy).Contents (Elt F) → (⟨S1000000, .i32⟩ : BufTy).Contents (Elt F) → (⟨S1000000, .i32⟩ : BufTy).Contents (Elt F)),
    StableHlo.nullary main_c_4 (constantI S_ 32 0#32),
    StableHlo.unary main_c_4 main_v25 (broadcastInDim S1000000 ![] bcast_S_S1000000 : (⟨S_, .i32⟩ : BufTy).Contents (Elt F) → (⟨S1000000, .i32⟩ : BufTy).Contents (Elt F)),
    StableHlo.binary main_v16 main_v25 main_v26 (cmpi .slt : (⟨S1000000, .i32⟩ : BufTy).Contents (Elt F) → (⟨S1000000, .i32⟩ : BufTy).Contents (Elt F) → (⟨S1000000, .i1⟩ : BufTy).Contents (Elt F)),
    StableHlo.nullary main_c_5 (constantI S_ 32 262144#32),
    StableHlo.unary main_c_5 main_v27 (broadcastInDim S1000000 ![] bcast_S_S1000000 : (⟨S_, .i32⟩ : BufTy).Contents (Elt F) → (⟨S1000000, .i32⟩ : BufTy).Contents (Elt F)),
    StableHlo.binary main_v16 main_v27 main_v28 (addi : (⟨S1000000, .i32⟩ : BufTy).Contents (Elt F) → (⟨S1000000, .i32⟩ : BufTy).Contents (Elt F) → (⟨S1000000, .i32⟩ : BufTy).Contents (Elt F)),
    StableHlo.ternary main_v26 main_v28 main_v16 main_v29 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v29 main_v30 (broadcastInDim S1000000x1 ![0] bcast_S1000000_S1000000x1_0 : (⟨S1000000, .i32⟩ : BufTy).Contents (Elt F) → (⟨S1000000x1, .i32⟩ : BufTy).Contents (Elt F)),
    StableHlo.binary main_v0 main_v30 main_v31 ((fun x i => Host.gather gather_S262144x64_S1000000x1_S1000000x64_1_0_n_n_0_1_164 x i) : (⟨S262144x64, .f32⟩ : BufTy).Contents (Elt F) → (⟨S1000000x1, .i32⟩ : BufTy).Contents (Elt F) → (⟨S1000000x64, .f32⟩ : BufTy).Contents (Elt F)),
    StableHlo.nullary main_c_6 (constantI S_ 32 0#32),
    StableHlo.unary main_c_6 main_v32 (broadcastInDim S1000000 ![] bcast_S_S1000000 : (⟨S_, .i32⟩ : BufTy).Contents (Elt F) → (⟨S1000000, .i32⟩ : BufTy).Contents (Elt F)),
    StableHlo.binary main_v24 main_v32 main_v33 (cmpi .slt : (⟨S1000000, .i32⟩ : BufTy).Contents (Elt F) → (⟨S1000000, .i32⟩ : BufTy).Contents (Elt F) → (⟨S1000000, .i1⟩ : BufTy).Contents (Elt F)),
    StableHlo.nullary main_c_7 (constantI S_ 32 262144#32),
    StableHlo.unary main_c_7 main_v34 (broadcastInDim S1000000 ![] bcast_S_S1000000 : (⟨S_, .i32⟩ : BufTy).Contents (Elt F) → (⟨S1000000, .i32⟩ : BufTy).Contents (Elt F)),
    StableHlo.binary main_v24 main_v34 main_v35 (addi : (⟨S1000000, .i32⟩ : BufTy).Contents (Elt F) → (⟨S1000000, .i32⟩ : BufTy).Contents (Elt F) → (⟨S1000000, .i32⟩ : BufTy).Contents (Elt F)),
    StableHlo.ternary main_v33 main_v35 main_v24 main_v36 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v36 main_v37 (broadcastInDim S1000000x1 ![0] bcast_S1000000_S1000000x1_0 : (⟨S1000000, .i32⟩ : BufTy).Contents (Elt F) → (⟨S1000000x1, .i32⟩ : BufTy).Contents (Elt F)),
    StableHlo.binary main_v2 main_v37 main_v38 ((fun x i => Host.gather gather_S262144x2_S1000000x1_S1000000x2_1_0_n_n_0_1_12 x i) : (⟨S262144x2, .f32⟩ : BufTy).Contents (Elt F) → (⟨S1000000x1, .i32⟩ : BufTy).Contents (Elt F) → (⟨S1000000x2, .f32⟩ : BufTy).Contents (Elt F)),
    StableHlo.nullary main_c_8 (constantI S_ 32 0#32),
    StableHlo.unary main_c_8 main_v39 (broadcastInDim S1000000 ![] bcast_S_S1000000 : (⟨S_, .i32⟩ : BufTy).Contents (Elt F) → (⟨S1000000, .i32⟩ : BufTy).Contents (Elt F)),
    StableHlo.binary main_v16 main_v39 main_v40 (cmpi .slt : (⟨S1000000, .i32⟩ : BufTy).Contents (Elt F) → (⟨S1000000, .i32⟩ : BufTy).Contents (Elt F) → (⟨S1000000, .i1⟩ : BufTy).Contents (Elt F)),
    StableHlo.nullary main_c_9 (constantI S_ 32 262144#32),
    StableHlo.unary main_c_9 main_v41 (broadcastInDim S1000000 ![] bcast_S_S1000000 : (⟨S_, .i32⟩ : BufTy).Contents (Elt F) → (⟨S1000000, .i32⟩ : BufTy).Contents (Elt F)),
    StableHlo.binary main_v16 main_v41 main_v42 (addi : (⟨S1000000, .i32⟩ : BufTy).Contents (Elt F) → (⟨S1000000, .i32⟩ : BufTy).Contents (Elt F) → (⟨S1000000, .i32⟩ : BufTy).Contents (Elt F)),
    StableHlo.ternary main_v40 main_v42 main_v16 main_v43 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v43 main_v44 (broadcastInDim S1000000x1 ![0] bcast_S1000000_S1000000x1_0 : (⟨S1000000, .i32⟩ : BufTy).Contents (Elt F) → (⟨S1000000x1, .i32⟩ : BufTy).Contents (Elt F)),
    StableHlo.binary main_v2 main_v44 main_v45 ((fun x i => Host.gather gather_S262144x2_S1000000x1_S1000000x2_1_0_n_n_0_1_12 x i) : (⟨S262144x2, .f32⟩ : BufTy).Contents (Elt F) → (⟨S1000000x1, .i32⟩ : BufTy).Contents (Elt F) → (⟨S1000000x2, .f32⟩ : BufTy).Contents (Elt F)),
    StableHlo.binary main_v38 main_v45 main_v46 (subf : (⟨S1000000x2, .f32⟩ : BufTy).Contents (Elt F) → (⟨S1000000x2, .f32⟩ : BufTy).Contents (Elt F) → (⟨S1000000x2, .f32⟩ : BufTy).Contents (Elt F)),
    StableHlo.binary main_v46 main_arg4 main_v47 ((fun l r => Host.dotGeneral dot_S1000000x2_S2x64_S1000000x64_1_0_0_1_n_n none l r) : (⟨S1000000x2, .f32⟩ : BufTy).Contents (Elt F) → (⟨S2x64, .f32⟩ : BufTy).Contents (Elt F) → (⟨S1000000x64, .f32⟩ : BufTy).Contents (Elt F)),
    StableHlo.unary main_arg5 main_v48 (broadcastInDim S1x64 ![1] bcast_S64_S1x64_1 : (⟨S64, .f32⟩ : BufTy).Contents (Elt F) → (⟨S1x64, .f32⟩ : BufTy).Contents (Elt F)) ]

/-- The operations of statements 61–120, the first rectifier's among them. -/
abbrev w1 : List (HloOp τ sig (Elt F)) :=
  [ StableHlo.unary main_v48 main_v49 (broadcastInDim S1000000x64 ![0, 1] bcast_S1x64_S1000000x64_0_1 : (⟨S1x64, .f32⟩ : BufTy).Contents (Elt F) → (⟨S1000000x64, .f32⟩ : BufTy).Contents (Elt F)),
    StableHlo.binary main_v47 main_v49 main_v50 (addf : (⟨S1000000x64, .f32⟩ : BufTy).Contents (Elt F) → (⟨S1000000x64, .f32⟩ : BufTy).Contents (Elt F) → (⟨S1000000x64, .f32⟩ : BufTy).Contents (Elt F)),
    StableHlo.TRef.nullary main_call0.cst (constant S_ .f32 0x00000000#32),
    StableHlo.TRef.unary main_call0.cst main_call0.v0 (broadcastInDim S1000000x64 ![] bcast_S_S1000000x64),
    StableHlo.TRef.binary (.of main_v50 : StableHlo.TRef sig ⟨S1000000x64, .f32⟩) main_call0.v0 main_call0.v1 (cmpf .oge),
    StableHlo.TRef.nullary main_call0.cst_0 (constant S_ .f32 0x3C23D70A#32),
    StableHlo.TRef.unary main_call0.cst_0 main_call0.v2 (broadcastInDim S1000000x64 ![] bcast_S_S1000000x64),
    StableHlo.TRef.binary main_call0.v2 (.of main_v50 : StableHlo.TRef sig ⟨S1000000x64, .f32⟩) main_call0.v3 mulf,
    StableHlo.TRef.ternary main_call0.v1 (.of main_v50 : StableHlo.TRef sig ⟨S1000000x64, .f32⟩) main_call0.v3 main_call0.call0.v0 select,
    StableHlo.binary main_v51 main_arg6 main_v52 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.unary main_arg7 main_v53 (broadcastInDim S1x64 ![1] bcast_S64_S1x64_1 : (⟨S64, .f32⟩ : BufTy).Contents (Elt F) → (⟨S1x64, .f32⟩ : BufTy).Contents (Elt F)),
    StableHlo.unary main_v53 main_v54 (broadcastInDim S1000000x64 ![0, 1] bcast_S1x64_S1000000x64_0_1 : (⟨S1x64, .f32⟩ : BufTy).Contents (Elt F) → (⟨S1000000x64, .f32⟩ : BufTy).Contents (Elt F)),
    StableHlo.binary main_v52 main_v54 main_v55 (addf : (⟨S1000000x64, .f32⟩ : BufTy).Contents (Elt F) → (⟨S1000000x64, .f32⟩ : BufTy).Contents (Elt F) → (⟨S1000000x64, .f32⟩ : BufTy).Contents (Elt F)),
    StableHlo.nullary main_cst (constant S_ .f32 0x00000000#32),
    StableHlo.binary main_v55 main_cst main_v56 ((fun x v => Host.reduceAdd x v reducesTo_S1000000x64_S1000000_d1 h_S_) : (⟨S1000000x64, .f32⟩ : BufTy).Contents (Elt F) → (⟨S_, .f32⟩ : BufTy).Contents (Elt F) → (⟨S1000000, .f32⟩ : BufTy).Contents (Elt F)),
    StableHlo.unary main_v56 main_v57 (broadcastInDim S1000000x1 ![0] bcast_S1000000_S1000000x1_0 : (⟨S1000000, .f32⟩ : BufTy).Contents (Elt F) → (⟨S1000000x1, .f32⟩ : BufTy).Contents (Elt F)),
    StableHlo.nullary main_cst_10 (constant S_ .f32 0x42800000#32),
    StableHlo.unary main_cst_10 main_v58 (broadcastInDim S1000000x1 ![] bcast_S_S1000000x1 : (⟨S_, .f32⟩ : BufTy).Contents (Elt F) → (⟨S1000000x1, .f32⟩ : BufTy).Contents (Elt F)),
    StableHlo.binary main_v57 main_v58 main_v59 (Host.divf : (⟨S1000000x1, .f32⟩ : BufTy).Contents (Elt F) → (⟨S1000000x1, .f32⟩ : BufTy).Contents (Elt F) → (⟨S1000000x1, .f32⟩ : BufTy).Contents (Elt F)),
    StableHlo.unary main_v59 main_v60 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v55 main_v60 main_v61 (subf : (⟨S1000000x64, .f32⟩ : BufTy).Contents (Elt F) → (⟨S1000000x64, .f32⟩ : BufTy).Contents (Elt F) → (⟨S1000000x64, .f32⟩ : BufTy).Contents (Elt F)),
    StableHlo.binary main_v61 main_v61 main_v62 (mulf : (⟨S1000000x64, .f32⟩ : BufTy).Contents (Elt F) → (⟨S1000000x64, .f32⟩ : BufTy).Contents (Elt F) → (⟨S1000000x64, .f32⟩ : BufTy).Contents (Elt F)),
    StableHlo.nullary main_cst_11 (constant S_ .f32 0x00000000#32),
    StableHlo.binary main_v62 main_cst_11 main_v63 ((fun x v => Host.reduceAdd x v reducesTo_S1000000x64_S1000000_d1 h_S_) : (⟨S1000000x64, .f32⟩ : BufTy).Contents (Elt F) → (⟨S_, .f32⟩ : BufTy).Contents (Elt F) → (⟨S1000000, .f32⟩ : BufTy).Contents (Elt F)),
    StableHlo.unary main_v63 main_v64 (broadcastInDim S1000000x1 ![0] bcast_S1000000_S1000000x1_0 : (⟨S1000000, .f32⟩ : BufTy).Contents (Elt F) → (⟨S1000000x1, .f32⟩ : BufTy).Contents (Elt F)),
    StableHlo.nullary main_cst_12 (constant S_ .f32 0x42800000#32),
    StableHlo.unary main_cst_12 main_v65 (broadcastInDim S1000000x1 ![] bcast_S_S1000000x1 : (⟨S_, .f32⟩ : BufTy).Contents (Elt F) → (⟨S1000000x1, .f32⟩ : BufTy).Contents (Elt F)),
    StableHlo.binary main_v64 main_v65 main_v66 (Host.divf : (⟨S1000000x1, .f32⟩ : BufTy).Contents (Elt F) → (⟨S1000000x1, .f32⟩ : BufTy).Contents (Elt F) → (⟨S1000000x1, .f32⟩ : BufTy).Contents (Elt F)),
    StableHlo.unary main_v59 main_v67 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v55 main_v67 main_v68 (subf : (⟨S1000000x64, .f32⟩ : BufTy).Contents (Elt F) → (⟨S1000000x64, .f32⟩ : BufTy).Contents (Elt F) → (⟨S1000000x64, .f32⟩ : BufTy).Contents (Elt F)),
    StableHlo.nullary main_cst_13 (constant S_ .f32 0x3727C5AC#32),
    StableHlo.unary main_cst_13 main_v69 (broadcastInDim S1000000x1 ![] bcast_S_S1000000x1 : (⟨S_, .f32⟩ : BufTy).Contents (Elt F) → (⟨S1000000x1, .f32⟩ : BufTy).Contents (Elt F)),
    StableHlo.binary main_v66 main_v69 main_v70 (addf : (⟨S1000000x1, .f32⟩ : BufTy).Contents (Elt F) → (⟨S1000000x1, .f32⟩ : BufTy).Contents (Elt F) → (⟨S1000000x1, .f32⟩ : BufTy).Contents (Elt F)),
    StableHlo.unary main_v70 main_v71 (Host.rsqrt : (⟨S1000000x1, .f32⟩ : BufTy).Contents (Elt F) → (⟨S1000000x1, .f32⟩ : BufTy).Contents (Elt F)),
    StableHlo.unary main_v71 main_v72 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v68 main_v72 main_v73 (mulf : (⟨S1000000x64, .f32⟩ : BufTy).Contents (Elt F) → (⟨S1000000x64, .f32⟩ : BufTy).Contents (Elt F) → (⟨S1000000x64, .f32⟩ : BufTy).Contents (Elt F)),
    StableHlo.unary main_arg8 main_v74 (broadcastInDim S1x64 ![1] bcast_S64_S1x64_1 : (⟨S64, .f32⟩ : BufTy).Contents (Elt F) → (⟨S1x64, .f32⟩ : BufTy).Contents (Elt F)),
    StableHlo.unary main_v74 main_v75 (broadcastInDim S1000000x64 ![0, 1] bcast_S1x64_S1000000x64_0_1 : (⟨S1x64, .f32⟩ : BufTy).Contents (Elt F) → (⟨S1000000x64, .f32⟩ : BufTy).Contents (Elt F)),
    StableHlo.binary main_v73 main_v75 main_v76 (mulf : (⟨S1000000x64, .f32⟩ : BufTy).Contents (Elt F) → (⟨S1000000x64, .f32⟩ : BufTy).Contents (Elt F) → (⟨S1000000x64, .f32⟩ : BufTy).Contents (Elt F)),
    StableHlo.unary main_arg9 main_v77 (broadcastInDim S1x64 ![1] bcast_S64_S1x64_1 : (⟨S64, .f32⟩ : BufTy).Contents (Elt F) → (⟨S1x64, .f32⟩ : BufTy).Contents (Elt F)),
    StableHlo.unary main_v77 main_v78 (broadcastInDim S1000000x64 ![0, 1] bcast_S1x64_S1000000x64_0_1 : (⟨S1x64, .f32⟩ : BufTy).Contents (Elt F) → (⟨S1000000x64, .f32⟩ : BufTy).Contents (Elt F)),
    StableHlo.binary main_v76 main_v78 main_v79 (addf : (⟨S1000000x64, .f32⟩ : BufTy).Contents (Elt F) → (⟨S1000000x64, .f32⟩ : BufTy).Contents (Elt F) → (⟨S1000000x64, .f32⟩ : BufTy).Contents (Elt F)),
    StableHlo.binary main_v31 main_v79 main_v80 (addf : (⟨S1000000x64, .f32⟩ : BufTy).Contents (Elt F) → (⟨S1000000x64, .f32⟩ : BufTy).Contents (Elt F) → (⟨S1000000x64, .f32⟩ : BufTy).Contents (Elt F)),
    StableHlo.binary main_v80 main_arg10 main_v81 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.unary main_arg11 main_v82 (broadcastInDim S1x64 ![1] bcast_S64_S1x64_1 : (⟨S64, .f32⟩ : BufTy).Contents (Elt F) → (⟨S1x64, .f32⟩ : BufTy).Contents (Elt F)),
    StableHlo.unary main_v82 main_v83 (broadcastInDim S1000000x64 ![0, 1] bcast_S1x64_S1000000x64_0_1 : (⟨S1x64, .f32⟩ : BufTy).Contents (Elt F) → (⟨S1000000x64, .f32⟩ : BufTy).Contents (Elt F)),
    StableHlo.binary main_v81 main_v83 main_v84 (addf : (⟨S1000000x64, .f32⟩ : BufTy).Contents (Elt F) → (⟨S1000000x64, .f32⟩ : BufTy).Contents (Elt F) → (⟨S1000000x64, .f32⟩ : BufTy).Contents (Elt F)),
    StableHlo.nullary main_cst_14 (constant S_ .f32 0x00000000#32),
    StableHlo.unary main_cst_14 main_v85 (broadcastInDim S262144x64 ![] bcast_S_S262144x64 : (⟨S_, .f32⟩ : BufTy).Contents (Elt F) → (⟨S262144x64, .f32⟩ : BufTy).Contents (Elt F)),
    StableHlo.unary main_arg3 main_v86 (broadcastInDim S1000000x1 ![0] bcast_S1000000_S1000000x1_0 : (⟨S1000000, .f32⟩ : BufTy).Contents (Elt F) → (⟨S1000000x1, .f32⟩ : BufTy).Contents (Elt F)),
    StableHlo.unary main_v86 main_v87 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v84 main_v87 main_v88 (mulf : (⟨S1000000x64, .f32⟩ : BufTy).Contents (Elt F) → (⟨S1000000x64, .f32⟩ : BufTy).Contents (Elt F) → (⟨S1000000x64, .f32⟩ : BufTy).Contents (Elt F)),
    StableHlo.nullary main_c_15 (constantI S_ 32 0#32),
    StableHlo.unary main_c_15 main_v89 (broadcastInDim S1000000 ![] bcast_S_S1000000 : (⟨S_, .i32⟩ : BufTy).Contents (Elt F) → (⟨S1000000, .i32⟩ : BufTy).Contents (Elt F)),
    StableHlo.binary main_v24 main_v89 main_v90 (cmpi .slt : (⟨S1000000, .i32⟩ : BufTy).Contents (Elt F) → (⟨S1000000, .i32⟩ : BufTy).Contents (Elt F) → (⟨S1000000, .i1⟩ : BufTy).Contents (Elt F)),
    StableHlo.nullary main_c_16 (constantI S_ 32 262144#32),
    StableHlo.unary main_c_16 main_v91 (broadcastInDim S1000000 ![] bcast_S_S1000000 : (⟨S_, .i32⟩ : BufTy).Contents (Elt F) → (⟨S1000000, .i32⟩ : BufTy).Contents (Elt F)),
    StableHlo.binary main_v24 main_v91 main_v92 (addi : (⟨S1000000, .i32⟩ : BufTy).Contents (Elt F) → (⟨S1000000, .i32⟩ : BufTy).Contents (Elt F) → (⟨S1000000, .i32⟩ : BufTy).Contents (Elt F)),
    StableHlo.ternary main_v90 main_v92 main_v24 main_v93 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v93 main_v94 (broadcastInDim S1000000x1 ![0] bcast_S1000000_S1000000x1_0 : (⟨S1000000, .i32⟩ : BufTy).Contents (Elt F) → (⟨S1000000x1, .i32⟩ : BufTy).Contents (Elt F)),
    StableHlo.ternary main_v85 main_v94 main_v88 main_v95 ((fun x i u => Host.scatterAdd scatter_S262144x64_S1000000x1_S1000000x64_1_0_0_1 x i u) : (⟨S262144x64, .f32⟩ : BufTy).Contents (Elt F) → (⟨S1000000x1, .i32⟩ : BufTy).Contents (Elt F) → (⟨S1000000x64, .f32⟩ : BufTy).Contents (Elt F) → (⟨S262144x64, .f32⟩ : BufTy).Contents (Elt F)),
    StableHlo.nullary main_cst_17 (constant S_ .f32 0x00000000#32),
    StableHlo.binary main_v95 main_cst_17 main_v96 ((fun x v => Host.reduceAdd x v reducesTo_S262144x64_S262144_d1 h_S_) : (⟨S262144x64, .f32⟩ : BufTy).Contents (Elt F) → (⟨S_, .f32⟩ : BufTy).Contents (Elt F) → (⟨S262144, .f32⟩ : BufTy).Contents (Elt F)),
    StableHlo.unary main_v96 main_v97 (broadcastInDim S262144x1 ![0] bcast_S262144_S262144x1_0 : (⟨S262144, .f32⟩ : BufTy).Contents (Elt F) → (⟨S262144x1, .f32⟩ : BufTy).Contents (Elt F)),
    StableHlo.nullary main_cst_18 (constant S_ .f32 0x42800000#32),
    StableHlo.unary main_cst_18 main_v98 (broadcastInDim S262144x1 ![] bcast_S_S262144x1 : (⟨S_, .f32⟩ : BufTy).Contents (Elt F) → (⟨S262144x1, .f32⟩ : BufTy).Contents (Elt F)) ]

/-- The operations of statements 121–180. -/
abbrev w2 : List (HloOp τ sig (Elt F)) :=
  [ StableHlo.binary main_v97 main_v98 main_v99 (Host.divf : (⟨S262144x1, .f32⟩ : BufTy).Contents (Elt F) → (⟨S262144x1, .f32⟩ : BufTy).Contents (Elt F) → (⟨S262144x1, .f32⟩ : BufTy).Contents (Elt F)),
    StableHlo.unary main_v99 main_v100 (broadcastInDim S262144x64 ![0, 1] bcast_S262144x1_S262144x64_0_1 : (⟨S262144x1, .f32⟩ : BufTy).Contents (Elt F) → (⟨S262144x64, .f32⟩ : BufTy).Contents (Elt F)),
    StableHlo.binary main_v95 main_v100 main_v101 (subf : (⟨S262144x64, .f32⟩ : BufTy).Contents (Elt F) → (⟨S262144x64, .f32⟩ : BufTy).Contents (Elt F) → (⟨S262144x64, .f32⟩ : BufTy).Contents (Elt F)),
    StableHlo.binary main_v101 main_v101 main_v102 (mulf : (⟨S262144x64, .f32⟩ : BufTy).Contents (Elt F) → (⟨S262144x64, .f32⟩ : BufTy).Contents (Elt F) → (⟨S262144x64, .f32⟩ : BufTy).Contents (Elt F)),
    StableHlo.nullary main_cst_19 (constant S_ .f32 0x00000000#32),
    StableHlo.binary main_v102 main_cst_19 main_v103 ((fun x v => Host.reduceAdd x v reducesTo_S262144x64_S262144_d1 h_S_) : (⟨S262144x64, .f32⟩ : BufTy).Contents (Elt F) → (⟨S_, .f32⟩ : BufTy).Contents (Elt F) → (⟨S262144, .f32⟩ : BufTy).Contents (Elt F)),
    StableHlo.unary main_v103 main_v104 (broadcastInDim S262144x1 ![0] bcast_S262144_S262144x1_0 : (⟨S262144, .f32⟩ : BufTy).Contents (Elt F) → (⟨S262144x1, .f32⟩ : BufTy).Contents (Elt F)),
    StableHlo.nullary main_cst_20 (constant S_ .f32 0x42800000#32),
    StableHlo.unary main_cst_20 main_v105 (broadcastInDim S262144x1 ![] bcast_S_S262144x1 : (⟨S_, .f32⟩ : BufTy).Contents (Elt F) → (⟨S262144x1, .f32⟩ : BufTy).Contents (Elt F)),
    StableHlo.binary main_v104 main_v105 main_v106 (Host.divf : (⟨S262144x1, .f32⟩ : BufTy).Contents (Elt F) → (⟨S262144x1, .f32⟩ : BufTy).Contents (Elt F) → (⟨S262144x1, .f32⟩ : BufTy).Contents (Elt F)),
    StableHlo.unary main_v99 main_v107 (broadcastInDim S262144x64 ![0, 1] bcast_S262144x1_S262144x64_0_1 : (⟨S262144x1, .f32⟩ : BufTy).Contents (Elt F) → (⟨S262144x64, .f32⟩ : BufTy).Contents (Elt F)),
    StableHlo.binary main_v95 main_v107 main_v108 (subf : (⟨S262144x64, .f32⟩ : BufTy).Contents (Elt F) → (⟨S262144x64, .f32⟩ : BufTy).Contents (Elt F) → (⟨S262144x64, .f32⟩ : BufTy).Contents (Elt F)),
    StableHlo.nullary main_cst_21 (constant S_ .f32 0x3727C5AC#32),
    StableHlo.unary main_cst_21 main_v109 (broadcastInDim S262144x1 ![] bcast_S_S262144x1 : (⟨S_, .f32⟩ : BufTy).Contents (Elt F) → (⟨S262144x1, .f32⟩ : BufTy).Contents (Elt F)),
    StableHlo.binary main_v106 main_v109 main_v110 (addf : (⟨S262144x1, .f32⟩ : BufTy).Contents (Elt F) → (⟨S262144x1, .f32⟩ : BufTy).Contents (Elt F) → (⟨S262144x1, .f32⟩ : BufTy).Contents (Elt F)),
    StableHlo.unary main_v110 main_v111 (Host.rsqrt : (⟨S262144x1, .f32⟩ : BufTy).Contents (Elt F) → (⟨S262144x1, .f32⟩ : BufTy).Contents (Elt F)),
    StableHlo.unary main_v111 main_v112 (broadcastInDim S262144x64 ![0, 1] bcast_S262144x1_S262144x64_0_1 : (⟨S262144x1, .f32⟩ : BufTy).Contents (Elt F) → (⟨S262144x64, .f32⟩ : BufTy).Contents (Elt F)),
    StableHlo.binary main_v108 main_v112 main_v113 (mulf : (⟨S262144x64, .f32⟩ : BufTy).Contents (Elt F) → (⟨S262144x64, .f32⟩ : BufTy).Contents (Elt F) → (⟨S262144x64, .f32⟩ : BufTy).Contents (Elt F)),
    StableHlo.unary main_arg12 main_v114 (broadcastInDim S1x64 ![1] bcast_S64_S1x64_1 : (⟨S64, .f32⟩ : BufTy).Contents (Elt F) → (⟨S1x64, .f32⟩ : BufTy).Contents (Elt F)),
    StableHlo.unary main_v114 main_v115 (broadcastInDim S262144x64 ![0, 1] bcast_S1x64_S262144x64_0_1 : (⟨S1x64, .f32⟩ : BufTy).Contents (Elt F) → (⟨S262144x64, .f32⟩ : BufTy).Contents (Elt F)),
    StableHlo.binary main_v113 main_v115 main_v116 (mulf : (⟨S262144x64, .f32⟩ : BufTy).Contents (Elt F) → (⟨S262144x64, .f32⟩ : BufTy).Contents (Elt F) → (⟨S262144x64, .f32⟩ : BufTy).Contents (Elt F)),
    StableHlo.unary main_arg13 main_v117 (broadcastInDim S1x64 ![1] bcast_S64_S1x64_1 : (⟨S64, .f32⟩ : BufTy).Contents (Elt F) → (⟨S1x64, .f32⟩ : BufTy).Contents (Elt F)),
    StableHlo.unary main_v117 main_v118 (broadcastInDim S262144x64 ![0, 1] bcast_S1x64_S262144x64_0_1 : (⟨S1x64, .f32⟩ : BufTy).Contents (Elt F) → (⟨S262144x64, .f32⟩ : BufTy).Contents (Elt F)),
    StableHlo.binary main_v116 main_v118 main_v119 (addf : (⟨S262144x64, .f32⟩ : BufTy).Contents (Elt F) → (⟨S262144x64, .f32⟩ : BufTy).Contents (Elt F) → (⟨S262144x64, .f32⟩ : BufTy).Contents (Elt F)),
    StableHlo.nullary main_c_22 (constantI S_ 1 0#1),
    StableHlo.unary main_c_22 main_v120 (broadcastInDim S262144 ![] bcast_S_S262144 : (⟨S_, .i1⟩ : BufTy).Contents (Elt F) → (⟨S262144, .i1⟩ : BufTy).Contents (Elt F)),
    StableHlo.nullary main_c_23 (constantI S_ 32 0#32),
    StableHlo.unary main_c_23 main_v121 (broadcastInDim S1000000 ![] bcast_S_S1000000 : (⟨S_, .i32⟩ : BufTy).Contents (Elt F) → (⟨S1000000, .i32⟩ : BufTy).Contents (Elt F)),
    StableHlo.binary main_v24 main_v121 main_v122 (cmpi .slt : (⟨S1000000, .i32⟩ : BufTy).Contents (Elt F) → (⟨S1000000, .i32⟩ : BufTy).Contents (Elt F) → (⟨S1000000, .i1⟩ : BufTy).Contents (Elt F)),
    StableHlo.nullary main_c_24 (constantI S_ 32 262144#32),
    StableHlo.unary main_c_24 main_v123 (broadcastInDim S1000000 ![] bcast_S_S1000000 : (⟨S_, .i32⟩ : BufTy).Contents (Elt F) → (⟨S1000000, .i32⟩ : BufTy).Contents (Elt F)),
    StableHlo.binary main_v24 main_v123 main_v124 (addi : (⟨S1000000, .i32⟩ : BufTy).Contents (Elt F) → (⟨S1000000, .i32⟩ : BufTy).Contents (Elt F) → (⟨S1000000, .i32⟩ : BufTy).Contents (Elt F)),
    StableHlo.ternary main_v122 main_v124 main_v24 main_v125 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v125 main_v126 (broadcastInDim S1000000x1 ![0] bcast_S1000000_S1000000x1_0 : (⟨S1000000, .i32⟩ : BufTy).Contents (Elt F) → (⟨S1000000x1, .i32⟩ : BufTy).Contents (Elt F)),
    StableHlo.nullary main_c_25 (constantI S_ 1 1#1),
    StableHlo.unary main_c_25 main_v127 (broadcastInDim S1000000 ![] bcast_S_S1000000 : (⟨S_, .i1⟩ : BufTy).Contents (Elt F) → (⟨S1000000, .i1⟩ : BufTy).Contents (Elt F)),
    StableHlo.ternary main_v120 main_v126 main_v127 main_v128 ((fun x i u => Host.scatter scatter_S262144_S1000000x1_S1000000_n_0_0_1 (fun _ b => b) x i u) : (⟨S262144, .i1⟩ : BufTy).Contents (Elt F) → (⟨S1000000x1, .i32⟩ : BufTy).Contents (Elt F) → (⟨S1000000, .i1⟩ : BufTy).Contents (Elt F) → (⟨S262144, .i1⟩ : BufTy).Contents (Elt F)),
    StableHlo.binary main_v0 main_v119 main_v129 ((fun a b => concatenate S262144x128 1 [⟨S262144x64, a⟩, ⟨S262144x64, b⟩] concatenates_S262144x64_S262144x64_S262144x128_d1) : (⟨S262144x64, .f32⟩ : BufTy).Contents (Elt F) → (⟨S262144x64, .f32⟩ : BufTy).Contents (Elt F) → (⟨S262144x128, .f32⟩ : BufTy).Contents (Elt F)),
    StableHlo.binary main_v129 main_arg14 main_v130 ((fun l r => Host.dotGeneral dot_S262144x128_S128x64_S262144x64_1_0_0_1_n_n none l r) : (⟨S262144x128, .f32⟩ : BufTy).Contents (Elt F) → (⟨S128x64, .f32⟩ : BufTy).Contents (Elt F) → (⟨S262144x64, .f32⟩ : BufTy).Contents (Elt F)),
    StableHlo.unary main_arg15 main_v131 (broadcastInDim S1x64 ![1] bcast_S64_S1x64_1 : (⟨S64, .f32⟩ : BufTy).Contents (Elt F) → (⟨S1x64, .f32⟩ : BufTy).Contents (Elt F)),
    StableHlo.unary main_v131 main_v132 (broadcastInDim S262144x64 ![0, 1] bcast_S1x64_S262144x64_0_1 : (⟨S1x64, .f32⟩ : BufTy).Contents (Elt F) → (⟨S262144x64, .f32⟩ : BufTy).Contents (Elt F)),
    StableHlo.binary main_v130 main_v132 main_v133 (addf : (⟨S262144x64, .f32⟩ : BufTy).Contents (Elt F) → (⟨S262144x64, .f32⟩ : BufTy).Contents (Elt F) → (⟨S262144x64, .f32⟩ : BufTy).Contents (Elt F)),
    StableHlo.nullary main_cst_26 (constant S_ .f32 0x00000000#32),
    StableHlo.binary main_v133 main_cst_26 main_v134 ((fun x v => Host.reduceAdd x v reducesTo_S262144x64_S262144_d1 h_S_) : (⟨S262144x64, .f32⟩ : BufTy).Contents (Elt F) → (⟨S_, .f32⟩ : BufTy).Contents (Elt F) → (⟨S262144, .f32⟩ : BufTy).Contents (Elt F)),
    StableHlo.unary main_v134 main_v135 (broadcastInDim S262144x1 ![0] bcast_S262144_S262144x1_0 : (⟨S262144, .f32⟩ : BufTy).Contents (Elt F) → (⟨S262144x1, .f32⟩ : BufTy).Contents (Elt F)),
    StableHlo.nullary main_cst_27 (constant S_ .f32 0x42800000#32),
    StableHlo.unary main_cst_27 main_v136 (broadcastInDim S262144x1 ![] bcast_S_S262144x1 : (⟨S_, .f32⟩ : BufTy).Contents (Elt F) → (⟨S262144x1, .f32⟩ : BufTy).Contents (Elt F)),
    StableHlo.binary main_v135 main_v136 main_v137 (Host.divf : (⟨S262144x1, .f32⟩ : BufTy).Contents (Elt F) → (⟨S262144x1, .f32⟩ : BufTy).Contents (Elt F) → (⟨S262144x1, .f32⟩ : BufTy).Contents (Elt F)),
    StableHlo.unary main_v137 main_v138 (broadcastInDim S262144x64 ![0, 1] bcast_S262144x1_S262144x64_0_1 : (⟨S262144x1, .f32⟩ : BufTy).Contents (Elt F) → (⟨S262144x64, .f32⟩ : BufTy).Contents (Elt F)),
    StableHlo.binary main_v133 main_v138 main_v139 (subf : (⟨S262144x64, .f32⟩ : BufTy).Contents (Elt F) → (⟨S262144x64, .f32⟩ : BufTy).Contents (Elt F) → (⟨S262144x64, .f32⟩ : BufTy).Contents (Elt F)),
    StableHlo.binary main_v139 main_v139 main_v140 (mulf : (⟨S262144x64, .f32⟩ : BufTy).Contents (Elt F) → (⟨S262144x64, .f32⟩ : BufTy).Contents (Elt F) → (⟨S262144x64, .f32⟩ : BufTy).Contents (Elt F)),
    StableHlo.nullary main_cst_28 (constant S_ .f32 0x00000000#32),
    StableHlo.binary main_v140 main_cst_28 main_v141 ((fun x v => Host.reduceAdd x v reducesTo_S262144x64_S262144_d1 h_S_) : (⟨S262144x64, .f32⟩ : BufTy).Contents (Elt F) → (⟨S_, .f32⟩ : BufTy).Contents (Elt F) → (⟨S262144, .f32⟩ : BufTy).Contents (Elt F)),
    StableHlo.unary main_v141 main_v142 (broadcastInDim S262144x1 ![0] bcast_S262144_S262144x1_0 : (⟨S262144, .f32⟩ : BufTy).Contents (Elt F) → (⟨S262144x1, .f32⟩ : BufTy).Contents (Elt F)),
    StableHlo.nullary main_cst_29 (constant S_ .f32 0x42800000#32),
    StableHlo.unary main_cst_29 main_v143 (broadcastInDim S262144x1 ![] bcast_S_S262144x1 : (⟨S_, .f32⟩ : BufTy).Contents (Elt F) → (⟨S262144x1, .f32⟩ : BufTy).Contents (Elt F)),
    StableHlo.binary main_v142 main_v143 main_v144 (Host.divf : (⟨S262144x1, .f32⟩ : BufTy).Contents (Elt F) → (⟨S262144x1, .f32⟩ : BufTy).Contents (Elt F) → (⟨S262144x1, .f32⟩ : BufTy).Contents (Elt F)),
    StableHlo.unary main_v137 main_v145 (broadcastInDim S262144x64 ![0, 1] bcast_S262144x1_S262144x64_0_1 : (⟨S262144x1, .f32⟩ : BufTy).Contents (Elt F) → (⟨S262144x64, .f32⟩ : BufTy).Contents (Elt F)),
    StableHlo.binary main_v133 main_v145 main_v146 (subf : (⟨S262144x64, .f32⟩ : BufTy).Contents (Elt F) → (⟨S262144x64, .f32⟩ : BufTy).Contents (Elt F) → (⟨S262144x64, .f32⟩ : BufTy).Contents (Elt F)),
    StableHlo.nullary main_cst_30 (constant S_ .f32 0x3727C5AC#32) ]

/-- The operations of statements 181–196, the second rectifier's and the row selection's among them. -/
abbrev w3 : List (HloOp τ sig (Elt F)) :=
  [ StableHlo.unary main_cst_30 main_v147 (broadcastInDim S262144x1 ![] bcast_S_S262144x1 : (⟨S_, .f32⟩ : BufTy).Contents (Elt F) → (⟨S262144x1, .f32⟩ : BufTy).Contents (Elt F)),
    StableHlo.binary main_v144 main_v147 main_v148 (addf : (⟨S262144x1, .f32⟩ : BufTy).Contents (Elt F) → (⟨S262144x1, .f32⟩ : BufTy).Contents (Elt F) → (⟨S262144x1, .f32⟩ : BufTy).Contents (Elt F)),
    StableHlo.unary main_v148 main_v149 (Host.rsqrt : (⟨S262144x1, .f32⟩ : BufTy).Contents (Elt F) → (⟨S262144x1, .f32⟩ : BufTy).Contents (Elt F)),
    StableHlo.unary main_v149 main_v150 (broadcastInDim S262144x64 ![0, 1] bcast_S262144x1_S262144x64_0_1 : (⟨S262144x1, .f32⟩ : BufTy).Contents (Elt F) → (⟨S262144x64, .f32⟩ : BufTy).Contents (Elt F)),
    StableHlo.binary main_v146 main_v150 main_v151 (mulf : (⟨S262144x64, .f32⟩ : BufTy).Contents (Elt F) → (⟨S262144x64, .f32⟩ : BufTy).Contents (Elt F) → (⟨S262144x64, .f32⟩ : BufTy).Contents (Elt F)),
    StableHlo.unary main_arg16 main_v152 (broadcastInDim S1x64 ![1] bcast_S64_S1x64_1 : (⟨S64, .f32⟩ : BufTy).Contents (Elt F) → (⟨S1x64, .f32⟩ : BufTy).Contents (Elt F)),
    StableHlo.unary main_v152 main_v153 (broadcastInDim S262144x64 ![0, 1] bcast_S1x64_S262144x64_0_1 : (⟨S1x64, .f32⟩ : BufTy).Contents (Elt F) → (⟨S262144x64, .f32⟩ : BufTy).Contents (Elt F)),
    StableHlo.binary main_v151 main_v153 main_v154 (mulf : (⟨S262144x64, .f32⟩ : BufTy).Contents (Elt F) → (⟨S262144x64, .f32⟩ : BufTy).Contents (Elt F) → (⟨S262144x64, .f32⟩ : BufTy).Contents (Elt F)),
    StableHlo.unary main_arg17 main_v155 (broadcastInDim S1x64 ![1] bcast_S64_S1x64_1 : (⟨S64, .f32⟩ : BufTy).Contents (Elt F) → (⟨S1x64, .f32⟩ : BufTy).Contents (Elt F)),
    StableHlo.unary main_v155 main_v156 (broadcastInDim S262144x64 ![0, 1] bcast_S1x64_S262144x64_0_1 : (⟨S1x64, .f32⟩ : BufTy).Contents (Elt F) → (⟨S262144x64, .f32⟩ : BufTy).Contents (Elt F)),
    StableHlo.binary main_v154 main_v156 main_v157 (addf : (⟨S262144x64, .f32⟩ : BufTy).Contents (Elt F) → (⟨S262144x64, .f32⟩ : BufTy).Contents (Elt F) → (⟨S262144x64, .f32⟩ : BufTy).Contents (Elt F)),
    StableHlo.TRef.nullary main_call1.cst (constant S_ .f32 0x00000000#32),
    StableHlo.TRef.unary main_call1.cst main_call1.v0 (broadcastInDim S262144x64 ![] bcast_S_S262144x64),
    StableHlo.TRef.binary (.of main_v157 : StableHlo.TRef sig ⟨S262144x64, .f32⟩) main_call1.v0 main_call1.v1 (cmpf .oge),
    StableHlo.TRef.nullary main_call1.cst_0 (constant S_ .f32 0x3C23D70A#32),
    StableHlo.TRef.unary main_call1.cst_0 main_call1.v2 (broadcastInDim S262144x64 ![] bcast_S_S262144x64),
    StableHlo.TRef.binary main_call1.v2 (.of main_v157 : StableHlo.TRef sig ⟨S262144x64, .f32⟩) main_call1.v3 mulf,
    StableHlo.TRef.ternary main_call1.v1 (.of main_v157 : StableHlo.TRef sig ⟨S262144x64, .f32⟩) main_call1.v3 main_call1.call0.v0 select,
    StableHlo.unary main_v128 main_v159 (broadcastInDim S262144x1 ![0] bcast_S262144_S262144x1_0 : (⟨S262144, .i1⟩ : BufTy).Contents (Elt F) → (⟨S262144x1, .i1⟩ : BufTy).Contents (Elt F)),
    StableHlo.TRef.unary (.of main_v159 : StableHlo.TRef sig ⟨S262144x1, .i1⟩) main_call2.v0 (broadcastInDim S262144x64 ![0, 1] bcast_S262144x1_S262144x64_0_1),
    StableHlo.TRef.ternary main_call2.v0 (.of main_v158 : StableHlo.TRef sig ⟨S262144x64, .f32⟩) (.of main_v0 : StableHlo.TRef sig ⟨S262144x64, .f32⟩) main_call2.v1 select,
    StableHlo.reshape main_v160 main_v161 rfl shapeCasts_S262144x64_S4x16x4096x64 ]

theorem ops_windows : (ops : List (HloOp τ sig (Elt F))) = w0 ++ (w1 ++ (w2 ++ w3)) := rfl

set_option maxRecDepth 4096 in
theorem part0_eq (c : Dev nD) : main_part0 (F := F) c = seq w0 := rfl

set_option maxRecDepth 4096 in
/-- The called function's definition unfolded at its call and the record at its fields, both sides are one chain of
    steps once sequencing is reassociated. -/
theorem part1_eq (c : Dev nD) : main_part1 (F := F) c = seq w1 := by
  simp only [main_part1, fn_leaky_relu.body, fn_where.body, seq, bind_assoc, pure_bind]
  rfl

set_option maxRecDepth 4096 in
theorem part2_eq (c : Dev nD) : main_part2 (F := F) c = seq w2 := rfl

set_option maxRecDepth 4096 in
theorem part3_eq (c : Dev nD) : main_part3 (F := F) c = seq w3 := by
  simp only [main_part3, fn_leaky_relu_0.body, fn_where_1.body, fn_where_2.body, seq, bind_assoc, pure_bind]

/-- The reference is that straight line: its four windows in order are the four stretches run one after the other. -/
theorem main_eq (c : Dev nD) : main (F := F) c = seq ops := by
  rw [ops_windows, seq_append, seq_append, seq_append, ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., unary_bufs_sub .., reshape_bufs_sub .., unary_bufs_sub .., reshape_bufs_sub .., unary_bufs_sub ..,
    reshape_bufs_sub .., unary_bufs_sub .., reshape_bufs_sub .., unary_bufs_sub .., reshape_bufs_sub .., nullary_bufs_sub ..,
    unary_bufs_sub .., binary_bufs_sub .., binary_bufs_sub .., nullary_bufs_sub .., unary_bufs_sub .., binary_bufs_sub ..,
    binary_bufs_sub .., nullary_bufs_sub .., unary_bufs_sub .., binary_bufs_sub .., binary_bufs_sub .., nullary_bufs_sub ..,
    unary_bufs_sub .., binary_bufs_sub .., nullary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., binary_bufs_sub .., unary_bufs_sub .., unary_bufs_sub ..,
    binary_bufs_sub .., nullary_bufs_sub .., binary_bufs_sub .., unary_bufs_sub .., nullary_bufs_sub .., unary_bufs_sub ..,
    binary_bufs_sub .., unary_bufs_sub .., binary_bufs_sub .., binary_bufs_sub .., nullary_bufs_sub .., binary_bufs_sub ..,
    unary_bufs_sub .., nullary_bufs_sub .., unary_bufs_sub .., binary_bufs_sub .., unary_bufs_sub .., binary_bufs_sub ..,
    nullary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., binary_bufs_sub .., unary_bufs_sub .., unary_bufs_sub .., binary_bufs_sub .., nullary_bufs_sub ..,
    unary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    ternary_bufs_sub .., nullary_bufs_sub .., binary_bufs_sub .., unary_bufs_sub .., nullary_bufs_sub .., unary_bufs_sub ..,
    binary_bufs_sub .., unary_bufs_sub .., binary_bufs_sub .., binary_bufs_sub .., nullary_bufs_sub .., binary_bufs_sub ..,
    unary_bufs_sub .., nullary_bufs_sub .., unary_bufs_sub .., binary_bufs_sub .., unary_bufs_sub .., binary_bufs_sub ..,
    nullary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., nullary_bufs_sub .., unary_bufs_sub .., binary_bufs_sub .., nullary_bufs_sub ..,
    unary_bufs_sub .., binary_bufs_sub .., ternary_bufs_sub .., unary_bufs_sub .., nullary_bufs_sub .., unary_bufs_sub ..,
    ternary_bufs_sub .., binary_bufs_sub .., binary_bufs_sub .., unary_bufs_sub .., unary_bufs_sub .., binary_bufs_sub ..,
    nullary_bufs_sub .., binary_bufs_sub .., unary_bufs_sub .., nullary_bufs_sub .., unary_bufs_sub .., binary_bufs_sub ..,
    unary_bufs_sub .., binary_bufs_sub .., binary_bufs_sub .., nullary_bufs_sub .., binary_bufs_sub .., unary_bufs_sub ..,
    nullary_bufs_sub .., unary_bufs_sub .., binary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., unary_bufs_sub .., ternary_bufs_sub .., reshape_bufs_sub ..⟩

/-- On every device, for any float values, from any memory with zero counters: every weakly fair execution of the
    reference terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefStages.lean ====
/-
  The reference function's value, stage by stage.

  Each definition below is one stretch of the reference's straight line of array operations, written as the
  composition of those operations applied to the stretch's direct inputs: the same functions, shape records and
  shape facts, in the same order.  The whole value is their composition, `RefVal`.  Definitions only.
-/
import proofs.«164651_j61959198212617_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The node features as rows: the array of extent [4, 16, 4096, 64] read in row-major order at extent [262144, 64]. -/
def gf2 (a0 : (⟨S4x16x4096x64, .f32⟩ : BufTy).Contents (Elt F)) :
    (⟨S262144x64, .f32⟩ : BufTy).Contents (Elt F) :=
  (shapeCast S262144x64 a0 shapeCasts_S4x16x4096x64_S262144x64)

/-- The node positions as rows: the array of extent [1, 16, 4096, 2] repeated along its first axis to [4, 16, 4096, 2], then read in row-major order at extent [262144, 2]. -/
def pos2 (a1 : (⟨S1x16x4096x2, .f32⟩ : BufTy).Contents (Elt F)) :
    (⟨S262144x2, .f32⟩ : BufTy).Contents (Elt F) :=
  (shapeCast
    S262144x2
    ((broadcastInDim S4x16x4096x2 ![0, 1, 2, 3] bcast_S1x16x4096x2_S4x16x4096x2_0_1_2_3 : (⟨S1x16x4096x2, .f32⟩ : BufTy).Contents (Elt F) → (⟨S4x16x4096x2, .f32⟩ : BufTy).Contents (Elt F))
      a1)
    shapeCasts_S4x16x4096x2_S262144x2)

/-- Column 0 of the edge table, as a vector of 1000000 integers. -/
def col0 (a2 : (⟨S1000000x4, .i32⟩ : BufTy).Contents (Elt F)) :
    (⟨S1000000, .i32⟩ : BufTy).Contents (Elt F) :=
  (shapeCast
    S1000000
    (((extractStridedSlice S1000000x1 ![0, 0] · slices_S1000000x4_S1000000x1_0_0) : (⟨S1000000x4, .i32⟩ : BufTy).Contents (Elt F) → (⟨S1000000x1, .i32⟩ : BufTy).Contents (Elt F))
      a2)
    shapeCasts_S1000000x1_S1000000)

/-- Column 1 of the edge table, as a vector of 1000000 integers. -/
def col1 (a2 : (⟨S1000000x4, .i32⟩ : BufTy).Contents (Elt F)) :
    (⟨S1000000, .i32⟩ : BufTy).Contents (Elt F) :=
  (shapeCast
    S1000000
    (((extractStridedSlice S1000000x1 ![0, 1] · slices_S1000000x4_S1000000x1_0_1) : (⟨S1000000x4, .i32⟩ : BufTy).Contents (Elt F) → (⟨S1000000x1, .i32⟩ : BufTy).Contents (Elt F))
      a2)
    shapeCasts_S1000000x1_S1000000)

/-- Column 2 of the edge table, as a vector of 1000000 integers. -/
def col2 (a2 : (⟨S1000000x4, .i32⟩ : BufTy).Contents (Elt F)) :
    (⟨S1000000, .i32⟩ : BufTy).Contents (Elt F) :=
  (shapeCast
    S1000000
    (((extractStridedSlice S1000000x1 ![0, 2] · slices_S1000000x4_S1000000x1_0_2) : (⟨S1000000x4, .i32⟩ : BufTy).Contents (Elt F) → (⟨S1000000x1, .i32⟩ : BufTy).Contents (Elt F))
      a2)
    shapeCasts_S1000000x1_S1000000)

/-- Column 3 of the edge table, as a vector of 1000000 integers. -/
def col3 (a2 : (⟨S1000000x4, .i32⟩ : BufTy).Contents (Elt F)) :
    (⟨S1000000, .i32⟩ : BufTy).Contents (Elt F) :=
  (shapeCast
    S1000000
    (((extractStridedSlice S1000000x1 ![0, 3] · slices_S1000000x4_S1000000x1_0_3) : (⟨S1000000x4, .i32⟩ : BufTy).Contents (Elt F) → (⟨S1000000x1, .i32⟩ : BufTy).Contents (Elt F))
      a2)
    shapeCasts_S1000000x1_S1000000)

/-- The flat row index of each edge's source node: (column 0 * 16 + column 1) * 4096 + column 2, in 32-bit arithmetic. -/
def flatPre (a2 : (⟨S1000000x4, .i32⟩ : BufTy).Contents (Elt F)) :
    (⟨S1000000, .i32⟩ : BufTy).Contents (Elt F) :=
  ((addi : (⟨S1000000, .i32⟩ : BufTy).Contents (Elt F) → (⟨S1000000, .i32⟩ : BufTy).Contents (Elt F) → (⟨S1000000, .i32⟩ : BufTy).Contents (Elt F))
    ((muli : (⟨S1000000, .i32⟩ : BufTy).Contents (Elt F) → (⟨S1000000, .i32⟩ : BufTy).Contents (Elt F) → (⟨S1000000, .i32⟩ : BufTy).Contents (Elt F))
      ((addi : (⟨S1000000, .i32⟩ : BufTy).Contents (Elt F) → (⟨S1000000, .i32⟩ : BufTy).Contents (Elt F) → (⟨S1000000, .i32⟩ : BufTy).Contents (Elt F))
        ((muli : (⟨S1000000, .i32⟩ : BufTy).Contents (Elt F) → (⟨S1000000, .i32⟩ : BufTy).Contents (Elt F) → (⟨S1000000, .i32⟩ : BufTy).Contents (Elt F))
          (col0 a2)
          ((broadcastInDim S1000000 ![] bcast_S_S1000000 : (⟨S_, .i32⟩ : BufTy).Contents (Elt F) → (⟨S1000000, .i32⟩ : BufTy).Contents (Elt F))
            (constantI S_ 32 16#32 : (⟨S_, .i32⟩ : BufTy).Contents (Elt F))))
        (col1 a2))
      ((broadcastInDim S1000000 ![] bcast_S_S1000000 : (⟨S_, .i32⟩ : BufTy).Contents (Elt F) → (⟨S1000000, .i32⟩ : BufTy).Contents (Elt F))
        (constantI S_ 32 4096#32 : (⟨S_, .i32⟩ : BufTy).Contents (Elt F))))
    (col2 a2))

/-- The flat row index of each edge's target node: ((column 0 * 16 + column 1) + 1) * 4096 + column 3, in 32-bit arithmetic. -/
def flatSuc (a2 : (⟨S1000000x4, .i32⟩ : BufTy).Contents (Elt F)) :
    (⟨S1000000, .i32⟩ : BufTy).Contents (Elt F) :=
  ((addi : (⟨S1000000, .i32⟩ : BufTy).Contents (Elt F) → (⟨S1000000, .i32⟩ : BufTy).Contents (Elt F) → (⟨S1000000, .i32⟩ : BufTy).Contents (Elt F))
    ((muli : (⟨S1000000, .i32⟩ : BufTy).Contents (Elt F) → (⟨S1000000, .i32⟩ : BufTy).Contents (Elt F) → (⟨S1000000, .i32⟩ : BufTy).Contents (Elt F))
      ((addi : (⟨S1000000, .i32⟩ : BufTy).Contents (Elt F) → (⟨S1000000, .i32⟩ : BufTy).Contents (Elt F) → (⟨S1000000, .i32⟩ : BufTy).Contents (Elt F))
        ((addi : (⟨S1000000, .i32⟩ : BufTy).Contents (Elt F) → (⟨S1000000, .i32⟩ : BufTy).Contents (Elt F) → (⟨S1000000, .i32⟩ : BufTy).Contents (Elt F))
          ((muli : (⟨S1000000, .i32⟩ : BufTy).Contents (Elt F) → (⟨S1000000, .i32⟩ : BufTy).Contents (Elt F) → (⟨S1000000, .i32⟩ : BufTy).Contents (Elt F))
            (col0 a2)
            ((broadcastInDim S1000000 ![] bcast_S_S1000000 : (⟨S_, .i32⟩ : BufTy).Contents (Elt F) → (⟨S1000000, .i32⟩ : BufTy).Contents (Elt F))
              (constantI S_ 32 16#32 : (⟨S_, .i32⟩ : BufTy).Contents (Elt F))))
          (col1 a2))
        ((broadcastInDim S1000000 ![] bcast_S_S1000000 : (⟨S_, .i32⟩ : BufTy).Contents (Elt F) → (⟨S1000000, .i32⟩ : BufTy).Contents (Elt F))
          (constantI S_ 32 1#32 : (⟨S_, .i32⟩ : BufTy).Contents (Elt F))))
      ((broadcastInDim S1000000 ![] bcast_S_S1000000 : (⟨S_, .i32⟩ : BufTy).Contents (Elt F) → (⟨S1000000, .i32⟩ : BufTy).Contents (Elt F))
        (constantI S_ 32 4096#32 : (⟨S_, .i32⟩ : BufTy).Contents (Elt F))))
    (col3 a2))

/-- A vector of row indices made non-negative (262144 added where the index is below zero, signed), as a column of extent [1000000, 1]. -/
def wrapCol (v : (⟨S1000000, .i32⟩ : BufTy).Contents (Elt F)) :
    (⟨S1000000x1, .i32⟩ : BufTy).Contents (Elt F) :=
  ((broadcastInDim S1000000x1 ![0] bcast_S1000000_S1000000x1_0 : (⟨S1000000, .i32⟩ : BufTy).Contents (Elt F) → (⟨S1000000x1, .i32⟩ : BufTy).Contents (Elt F))
    ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
      ((cmpi .slt : (⟨S1000000, .i32⟩ : BufTy).Contents (Elt F) → (⟨S1000000, .i32⟩ : BufTy).Contents (Elt F) → (⟨S1000000, .i1⟩ : BufTy).Contents (Elt F))
        v
        ((broadcastInDim S1000000 ![] bcast_S_S1000000 : (⟨S_, .i32⟩ : BufTy).Contents (Elt F) → (⟨S1000000, .i32⟩ : BufTy).Contents (Elt F))
          (constantI S_ 32 0#32 : (⟨S_, .i32⟩ : BufTy).Contents (Elt F))))
      ((addi : (⟨S1000000, .i32⟩ : BufTy).Contents (Elt F) → (⟨S1000000, .i32⟩ : BufTy).Contents (Elt F) → (⟨S1000000, .i32⟩ : BufTy).Contents (Elt F))
        v
        ((broadcastInDim S1000000 ![] bcast_S_S1000000 : (⟨S_, .i32⟩ : BufTy).Contents (Elt F) → (⟨S1000000, .i32⟩ : BufTy).Contents (Elt F))
          (constantI S_ 32 262144#32 : (⟨S_, .i32⟩ : BufTy).Contents (Elt F))))
      v))

/-- Row gather: row e of the result is row ix[e] of the [262144, 64] table (the gather's own clamping of the start index included). -/
def value (g : (⟨S262144x64, .f32⟩ : BufTy).Contents (Elt F)) (ix : (⟨S1000000x1, .i32⟩ : BufTy).Contents (Elt F)) :
    (⟨S1000000x64, .f32⟩ : BufTy).Contents (Elt F) :=
  (((fun x i => Host.gather gather_S262144x64_S1000000x1_S1000000x64_1_0_n_n_0_1_164 x i) : (⟨S262144x64, .f32⟩ : BufTy).Contents (Elt F) → (⟨S1000000x1, .i32⟩ : BufTy).Contents (Elt F) → (⟨S1000000x64, .f32⟩ : BufTy).Contents (Elt F))
    g
    ix)

/-- Per edge, the position row at the first index column minus the position row at the second. -/
def posDist (p : (⟨S262144x2, .f32⟩ : BufTy).Contents (Elt F)) (ixS : (⟨S1000000x1, .i32⟩ : BufTy).Contents (Elt F)) (ixP : (⟨S1000000x1, .i32⟩ : BufTy).Contents (Elt F)) :
    (⟨S1000000x2, .f32⟩ : BufTy).Contents (Elt F) :=
  ((subf : (⟨S1000000x2, .f32⟩ : BufTy).Contents (Elt F) → (⟨S1000000x2, .f32⟩ : BufTy).Contents (Elt F) → (⟨S1000000x2, .f32⟩ : BufTy).Contents (Elt F))
    (((fun x i => Host.gather gather_S262144x2_S1000000x1_S1000000x2_1_0_n_n_0_1_12 x i) : (⟨S262144x2, .f32⟩ : BufTy).Contents (Elt F) → (⟨S1000000x1, .i32⟩ : BufTy).Contents (Elt F) → (⟨S1000000x2, .f32⟩ : BufTy).Contents (Elt F))
      p
      ixS)
    (((fun x i => Host.gather gather_S262144x2_S1000000x1_S1000000x2_1_0_n_n_0_1_12 x i) : (⟨S262144x2, .f32⟩ : BufTy).Contents (Elt F) → (⟨S1000000x1, .i32⟩ : BufTy).Contents (Elt F) → (⟨S1000000x2, .f32⟩ : BufTy).Contents (Elt F))
      p
      ixP))

/-- x · W + b over rows: a [1000000, 2] array times a [2, 64] matrix, plus the bias row repeated down the rows. -/
def affine2 (x : (⟨S1000000x2, .f32⟩ : BufTy).Contents (Elt F)) (W : (⟨S2x64, .f32⟩ : BufTy).Contents (Elt F)) (b : (⟨S64, .f32⟩ : BufTy).Contents (Elt F)) :
    (⟨S1000000x64, .f32⟩ : BufTy).Contents (Elt F) :=
  ((addf : (⟨S1000000x64, .f32⟩ : BufTy).Contents (Elt F) → (⟨S1000000x64, .f32⟩ : BufTy).Contents (Elt F) → (⟨S1000000x64, .f32⟩ : BufTy).Contents (Elt F))
    (((fun l r => Host.dotGeneral dot_S1000000x2_S2x64_S1000000x64_1_0_0_1_n_n none l r) : (⟨S1000000x2, .f32⟩ : BufTy).Contents (Elt F) → (⟨S2x64, .f32⟩ : BufTy).Contents (Elt F) → (⟨S1000000x64, .f32⟩ : BufTy).Contents (Elt F))
      x
      W)
    ((broadcastInDim S1000000x64 ![0, 1] bcast_S1x64_S1000000x64_0_1 : (⟨S1x64, .f32⟩ : BufTy).Contents (Elt F) → (⟨S1000000x64, .f32⟩ : BufTy).Contents (Elt F))
      ((broadcastInDim S1x64 ![1] bcast_S64_S1x64_1 : (⟨S64, .f32⟩ : BufTy).Contents (Elt F) → (⟨S1x64, .f32⟩ : BufTy).Contents (Elt F)) b)))

/-- Leaky rectifier on [1000000, 64]: x where x ≥ 0 (ordered comparison), else 0.01 · x (the constant is the f32 nearest 0.01). -/
def leakyE (x : (⟨S1000000x64, .f32⟩ : BufTy).Contents (Elt F)) :
    (⟨S1000000x64, .f32⟩ : BufTy).Contents (Elt F) :=
  ((select : (⟨S1000000x64, .i1⟩ : BufTy).Contents (Elt F) → (⟨S1000000x64, .f32⟩ : BufTy).Contents (Elt F) → (⟨S1000000x64, .f32⟩ : BufTy).Contents (Elt F) → (⟨S1000000x64, .f32⟩ : BufTy).Contents (Elt F))
    ((cmpf .oge : (⟨S1000000x64, .f32⟩ : BufTy).Contents (Elt F) → (⟨S1000000x64, .f32⟩ : BufTy).Contents (Elt F) → (⟨S1000000x64, .i1⟩ : BufTy).Contents (Elt F))
      x
      ((broadcastInDim S1000000x64 ![] bcast_S_S1000000x64 : (⟨S_, .f32⟩ : BufTy).Contents (Elt F) → (⟨S1000000x64, .f32⟩ : BufTy).Contents (Elt F))
        (constant S_ .f32 0x00000000#32 : (⟨S_, .f32⟩ : BufTy).Contents (Elt F))))
    x
    ((mulf : (⟨S1000000x64, .f32⟩ : BufTy).Contents (Elt F) → (⟨S1000000x64, .f32⟩ : BufTy).Contents (Elt F) → (⟨S1000000x64, .f32⟩ : BufTy).Contents (Elt F))
      ((broadcastInDim S1000000x64 ![] bcast_S_S1000000x64 : (⟨S_, .f32⟩ : BufTy).Contents (Elt F) → (⟨S1000000x64, .f32⟩ : BufTy).Contents (Elt F))
        (constant S_ .f32 0x3C23D70A#32 : (⟨S_, .f32⟩ : BufTy).Contents (Elt F)))
      x))

/-- x · W + b over rows: a [1000000, 64] array times a [64, 64] matrix, plus the bias row repeated down the rows. -/
def affine64 (x : (⟨S1000000x64, .f32⟩ : BufTy).Contents (Elt F)) (W : (⟨S64x64, .f32⟩ : BufTy).Contents (Elt F)) (b : (⟨S64, .f32⟩ : BufTy).Contents (Elt F)) :
    (⟨S1000000x64, .f32⟩ : BufTy).Contents (Elt F) :=
  ((addf : (⟨S1000000x64, .f32⟩ : BufTy).Contents (Elt F) → (⟨S1000000x64, .f32⟩ : BufTy).Contents (Elt F) → (⟨S1000000x64, .f32⟩ : BufTy).Contents (Elt F))
    (((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F))
      x
      W)
    ((broadcastInDim S1000000x64 ![0, 1] bcast_S1x64_S1000000x64_0_1 : (⟨S1x64, .f32⟩ : BufTy).Contents (Elt F) → (⟨S1000000x64, .f32⟩ : BufTy).Contents (Elt F))
      ((broadcastInDim S1x64 ![1] bcast_S64_S1x64_1 : (⟨S64, .f32⟩ : BufTy).Contents (Elt F) → (⟨S1x64, .f32⟩ : BufTy).Contents (Elt F)) b)))

/-- The mean of each row of a [1000000, 64] array, as a column: the row sum (from 0) divided by 64. -/
def rowMeanE (x : (⟨S1000000x64, .f32⟩ : BufTy).Contents (Elt F)) :
    (⟨S1000000x1, .f32⟩ : BufTy).Contents (Elt F) :=
  ((Host.divf : (⟨S1000000x1, .f32⟩ : BufTy).Contents (Elt F) → (⟨S1000000x1, .f32⟩ : BufTy).Contents (Elt F) → (⟨S1000000x1, .f32⟩ : BufTy).Contents (Elt F))
    ((broadcastInDim S1000000x1 ![0] bcast_S1000000_S1000000x1_0 : (⟨S1000000, .f32⟩ : BufTy).Contents (Elt F) → (⟨S1000000x1, .f32⟩ : BufTy).Contents (Elt F))
      (((fun x v => Host.reduceAdd x v reducesTo_S1000000x64_S1000000_d1 h_S_) : (⟨S1000000x64, .f32⟩ : BufTy).Contents (Elt F) → (⟨S_, .f32⟩ : BufTy).Contents (Elt F) → (⟨S1000000, .f32⟩ : BufTy).Contents (Elt F))
        x
        (constant S_ .f32 0x00000000#32 : (⟨S_, .f32⟩ : BufTy).Contents (Elt F))))
    ((broadcastInDim S1000000x1 ![] bcast_S_S1000000x1 : (⟨S_, .f32⟩ : BufTy).Contents (Elt F) → (⟨S1000000x1, .f32⟩ : BufTy).Contents (Elt F))
      (constant S_ .f32 0x42800000#32 : (⟨S_, .f32⟩ : BufTy).Contents (Elt F))))

/-- Each row minus its mean. -/
def cenE (x : (⟨S1000000x64, .f32⟩ : BufTy).Contents (Elt F)) :
    (⟨S1000000x64, .f32⟩ : BufTy).Contents (Elt F) :=
  ((subf : (⟨S1000000x64, .f32⟩ : BufTy).Contents (Elt F) → (⟨S1000000x64, .f32⟩ : BufTy).Contents (Elt F) → (⟨S1000000x64, .f32⟩ : BufTy).Contents (Elt F))
    x
    ((broadcastInDim S1000000x64 ![0, 1] bcast_S1000000x1_S1000000x64_0_1 : (⟨S1000000x1, .f32⟩ : BufTy).Contents (Elt F) → (⟨S1000000x64, .f32⟩ : BufTy).Contents (Elt F))
      (rowMeanE x)))

/-- The variance of each row, as a column: the sum of the squared centred entries (from 0) divided by 64. -/
def rowVarE (x : (⟨S1000000x64, .f32⟩ : BufTy).Contents (Elt F)) :
    (⟨S1000000x1, .f32⟩ : BufTy).Contents (Elt F) :=
  ((Host.divf : (⟨S1000000x1, .f32⟩ : BufTy).Contents (Elt F) → (⟨S1000000x1, .f32⟩ : BufTy).Contents (Elt F) → (⟨S1000000x1, .f32⟩ : BufTy).Contents (Elt F))
    ((broadcastInDim S1000000x1 ![0] bcast_S1000000_S1000000x1_0 : (⟨S1000000, .f32⟩ : BufTy).Contents (Elt F) → (⟨S1000000x1, .f32⟩ : BufTy).Contents (Elt F))
      (((fun x v => Host.reduceAdd x v reducesTo_S1000000x64_S1000000_d1 h_S_) : (⟨S1000000x64, .f32⟩ : BufTy).Contents (Elt F) → (⟨S_, .f32⟩ : BufTy).Contents (Elt F) → (⟨S1000000, .f32⟩ : BufTy).Contents (Elt F))
        ((mulf : (⟨S1000000x64, .f32⟩ : BufTy).Contents (Elt F) → (⟨S1000000x64, .f32⟩ : BufTy).Contents (Elt F) → (⟨S1000000x64, .f32⟩ : BufTy).Contents (Elt F))
          (cenE x)
          (cenE x))
        (constant S_ .f32 0x00000000#32 : (⟨S_, .f32⟩ : BufTy).Contents (Elt F))))
    ((broadcastInDim S1000000x1 ![] bcast_S_S1000000x1 : (⟨S_, .f32⟩ : BufTy).Contents (Elt F) → (⟨S1000000x1, .f32⟩ : BufTy).Contents (Elt F))
      (constant S_ .f32 0x42800000#32 : (⟨S_, .f32⟩ : BufTy).Contents (Elt F))))

/-- Row normalisation on [1000000, 64]: (x − mean) · rsqrt(variance + 1e-5) · g + b, the scale g and shift b repeated down the rows (the constant is the f32 nearest 1e-5). -/
def gnE (x : (⟨S1000000x64, .f32⟩ : BufTy).Contents (Elt F)) (g : (⟨S64, .f32⟩ : BufTy).Contents (Elt F)) (b : (⟨S64, .f32⟩ : BufTy).Contents (Elt F)) :
    (⟨S1000000x64, .f32⟩ : BufTy).Contents (Elt F) :=
  ((addf : (⟨S1000000x64, .f32⟩ : BufTy).Contents (Elt F) → (⟨S1000000x64, .f32⟩ : BufTy).Contents (Elt F) → (⟨S1000000x64, .f32⟩ : BufTy).Contents (Elt F))
    ((mulf : (⟨S1000000x64, .f32⟩ : BufTy).Contents (Elt F) → (⟨S1000000x64, .f32⟩ : BufTy).Contents (Elt F) → (⟨S1000000x64, .f32⟩ : BufTy).Contents (Elt F))
      ((mulf : (⟨S1000000x64, .f32⟩ : BufTy).Contents (Elt F) → (⟨S1000000x64, .f32⟩ : BufTy).Contents (Elt F) → (⟨S1000000x64, .f32⟩ : BufTy).Contents (Elt F))
        (cenE x)
        ((broadcastInDim S1000000x64 ![0, 1] bcast_S1000000x1_S1000000x64_0_1 : (⟨S1000000x1, .f32⟩ : BufTy).Contents (Elt F) → (⟨S1000000x64, .f32⟩ : BufTy).Contents (Elt F))
          ((Host.rsqrt : (⟨S1000000x1, .f32⟩ : BufTy).Contents (Elt F) → (⟨S1000000x1, .f32⟩ : BufTy).Contents (Elt F))
            ((addf : (⟨S1000000x1, .f32⟩ : BufTy).Contents (Elt F) → (⟨S1000000x1, .f32⟩ : BufTy).Contents (Elt F) → (⟨S1000000x1, .f32⟩ : BufTy).Contents (Elt F))
              (rowVarE x)
              ((broadcastInDim S1000000x1 ![] bcast_S_S1000000x1 : (⟨S_, .f32⟩ : BufTy).Contents (Elt F) → (⟨S1000000x1, .f32⟩ : BufTy).Contents (Elt F))
                (constant S_ .f32 0x3727C5AC#32 : (⟨S_, .f32⟩ : BufTy).Contents (Elt F)))))))
      ((broadcastInDim S1000000x64 ![0, 1] bcast_S1x64_S1000000x64_0_1 : (⟨S1x64, .f32⟩ : BufTy).Contents (Elt F) → (⟨S1000000x64, .f32⟩ : BufTy).Contents (Elt F))
        ((broadcastInDim S1x64 ![1] bcast_S64_S1x64_1 : (⟨S64, .f32⟩ : BufTy).Contents (Elt F) → (⟨S1x64, .f32⟩ : BufTy).Contents (Elt F)) g)))
    ((broadcastInDim S1000000x64 ![0, 1] bcast_S1x64_S1000000x64_0_1 : (⟨S1x64, .f32⟩ : BufTy).Contents (Elt F) → (⟨S1000000x64, .f32⟩ : BufTy).Contents (Elt F))
      ((broadcastInDim S1x64 ![1] bcast_S64_S1x64_1 : (⟨S64, .f32⟩ : BufTy).Contents (Elt F) → (⟨S1x64, .f32⟩ : BufTy).Contents (Elt F)) b)))

/-- The entrywise sum of two [1000000, 64] arrays. -/
def sumE (a : (⟨S1000000x64, .f32⟩ : BufTy).Contents (Elt F)) (d : (⟨S1000000x64, .f32⟩ : BufTy).Contents (Elt F)) :
    (⟨S1000000x64, .f32⟩ : BufTy).Contents (Elt F) :=
  ((addf : (⟨S1000000x64, .f32⟩ : BufTy).Contents (Elt F) → (⟨S1000000x64, .f32⟩ : BufTy).Contents (Elt F) → (⟨S1000000x64, .f32⟩ : BufTy).Contents (Elt F))
    a
    d)

/-- Each row of a [1000000, 64] array times that row's weight. -/
def scaleW (x : (⟨S1000000x64, .f32⟩ : BufTy).Contents (Elt F)) (w : (⟨S1000000, .f32⟩ : BufTy).Contents (Elt F)) :
    (⟨S1000000x64, .f32⟩ : BufTy).Contents (Elt F) :=
  ((mulf : (⟨S1000000x64, .f32⟩ : BufTy).Contents (Elt F) → (⟨S1000000x64, .f32⟩ : BufTy).Contents (Elt F) → (⟨S1000000x64, .f32⟩ : BufTy).Contents (Elt F))
    x
    ((broadcastInDim S1000000x64 ![0, 1] bcast_S1000000x1_S1000000x64_0_1 : (⟨S1000000x1, .f32⟩ : BufTy).Contents (Elt F) → (⟨S1000000x64, .f32⟩ : BufTy).Contents (Elt F))
      ((broadcastInDim S1000000x1 ![0] bcast_S1000000_S1000000x1_0 : (⟨S1000000, .f32⟩ : BufTy).Contents (Elt F) → (⟨S1000000x1, .f32⟩ : BufTy).Contents (Elt F))
        w)))

/-- Scatter-add of the rows of u into a [262144, 64] table of zeros: row e of u is added at row ix[e]. -/
def copy (u : (⟨S1000000x64, .f32⟩ : BufTy).Contents (Elt F)) (ix : (⟨S1000000x1, .i32⟩ : BufTy).Contents (Elt F)) :
    (⟨S262144x64, .f32⟩ : BufTy).Contents (Elt F) :=
  (((fun x i u => Host.scatterAdd scatter_S262144x64_S1000000x1_S1000000x64_1_0_0_1 x i u) : (⟨S262144x64, .f32⟩ : BufTy).Contents (Elt F) → (⟨S1000000x1, .i32⟩ : BufTy).Contents (Elt F) → (⟨S1000000x64, .f32⟩ : BufTy).Contents (Elt F) → (⟨S262144x64, .f32⟩ : BufTy).Contents (Elt F))
    ((broadcastInDim S262144x64 ![] bcast_S_S262144x64 : (⟨S_, .f32⟩ : BufTy).Contents (Elt F) → (⟨S262144x64, .f32⟩ : BufTy).Contents (Elt F))
      (constant S_ .f32 0x00000000#32 : (⟨S_, .f32⟩ : BufTy).Contents (Elt F)))
    ix
    u)

/-- The mean of each row of a [262144, 64] array, as a column: the row sum (from 0) divided by 64. -/
def rowMeanN (x : (⟨S262144x64, .f32⟩ : BufTy).Contents (Elt F)) :
    (⟨S262144x1, .f32⟩ : BufTy).Contents (Elt F) :=
  ((Host.divf : (⟨S262144x1, .f32⟩ : BufTy).Contents (Elt F) → (⟨S262144x1, .f32⟩ : BufTy).Contents (Elt F) → (⟨S262144x1, .f32⟩ : BufTy).Contents (Elt F))
    ((broadcastInDim S262144x1 ![0] bcast_S262144_S262144x1_0 : (⟨S262144, .f32⟩ : BufTy).Contents (Elt F) → (⟨S262144x1, .f32⟩ : BufTy).Contents (Elt F))
      (((fun x v => Host.reduceAdd x v reducesTo_S262144x64_S262144_d1 h_S_) : (⟨S262144x64, .f32⟩ : BufTy).Contents (Elt F) → (⟨S_, .f32⟩ : BufTy).Contents (Elt F) → (⟨S262144, .f32⟩ : BufTy).Contents (Elt F))
        x
        (constant S_ .f32 0x00000000#32 : (⟨S_, .f32⟩ : BufTy).Contents (Elt F))))
    ((broadcastInDim S262144x1 ![] bcast_S_S262144x1 : (⟨S_, .f32⟩ : BufTy).Contents (Elt F) → (⟨S262144x1, .f32⟩ : BufTy).Contents (Elt F))
      (constant S_ .f32 0x42800000#32 : (⟨S_, .f32⟩ : BufTy).Contents (Elt F))))

/-- Each row minus its mean. -/
def cenN (x : (⟨S262144x64, .f32⟩ : BufTy).Contents (Elt F)) :
    (⟨S262144x64, .f32⟩ : BufTy).Contents (Elt F) :=
  ((subf : (⟨S262144x64, .f32⟩ : BufTy).Contents (Elt F) → (⟨S262144x64, .f32⟩ : BufTy).Contents (Elt F) → (⟨S262144x64, .f32⟩ : BufTy).Contents (Elt F))
    x
    ((broadcastInDim S262144x64 ![0, 1] bcast_S262144x1_S262144x64_0_1 : (⟨S262144x1, .f32⟩ : BufTy).Contents (Elt F) → (⟨S262144x64, .f32⟩ : BufTy).Contents (Elt F))
      (rowMeanN x)))

/-- The variance of each row, as a column: the sum of the squared centred entries (from 0) divided by 64. -/
def rowVarN (x : (⟨S262144x64, .f32⟩ : BufTy).Contents (Elt F)) :
    (⟨S262144x1, .f32⟩ : BufTy).Contents (Elt F) :=
  ((Host.divf : (⟨S262144x1, .f32⟩ : BufTy).Contents (Elt F) → (⟨S262144x1, .f32⟩ : BufTy).Contents (Elt F) → (⟨S262144x1, .f32⟩ : BufTy).Contents (Elt F))
    ((broadcastInDim S262144x1 ![0] bcast_S262144_S262144x1_0 : (⟨S262144, .f32⟩ : BufTy).Contents (Elt F) → (⟨S262144x1, .f32⟩ : BufTy).Contents (Elt F))
      (((fun x v => Host.reduceAdd x v reducesTo_S262144x64_S262144_d1 h_S_) : (⟨S262144x64, .f32⟩ : BufTy).Contents (Elt F) → (⟨S_, .f32⟩ : BufTy).Contents (Elt F) → (⟨S262144, .f32⟩ : BufTy).Contents (Elt F))
        ((mulf : (⟨S262144x64, .f32⟩ : BufTy).Contents (Elt F) → (⟨S262144x64, .f32⟩ : BufTy).Contents (Elt F) → (⟨S262144x64, .f32⟩ : BufTy).Contents (Elt F))
          (cenN x)
          (cenN x))
        (constant S_ .f32 0x00000000#32 : (⟨S_, .f32⟩ : BufTy).Contents (Elt F))))
    ((broadcastInDim S262144x1 ![] bcast_S_S262144x1 : (⟨S_, .f32⟩ : BufTy).Contents (Elt F) → (⟨S262144x1, .f32⟩ : BufTy).Contents (Elt F))
      (constant S_ .f32 0x42800000#32 : (⟨S_, .f32⟩ : BufTy).Contents (Elt F))))

/-- Row normalisation on [262144, 64]: (x − mean) · rsqrt(variance + 1e-5) · g + b, the scale g and shift b repeated down the rows. -/
def gnN (x : (⟨S262144x64, .f32⟩ : BufTy).Contents (Elt F)) (g : (⟨S64, .f32⟩ : BufTy).Contents (Elt F)) (b : (⟨S64, .f32⟩ : BufTy).Contents (Elt F)) :
    (⟨S262144x64, .f32⟩ : BufTy).Contents (Elt F) :=
  ((addf : (⟨S262144x64, .f32⟩ : BufTy).Contents (Elt F) → (⟨S262144x64, .f32⟩ : BufTy).Contents (Elt F) → (⟨S262144x64, .f32⟩ : BufTy).Contents (Elt F))
    ((mulf : (⟨S262144x64, .f32⟩ : BufTy).Contents (Elt F) → (⟨S262144x64, .f32⟩ : BufTy).Contents (Elt F) → (⟨S262144x64, .f32⟩ : BufTy).Contents (Elt F))
      ((mulf : (⟨S262144x64, .f32⟩ : BufTy).Contents (Elt F) → (⟨S262144x64, .f32⟩ : BufTy).Contents (Elt F) → (⟨S262144x64, .f32⟩ : BufTy).Contents (Elt F))
        (cenN x)
        ((broadcastInDim S262144x64 ![0, 1] bcast_S262144x1_S262144x64_0_1 : (⟨S262144x1, .f32⟩ : BufTy).Contents (Elt F) → (⟨S262144x64, .f32⟩ : BufTy).Contents (Elt F))
          ((Host.rsqrt : (⟨S262144x1, .f32⟩ : BufTy).Contents (Elt F) → (⟨S262144x1, .f32⟩ : BufTy).Contents (Elt F))
            ((addf : (⟨S262144x1, .f32⟩ : BufTy).Contents (Elt F) → (⟨S262144x1, .f32⟩ : BufTy).Contents (Elt F) → (⟨S262144x1, .f32⟩ : BufTy).Contents (Elt F))
              (rowVarN x)
              ((broadcastInDim S262144x1 ![] bcast_S_S262144x1 : (⟨S_, .f32⟩ : BufTy).Contents (Elt F) → (⟨S262144x1, .f32⟩ : BufTy).Contents (Elt F))
                (constant S_ .f32 0x3727C5AC#32 : (⟨S_, .f32⟩ : BufTy).Contents (Elt F)))))))
      ((broadcastInDim S262144x64 ![0, 1] bcast_S1x64_S262144x64_0_1 : (⟨S1x64, .f32⟩ : BufTy).Contents (Elt F) → (⟨S262144x64, .f32⟩ : BufTy).Contents (Elt F))
        ((broadcastInDim S1x64 ![1] bcast_S64_S1x64_1 : (⟨S64, .f32⟩ : BufTy).Contents (Elt F) → (⟨S1x64, .f32⟩ : BufTy).Contents (Elt F)) g)))
    ((broadcastInDim S262144x64 ![0, 1] bcast_S1x64_S262144x64_0_1 : (⟨S1x64, .f32⟩ : BufTy).Contents (Elt F) → (⟨S262144x64, .f32⟩ : BufTy).Contents (Elt F))
      ((broadcastInDim S1x64 ![1] bcast_S64_S1x64_1 : (⟨S64, .f32⟩ : BufTy).Contents (Elt F) → (⟨S1x64, .f32⟩ : BufTy).Contents (Elt F)) b)))

/-- Which rows receive an edge: a vector of 262144 bits, all false, set to true at every row ix[e]. -/
def maskB (ix : (⟨S1000000x1, .i32⟩ : BufTy).Contents (Elt F)) :
    (⟨S262144, .i1⟩ : BufTy).Contents (Elt F) :=
  (((fun x i u => Host.scatter scatter_S262144_S1000000x1_S1000000_n_0_0_1 (fun _ b => b) x i u) : (⟨S262144, .i1⟩ : BufTy).Contents (Elt F) → (⟨S1000000x1, .i32⟩ : BufTy).Contents (Elt F) → (⟨S1000000, .i1⟩ : BufTy).Contents (Elt F) → (⟨S262144, .i1⟩ : BufTy).Contents (Elt F))
    ((broadcastInDim S262144 ![] bcast_S_S262144 : (⟨S_, .i1⟩ : BufTy).Contents (Elt F) → (⟨S262144, .i1⟩ : BufTy).Contents (Elt F))
      (constantI S_ 1 0#1 : (⟨S_, .i1⟩ : BufTy).Contents (Elt F)))
    ix
    ((broadcastInDim S1000000 ![] bcast_S_S1000000 : (⟨S_, .i1⟩ : BufTy).Contents (Elt F) → (⟨S1000000, .i1⟩ : BufTy).Contents (Elt F))
      (constantI S_ 1 1#1 : (⟨S_, .i1⟩ : BufTy).Contents (Elt F))))

/-- [gf | cn] · Wf + bf: the two [262144, 64] arrays side by side as [262144, 128], times a [128, 64] matrix, plus the bias row repeated down the rows. -/
def fusePre (gf : (⟨S262144x64, .f32⟩ : BufTy).Contents (Elt F)) (cn : (⟨S262144x64, .f32⟩ : BufTy).Contents (Elt F)) (Wf : (⟨S128x64, .f32⟩ : BufTy).Contents (Elt F)) (bf : (⟨S64, .f32⟩ : BufTy).Contents (Elt F)) :
    (⟨S262144x64, .f32⟩ : BufTy).Contents (Elt F) :=
  ((addf : (⟨S262144x64, .f32⟩ : BufTy).Contents (Elt F) → (⟨S262144x64, .f32⟩ : BufTy).Contents (Elt F) → (⟨S262144x64, .f32⟩ : BufTy).Contents (Elt F))
    (((fun l r => Host.dotGeneral dot_S262144x128_S128x64_S262144x64_1_0_0_1_n_n none l r) : (⟨S262144x128, .f32⟩ : BufTy).Contents (Elt F) → (⟨S128x64, .f32⟩ : BufTy).Contents (Elt F) → (⟨S262144x64, .f32⟩ : BufTy).Contents (Elt F))
      (((fun a b => concatenate S262144x128 1 [⟨S262144x64, a⟩, ⟨S262144x64, b⟩] concatenates_S262144x64_S262144x64_S262144x128_d1) : (⟨S262144x64, .f32⟩ : BufTy).Contents (Elt F) → (⟨S262144x64, .f32⟩ : BufTy).Contents (Elt F) → (⟨S262144x128, .f32⟩ : BufTy).Contents (Elt F))
        gf
        cn)
      Wf)
    ((broadcastInDim S262144x64 ![0, 1] bcast_S1x64_S262144x64_0_1 : (⟨S1x64, .f32⟩ : BufTy).Contents (Elt F) → (⟨S262144x64, .f32⟩ : BufTy).Contents (Elt F))
      ((broadcastInDim S1x64 ![1] bcast_S64_S1x64_1 : (⟨S64, .f32⟩ : BufTy).Contents (Elt F) → (⟨S1x64, .f32⟩ : BufTy).Contents (Elt F)) bf)))

/-- Leaky rectifier on [262144, 64]: x where x ≥ 0 (ordered comparison), else 0.01 · x. -/
def leakyN (x : (⟨S262144x64, .f32⟩ : BufTy).Contents (Elt F)) :
    (⟨S262144x64, .f32⟩ : BufTy).Contents (Elt F) :=
  ((select : (⟨S262144x64, .i1⟩ : BufTy).Contents (Elt F) → (⟨S262144x64, .f32⟩ : BufTy).Contents (Elt F) → (⟨S262144x64, .f32⟩ : BufTy).Contents (Elt F) → (⟨S262144x64, .f32⟩ : BufTy).Contents (Elt F))
    ((cmpf .oge : (⟨S262144x64, .f32⟩ : BufTy).Contents (Elt F) → (⟨S262144x64, .f32⟩ : BufTy).Contents (Elt F) → (⟨S262144x64, .i1⟩ : BufTy).Contents (Elt F))
      x
      ((broadcastInDim S262144x64 ![] bcast_S_S262144x64 : (⟨S_, .f32⟩ : BufTy).Contents (Elt F) → (⟨S262144x64, .f32⟩ : BufTy).Contents (Elt F))
        (constant S_ .f32 0x00000000#32 : (⟨S_, .f32⟩ : BufTy).Contents (Elt F))))
    x
    ((mulf : (⟨S262144x64, .f32⟩ : BufTy).Contents (Elt F) → (⟨S262144x64, .f32⟩ : BufTy).Contents (Elt F) → (⟨S262144x64, .f32⟩ : BufTy).Contents (Elt F))
      ((broadcastInDim S262144x64 ![] bcast_S_S262144x64 : (⟨S_, .f32⟩ : BufTy).Contents (Elt F) → (⟨S262144x64, .f32⟩ : BufTy).Contents (Elt F))
        (constant S_ .f32 0x3C23D70A#32 : (⟨S_, .f32⟩ : BufTy).Contents (Elt F)))
      x))

/-- Row selection: row r of the result is row r of a where bit r of m is set, else row r of b. -/
def pick (m : (⟨S262144, .i1⟩ : BufTy).Contents (Elt F)) (a : (⟨S262144x64, .f32⟩ : BufTy).Contents (Elt F)) (b : (⟨S262144x64, .f32⟩ : BufTy).Contents (Elt F)) :
    (⟨S262144x64, .f32⟩ : BufTy).Contents (Elt F) :=
  ((select : (⟨S262144x64, .i1⟩ : BufTy).Contents (Elt F) → (⟨S262144x64, .f32⟩ : BufTy).Contents (Elt F) → (⟨S262144x64, .f32⟩ : BufTy).Contents (Elt F) → (⟨S262144x64, .f32⟩ : BufTy).Contents (Elt F))
    ((broadcastInDim S262144x64 ![0, 1] bcast_S262144x1_S262144x64_0_1 : (⟨S262144x1, .i1⟩ : BufTy).Contents (Elt F) → (⟨S262144x64, .i1⟩ : BufTy).Contents (Elt F))
      ((broadcastInDim S262144x1 ![0] bcast_S262144_S262144x1_0 : (⟨S262144, .i1⟩ : BufTy).Contents (Elt F) → (⟨S262144x1, .i1⟩ : BufTy).Contents (Elt F))
        m))
    a
    b)

/-- The reference's result from its eighteen arguments: the edge values gathered at the source rows plus the
    normalised embedding of the position differences, mixed, weighted and summed into the target rows, normalised,
    fused with the node features, normalised and rectified; rows that receive no edge keep their features; read at
    extent [4, 16, 4096, 64]. -/
def RefVal (a0 : (⟨S4x16x4096x64, .f32⟩ : BufTy).Contents (Elt F))
    (a1 : (⟨S1x16x4096x2, .f32⟩ : BufTy).Contents (Elt F))
    (a2 : (⟨S1000000x4, .i32⟩ : BufTy).Contents (Elt F))
    (a3 : (⟨S1000000, .f32⟩ : BufTy).Contents (Elt F))
    (a4 : (⟨S2x64, .f32⟩ : BufTy).Contents (Elt F))
    (a5 : (⟨S64, .f32⟩ : BufTy).Contents (Elt F))
    (a6 : (⟨S64x64, .f32⟩ : BufTy).Contents (Elt F))
    (a7 : (⟨S64, .f32⟩ : BufTy).Contents (Elt F))
    (a8 : (⟨S64, .f32⟩ : BufTy).Contents (Elt F))
    (a9 : (⟨S64, .f32⟩ : BufTy).Contents (Elt F))
    (a10 : (⟨S64x64, .f32⟩ : BufTy).Contents (Elt F))
    (a11 : (⟨S64, .f32⟩ : BufTy).Contents (Elt F))
    (a12 : (⟨S64, .f32⟩ : BufTy).Contents (Elt F))
    (a13 : (⟨S64, .f32⟩ : BufTy).Contents (Elt F))
    (a14 : (⟨S128x64, .f32⟩ : BufTy).Contents (Elt F))
    (a15 : (⟨S64, .f32⟩ : BufTy).Contents (Elt F))
    (a16 : (⟨S64, .f32⟩ : BufTy).Contents (Elt F))
    (a17 : (⟨S64, .f32⟩ : BufTy).Contents (Elt F)) :
    (⟨S4x16x4096x64, .f32⟩ : BufTy).Contents (Elt F) :=
  shapeCast S4x16x4096x64
    (pick (maskB (wrapCol (flatSuc a2)))
      (leakyN
        (gnN
          (fusePre (gf2 a0)
            (gnN
              (copy
                (scaleW
                  (affine64
                    (sumE (value (gf2 a0) (wrapCol (flatPre a2)))
                      (gnE
                        (affine64
                          (leakyE (affine2 (posDist (pos2 a1) (wrapCol (flatSuc a2)) (wrapCol (flatPre a2))) a4 a5))
                          a6 a7)
                        a8 a9))
                    a10 a11)
                  a3)
                (wrapCol (flatSuc a2)))
              a12 a13)
            a14 a15)
          a16 a17))
      (gf2 a0))
    shapeCasts_S262144x64_S4x16x4096x64

end Cert.ReferenceIdeal.Hand

end
-- ==== Proof.LibAfterAppend.lean ====
/-
  A general lemma on straight lines of host operations: the buffer contents after two stretches run one after the
  other are the contents after their concatenation — so a long line can be read stretch by stretch.
-/
import Idealize.ShloMosaic.Lib.StableHlo.Run

namespace Cert.LibAfterAppend

open Idealize.ShloMosaic Idealize.ShloMosaic.StableHlo

/-- The contents after `l₁ ++ l₂` from `V` are the contents after `l₂` from the contents after `l₁` from `V`, for any
    topology, buffer signature and value types. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfterAppend
-- ==== Proof.RefRun.lean ====
/-
  The reference function's value, read off its run.

  The straight line of 208 operations is cut into seventeen consecutive stretches.  For each stretch and ANY buffer
  contents it starts from: the buffer that carries the stretch's result holds the corresponding stage of
  `RefStages` applied to the contents of the stretch's input buffers, and every buffer the stretch does not write is
  unchanged.  Chained through the stretches, the result buffer ends at `RefVal` of the arguments' launch contents
  and the arguments are unchanged; no composed term of the whole line is ever formed.
-/
import proofs.«164651_j61959198212617_2_alg».proof.Proof.RefOps
import proofs.«164651_j61959198212617_2_alg».proof.Proof.RefStages
import proofs.«164651_j61959198212617_2_alg».proof.Proof.LibAfterAppend

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- An operation whose one written buffer is among a list of references writes only within that list. -/
theorem writes_sub_of_mem {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map.mpr ⟨y, hy, rfl⟩

/-- Stretch 1: the node features and the node positions as rows. -/
def s1 : List (HloOp τ sig (Elt F)) :=
  [ StableHlo.reshape main_arg0 main_v0 rfl shapeCasts_S4x16x4096x64_S262144x64,
    StableHlo.unary main_arg1 main_v1 (broadcastInDim S4x16x4096x2 ![0, 1, 2, 3] bcast_S1x16x4096x2_S4x16x4096x2_0_1_2_3 : (⟨S1x16x4096x2, .f32⟩ : BufTy).Contents (Elt F) → (⟨S4x16x4096x2, .f32⟩ : BufTy).Contents (Elt F)),
    StableHlo.reshape main_v1 main_v2 rfl shapeCasts_S4x16x4096x2_S262144x2 ]

/-- The buffers stretch 1 writes. -/
def outs1 : List (Ref sig .tc) := [main_v0, main_v1, main_v2]

theorem s1_writes : (s1 (F := F)).Forall fun op => op.writes ⊆ (outs1.map (Proc.devRef (τ := τ) .tc)).toFinset := by
  unfold s1
  exact ⟨writes_sub_of_mem main_v0 rfl (by decide),
    writes_sub_of_mem main_v1 rfl (by decide),
    writes_sub_of_mem main_v2 rfl (by decide)⟩

/-- Stretch 1 leaves every buffer it does not write as it was. -/
theorem s1_frame (W : Valuation τ sig (Elt F)) {r : Ref sig .tc} (hr : r ∉ outs1) :
    after s1 W (r : DevRef τ sig) = W (r : DevRef τ sig) :=
  after_of_writes_sub s1 W s1_writes hr

/-- After stretch 1, from any contents: the node features and the node positions as rows. -/
theorem s1_v0 (W : Valuation τ sig (Elt F)) :
    after s1 W (main_v0 : DevRef τ sig) = gf2 (W (main_arg0 : DevRef τ sig)) := by
  unfold s1
  after_results_simp
  rfl

/-- After stretch 1, from any contents: the node features and the node positions as rows. -/
theorem s1_v2 (W : Valuation τ sig (Elt F)) :
    after s1 W (main_v2 : DevRef τ sig) = pos2 (W (main_arg1 : DevRef τ sig)) := by
  unfold s1
  after_results_simp
  rfl

/-- Stretch 2: the two flat row indices of every edge. -/
def s2 : List (HloOp τ sig (Elt F)) :=
  [ StableHlo.unary main_arg2 main_v3 ((extractStridedSlice S1000000x1 ![0, 0] · slices_S1000000x4_S1000000x1_0_0) : (⟨S1000000x4, .i32⟩ : BufTy).Contents (Elt F) → (⟨S1000000x1, .i32⟩ : BufTy).Contents (Elt F)),
    StableHlo.reshape main_v3 main_v4 rfl shapeCasts_S1000000x1_S1000000,
    StableHlo.unary main_arg2 main_v5 ((extractStridedSlice S1000000x1 ![0, 1] · slices_S1000000x4_S1000000x1_0_1) : (⟨S1000000x4, .i32⟩ : BufTy).Contents (Elt F) → (⟨S1000000x1, .i32⟩ : BufTy).Contents (Elt F)),
    StableHlo.reshape main_v5 main_v6 rfl shapeCasts_S1000000x1_S1000000,
    StableHlo.unary main_arg2 main_v7 ((extractStridedSlice S1000000x1 ![0, 2] · slices_S1000000x4_S1000000x1_0_2) : (⟨S1000000x4, .i32⟩ : BufTy).Contents (Elt F) → (⟨S1000000x1, .i32⟩ : BufTy).Contents (Elt F)),
    StableHlo.reshape main_v7 main_v8 rfl shapeCasts_S1000000x1_S1000000,
    StableHlo.unary main_arg2 main_v9 ((extractStridedSlice S1000000x1 ![0, 3] · slices_S1000000x4_S1000000x1_0_3) : (⟨S1000000x4, .i32⟩ : BufTy).Contents (Elt F) → (⟨S1000000x1, .i32⟩ : BufTy).Contents (Elt F)),
    StableHlo.reshape main_v9 main_v10 rfl shapeCasts_S1000000x1_S1000000,
    StableHlo.nullary main_c (constantI S_ 32 16#32),
    StableHlo.unary main_c main_v11 (broadcastInDim S1000000 ![] bcast_S_S1000000 : (⟨S_, .i32⟩ : BufTy).Contents (Elt F) → (⟨S1000000, .i32⟩ : BufTy).Contents (Elt F)),
    StableHlo.binary main_v4 main_v11 main_v12 (muli : (⟨S1000000, .i32⟩ : BufTy).Contents (Elt F) → (⟨S1000000, .i32⟩ : BufTy).Contents (Elt F) → (⟨S1000000, .i32⟩ : BufTy).Contents (Elt F)),
    StableHlo.binary main_v12 main_v6 main_v13 (addi : (⟨S1000000, .i32⟩ : BufTy).Contents (Elt F) → (⟨S1000000, .i32⟩ : BufTy).Contents (Elt F) → (⟨S1000000, .i32⟩ : BufTy).Contents (Elt F)),
    StableHlo.nullary main_c_0 (constantI S_ 32 4096#32),
    StableHlo.unary main_c_0 main_v14 (broadcastInDim S1000000 ![] bcast_S_S1000000 : (⟨S_, .i32⟩ : BufTy).Contents (Elt F) → (⟨S1000000, .i32⟩ : BufTy).Contents (Elt F)),
    StableHlo.binary main_v13 main_v14 main_v15 (muli : (⟨S1000000, .i32⟩ : BufTy).Contents (Elt F) → (⟨S1000000, .i32⟩ : BufTy).Contents (Elt F) → (⟨S1000000, .i32⟩ : BufTy).Contents (Elt F)),
    StableHlo.binary main_v15 main_v8 main_v16 (addi : (⟨S1000000, .i32⟩ : BufTy).Contents (Elt F) → (⟨S1000000, .i32⟩ : BufTy).Contents (Elt F) → (⟨S1000000, .i32⟩ : BufTy).Contents (Elt F)),
    StableHlo.nullary main_c_1 (constantI S_ 32 16#32),
    StableHlo.unary main_c_1 main_v17 (broadcastInDim S1000000 ![] bcast_S_S1000000 : (⟨S_, .i32⟩ : BufTy).Contents (Elt F) → (⟨S1000000, .i32⟩ : BufTy).Contents (Elt F)),
    StableHlo.binary main_v4 main_v17 main_v18 (muli : (⟨S1000000, .i32⟩ : BufTy).Contents (Elt F) → (⟨S1000000, .i32⟩ : BufTy).Contents (Elt F) → (⟨S1000000, .i32⟩ : BufTy).Contents (Elt F)),
    StableHlo.binary main_v18 main_v6 main_v19 (addi : (⟨S1000000, .i32⟩ : BufTy).Contents (Elt F) → (⟨S1000000, .i32⟩ : BufTy).Contents (Elt F) → (⟨S1000000, .i32⟩ : BufTy).Contents (Elt F)),
    StableHlo.nullary main_c_2 (constantI S_ 32 1#32),
    StableHlo.unary main_c_2 main_v20 (broadcastInDim S1000000 ![] bcast_S_S1000000 : (⟨S_, .i32⟩ : BufTy).Contents (Elt F) → (⟨S1000000, .i32⟩ : BufTy).Contents (Elt F)),
    StableHlo.binary main_v19 main_v20 main_v21 (addi : (⟨S1000000, .i32⟩ : BufTy).Contents (Elt F) → (⟨S1000000, .i32⟩ : BufTy).Contents (Elt F) → (⟨S1000000, .i32⟩ : BufTy).Contents (Elt F)),
    StableHlo.nullary main_c_3 (constantI S_ 32 4096#32),
    StableHlo.unary main_c_3 main_v22 (broadcastInDim S1000000 ![] bcast_S_S1000000 : (⟨S_, .i32⟩ : BufTy).Contents (Elt F) → (⟨S1000000, .i32⟩ : BufTy).Contents (Elt F)),
    StableHlo.binary main_v21 main_v22 main_v23 (muli : (⟨S1000000, .i32⟩ : BufTy).Contents (Elt F) → (⟨S1000000, .i32⟩ : BufTy).Contents (Elt F) → (⟨S1000000, .i32⟩ : BufTy).Contents (Elt F)),
    StableHlo.binary main_v23 main_v10 main_v24 (addi : (⟨S1000000, .i32⟩ : BufTy).Contents (Elt F) → (⟨S1000000, .i32⟩ : BufTy).Contents (Elt F) → (⟨S1000000, .i32⟩ : BufTy).Contents (Elt F)) ]

/-- The buffers stretch 2 writes. -/
def outs2 : List (Ref sig .tc) := [main_v3, main_v4, main_v5, main_v6, main_v7, main_v8, main_v9, main_v10, main_c, main_v11, main_v12, main_v13, main_c_0, main_v14, main_v15, main_v16, main_c_1, main_v17, main_v18, main_v19, main_c_2, main_v20, main_v21, main_c_3, main_v22, main_v23, main_v24]

theorem s2_writes : (s2 (F := F)).Forall fun op => op.writes ⊆ (outs2.map (Proc.devRef (τ := τ) .tc)).toFinset := by
  unfold s2
  exact ⟨writes_sub_of_mem main_v3 rfl (by decide),
    writes_sub_of_mem main_v4 rfl (by decide),
    writes_sub_of_mem main_v5 rfl (by decide),
    writes_sub_of_mem main_v6 rfl (by decide),
    writes_sub_of_mem main_v7 rfl (by decide),
    writes_sub_of_mem main_v8 rfl (by decide),
    writes_sub_of_mem main_v9 rfl (by decide),
    writes_sub_of_mem main_v10 rfl (by decide),
    writes_sub_of_mem main_c rfl (by decide),
    writes_sub_of_mem main_v11 rfl (by decide),
    writes_sub_of_mem main_v12 rfl (by decide),
    writes_sub_of_mem main_v13 rfl (by decide),
    writes_sub_of_mem main_c_0 rfl (by decide),
    writes_sub_of_mem main_v14 rfl (by decide),
    writes_sub_of_mem main_v15 rfl (by decide),
    writes_sub_of_mem main_v16 rfl (by decide),
    writes_sub_of_mem main_c_1 rfl (by decide),
    writes_sub_of_mem main_v17 rfl (by decide),
    writes_sub_of_mem main_v18 rfl (by decide),
    writes_sub_of_mem main_v19 rfl (by decide),
    writes_sub_of_mem main_c_2 rfl (by decide),
    writes_sub_of_mem main_v20 rfl (by decide),
    writes_sub_of_mem main_v21 rfl (by decide),
    writes_sub_of_mem main_c_3 rfl (by decide),
    writes_sub_of_mem main_v22 rfl (by decide),
    writes_sub_of_mem main_v23 rfl (by decide),
    writes_sub_of_mem main_v24 rfl (by decide)⟩

/-- Stretch 2 leaves every buffer it does not write as it was. -/
theorem s2_frame (W : Valuation τ sig (Elt F)) {r : Ref sig .tc} (hr : r ∉ outs2) :
    after s2 W (r : DevRef τ sig) = W (r : DevRef τ sig) :=
  after_of_writes_sub s2 W s2_writes hr

/-- After stretch 2, from any contents: the two flat row indices of every edge. -/
theorem s2_v16 (W : Valuation τ sig (Elt F)) :
    after s2 W (main_v16 : DevRef τ sig) = flatPre (W (main_arg2 : DevRef τ sig)) := by
  unfold s2
  after_results_simp
  rfl

/-- After stretch 2, from any contents: the two flat row indices of every edge. -/
theorem s2_v24 (W : Valuation τ sig (Elt F)) :
    after s2 W (main_v24 : DevRef τ sig) = flatSuc (W (main_arg2 : DevRef τ sig)) := by
  unfold s2
  after_results_simp
  rfl

/-- Stretch 3: the feature rows gathered at the source rows. -/
def s3 : List (HloOp τ sig (Elt F)) :=
  [ StableHlo.nullary main_c_4 (constantI S_ 32 0#32),
    StableHlo.unary main_c_4 main_v25 (broadcastInDim S1000000 ![] bcast_S_S1000000 : (⟨S_, .i32⟩ : BufTy).Contents (Elt F) → (⟨S1000000, .i32⟩ : BufTy).Contents (Elt F)),
    StableHlo.binary main_v16 main_v25 main_v26 (cmpi .slt : (⟨S1000000, .i32⟩ : BufTy).Contents (Elt F) → (⟨S1000000, .i32⟩ : BufTy).Contents (Elt F) → (⟨S1000000, .i1⟩ : BufTy).Contents (Elt F)),
    StableHlo.nullary main_c_5 (constantI S_ 32 262144#32),
    StableHlo.unary main_c_5 main_v27 (broadcastInDim S1000000 ![] bcast_S_S1000000 : (⟨S_, .i32⟩ : BufTy).Contents (Elt F) → (⟨S1000000, .i32⟩ : BufTy).Contents (Elt F)),
    StableHlo.binary main_v16 main_v27 main_v28 (addi : (⟨S1000000, .i32⟩ : BufTy).Contents (Elt F) → (⟨S1000000, .i32⟩ : BufTy).Contents (Elt F) → (⟨S1000000, .i32⟩ : BufTy).Contents (Elt F)),
    StableHlo.ternary main_v26 main_v28 main_v16 main_v29 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v29 main_v30 (broadcastInDim S1000000x1 ![0] bcast_S1000000_S1000000x1_0 : (⟨S1000000, .i32⟩ : BufTy).Contents (Elt F) → (⟨S1000000x1, .i32⟩ : BufTy).Contents (Elt F)),
    StableHlo.binary main_v0 main_v30 main_v31 ((fun x i => Host.gather gather_S262144x64_S1000000x1_S1000000x64_1_0_n_n_0_1_164 x i) : (⟨S262144x64, .f32⟩ : BufTy).Contents (Elt F) → (⟨S1000000x1, .i32⟩ : BufTy).Contents (Elt F) → (⟨S1000000x64, .f32⟩ : BufTy).Contents (Elt F)) ]

/-- The buffers stretch 3 writes. -/
def outs3 : List (Ref sig .tc) := [main_c_4, main_v25, main_v26, main_c_5, main_v27, main_v28, main_v29, main_v30, main_v31]

theorem s3_writes : (s3 (F := F)).Forall fun op => op.writes ⊆ (outs3.map (Proc.devRef (τ := τ) .tc)).toFinset := by
  unfold s3
  exact ⟨writes_sub_of_mem main_c_4 rfl (by decide),
    writes_sub_of_mem main_v25 rfl (by decide),
    writes_sub_of_mem main_v26 rfl (by decide),
    writes_sub_of_mem main_c_5 rfl (by decide),
    writes_sub_of_mem main_v27 rfl (by decide),
    writes_sub_of_mem main_v28 rfl (by decide),
    writes_sub_of_mem main_v29 rfl (by decide),
    writes_sub_of_mem main_v30 rfl (by decide),
    writes_sub_of_mem main_v31 rfl (by decide)⟩

/-- Stretch 3 leaves every buffer it does not write as it was. -/
theorem s3_frame (W : Valuation τ sig (Elt F)) {r : Ref sig .tc} (hr : r ∉ outs3) :
    after s3 W (r : DevRef τ sig) = W (r : DevRef τ sig) :=
  after_of_writes_sub s3 W s3_writes hr

/-- After stretch 3, from any contents: the feature rows gathered at the source rows. -/
theorem s3_v31 (W : Valuation τ sig (Elt F)) :
    after s3 W (main_v31 : DevRef τ sig) = value (W (main_v0 : DevRef τ sig)) (wrapCol (W (main_v16 : DevRef τ sig))) := by
  unfold s3
  after_results_simp
  rfl

/-- Stretch 4: the position differences. -/
def s4 : List (HloOp τ sig (Elt F)) :=
  [ StableHlo.nullary main_c_6 (constantI S_ 32 0#32),
    StableHlo.unary main_c_6 main_v32 (broadcastInDim S1000000 ![] bcast_S_S1000000 : (⟨S_, .i32⟩ : BufTy).Contents (Elt F) → (⟨S1000000, .i32⟩ : BufTy).Contents (Elt F)),
    StableHlo.binary main_v24 main_v32 main_v33 (cmpi .slt : (⟨S1000000, .i32⟩ : BufTy).Contents (Elt F) → (⟨S1000000, .i32⟩ : BufTy).Contents (Elt F) → (⟨S1000000, .i1⟩ : BufTy).Contents (Elt F)),
    StableHlo.nullary main_c_7 (constantI S_ 32 262144#32),
    StableHlo.unary main_c_7 main_v34 (broadcastInDim S1000000 ![] bcast_S_S1000000 : (⟨S_, .i32⟩ : BufTy).Contents (Elt F) → (⟨S1000000, .i32⟩ : BufTy).Contents (Elt F)),
    StableHlo.binary main_v24 main_v34 main_v35 (addi : (⟨S1000000, .i32⟩ : BufTy).Contents (Elt F) → (⟨S1000000, .i32⟩ : BufTy).Contents (Elt F) → (⟨S1000000, .i32⟩ : BufTy).Contents (Elt F)),
    StableHlo.ternary main_v33 main_v35 main_v24 main_v36 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v36 main_v37 (broadcastInDim S1000000x1 ![0] bcast_S1000000_S1000000x1_0 : (⟨S1000000, .i32⟩ : BufTy).Contents (Elt F) → (⟨S1000000x1, .i32⟩ : BufTy).Contents (Elt F)),
    StableHlo.binary main_v2 main_v37 main_v38 ((fun x i => Host.gather gather_S262144x2_S1000000x1_S1000000x2_1_0_n_n_0_1_12 x i) : (⟨S262144x2, .f32⟩ : BufTy).Contents (Elt F) → (⟨S1000000x1, .i32⟩ : BufTy).Contents (Elt F) → (⟨S1000000x2, .f32⟩ : BufTy).Contents (Elt F)),
    StableHlo.nullary main_c_8 (constantI S_ 32 0#32),
    StableHlo.unary main_c_8 main_v39 (broadcastInDim S1000000 ![] bcast_S_S1000000 : (⟨S_, .i32⟩ : BufTy).Contents (Elt F) → (⟨S1000000, .i32⟩ : BufTy).Contents (Elt F)),
    StableHlo.binary main_v16 main_v39 main_v40 (cmpi .slt : (⟨S1000000, .i32⟩ : BufTy).Contents (Elt F) → (⟨S1000000, .i32⟩ : BufTy).Contents (Elt F) → (⟨S1000000, .i1⟩ : BufTy).Contents (Elt F)),
    StableHlo.nullary main_c_9 (constantI S_ 32 262144#32),
    StableHlo.unary main_c_9 main_v41 (broadcastInDim S1000000 ![] bcast_S_S1000000 : (⟨S_, .i32⟩ : BufTy).Contents (Elt F) → (⟨S1000000, .i32⟩ : BufTy).Contents (Elt F)),
    StableHlo.binary main_v16 main_v41 main_v42 (addi : (⟨S1000000, .i32⟩ : BufTy).Contents (Elt F) → (⟨S1000000, .i32⟩ : BufTy).Contents (Elt F) → (⟨S1000000, .i32⟩ : BufTy).Contents (Elt F)),
    StableHlo.ternary main_v40 main_v42 main_v16 main_v43 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v43 main_v44 (broadcastInDim S1000000x1 ![0] bcast_S1000000_S1000000x1_0 : (⟨S1000000, .i32⟩ : BufTy).Contents (Elt F) → (⟨S1000000x1, .i32⟩ : BufTy).Contents (Elt F)),
    StableHlo.binary main_v2 main_v44 main_v45 ((fun x i => Host.gather gather_S262144x2_S1000000x1_S1000000x2_1_0_n_n_0_1_12 x i) : (⟨S262144x2, .f32⟩ : BufTy).Contents (Elt F) → (⟨S1000000x1, .i32⟩ : BufTy).Contents (Elt F) → (⟨S1000000x2, .f32⟩ : BufTy).Contents (Elt F)),
    StableHlo.binary main_v38 main_v45 main_v46 (subf : (⟨S1000000x2, .f32⟩ : BufTy).Contents (Elt F) → (⟨S1000000x2, .f32⟩ : BufTy).Contents (Elt F) → (⟨S1000000x2, .f32⟩ : BufTy).Contents (Elt F)) ]

/-- The buffers stretch 4 writes. -/
def outs4 : List (Ref sig .tc) := [main_c_6, main_v32, main_v33, main_c_7, main_v34, main_v35, main_v36, main_v37, main_v38, main_c_8, main_v39, main_v40, main_c_9, main_v41, main_v42, main_v43, main_v44, main_v45, main_v46]

theorem s4_writes : (s4 (F := F)).Forall fun op => op.writes ⊆ (outs4.map (Proc.devRef (τ := τ) .tc)).toFinset := by
  unfold s4
  exact ⟨writes_sub_of_mem main_c_6 rfl (by decide),
    writes_sub_of_mem main_v32 rfl (by decide),
    writes_sub_of_mem main_v33 rfl (by decide),
    writes_sub_of_mem main_c_7 rfl (by decide),
    writes_sub_of_mem main_v34 rfl (by decide),
    writes_sub_of_mem main_v35 rfl (by decide),
    writes_sub_of_mem main_v36 rfl (by decide),
    writes_sub_of_mem main_v37 rfl (by decide),
    writes_sub_of_mem main_v38 rfl (by decide),
    writes_sub_of_mem main_c_8 rfl (by decide),
    writes_sub_of_mem main_v39 rfl (by decide),
    writes_sub_of_mem main_v40 rfl (by decide),
    writes_sub_of_mem main_c_9 rfl (by decide),
    writes_sub_of_mem main_v41 rfl (by decide),
    writes_sub_of_mem main_v42 rfl (by decide),
    writes_sub_of_mem main_v43 rfl (by decide),
    writes_sub_of_mem main_v44 rfl (by decide),
    writes_sub_of_mem main_v45 rfl (by decide),
    writes_sub_of_mem main_v46 rfl (by decide)⟩

/-- Stretch 4 leaves every buffer it does not write as it was. -/
theorem s4_frame (W : Valuation τ sig (Elt F)) {r : Ref sig .tc} (hr : r ∉ outs4) :
    after s4 W (r : DevRef τ sig) = W (r : DevRef τ sig) :=
  after_of_writes_sub s4 W s4_writes hr

/-- After stretch 4, from any contents: the position differences. -/
theorem s4_v46 (W : Valuation τ sig (Elt F)) :
    after s4 W (main_v46 : DevRef τ sig) = posDist (W (main_v2 : DevRef τ sig)) (wrapCol (W (main_v24 : DevRef τ sig))) (wrapCol (W (main_v16 : DevRef τ sig))) := by
  unfold s4
  after_results_simp
  rfl

/-- Stretch 5: the first affine map of the position differences. -/
def s5 : List (HloOp τ sig (Elt F)) :=
  [ StableHlo.binary main_v46 main_arg4 main_v47 ((fun l r => Host.dotGeneral dot_S1000000x2_S2x64_S1000000x64_1_0_0_1_n_n none l r) : (⟨S1000000x2, .f32⟩ : BufTy).Contents (Elt F) → (⟨S2x64, .f32⟩ : BufTy).Contents (Elt F) → (⟨S1000000x64, .f32⟩ : BufTy).Contents (Elt F)),
    StableHlo.unary main_arg5 main_v48 (broadcastInDim S1x64 ![1] bcast_S64_S1x64_1 : (⟨S64, .f32⟩ : BufTy).Contents (Elt F) → (⟨S1x64, .f32⟩ : BufTy).Contents (Elt F)),
    StableHlo.unary main_v48 main_v49 (broadcastInDim S1000000x64 ![0, 1] bcast_S1x64_S1000000x64_0_1 : (⟨S1x64, .f32⟩ : BufTy).Contents (Elt F) → (⟨S1000000x64, .f32⟩ : BufTy).Contents (Elt F)),
    StableHlo.binary main_v47 main_v49 main_v50 (addf : (⟨S1000000x64, .f32⟩ : BufTy).Contents (Elt F) → (⟨S1000000x64, .f32⟩ : BufTy).Contents (Elt F) → (⟨S1000000x64, .f32⟩ : BufTy).Contents (Elt F)) ]

/-- The buffers stretch 5 writes. -/
def outs5 : List (Ref sig .tc) := [main_v47, main_v48, main_v49, main_v50]

theorem s5_writes : (s5 (F := F)).Forall fun op => op.writes ⊆ (outs5.map (Proc.devRef (τ := τ) .tc)).toFinset := by
  unfold s5
  exact ⟨writes_sub_of_mem main_v47 rfl (by decide),
    writes_sub_of_mem main_v48 rfl (by decide),
    writes_sub_of_mem main_v49 rfl (by decide),
    writes_sub_of_mem main_v50 rfl (by decide)⟩

/-- Stretch 5 leaves every buffer it does not write as it was. -/
theorem s5_frame (W : Valuation τ sig (Elt F)) {r : Ref sig .tc} (hr : r ∉ outs5) :
    after s5 W (r : DevRef τ sig) = W (r : DevRef τ sig) :=
  after_of_writes_sub s5 W s5_writes hr

/-- After stretch 5, from any contents: the first affine map of the position differences. -/
theorem s5_v50 (W : Valuation τ sig (Elt F)) :
    after s5 W (main_v50 : DevRef τ sig) = affine2 (W (main_v46 : DevRef τ sig)) (W (main_arg4 : DevRef τ sig)) (W (main_arg5 : DevRef τ sig)) := by
  unfold s5
  after_results_simp
  rfl

/-- Stretch 6: the rectifier. -/
def s6 : List (HloOp τ sig (Elt F)) :=
  [ StableHlo.TRef.nullary main_call0.cst (constant S_ .f32 0x00000000#32),
    StableHlo.TRef.unary main_call0.cst main_call0.v0 (broadcastInDim S1000000x64 ![] bcast_S_S1000000x64),
    StableHlo.TRef.binary (.of main_v50 : StableHlo.TRef sig ⟨S1000000x64, .f32⟩) main_call0.v0 main_call0.v1 (cmpf .oge),
    StableHlo.TRef.nullary main_call0.cst_0 (constant S_ .f32 0x3C23D70A#32),
    StableHlo.TRef.unary main_call0.cst_0 main_call0.v2 (broadcastInDim S1000000x64 ![] bcast_S_S1000000x64),
    StableHlo.TRef.binary main_call0.v2 (.of main_v50 : StableHlo.TRef sig ⟨S1000000x64, .f32⟩) main_call0.v3 mulf,
    StableHlo.TRef.ternary main_call0.v1 (.of main_v50 : StableHlo.TRef sig ⟨S1000000x64, .f32⟩) main_call0.v3 main_call0.call0.v0 select ]

/-- The buffers stretch 6 writes. -/
def outs6 : List (Ref sig .tc) := [main_call0_cst, main_call0_v0, main_call0_v1, main_call0_cst_0, main_call0_v2, main_call0_v3, main_v51]

theorem s6_writes : (s6 (F := F)).Forall fun op => op.writes ⊆ (outs6.map (Proc.devRef (τ := τ) .tc)).toFinset := by
  unfold s6
  exact ⟨writes_sub_of_mem main_call0_cst rfl (by decide),
    writes_sub_of_mem main_call0_v0 rfl (by decide),
    writes_sub_of_mem main_call0_v1 rfl (by decide),
    writes_sub_of_mem main_call0_cst_0 rfl (by decide),
    writes_sub_of_mem main_call0_v2 rfl (by decide),
    writes_sub_of_mem main_call0_v3 rfl (by decide),
    writes_sub_of_mem main_v51 rfl (by decide)⟩

/-- Stretch 6 leaves every buffer it does not write as it was. -/
theorem s6_frame (W : Valuation τ sig (Elt F)) {r : Ref sig .tc} (hr : r ∉ outs6) :
    after s6 W (r : DevRef τ sig) = W (r : DevRef τ sig) :=
  after_of_writes_sub s6 W s6_writes hr

/-- After stretch 6, from any contents: the rectifier. -/
theorem s6_v51 (W : Valuation τ sig (Elt F)) :
    after s6 W (main_v51 : DevRef τ sig) = leakyE (W (main_v50 : DevRef τ sig)) := by
  unfold s6
  after_results_simp
  rfl

/-- Stretch 7: the second affine map. -/
def s7 : List (HloOp τ sig (Elt F)) :=
  [ StableHlo.binary main_v51 main_arg6 main_v52 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.unary main_arg7 main_v53 (broadcastInDim S1x64 ![1] bcast_S64_S1x64_1 : (⟨S64, .f32⟩ : BufTy).Contents (Elt F) → (⟨S1x64, .f32⟩ : BufTy).Contents (Elt F)),
    StableHlo.unary main_v53 main_v54 (broadcastInDim S1000000x64 ![0, 1] bcast_S1x64_S1000000x64_0_1 : (⟨S1x64, .f32⟩ : BufTy).Contents (Elt F) → (⟨S1000000x64, .f32⟩ : BufTy).Contents (Elt F)),
    StableHlo.binary main_v52 main_v54 main_v55 (addf : (⟨S1000000x64, .f32⟩ : BufTy).Contents (Elt F) → (⟨S1000000x64, .f32⟩ : BufTy).Contents (Elt F) → (⟨S1000000x64, .f32⟩ : BufTy).Contents (Elt F)) ]

/-- The buffers stretch 7 writes. -/
def outs7 : List (Ref sig .tc) := [main_v52, main_v53, main_v54, main_v55]

theorem s7_writes : (s7 (F := F)).Forall fun op => op.writes ⊆ (outs7.map (Proc.devRef (τ := τ) .tc)).toFinset := by
  unfold s7
  exact ⟨writes_sub_of_mem main_v52 rfl (by decide),
    writes_sub_of_mem main_v53 rfl (by decide),
    writes_sub_of_mem main_v54 rfl (by decide),
    writes_sub_of_mem main_v55 rfl (by decide)⟩

/-- Stretch 7 leaves every buffer it does not write as it was. -/
theorem s7_frame (W : Valuation τ sig (Elt F)) {r : Ref sig .tc} (hr : r ∉ outs7) :
    after s7 W (r : DevRef τ sig) = W (r : DevRef τ sig) :=
  after_of_writes_sub s7 W s7_writes hr

/-- After stretch 7, from any contents: the second affine map. -/
theorem s7_v55 (W : Valuation τ sig (Elt F)) :
    after s7 W (main_v55 : DevRef τ sig) = affine64 (W (main_v51 : DevRef τ sig)) (W (main_arg6 : DevRef τ sig)) (W (main_arg7 : DevRef τ sig)) := by
  unfold s7
  after_results_simp
  rfl

/-- Stretch 8: the row normalisation of the embedding. -/
def s8 : List (HloOp τ sig (Elt F)) :=
  [ StableHlo.nullary main_cst (constant S_ .f32 0x00000000#32),
    StableHlo.binary main_v55 main_cst main_v56 ((fun x v => Host.reduceAdd x v reducesTo_S1000000x64_S1000000_d1 h_S_) : (⟨S1000000x64, .f32⟩ : BufTy).Contents (Elt F) → (⟨S_, .f32⟩ : BufTy).Contents (Elt F) → (⟨S1000000, .f32⟩ : BufTy).Contents (Elt F)),
    StableHlo.unary main_v56 main_v57 (broadcastInDim S1000000x1 ![0] bcast_S1000000_S1000000x1_0 : (⟨S1000000, .f32⟩ : BufTy).Contents (Elt F) → (⟨S1000000x1, .f32⟩ : BufTy).Contents (Elt F)),
    StableHlo.nullary main_cst_10 (constant S_ .f32 0x42800000#32),
    StableHlo.unary main_cst_10 main_v58 (broadcastInDim S1000000x1 ![] bcast_S_S1000000x1 : (⟨S_, .f32⟩ : BufTy).Contents (Elt F) → (⟨S1000000x1, .f32⟩ : BufTy).Contents (Elt F)),
    StableHlo.binary main_v57 main_v58 main_v59 (Host.divf : (⟨S1000000x1, .f32⟩ : BufTy).Contents (Elt F) → (⟨S1000000x1, .f32⟩ : BufTy).Contents (Elt F) → (⟨S1000000x1, .f32⟩ : BufTy).Contents (Elt F)),
    StableHlo.unary main_v59 main_v60 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v55 main_v60 main_v61 (subf : (⟨S1000000x64, .f32⟩ : BufTy).Contents (Elt F) → (⟨S1000000x64, .f32⟩ : BufTy).Contents (Elt F) → (⟨S1000000x64, .f32⟩ : BufTy).Contents (Elt F)),
    StableHlo.binary main_v61 main_v61 main_v62 (mulf : (⟨S1000000x64, .f32⟩ : BufTy).Contents (Elt F) → (⟨S1000000x64, .f32⟩ : BufTy).Contents (Elt F) → (⟨S1000000x64, .f32⟩ : BufTy).Contents (Elt F)),
    StableHlo.nullary main_cst_11 (constant S_ .f32 0x00000000#32),
    StableHlo.binary main_v62 main_cst_11 main_v63 ((fun x v => Host.reduceAdd x v reducesTo_S1000000x64_S1000000_d1 h_S_) : (⟨S1000000x64, .f32⟩ : BufTy).Contents (Elt F) → (⟨S_, .f32⟩ : BufTy).Contents (Elt F) → (⟨S1000000, .f32⟩ : BufTy).Contents (Elt F)),
    StableHlo.unary main_v63 main_v64 (broadcastInDim S1000000x1 ![0] bcast_S1000000_S1000000x1_0 : (⟨S1000000, .f32⟩ : BufTy).Contents (Elt F) → (⟨S1000000x1, .f32⟩ : BufTy).Contents (Elt F)),
    StableHlo.nullary main_cst_12 (constant S_ .f32 0x42800000#32),
    StableHlo.unary main_cst_12 main_v65 (broadcastInDim S1000000x1 ![] bcast_S_S1000000x1 : (⟨S_, .f32⟩ : BufTy).Contents (Elt F) → (⟨S1000000x1, .f32⟩ : BufTy).Contents (Elt F)),
    StableHlo.binary main_v64 main_v65 main_v66 (Host.divf : (⟨S1000000x1, .f32⟩ : BufTy).Contents (Elt F) → (⟨S1000000x1, .f32⟩ : BufTy).Contents (Elt F) → (⟨S1000000x1, .f32⟩ : BufTy).Contents (Elt F)),
    StableHlo.unary main_v59 main_v67 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v55 main_v67 main_v68 (subf : (⟨S1000000x64, .f32⟩ : BufTy).Contents (Elt F) → (⟨S1000000x64, .f32⟩ : BufTy).Contents (Elt F) → (⟨S1000000x64, .f32⟩ : BufTy).Contents (Elt F)),
    StableHlo.nullary main_cst_13 (constant S_ .f32 0x3727C5AC#32),
    StableHlo.unary main_cst_13 main_v69 (broadcastInDim S1000000x1 ![] bcast_S_S1000000x1 : (⟨S_, .f32⟩ : BufTy).Contents (Elt F) → (⟨S1000000x1, .f32⟩ : BufTy).Contents (Elt F)),
    StableHlo.binary main_v66 main_v69 main_v70 (addf : (⟨S1000000x1, .f32⟩ : BufTy).Contents (Elt F) → (⟨S1000000x1, .f32⟩ : BufTy).Contents (Elt F) → (⟨S1000000x1, .f32⟩ : BufTy).Contents (Elt F)),
    StableHlo.unary main_v70 main_v71 (Host.rsqrt : (⟨S1000000x1, .f32⟩ : BufTy).Contents (Elt F) → (⟨S1000000x1, .f32⟩ : BufTy).Contents (Elt F)),
    StableHlo.unary main_v71 main_v72 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v68 main_v72 main_v73 (mulf : (⟨S1000000x64, .f32⟩ : BufTy).Contents (Elt F) → (⟨S1000000x64, .f32⟩ : BufTy).Contents (Elt F) → (⟨S1000000x64, .f32⟩ : BufTy).Contents (Elt F)),
    StableHlo.unary main_arg8 main_v74 (broadcastInDim S1x64 ![1] bcast_S64_S1x64_1 : (⟨S64, .f32⟩ : BufTy).Contents (Elt F) → (⟨S1x64, .f32⟩ : BufTy).Contents (Elt F)),
    StableHlo.unary main_v74 main_v75 (broadcastInDim S1000000x64 ![0, 1] bcast_S1x64_S1000000x64_0_1 : (⟨S1x64, .f32⟩ : BufTy).Contents (Elt F) → (⟨S1000000x64, .f32⟩ : BufTy).Contents (Elt F)),
    StableHlo.binary main_v73 main_v75 main_v76 (mulf : (⟨S1000000x64, .f32⟩ : BufTy).Contents (Elt F) → (⟨S1000000x64, .f32⟩ : BufTy).Contents (Elt F) → (⟨S1000000x64, .f32⟩ : BufTy).Contents (Elt F)),
    StableHlo.unary main_arg9 main_v77 (broadcastInDim S1x64 ![1] bcast_S64_S1x64_1 : (⟨S64, .f32⟩ : BufTy).Contents (Elt F) → (⟨S1x64, .f32⟩ : BufTy).Contents (Elt F)),
    StableHlo.unary main_v77 main_v78 (broadcastInDim S1000000x64 ![0, 1] bcast_S1x64_S1000000x64_0_1 : (⟨S1x64, .f32⟩ : BufTy).Contents (Elt F) → (⟨S1000000x64, .f32⟩ : BufTy).Contents (Elt F)),
    StableHlo.binary main_v76 main_v78 main_v79 (addf : (⟨S1000000x64, .f32⟩ : BufTy).Contents (Elt F) → (⟨S1000000x64, .f32⟩ : BufTy).Contents (Elt F) → (⟨S1000000x64, .f32⟩ : BufTy).Contents (Elt F)) ]

/-- The buffers stretch 8 writes. -/
def outs8 : List (Ref sig .tc) := [main_cst, main_v56, main_v57, main_cst_10, main_v58, main_v59, main_v60, main_v61, main_v62, main_cst_11, main_v63, main_v64, main_cst_12, main_v65, main_v66, main_v67, main_v68, main_cst_13, main_v69, main_v70, main_v71, main_v72, main_v73, main_v74, main_v75, main_v76, main_v77, main_v78, main_v79]

theorem s8_writes : (s8 (F := F)).Forall fun op => op.writes ⊆ (outs8.map (Proc.devRef (τ := τ) .tc)).toFinset := by
  unfold s8
  exact ⟨writes_sub_of_mem main_cst rfl (by decide),
    writes_sub_of_mem main_v56 rfl (by decide),
    writes_sub_of_mem main_v57 rfl (by decide),
    writes_sub_of_mem main_cst_10 rfl (by decide),
    writes_sub_of_mem main_v58 rfl (by decide),
    writes_sub_of_mem main_v59 rfl (by decide),
    writes_sub_of_mem main_v60 rfl (by decide),
    writes_sub_of_mem main_v61 rfl (by decide),
    writes_sub_of_mem main_v62 rfl (by decide),
    writes_sub_of_mem main_cst_11 rfl (by decide),
    writes_sub_of_mem main_v63 rfl (by decide),
    writes_sub_of_mem main_v64 rfl (by decide),
    writes_sub_of_mem main_cst_12 rfl (by decide),
    writes_sub_of_mem main_v65 rfl (by decide),
    writes_sub_of_mem main_v66 rfl (by decide),
    writes_sub_of_mem main_v67 rfl (by decide),
    writes_sub_of_mem main_v68 rfl (by decide),
    writes_sub_of_mem main_cst_13 rfl (by decide),
    writes_sub_of_mem main_v69 rfl (by decide),
    writes_sub_of_mem main_v70 rfl (by decide),
    writes_sub_of_mem main_v71 rfl (by decide),
    writes_sub_of_mem main_v72 rfl (by decide),
    writes_sub_of_mem main_v73 rfl (by decide),
    writes_sub_of_mem main_v74 rfl (by decide),
    writes_sub_of_mem main_v75 rfl (by decide),
    writes_sub_of_mem main_v76 rfl (by decide),
    writes_sub_of_mem main_v77 rfl (by decide),
    writes_sub_of_mem main_v78 rfl (by decide),
    writes_sub_of_mem main_v79 rfl (by decide)⟩

/-- Stretch 8 leaves every buffer it does not write as it was. -/
theorem s8_frame (W : Valuation τ sig (Elt F)) {r : Ref sig .tc} (hr : r ∉ outs8) :
    after s8 W (r : DevRef τ sig) = W (r : DevRef τ sig) :=
  after_of_writes_sub s8 W s8_writes hr

/-- After stretch 8, from any contents: the row normalisation of the embedding. -/
theorem s8_v79 (W : Valuation τ sig (Elt F)) :
    after s8 W (main_v79 : DevRef τ sig) = gnE (W (main_v55 : DevRef τ sig)) (W (main_arg8 : DevRef τ sig)) (W (main_arg9 : DevRef τ sig)) := by
  unfold s8
  after_results_simp
  rfl

/-- Stretch 9: the gathered rows plus the embedding. -/
def s9 : List (HloOp τ sig (Elt F)) :=
  [ StableHlo.binary main_v31 main_v79 main_v80 (addf : (⟨S1000000x64, .f32⟩ : BufTy).Contents (Elt F) → (⟨S1000000x64, .f32⟩ : BufTy).Contents (Elt F) → (⟨S1000000x64, .f32⟩ : BufTy).Contents (Elt F)) ]

/-- The buffers stretch 9 writes. -/
def outs9 : List (Ref sig .tc) := [main_v80]

theorem s9_writes : (s9 (F := F)).Forall fun op => op.writes ⊆ (outs9.map (Proc.devRef (τ := τ) .tc)).toFinset := by
  unfold s9
  exact writes_sub_of_mem main_v80 rfl (by decide)

/-- Stretch 9 leaves every buffer it does not write as it was. -/
theorem s9_frame (W : Valuation τ sig (Elt F)) {r : Ref sig .tc} (hr : r ∉ outs9) :
    after s9 W (r : DevRef τ sig) = W (r : DevRef τ sig) :=
  after_of_writes_sub s9 W s9_writes hr

/-- After stretch 9, from any contents: the gathered rows plus the embedding. -/
theorem s9_v80 (W : Valuation τ sig (Elt F)) :
    after s9 W (main_v80 : DevRef τ sig) = sumE (W (main_v31 : DevRef τ sig)) (W (main_v79 : DevRef τ sig)) := by
  unfold s9
  after_results_simp
  rfl

/-- Stretch 10: the message map. -/
def s10 : List (HloOp τ sig (Elt F)) :=
  [ StableHlo.binary main_v80 main_arg10 main_v81 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.unary main_arg11 main_v82 (broadcastInDim S1x64 ![1] bcast_S64_S1x64_1 : (⟨S64, .f32⟩ : BufTy).Contents (Elt F) → (⟨S1x64, .f32⟩ : BufTy).Contents (Elt F)),
    StableHlo.unary main_v82 main_v83 (broadcastInDim S1000000x64 ![0, 1] bcast_S1x64_S1000000x64_0_1 : (⟨S1x64, .f32⟩ : BufTy).Contents (Elt F) → (⟨S1000000x64, .f32⟩ : BufTy).Contents (Elt F)),
    StableHlo.binary main_v81 main_v83 main_v84 (addf : (⟨S1000000x64, .f32⟩ : BufTy).Contents (Elt F) → (⟨S1000000x64, .f32⟩ : BufTy).Contents (Elt F) → (⟨S1000000x64, .f32⟩ : BufTy).Contents (Elt F)) ]

/-- The buffers stretch 10 writes. -/
def outs10 : List (Ref sig .tc) := [main_v81, main_v82, main_v83, main_v84]

theorem s10_writes : (s10 (F := F)).Forall fun op => op.writes ⊆ (outs10.map (Proc.devRef (τ := τ) .tc)).toFinset := by
  unfold s10
  exact ⟨writes_sub_of_mem main_v81 rfl (by decide),
    writes_sub_of_mem main_v82 rfl (by decide),
    writes_sub_of_mem main_v83 rfl (by decide),
    writes_sub_of_mem main_v84 rfl (by decide)⟩

/-- Stretch 10 leaves every buffer it does not write as it was. -/
theorem s10_frame (W : Valuation τ sig (Elt F)) {r : Ref sig .tc} (hr : r ∉ outs10) :
    after s10 W (r : DevRef τ sig) = W (r : DevRef τ sig) :=
  after_of_writes_sub s10 W s10_writes hr

/-- After stretch 10, from any contents: the message map. -/
theorem s10_v84 (W : Valuation τ sig (Elt F)) :
    after s10 W (main_v84 : DevRef τ sig) = affine64 (W (main_v80 : DevRef τ sig)) (W (main_arg10 : DevRef τ sig)) (W (main_arg11 : DevRef τ sig)) := by
  unfold s10
  after_results_simp
  rfl

/-- Stretch 11: the weighted messages summed into the target rows. -/
def s11 : List (HloOp τ sig (Elt F)) :=
  [ StableHlo.nullary main_cst_14 (constant S_ .f32 0x00000000#32),
    StableHlo.unary main_cst_14 main_v85 (broadcastInDim S262144x64 ![] bcast_S_S262144x64 : (⟨S_, .f32⟩ : BufTy).Contents (Elt F) → (⟨S262144x64, .f32⟩ : BufTy).Contents (Elt F)),
    StableHlo.unary main_arg3 main_v86 (broadcastInDim S1000000x1 ![0] bcast_S1000000_S1000000x1_0 : (⟨S1000000, .f32⟩ : BufTy).Contents (Elt F) → (⟨S1000000x1, .f32⟩ : BufTy).Contents (Elt F)),
    StableHlo.unary main_v86 main_v87 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v84 main_v87 main_v88 (mulf : (⟨S1000000x64, .f32⟩ : BufTy).Contents (Elt F) → (⟨S1000000x64, .f32⟩ : BufTy).Contents (Elt F) → (⟨S1000000x64, .f32⟩ : BufTy).Contents (Elt F)),
    StableHlo.nullary main_c_15 (constantI S_ 32 0#32),
    StableHlo.unary main_c_15 main_v89 (broadcastInDim S1000000 ![] bcast_S_S1000000 : (⟨S_, .i32⟩ : BufTy).Contents (Elt F) → (⟨S1000000, .i32⟩ : BufTy).Contents (Elt F)),
    StableHlo.binary main_v24 main_v89 main_v90 (cmpi .slt : (⟨S1000000, .i32⟩ : BufTy).Contents (Elt F) → (⟨S1000000, .i32⟩ : BufTy).Contents (Elt F) → (⟨S1000000, .i1⟩ : BufTy).Contents (Elt F)),
    StableHlo.nullary main_c_16 (constantI S_ 32 262144#32),
    StableHlo.unary main_c_16 main_v91 (broadcastInDim S1000000 ![] bcast_S_S1000000 : (⟨S_, .i32⟩ : BufTy).Contents (Elt F) → (⟨S1000000, .i32⟩ : BufTy).Contents (Elt F)),
    StableHlo.binary main_v24 main_v91 main_v92 (addi : (⟨S1000000, .i32⟩ : BufTy).Contents (Elt F) → (⟨S1000000, .i32⟩ : BufTy).Contents (Elt F) → (⟨S1000000, .i32⟩ : BufTy).Contents (Elt F)),
    StableHlo.ternary main_v90 main_v92 main_v24 main_v93 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v93 main_v94 (broadcastInDim S1000000x1 ![0] bcast_S1000000_S1000000x1_0 : (⟨S1000000, .i32⟩ : BufTy).Contents (Elt F) → (⟨S1000000x1, .i32⟩ : BufTy).Contents (Elt F)),
    StableHlo.ternary main_v85 main_v94 main_v88 main_v95 ((fun x i u => Host.scatterAdd scatter_S262144x64_S1000000x1_S1000000x64_1_0_0_1 x i u) : (⟨S262144x64, .f32⟩ : BufTy).Contents (Elt F) → (⟨S1000000x1, .i32⟩ : BufTy).Contents (Elt F) → (⟨S1000000x64, .f32⟩ : BufTy).Contents (Elt F) → (⟨S262144x64, .f32⟩ : BufTy).Contents (Elt F)) ]

/-- The buffers stretch 11 writes. -/
def outs11 : List (Ref sig .tc) := [main_cst_14, main_v85, main_v86, main_v87, main_v88, main_c_15, main_v89, main_v90, main_c_16, main_v91, main_v92, main_v93, main_v94, main_v95]

theorem s11_writes : (s11 (F := F)).Forall fun op => op.writes ⊆ (outs11.map (Proc.devRef (τ := τ) .tc)).toFinset := by
  unfold s11
  exact ⟨writes_sub_of_mem main_cst_14 rfl (by decide),
    writes_sub_of_mem main_v85 rfl (by decide),
    writes_sub_of_mem main_v86 rfl (by decide),
    writes_sub_of_mem main_v87 rfl (by decide),
    writes_sub_of_mem main_v88 rfl (by decide),
    writes_sub_of_mem main_c_15 rfl (by decide),
    writes_sub_of_mem main_v89 rfl (by decide),
    writes_sub_of_mem main_v90 rfl (by decide),
    writes_sub_of_mem main_c_16 rfl (by decide),
    writes_sub_of_mem main_v91 rfl (by decide),
    writes_sub_of_mem main_v92 rfl (by decide),
    writes_sub_of_mem main_v93 rfl (by decide),
    writes_sub_of_mem main_v94 rfl (by decide),
    writes_sub_of_mem main_v95 rfl (by decide)⟩

/-- Stretch 11 leaves every buffer it does not write as it was. -/
theorem s11_frame (W : Valuation τ sig (Elt F)) {r : Ref sig .tc} (hr : r ∉ outs11) :
    after s11 W (r : DevRef τ sig) = W (r : DevRef τ sig) :=
  after_of_writes_sub s11 W s11_writes hr

/-- After stretch 11, from any contents: the weighted messages summed into the target rows. -/
theorem s11_v95 (W : Valuation τ sig (Elt F)) :
    after s11 W (main_v95 : DevRef τ sig) = copy (scaleW (W (main_v84 : DevRef τ sig)) (W (main_arg3 : DevRef τ sig))) (wrapCol (W (main_v24 : DevRef τ sig))) := by
  unfold s11
  after_results_simp
  rfl

/-- Stretch 12: the row normalisation of the summed messages. -/
def s12 : List (HloOp τ sig (Elt F)) :=
  [ StableHlo.nullary main_cst_17 (constant S_ .f32 0x00000000#32),
    StableHlo.binary main_v95 main_cst_17 main_v96 ((fun x v => Host.reduceAdd x v reducesTo_S262144x64_S262144_d1 h_S_) : (⟨S262144x64, .f32⟩ : BufTy).Contents (Elt F) → (⟨S_, .f32⟩ : BufTy).Contents (Elt F) → (⟨S262144, .f32⟩ : BufTy).Contents (Elt F)),
    StableHlo.unary main_v96 main_v97 (broadcastInDim S262144x1 ![0] bcast_S262144_S262144x1_0 : (⟨S262144, .f32⟩ : BufTy).Contents (Elt F) → (⟨S262144x1, .f32⟩ : BufTy).Contents (Elt F)),
    StableHlo.nullary main_cst_18 (constant S_ .f32 0x42800000#32),
    StableHlo.unary main_cst_18 main_v98 (broadcastInDim S262144x1 ![] bcast_S_S262144x1 : (⟨S_, .f32⟩ : BufTy).Contents (Elt F) → (⟨S262144x1, .f32⟩ : BufTy).Contents (Elt F)),
    StableHlo.binary main_v97 main_v98 main_v99 (Host.divf : (⟨S262144x1, .f32⟩ : BufTy).Contents (Elt F) → (⟨S262144x1, .f32⟩ : BufTy).Contents (Elt F) → (⟨S262144x1, .f32⟩ : BufTy).Contents (Elt F)),
    StableHlo.unary main_v99 main_v100 (broadcastInDim S262144x64 ![0, 1] bcast_S262144x1_S262144x64_0_1 : (⟨S262144x1, .f32⟩ : BufTy).Contents (Elt F) → (⟨S262144x64, .f32⟩ : BufTy).Contents (Elt F)),
    StableHlo.binary main_v95 main_v100 main_v101 (subf : (⟨S262144x64, .f32⟩ : BufTy).Contents (Elt F) → (⟨S262144x64, .f32⟩ : BufTy).Contents (Elt F) → (⟨S262144x64, .f32⟩ : BufTy).Contents (Elt F)),
    StableHlo.binary main_v101 main_v101 main_v102 (mulf : (⟨S262144x64, .f32⟩ : BufTy).Contents (Elt F) → (⟨S262144x64, .f32⟩ : BufTy).Contents (Elt F) → (⟨S262144x64, .f32⟩ : BufTy).Contents (Elt F)),
    StableHlo.nullary main_cst_19 (constant S_ .f32 0x00000000#32),
    StableHlo.binary main_v102 main_cst_19 main_v103 ((fun x v => Host.reduceAdd x v reducesTo_S262144x64_S262144_d1 h_S_) : (⟨S262144x64, .f32⟩ : BufTy).Contents (Elt F) → (⟨S_, .f32⟩ : BufTy).Contents (Elt F) → (⟨S262144, .f32⟩ : BufTy).Contents (Elt F)),
    StableHlo.unary main_v103 main_v104 (broadcastInDim S262144x1 ![0] bcast_S262144_S262144x1_0 : (⟨S262144, .f32⟩ : BufTy).Contents (Elt F) → (⟨S262144x1, .f32⟩ : BufTy).Contents (Elt F)),
    StableHlo.nullary main_cst_20 (constant S_ .f32 0x42800000#32),
    StableHlo.unary main_cst_20 main_v105 (broadcastInDim S262144x1 ![] bcast_S_S262144x1 : (⟨S_, .f32⟩ : BufTy).Contents (Elt F) → (⟨S262144x1, .f32⟩ : BufTy).Contents (Elt F)),
    StableHlo.binary main_v104 main_v105 main_v106 (Host.divf : (⟨S262144x1, .f32⟩ : BufTy).Contents (Elt F) → (⟨S262144x1, .f32⟩ : BufTy).Contents (Elt F) → (⟨S262144x1, .f32⟩ : BufTy).Contents (Elt F)),
    StableHlo.unary main_v99 main_v107 (broadcastInDim S262144x64 ![0, 1] bcast_S262144x1_S262144x64_0_1 : (⟨S262144x1, .f32⟩ : BufTy).Contents (Elt F) → (⟨S262144x64, .f32⟩ : BufTy).Contents (Elt F)),
    StableHlo.binary main_v95 main_v107 main_v108 (subf : (⟨S262144x64, .f32⟩ : BufTy).Contents (Elt F) → (⟨S262144x64, .f32⟩ : BufTy).Contents (Elt F) → (⟨S262144x64, .f32⟩ : BufTy).Contents (Elt F)),
    StableHlo.nullary main_cst_21 (constant S_ .f32 0x3727C5AC#32),
    StableHlo.unary main_cst_21 main_v109 (broadcastInDim S262144x1 ![] bcast_S_S262144x1 : (⟨S_, .f32⟩ : BufTy).Contents (Elt F) → (⟨S262144x1, .f32⟩ : BufTy).Contents (Elt F)),
    StableHlo.binary main_v106 main_v109 main_v110 (addf : (⟨S262144x1, .f32⟩ : BufTy).Contents (Elt F) → (⟨S262144x1, .f32⟩ : BufTy).Contents (Elt F) → (⟨S262144x1, .f32⟩ : BufTy).Contents (Elt F)),
    StableHlo.unary main_v110 main_v111 (Host.rsqrt : (⟨S262144x1, .f32⟩ : BufTy).Contents (Elt F) → (⟨S262144x1, .f32⟩ : BufTy).Contents (Elt F)),
    StableHlo.unary main_v111 main_v112 (broadcastInDim S262144x64 ![0, 1] bcast_S262144x1_S262144x64_0_1 : (⟨S262144x1, .f32⟩ : BufTy).Contents (Elt F) → (⟨S262144x64, .f32⟩ : BufTy).Contents (Elt F)),
    StableHlo.binary main_v108 main_v112 main_v113 (mulf : (⟨S262144x64, .f32⟩ : BufTy).Contents (Elt F) → (⟨S262144x64, .f32⟩ : BufTy).Contents (Elt F) → (⟨S262144x64, .f32⟩ : BufTy).Contents (Elt F)),
    StableHlo.unary main_arg12 main_v114 (broadcastInDim S1x64 ![1] bcast_S64_S1x64_1 : (⟨S64, .f32⟩ : BufTy).Contents (Elt F) → (⟨S1x64, .f32⟩ : BufTy).Contents (Elt F)),
    StableHlo.unary main_v114 main_v115 (broadcastInDim S262144x64 ![0, 1] bcast_S1x64_S262144x64_0_1 : (⟨S1x64, .f32⟩ : BufTy).Contents (Elt F) → (⟨S262144x64, .f32⟩ : BufTy).Contents (Elt F)),
    StableHlo.binary main_v113 main_v115 main_v116 (mulf : (⟨S262144x64, .f32⟩ : BufTy).Contents (Elt F) → (⟨S262144x64, .f32⟩ : BufTy).Contents (Elt F) → (⟨S262144x64, .f32⟩ : BufTy).Contents (Elt F)),
    StableHlo.unary main_arg13 main_v117 (broadcastInDim S1x64 ![1] bcast_S64_S1x64_1 : (⟨S64, .f32⟩ : BufTy).Contents (Elt F) → (⟨S1x64, .f32⟩ : BufTy).Contents (Elt F)),
    StableHlo.unary main_v117 main_v118 (broadcastInDim S262144x64 ![0, 1] bcast_S1x64_S262144x64_0_1 : (⟨S1x64, .f32⟩ : BufTy).Contents (Elt F) → (⟨S262144x64, .f32⟩ : BufTy).Contents (Elt F)),
    StableHlo.binary main_v116 main_v118 main_v119 (addf : (⟨S262144x64, .f32⟩ : BufTy).Contents (Elt F) → (⟨S262144x64, .f32⟩ : BufTy).Contents (Elt F) → (⟨S262144x64, .f32⟩ : BufTy).Contents (Elt F)) ]

/-- The buffers stretch 12 writes. -/
def outs12 : List (Ref sig .tc) := [main_cst_17, main_v96, main_v97, main_cst_18, main_v98, main_v99, main_v100, main_v101, main_v102, main_cst_19, main_v103, main_v104, main_cst_20, main_v105, main_v106, main_v107, main_v108, main_cst_21, main_v109, main_v110, main_v111, main_v112, main_v113, main_v114, main_v115, main_v116, main_v117, main_v118, main_v119]

theorem s12_writes : (s12 (F := F)).Forall fun op => op.writes ⊆ (outs12.map (Proc.devRef (τ := τ) .tc)).toFinset := by
  unfold s12
  exact ⟨writes_sub_of_mem main_cst_17 rfl (by decide),
    writes_sub_of_mem main_v96 rfl (by decide),
    writes_sub_of_mem main_v97 rfl (by decide),
    writes_sub_of_mem main_cst_18 rfl (by decide),
    writes_sub_of_mem main_v98 rfl (by decide),
    writes_sub_of_mem main_v99 rfl (by decide),
    writes_sub_of_mem main_v100 rfl (by decide),
    writes_sub_of_mem main_v101 rfl (by decide),
    writes_sub_of_mem main_v102 rfl (by decide),
    writes_sub_of_mem main_cst_19 rfl (by decide),
    writes_sub_of_mem main_v103 rfl (by decide),
    writes_sub_of_mem main_v104 rfl (by decide),
    writes_sub_of_mem main_cst_20 rfl (by decide),
    writes_sub_of_mem main_v105 rfl (by decide),
    writes_sub_of_mem main_v106 rfl (by decide),
    writes_sub_of_mem main_v107 rfl (by decide),
    writes_sub_of_mem main_v108 rfl (by decide),
    writes_sub_of_mem main_cst_21 rfl (by decide),
    writes_sub_of_mem main_v109 rfl (by decide),
    writes_sub_of_mem main_v110 rfl (by decide),
    writes_sub_of_mem main_v111 rfl (by decide),
    writes_sub_of_mem main_v112 rfl (by decide),
    writes_sub_of_mem main_v113 rfl (by decide),
    writes_sub_of_mem main_v114 rfl (by decide),
    writes_sub_of_mem main_v115 rfl (by decide),
    writes_sub_of_mem main_v116 rfl (by decide),
    writes_sub_of_mem main_v117 rfl (by decide),
    writes_sub_of_mem main_v118 rfl (by decide),
    writes_sub_of_mem main_v119 rfl (by decide)⟩

/-- Stretch 12 leaves every buffer it does not write as it was. -/
theorem s12_frame (W : Valuation τ sig (Elt F)) {r : Ref sig .tc} (hr : r ∉ outs12) :
    after s12 W (r : DevRef τ sig) = W (r : DevRef τ sig) :=
  after_of_writes_sub s12 W s12_writes hr

/-- After stretch 12, from any contents: the row normalisation of the summed messages. -/
theorem s12_v119 (W : Valuation τ sig (Elt F)) :
    after s12 W (main_v119 : DevRef τ sig) = gnN (W (main_v95 : DevRef τ sig)) (W (main_arg12 : DevRef τ sig)) (W (main_arg13 : DevRef τ sig)) := by
  unfold s12
  after_results_simp
  rfl

/-- Stretch 13: which rows receive an edge. -/
def s13 : List (HloOp τ sig (Elt F)) :=
  [ StableHlo.nullary main_c_22 (constantI S_ 1 0#1),
    StableHlo.unary main_c_22 main_v120 (broadcastInDim S262144 ![] bcast_S_S262144 : (⟨S_, .i1⟩ : BufTy).Contents (Elt F) → (⟨S262144, .i1⟩ : BufTy).Contents (Elt F)),
    StableHlo.nullary main_c_23 (constantI S_ 32 0#32),
    StableHlo.unary main_c_23 main_v121 (broadcastInDim S1000000 ![] bcast_S_S1000000 : (⟨S_, .i32⟩ : BufTy).Contents (Elt F) → (⟨S1000000, .i32⟩ : BufTy).Contents (Elt F)),
    StableHlo.binary main_v24 main_v121 main_v122 (cmpi .slt : (⟨S1000000, .i32⟩ : BufTy).Contents (Elt F) → (⟨S1000000, .i32⟩ : BufTy).Contents (Elt F) → (⟨S1000000, .i1⟩ : BufTy).Contents (Elt F)),
    StableHlo.nullary main_c_24 (constantI S_ 32 262144#32),
    StableHlo.unary main_c_24 main_v123 (broadcastInDim S1000000 ![] bcast_S_S1000000 : (⟨S_, .i32⟩ : BufTy).Contents (Elt F) → (⟨S1000000, .i32⟩ : BufTy).Contents (Elt F)),
    StableHlo.binary main_v24 main_v123 main_v124 (addi : (⟨S1000000, .i32⟩ : BufTy).Contents (Elt F) → (⟨S1000000, .i32⟩ : BufTy).Contents (Elt F) → (⟨S1000000, .i32⟩ : BufTy).Contents (Elt F)),
    StableHlo.ternary main_v122 main_v124 main_v24 main_v125 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v125 main_v126 (broadcastInDim S1000000x1 ![0] bcast_S1000000_S1000000x1_0 : (⟨S1000000, .i32⟩ : BufTy).Contents (Elt F) → (⟨S1000000x1, .i32⟩ : BufTy).Contents (Elt F)),
    StableHlo.nullary main_c_25 (constantI S_ 1 1#1),
    StableHlo.unary main_c_25 main_v127 (broadcastInDim S1000000 ![] bcast_S_S1000000 : (⟨S_, .i1⟩ : BufTy).Contents (Elt F) → (⟨S1000000, .i1⟩ : BufTy).Contents (Elt F)),
    StableHlo.ternary main_v120 main_v126 main_v127 main_v128 ((fun x i u => Host.scatter scatter_S262144_S1000000x1_S1000000_n_0_0_1 (fun _ b => b) x i u) : (⟨S262144, .i1⟩ : BufTy).Contents (Elt F) → (⟨S1000000x1, .i32⟩ : BufTy).Contents (Elt F) → (⟨S1000000, .i1⟩ : BufTy).Contents (Elt F) → (⟨S262144, .i1⟩ : BufTy).Contents (Elt F)) ]

/-- The buffers stretch 13 writes. -/
def outs13 : List (Ref sig .tc) := [main_c_22, main_v120, main_c_23, main_v121, main_v122, main_c_24, main_v123, main_v124, main_v125, main_v126, main_c_25, main_v127, main_v128]

theorem s13_writes : (s13 (F := F)).Forall fun op => op.writes ⊆ (outs13.map (Proc.devRef (τ := τ) .tc)).toFinset := by
  unfold s13
  exact ⟨writes_sub_of_mem main_c_22 rfl (by decide),
    writes_sub_of_mem main_v120 rfl (by decide),
    writes_sub_of_mem main_c_23 rfl (by decide),
    writes_sub_of_mem main_v121 rfl (by decide),
    writes_sub_of_mem main_v122 rfl (by decide),
    writes_sub_of_mem main_c_24 rfl (by decide),
    writes_sub_of_mem main_v123 rfl (by decide),
    writes_sub_of_mem main_v124 rfl (by decide),
    writes_sub_of_mem main_v125 rfl (by decide),
    writes_sub_of_mem main_v126 rfl (by decide),
    writes_sub_of_mem main_c_25 rfl (by decide),
    writes_sub_of_mem main_v127 rfl (by decide),
    writes_sub_of_mem main_v128 rfl (by decide)⟩

/-- Stretch 13 leaves every buffer it does not write as it was. -/
theorem s13_frame (W : Valuation τ sig (Elt F)) {r : Ref sig .tc} (hr : r ∉ outs13) :
    after s13 W (r : DevRef τ sig) = W (r : DevRef τ sig) :=
  after_of_writes_sub s13 W s13_writes hr

/-- After stretch 13, from any contents: which rows receive an edge. -/
theorem s13_v128 (W : Valuation τ sig (Elt F)) :
    after s13 W (main_v128 : DevRef τ sig) = maskB (wrapCol (W (main_v24 : DevRef τ sig))) := by
  unfold s13
  after_results_simp
  rfl

/-- Stretch 14: the fusion of the features with the normalised sums. -/
def s14 : List (HloOp τ sig (Elt F)) :=
  [ StableHlo.binary main_v0 main_v119 main_v129 ((fun a b => concatenate S262144x128 1 [⟨S262144x64, a⟩, ⟨S262144x64, b⟩] concatenates_S262144x64_S262144x64_S262144x128_d1) : (⟨S262144x64, .f32⟩ : BufTy).Contents (Elt F) → (⟨S262144x64, .f32⟩ : BufTy).Contents (Elt F) → (⟨S262144x128, .f32⟩ : BufTy).Contents (Elt F)),
    StableHlo.binary main_v129 main_arg14 main_v130 ((fun l r => Host.dotGeneral dot_S262144x128_S128x64_S262144x64_1_0_0_1_n_n none l r) : (⟨S262144x128, .f32⟩ : BufTy).Contents (Elt F) → (⟨S128x64, .f32⟩ : BufTy).Contents (Elt F) → (⟨S262144x64, .f32⟩ : BufTy).Contents (Elt F)),
    StableHlo.unary main_arg15 main_v131 (broadcastInDim S1x64 ![1] bcast_S64_S1x64_1 : (⟨S64, .f32⟩ : BufTy).Contents (Elt F) → (⟨S1x64, .f32⟩ : BufTy).Contents (Elt F)),
    StableHlo.unary main_v131 main_v132 (broadcastInDim S262144x64 ![0, 1] bcast_S1x64_S262144x64_0_1 : (⟨S1x64, .f32⟩ : BufTy).Contents (Elt F) → (⟨S262144x64, .f32⟩ : BufTy).Contents (Elt F)),
    StableHlo.binary main_v130 main_v132 main_v133 (addf : (⟨S262144x64, .f32⟩ : BufTy).Contents (Elt F) → (⟨S262144x64, .f32⟩ : BufTy).Contents (Elt F) → (⟨S262144x64, .f32⟩ : BufTy).Contents (Elt F)) ]

/-- The buffers stretch 14 writes. -/
def outs14 : List (Ref sig .tc) := [main_v129, main_v130, main_v131, main_v132, main_v133]

theorem s14_writes : (s14 (F := F)).Forall fun op => op.writes ⊆ (outs14.map (Proc.devRef (τ := τ) .tc)).toFinset := by
  unfold s14
  exact ⟨writes_sub_of_mem main_v129 rfl (by decide),
    writes_sub_of_mem main_v130 rfl (by decide),
    writes_sub_of_mem main_v131 rfl (by decide),
    writes_sub_of_mem main_v132 rfl (by decide),
    writes_sub_of_mem main_v133 rfl (by decide)⟩

/-- Stretch 14 leaves every buffer it does not write as it was. -/
theorem s14_frame (W : Valuation τ sig (Elt F)) {r : Ref sig .tc} (hr : r ∉ outs14) :
    after s14 W (r : DevRef τ sig) = W (r : DevRef τ sig) :=
  after_of_writes_sub s14 W s14_writes hr

/-- After stretch 14, from any contents: the fusion of the features with the normalised sums. -/
theorem s14_v133 (W : Valuation τ sig (Elt F)) :
    after s14 W (main_v133 : DevRef τ sig) = fusePre (W (main_v0 : DevRef τ sig)) (W (main_v119 : DevRef τ sig)) (W (main_arg14 : DevRef τ sig)) (W (main_arg15 : DevRef τ sig)) := by
  unfold s14
  after_results_simp
  rfl

/-- Stretch 15: the row normalisation of the fusion. -/
def s15 : List (HloOp τ sig (Elt F)) :=
  [ StableHlo.nullary main_cst_26 (constant S_ .f32 0x00000000#32),
    StableHlo.binary main_v133 main_cst_26 main_v134 ((fun x v => Host.reduceAdd x v reducesTo_S262144x64_S262144_d1 h_S_) : (⟨S262144x64, .f32⟩ : BufTy).Contents (Elt F) → (⟨S_, .f32⟩ : BufTy).Contents (Elt F) → (⟨S262144, .f32⟩ : BufTy).Contents (Elt F)),
    StableHlo.unary main_v134 main_v135 (broadcastInDim S262144x1 ![0] bcast_S262144_S262144x1_0 : (⟨S262144, .f32⟩ : BufTy).Contents (Elt F) → (⟨S262144x1, .f32⟩ : BufTy).Contents (Elt F)),
    StableHlo.nullary main_cst_27 (constant S_ .f32 0x42800000#32),
    StableHlo.unary main_cst_27 main_v136 (broadcastInDim S262144x1 ![] bcast_S_S262144x1 : (⟨S_, .f32⟩ : BufTy).Contents (Elt F) → (⟨S262144x1, .f32⟩ : BufTy).Contents (Elt F)),
    StableHlo.binary main_v135 main_v136 main_v137 (Host.divf : (⟨S262144x1, .f32⟩ : BufTy).Contents (Elt F) → (⟨S262144x1, .f32⟩ : BufTy).Contents (Elt F) → (⟨S262144x1, .f32⟩ : BufTy).Contents (Elt F)),
    StableHlo.unary main_v137 main_v138 (broadcastInDim S262144x64 ![0, 1] bcast_S262144x1_S262144x64_0_1 : (⟨S262144x1, .f32⟩ : BufTy).Contents (Elt F) → (⟨S262144x64, .f32⟩ : BufTy).Contents (Elt F)),
    StableHlo.binary main_v133 main_v138 main_v139 (subf : (⟨S262144x64, .f32⟩ : BufTy).Contents (Elt F) → (⟨S262144x64, .f32⟩ : BufTy).Contents (Elt F) → (⟨S262144x64, .f32⟩ : BufTy).Contents (Elt F)),
    StableHlo.binary main_v139 main_v139 main_v140 (mulf : (⟨S262144x64, .f32⟩ : BufTy).Contents (Elt F) → (⟨S262144x64, .f32⟩ : BufTy).Contents (Elt F) → (⟨S262144x64, .f32⟩ : BufTy).Contents (Elt F)),
    StableHlo.nullary main_cst_28 (constant S_ .f32 0x00000000#32),
    StableHlo.binary main_v140 main_cst_28 main_v141 ((fun x v => Host.reduceAdd x v reducesTo_S262144x64_S262144_d1 h_S_) : (⟨S262144x64, .f32⟩ : BufTy).Contents (Elt F) → (⟨S_, .f32⟩ : BufTy).Contents (Elt F) → (⟨S262144, .f32⟩ : BufTy).Contents (Elt F)),
    StableHlo.unary main_v141 main_v142 (broadcastInDim S262144x1 ![0] bcast_S262144_S262144x1_0 : (⟨S262144, .f32⟩ : BufTy).Contents (Elt F) → (⟨S262144x1, .f32⟩ : BufTy).Contents (Elt F)),
    StableHlo.nullary main_cst_29 (constant S_ .f32 0x42800000#32),
    StableHlo.unary main_cst_29 main_v143 (broadcastInDim S262144x1 ![] bcast_S_S262144x1 : (⟨S_, .f32⟩ : BufTy).Contents (Elt F) → (⟨S262144x1, .f32⟩ : BufTy).Contents (Elt F)),
    StableHlo.binary main_v142 main_v143 main_v144 (Host.divf : (⟨S262144x1, .f32⟩ : BufTy).Contents (Elt F) → (⟨S262144x1, .f32⟩ : BufTy).Contents (Elt F) → (⟨S262144x1, .f32⟩ : BufTy).Contents (Elt F)),
    StableHlo.unary main_v137 main_v145 (broadcastInDim S262144x64 ![0, 1] bcast_S262144x1_S262144x64_0_1 : (⟨S262144x1, .f32⟩ : BufTy).Contents (Elt F) → (⟨S262144x64, .f32⟩ : BufTy).Contents (Elt F)),
    StableHlo.binary main_v133 main_v145 main_v146 (subf : (⟨S262144x64, .f32⟩ : BufTy).Contents (Elt F) → (⟨S262144x64, .f32⟩ : BufTy).Contents (Elt F) → (⟨S262144x64, .f32⟩ : BufTy).Contents (Elt F)),
    StableHlo.nullary main_cst_30 (constant S_ .f32 0x3727C5AC#32),
    StableHlo.unary main_cst_30 main_v147 (broadcastInDim S262144x1 ![] bcast_S_S262144x1 : (⟨S_, .f32⟩ : BufTy).Contents (Elt F) → (⟨S262144x1, .f32⟩ : BufTy).Contents (Elt F)),
    StableHlo.binary main_v144 main_v147 main_v148 (addf : (⟨S262144x1, .f32⟩ : BufTy).Contents (Elt F) → (⟨S262144x1, .f32⟩ : BufTy).Contents (Elt F) → (⟨S262144x1, .f32⟩ : BufTy).Contents (Elt F)),
    StableHlo.unary main_v148 main_v149 (Host.rsqrt : (⟨S262144x1, .f32⟩ : BufTy).Contents (Elt F) → (⟨S262144x1, .f32⟩ : BufTy).Contents (Elt F)),
    StableHlo.unary main_v149 main_v150 (broadcastInDim S262144x64 ![0, 1] bcast_S262144x1_S262144x64_0_1 : (⟨S262144x1, .f32⟩ : BufTy).Contents (Elt F) → (⟨S262144x64, .f32⟩ : BufTy).Contents (Elt F)),
    StableHlo.binary main_v146 main_v150 main_v151 (mulf : (⟨S262144x64, .f32⟩ : BufTy).Contents (Elt F) → (⟨S262144x64, .f32⟩ : BufTy).Contents (Elt F) → (⟨S262144x64, .f32⟩ : BufTy).Contents (Elt F)),
    StableHlo.unary main_arg16 main_v152 (broadcastInDim S1x64 ![1] bcast_S64_S1x64_1 : (⟨S64, .f32⟩ : BufTy).Contents (Elt F) → (⟨S1x64, .f32⟩ : BufTy).Contents (Elt F)),
    StableHlo.unary main_v152 main_v153 (broadcastInDim S262144x64 ![0, 1] bcast_S1x64_S262144x64_0_1 : (⟨S1x64, .f32⟩ : BufTy).Contents (Elt F) → (⟨S262144x64, .f32⟩ : BufTy).Contents (Elt F)),
    StableHlo.binary main_v151 main_v153 main_v154 (mulf : (⟨S262144x64, .f32⟩ : BufTy).Contents (Elt F) → (⟨S262144x64, .f32⟩ : BufTy).Contents (Elt F) → (⟨S262144x64, .f32⟩ : BufTy).Contents (Elt F)),
    StableHlo.unary main_arg17 main_v155 (broadcastInDim S1x64 ![1] bcast_S64_S1x64_1 : (⟨S64, .f32⟩ : BufTy).Contents (Elt F) → (⟨S1x64, .f32⟩ : BufTy).Contents (Elt F)),
    StableHlo.unary main_v155 main_v156 (broadcastInDim S262144x64 ![0, 1] bcast_S1x64_S262144x64_0_1 : (⟨S1x64, .f32⟩ : BufTy).Contents (Elt F) → (⟨S262144x64, .f32⟩ : BufTy).Contents (Elt F)),
    StableHlo.binary main_v154 main_v156 main_v157 (addf : (⟨S262144x64, .f32⟩ : BufTy).Contents (Elt F) → (⟨S262144x64, .f32⟩ : BufTy).Contents (Elt F) → (⟨S262144x64, .f32⟩ : BufTy).Contents (Elt F)) ]

/-- The buffers stretch 15 writes. -/
def outs15 : List (Ref sig .tc) := [main_cst_26, main_v134, main_v135, main_cst_27, main_v136, main_v137, main_v138, main_v139, main_v140, main_cst_28, main_v141, main_v142, main_cst_29, main_v143, main_v144, main_v145, main_v146, main_cst_30, main_v147, main_v148, main_v149, main_v150, main_v151, main_v152, main_v153, main_v154, main_v155, main_v156, main_v157]

theorem s15_writes : (s15 (F := F)).Forall fun op => op.writes ⊆ (outs15.map (Proc.devRef (τ := τ) .tc)).toFinset := by
  unfold s15
  exact ⟨writes_sub_of_mem main_cst_26 rfl (by decide),
    writes_sub_of_mem main_v134 rfl (by decide),
    writes_sub_of_mem main_v135 rfl (by decide),
    writes_sub_of_mem main_cst_27 rfl (by decide),
    writes_sub_of_mem main_v136 rfl (by decide),
    writes_sub_of_mem main_v137 rfl (by decide),
    writes_sub_of_mem main_v138 rfl (by decide),
    writes_sub_of_mem main_v139 rfl (by decide),
    writes_sub_of_mem main_v140 rfl (by decide),
    writes_sub_of_mem main_cst_28 rfl (by decide),
    writes_sub_of_mem main_v141 rfl (by decide),
    writes_sub_of_mem main_v142 rfl (by decide),
    writes_sub_of_mem main_cst_29 rfl (by decide),
    writes_sub_of_mem main_v143 rfl (by decide),
    writes_sub_of_mem main_v144 rfl (by decide),
    writes_sub_of_mem main_v145 rfl (by decide),
    writes_sub_of_mem main_v146 rfl (by decide),
    writes_sub_of_mem main_cst_30 rfl (by decide),
    writes_sub_of_mem main_v147 rfl (by decide),
    writes_sub_of_mem main_v148 rfl (by decide),
    writes_sub_of_mem main_v149 rfl (by decide),
    writes_sub_of_mem main_v150 rfl (by decide),
    writes_sub_of_mem main_v151 rfl (by decide),
    writes_sub_of_mem main_v152 rfl (by decide),
    writes_sub_of_mem main_v153 rfl (by decide),
    writes_sub_of_mem main_v154 rfl (by decide),
    writes_sub_of_mem main_v155 rfl (by decide),
    writes_sub_of_mem main_v156 rfl (by decide),
    writes_sub_of_mem main_v157 rfl (by decide)⟩

/-- Stretch 15 leaves every buffer it does not write as it was. -/
theorem s15_frame (W : Valuation τ sig (Elt F)) {r : Ref sig .tc} (hr : r ∉ outs15) :
    after s15 W (r : DevRef τ sig) = W (r : DevRef τ sig) :=
  after_of_writes_sub s15 W s15_writes hr

/-- After stretch 15, from any contents: the row normalisation of the fusion. -/
theorem s15_v157 (W : Valuation τ sig (Elt F)) :
    after s15 W (main_v157 : DevRef τ sig) = gnN (W (main_v133 : DevRef τ sig)) (W (main_arg16 : DevRef τ sig)) (W (main_arg17 : DevRef τ sig)) := by
  unfold s15
  after_results_simp
  rfl

/-- Stretch 16: the rectifier. -/
def s16 : List (HloOp τ sig (Elt F)) :=
  [ StableHlo.TRef.nullary main_call1.cst (constant S_ .f32 0x00000000#32),
    StableHlo.TRef.unary main_call1.cst main_call1.v0 (broadcastInDim S262144x64 ![] bcast_S_S262144x64),
    StableHlo.TRef.binary (.of main_v157 : StableHlo.TRef sig ⟨S262144x64, .f32⟩) main_call1.v0 main_call1.v1 (cmpf .oge),
    StableHlo.TRef.nullary main_call1.cst_0 (constant S_ .f32 0x3C23D70A#32),
    StableHlo.TRef.unary main_call1.cst_0 main_call1.v2 (broadcastInDim S262144x64 ![] bcast_S_S262144x64),
    StableHlo.TRef.binary main_call1.v2 (.of main_v157 : StableHlo.TRef sig ⟨S262144x64, .f32⟩) main_call1.v3 mulf,
    StableHlo.TRef.ternary main_call1.v1 (.of main_v157 : StableHlo.TRef sig ⟨S262144x64, .f32⟩) main_call1.v3 main_call1.call0.v0 select ]

/-- The buffers stretch 16 writes. -/
def outs16 : List (Ref sig .tc) := [main_call1_cst, main_call1_v0, main_call1_v1, main_call1_cst_0, main_call1_v2, main_call1_v3, main_v158]

theorem s16_writes : (s16 (F := F)).Forall fun op => op.writes ⊆ (outs16.map (Proc.devRef (τ := τ) .tc)).toFinset := by
  unfold s16
  exact ⟨writes_sub_of_mem main_call1_cst rfl (by decide),
    writes_sub_of_mem main_call1_v0 rfl (by decide),
    writes_sub_of_mem main_call1_v1 rfl (by decide),
    writes_sub_of_mem main_call1_cst_0 rfl (by decide),
    writes_sub_of_mem main_call1_v2 rfl (by decide),
    writes_sub_of_mem main_call1_v3 rfl (by decide),
    writes_sub_of_mem main_v158 rfl (by decide)⟩

/-- Stretch 16 leaves every buffer it does not write as it was. -/
theorem s16_frame (W : Valuation τ sig (Elt F)) {r : Ref sig .tc} (hr : r ∉ outs16) :
    after s16 W (r : DevRef τ sig) = W (r : DevRef τ sig) :=
  after_of_writes_sub s16 W s16_writes hr

/-- After stretch 16, from any contents: the rectifier. -/
theorem s16_v158 (W : Valuation τ sig (Elt F)) :
    after s16 W (main_v158 : DevRef τ sig) = leakyN (W (main_v157 : DevRef τ sig)) := by
  unfold s16
  after_results_simp
  rfl

/-- Stretch 17: the row selection and the result's extent. -/
def s17 : List (HloOp τ sig (Elt F)) :=
  [ StableHlo.unary main_v128 main_v159 (broadcastInDim S262144x1 ![0] bcast_S262144_S262144x1_0 : (⟨S262144, .i1⟩ : BufTy).Contents (Elt F) → (⟨S262144x1, .i1⟩ : BufTy).Contents (Elt F)),
    StableHlo.TRef.unary (.of main_v159 : StableHlo.TRef sig ⟨S262144x1, .i1⟩) main_call2.v0 (broadcastInDim S262144x64 ![0, 1] bcast_S262144x1_S262144x64_0_1),
    StableHlo.TRef.ternary main_call2.v0 (.of main_v158 : StableHlo.TRef sig ⟨S262144x64, .f32⟩) (.of main_v0 : StableHlo.TRef sig ⟨S262144x64, .f32⟩) main_call2.v1 select,
    StableHlo.reshape main_v160 main_v161 rfl shapeCasts_S262144x64_S4x16x4096x64 ]

/-- The buffers stretch 17 writes. -/
def outs17 : List (Ref sig .tc) := [main_v159, main_call2_v0, main_v160, main_v161]

theorem s17_writes : (s17 (F := F)).Forall fun op => op.writes ⊆ (outs17.map (Proc.devRef (τ := τ) .tc)).toFinset := by
  unfold s17
  exact ⟨writes_sub_of_mem main_v159 rfl (by decide),
    writes_sub_of_mem main_call2_v0 rfl (by decide),
    writes_sub_of_mem main_v160 rfl (by decide),
    writes_sub_of_mem main_v161 rfl (by decide)⟩

/-- Stretch 17 leaves every buffer it does not write as it was. -/
theorem s17_frame (W : Valuation τ sig (Elt F)) {r : Ref sig .tc} (hr : r ∉ outs17) :
    after s17 W (r : DevRef τ sig) = W (r : DevRef τ sig) :=
  after_of_writes_sub s17 W s17_writes hr

/-- After stretch 17, from any contents: the row selection and the result's extent. -/
theorem s17_v161 (W : Valuation τ sig (Elt F)) :
    after s17 W (main_v161 : DevRef τ sig) = shapeCast S4x16x4096x64 (pick (W (main_v128 : DevRef τ sig)) (W (main_v158 : DevRef τ sig)) (W (main_v0 : DevRef τ sig))) shapeCasts_S262144x64_S4x16x4096x64 := by
  unfold s17
  after_results_simp
  rfl

/-- The line is the seventeen stretches, in order. -/
theorem ops_stretches : (ops : List (HloOp τ sig (Elt F))) = s1 ++ (s2 ++ (s3 ++ (s4 ++ (s5 ++ (s6 ++ (s7 ++ (s8 ++ (s9 ++ (s10 ++ (s11 ++ (s12 ++ (s13 ++ (s14 ++ (s15 ++ (s16 ++ (s17)))))))))))))))) := rfl

/-- A buffer none of the stretches writes keeps its contents through the whole line. -/
theorem ops_frame {r : Ref sig .tc} (V : Valuation τ sig (Elt F)) (h1 : r ∉ outs1) (h2 : r ∉ outs2) (h3 : r ∉ outs3) (h4 : r ∉ outs4) (h5 : r ∉ outs5) (h6 : r ∉ outs6) (h7 : r ∉ outs7) (h8 : r ∉ outs8) (h9 : r ∉ outs9) (h10 : r ∉ outs10) (h11 : r ∉ outs11) (h12 : r ∉ outs12) (h13 : r ∉ outs13) (h14 : r ∉ outs14) (h15 : r ∉ outs15) (h16 : r ∉ outs16) (h17 : r ∉ outs17) :
    after ops V (r : DevRef τ sig) = V (r : DevRef τ sig) := by
  rw [ops_stretches]
  simp only [Cert.LibAfterAppend.after_append]
  rw [s17_frame _ h17, s16_frame _ h16, s15_frame _ h15, s14_frame _ h14, s13_frame _ h13, s12_frame _ h12, s11_frame _ h11, s10_frame _ h10, s9_frame _ h9, s8_frame _ h8, s7_frame _ h7, s6_frame _ h6, s5_frame _ h5, s4_frame _ h4, s3_frame _ h3, s2_frame _ h2, s1_frame _ h1]

/-- From any contents, after the whole line the result buffer holds `RefVal` of the contents of the eighteen
    argument buffers: each stretch's result is its stage of its inputs, and what a later stretch reads has been
    left alone by the stretches between. -/
theorem out_eq (V : Valuation τ sig (Elt F)) :
    after ops V (main_v161 : DevRef τ sig) = RefVal (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) := by
  rw [ops_stretches]
  simp only [Cert.LibAfterAppend.after_append]
  generalize ha0 : V (main_arg0 : DevRef τ sig) = a0
  generalize ha1 : V (main_arg1 : DevRef τ sig) = a1
  generalize ha2 : V (main_arg2 : DevRef τ sig) = a2
  generalize ha3 : V (main_arg3 : DevRef τ sig) = a3
  generalize ha4 : V (main_arg4 : DevRef τ sig) = a4
  generalize ha5 : V (main_arg5 : DevRef τ sig) = a5
  generalize ha6 : V (main_arg6 : DevRef τ sig) = a6
  generalize ha7 : V (main_arg7 : DevRef τ sig) = a7
  generalize ha8 : V (main_arg8 : DevRef τ sig) = a8
  generalize ha9 : V (main_arg9 : DevRef τ sig) = a9
  generalize ha10 : V (main_arg10 : DevRef τ sig) = a10
  generalize ha11 : V (main_arg11 : DevRef τ sig) = a11
  generalize ha12 : V (main_arg12 : DevRef τ sig) = a12
  generalize ha13 : V (main_arg13 : DevRef τ sig) = a13
  generalize ha14 : V (main_arg14 : DevRef τ sig) = a14
  generalize ha15 : V (main_arg15 : DevRef τ sig) = a15
  generalize ha16 : V (main_arg16 : DevRef τ sig) = a16
  generalize ha17 : V (main_arg17 : DevRef τ sig) = a17
  generalize h1 : after s1 V = V1
  generalize h2 : after s2 V1 = V2
  generalize h3 : after s3 V2 = V3
  generalize h4 : after s4 V3 = V4
  generalize h5 : after s5 V4 = V5
  generalize h6 : after s6 V5 = V6
  generalize h7 : after s7 V6 = V7
  generalize h8 : after s8 V7 = V8
  generalize h9 : after s9 V8 = V9
  generalize h10 : after s10 V9 = V10
  generalize h11 : after s11 V10 = V11
  generalize h12 : after s12 V11 = V12
  generalize h13 : after s13 V12 = V13
  generalize h14 : after s14 V13 = V14
  generalize h15 : after s15 V14 = V15
  generalize h16 : after s16 V15 = V16
  have e1_arg2 : V1 (main_arg2 : DevRef τ sig) = a2 := by
    rw [← h1, s1_frame (r := main_arg2) _ (by decide), ha2]
  have e1_arg3 : V1 (main_arg3 : DevRef τ sig) = a3 := by
    rw [← h1, s1_frame (r := main_arg3) _ (by decide), ha3]
  have e1_arg4 : V1 (main_arg4 : DevRef τ sig) = a4 := by
    rw [← h1, s1_frame (r := main_arg4) _ (by decide), ha4]
  have e1_arg5 : V1 (main_arg5 : DevRef τ sig) = a5 := by
    rw [← h1, s1_frame (r := main_arg5) _ (by decide), ha5]
  have e1_arg6 : V1 (main_arg6 : DevRef τ sig) = a6 := by
    rw [← h1, s1_frame (r := main_arg6) _ (by decide), ha6]
  have e1_arg7 : V1 (main_arg7 : DevRef τ sig) = a7 := by
    rw [← h1, s1_frame (r := main_arg7) _ (by decide), ha7]
  have e1_arg8 : V1 (main_arg8 : DevRef τ sig) = a8 := by
    rw [← h1, s1_frame (r := main_arg8) _ (by decide), ha8]
  have e1_arg9 : V1 (main_arg9 : DevRef τ sig) = a9 := by
    rw [← h1, s1_frame (r := main_arg9) _ (by decide), ha9]
  have e1_arg10 : V1 (main_arg10 : DevRef τ sig) = a10 := by
    rw [← h1, s1_frame (r := main_arg10) _ (by decide), ha10]
  have e1_arg11 : V1 (main_arg11 : DevRef τ sig) = a11 := by
    rw [← h1, s1_frame (r := main_arg11) _ (by decide), ha11]
  have e1_arg12 : V1 (main_arg12 : DevRef τ sig) = a12 := by
    rw [← h1, s1_frame (r := main_arg12) _ (by decide), ha12]
  have e1_arg13 : V1 (main_arg13 : DevRef τ sig) = a13 := by
    rw [← h1, s1_frame (r := main_arg13) _ (by decide), ha13]
  have e1_arg14 : V1 (main_arg14 : DevRef τ sig) = a14 := by
    rw [← h1, s1_frame (r := main_arg14) _ (by decide), ha14]
  have e1_arg15 : V1 (main_arg15 : DevRef τ sig) = a15 := by
    rw [← h1, s1_frame (r := main_arg15) _ (by decide), ha15]
  have e1_arg16 : V1 (main_arg16 : DevRef τ sig) = a16 := by
    rw [← h1, s1_frame (r := main_arg16) _ (by decide), ha16]
  have e1_arg17 : V1 (main_arg17 : DevRef τ sig) = a17 := by
    rw [← h1, s1_frame (r := main_arg17) _ (by decide), ha17]
  have e1_v0 : V1 (main_v0 : DevRef τ sig) = gf2 a0 := by
    rw [← h1, s1_v0, ha0]
  have e1_v2 : V1 (main_v2 : DevRef τ sig) = pos2 a1 := by
    rw [← h1, s1_v2, ha1]
  have e2_arg3 : V2 (main_arg3 : DevRef τ sig) = a3 := by
    rw [← h2, s2_frame (r := main_arg3) _ (by decide), e1_arg3]
  have e2_arg4 : V2 (main_arg4 : DevRef τ sig) = a4 := by
    rw [← h2, s2_frame (r := main_arg4) _ (by decide), e1_arg4]
  have e2_arg5 : V2 (main_arg5 : DevRef τ sig) = a5 := by
    rw [← h2, s2_frame (r := main_arg5) _ (by decide), e1_arg5]
  have e2_arg6 : V2 (main_arg6 : DevRef τ sig) = a6 := by
    rw [← h2, s2_frame (r := main_arg6) _ (by decide), e1_arg6]
  have e2_arg7 : V2 (main_arg7 : DevRef τ sig) = a7 := by
    rw [← h2, s2_frame (r := main_arg7) _ (by decide), e1_arg7]
  have e2_arg8 : V2 (main_arg8 : DevRef τ sig) = a8 := by
    rw [← h2, s2_frame (r := main_arg8) _ (by decide), e1_arg8]
  have e2_arg9 : V2 (main_arg9 : DevRef τ sig) = a9 := by
    rw [← h2, s2_frame (r := main_arg9) _ (by decide), e1_arg9]
  have e2_arg10 : V2 (main_arg10 : DevRef τ sig) = a10 := by
    rw [← h2, s2_frame (r := main_arg10) _ (by decide), e1_arg10]
  have e2_arg11 : V2 (main_arg11 : DevRef τ sig) = a11 := by
    rw [← h2, s2_frame (r := main_arg11) _ (by decide), e1_arg11]
  have e2_arg12 : V2 (main_arg12 : DevRef τ sig) = a12 := by
    rw [← h2, s2_frame (r := main_arg12) _ (by decide), e1_arg12]
  have e2_arg13 : V2 (main_arg13 : DevRef τ sig) = a13 := by
    rw [← h2, s2_frame (r := main_arg13) _ (by decide), e1_arg13]
  have e2_arg14 : V2 (main_arg14 : DevRef τ sig) = a14 := by
    rw [← h2, s2_frame (r := main_arg14) _ (by decide), e1_arg14]
  have e2_arg15 : V2 (main_arg15 : DevRef τ sig) = a15 := by
    rw [← h2, s2_frame (r := main_arg15) _ (by decide), e1_arg15]
  have e2_arg16 : V2 (main_arg16 : DevRef τ sig) = a16 := by
    rw [← h2, s2_frame (r := main_arg16) _ (by decide), e1_arg16]
  have e2_arg17 : V2 (main_arg17 : DevRef τ sig) = a17 := by
    rw [← h2, s2_frame (r := main_arg17) _ (by decide), e1_arg17]
  have e2_v0 : V2 (main_v0 : DevRef τ sig) = gf2 a0 := by
    rw [← h2, s2_frame (r := main_v0) _ (by decide), e1_v0]
  have e2_v2 : V2 (main_v2 : DevRef τ sig) = pos2 a1 := by
    rw [← h2, s2_frame (r := main_v2) _ (by decide), e1_v2]
  have e2_v16 : V2 (main_v16 : DevRef τ sig) = flatPre a2 := by
    rw [← h2, s2_v16, e1_arg2]
  have e2_v24 : V2 (main_v24 : DevRef τ sig) = flatSuc a2 := by
    rw [← h2, s2_v24, e1_arg2]
  have e3_arg3 : V3 (main_arg3 : DevRef τ sig) = a3 := by
    rw [← h3, s3_frame (r := main_arg3) _ (by decide), e2_arg3]
  have e3_arg4 : V3 (main_arg4 : DevRef τ sig) = a4 := by
    rw [← h3, s3_frame (r := main_arg4) _ (by decide), e2_arg4]
  have e3_arg5 : V3 (main_arg5 : DevRef τ sig) = a5 := by
    rw [← h3, s3_frame (r := main_arg5) _ (by decide), e2_arg5]
  have e3_arg6 : V3 (main_arg6 : DevRef τ sig) = a6 := by
    rw [← h3, s3_frame (r := main_arg6) _ (by decide), e2_arg6]
  have e3_arg7 : V3 (main_arg7 : DevRef τ sig) = a7 := by
    rw [← h3, s3_frame (r := main_arg7) _ (by decide), e2_arg7]
  have e3_arg8 : V3 (main_arg8 : DevRef τ sig) = a8 := by
    rw [← h3, s3_frame (r := main_arg8) _ (by decide), e2_arg8]
  have e3_arg9 : V3 (main_arg9 : DevRef τ sig) = a9 := by
    rw [← h3, s3_frame (r := main_arg9) _ (by decide), e2_arg9]
  have e3_arg10 : V3 (main_arg10 : DevRef τ sig) = a10 := by
    rw [← h3, s3_frame (r := main_arg10) _ (by decide), e2_arg10]
  have e3_arg11 : V3 (main_arg11 : DevRef τ sig) = a11 := by
    rw [← h3, s3_frame (r := main_arg11) _ (by decide), e2_arg11]
  have e3_arg12 : V3 (main_arg12 : DevRef τ sig) = a12 := by
    rw [← h3, s3_frame (r := main_arg12) _ (by decide), e2_arg12]
  have e3_arg13 : V3 (main_arg13 : DevRef τ sig) = a13 := by
    rw [← h3, s3_frame (r := main_arg13) _ (by decide), e2_arg13]
  have e3_arg14 : V3 (main_arg14 : DevRef τ sig) = a14 := by
    rw [← h3, s3_frame (r := main_arg14) _ (by decide), e2_arg14]
  have e3_arg15 : V3 (main_arg15 : DevRef τ sig) = a15 := by
    rw [← h3, s3_frame (r := main_arg15) _ (by decide), e2_arg15]
  have e3_arg16 : V3 (main_arg16 : DevRef τ sig) = a16 := by
    rw [← h3, s3_frame (r := main_arg16) _ (by decide), e2_arg16]
  have e3_arg17 : V3 (main_arg17 : DevRef τ sig) = a17 := by
    rw [← h3, s3_frame (r := main_arg17) _ (by decide), e2_arg17]
  have e3_v0 : V3 (main_v0 : DevRef τ sig) = gf2 a0 := by
    rw [← h3, s3_frame (r := main_v0) _ (by decide), e2_v0]
  have e3_v2 : V3 (main_v2 : DevRef τ sig) = pos2 a1 := by
    rw [← h3, s3_frame (r := main_v2) _ (by decide), e2_v2]
  have e3_v16 : V3 (main_v16 : DevRef τ sig) = flatPre a2 := by
    rw [← h3, s3_frame (r := main_v16) _ (by decide), e2_v16]
  have e3_v24 : V3 (main_v24 : DevRef τ sig) = flatSuc a2 := by
    rw [← h3, s3_frame (r := main_v24) _ (by decide), e2_v24]
  have e3_v31 : V3 (main_v31 : DevRef τ sig) = value (gf2 a0) (wrapCol (flatPre a2)) := by
    rw [← h3, s3_v31, e2_v0, e2_v16]
  have e4_arg3 : V4 (main_arg3 : DevRef τ sig) = a3 := by
    rw [← h4, s4_frame (r := main_arg3) _ (by decide), e3_arg3]
  have e4_arg4 : V4 (main_arg4 : DevRef τ sig) = a4 := by
    rw [← h4, s4_frame (r := main_arg4) _ (by decide), e3_arg4]
  have e4_arg5 : V4 (main_arg5 : DevRef τ sig) = a5 := by
    rw [← h4, s4_frame (r := main_arg5) _ (by decide), e3_arg5]
  have e4_arg6 : V4 (main_arg6 : DevRef τ sig) = a6 := by
    rw [← h4, s4_frame (r := main_arg6) _ (by decide), e3_arg6]
  have e4_arg7 : V4 (main_arg7 : DevRef τ sig) = a7 := by
    rw [← h4, s4_frame (r := main_arg7) _ (by decide), e3_arg7]
  have e4_arg8 : V4 (main_arg8 : DevRef τ sig) = a8 := by
    rw [← h4, s4_frame (r := main_arg8) _ (by decide), e3_arg8]
  have e4_arg9 : V4 (main_arg9 : DevRef τ sig) = a9 := by
    rw [← h4, s4_frame (r := main_arg9) _ (by decide), e3_arg9]
  have e4_arg10 : V4 (main_arg10 : DevRef τ sig) = a10 := by
    rw [← h4, s4_frame (r := main_arg10) _ (by decide), e3_arg10]
  have e4_arg11 : V4 (main_arg11 : DevRef τ sig) = a11 := by
    rw [← h4, s4_frame (r := main_arg11) _ (by decide), e3_arg11]
  have e4_arg12 : V4 (main_arg12 : DevRef τ sig) = a12 := by
    rw [← h4, s4_frame (r := main_arg12) _ (by decide), e3_arg12]
  have e4_arg13 : V4 (main_arg13 : DevRef τ sig) = a13 := by
    rw [← h4, s4_frame (r := main_arg13) _ (by decide), e3_arg13]
  have e4_arg14 : V4 (main_arg14 : DevRef τ sig) = a14 := by
    rw [← h4, s4_frame (r := main_arg14) _ (by decide), e3_arg14]
  have e4_arg15 : V4 (main_arg15 : DevRef τ sig) = a15 := by
    rw [← h4, s4_frame (r := main_arg15) _ (by decide), e3_arg15]
  have e4_arg16 : V4 (main_arg16 : DevRef τ sig) = a16 := by
    rw [← h4, s4_frame (r := main_arg16) _ (by decide), e3_arg16]
  have e4_arg17 : V4 (main_arg17 : DevRef τ sig) = a17 := by
    rw [← h4, s4_frame (r := main_arg17) _ (by decide), e3_arg17]
  have e4_v0 : V4 (main_v0 : DevRef τ sig) = gf2 a0 := by
    rw [← h4, s4_frame (r := main_v0) _ (by decide), e3_v0]
  have e4_v24 : V4 (main_v24 : DevRef τ sig) = flatSuc a2 := by
    rw [← h4, s4_frame (r := main_v24) _ (by decide), e3_v24]
  have e4_v31 : V4 (main_v31 : DevRef τ sig) = value (gf2 a0) (wrapCol (flatPre a2)) := by
    rw [← h4, s4_frame (r := main_v31) _ (by decide), e3_v31]
  have e4_v46 : V4 (main_v46 : DevRef τ sig) = posDist (pos2 a1) (wrapCol (flatSuc a2)) (wrapCol (flatPre a2)) := by
    rw [← h4, s4_v46, e3_v2, e3_v24, e3_v16]
  have e5_arg3 : V5 (main_arg3 : DevRef τ sig) = a3 := by
    rw [← h5, s5_frame (r := main_arg3) _ (by decide), e4_arg3]
  have e5_arg6 : V5 (main_arg6 : DevRef τ sig) = a6 := by
    rw [← h5, s5_frame (r := main_arg6) _ (by decide), e4_arg6]
  have e5_arg7 : V5 (main_arg7 : DevRef τ sig) = a7 := by
    rw [← h5, s5_frame (r := main_arg7) _ (by decide), e4_arg7]
  have e5_arg8 : V5 (main_arg8 : DevRef τ sig) = a8 := by
    rw [← h5, s5_frame (r := main_arg8) _ (by decide), e4_arg8]
  have e5_arg9 : V5 (main_arg9 : DevRef τ sig) = a9 := by
    rw [← h5, s5_frame (r := main_arg9) _ (by decide), e4_arg9]
  have e5_arg10 : V5 (main_arg10 : DevRef τ sig) = a10 := by
    rw [← h5, s5_frame (r := main_arg10) _ (by decide), e4_arg10]
  have e5_arg11 : V5 (main_arg11 : DevRef τ sig) = a11 := by
    rw [← h5, s5_frame (r := main_arg11) _ (by decide), e4_arg11]
  have e5_arg12 : V5 (main_arg12 : DevRef τ sig) = a12 := by
    rw [← h5, s5_frame (r := main_arg12) _ (by decide), e4_arg12]
  have e5_arg13 : V5 (main_arg13 : DevRef τ sig) = a13 := by
    rw [← h5, s5_frame (r := main_arg13) _ (by decide), e4_arg13]
  have e5_arg14 : V5 (main_arg14 : DevRef τ sig) = a14 := by
    rw [← h5, s5_frame (r := main_arg14) _ (by decide), e4_arg14]
  have e5_arg15 : V5 (main_arg15 : DevRef τ sig) = a15 := by
    rw [← h5, s5_frame (r := main_arg15) _ (by decide), e4_arg15]
  have e5_arg16 : V5 (main_arg16 : DevRef τ sig) = a16 := by
    rw [← h5, s5_frame (r := main_arg16) _ (by decide), e4_arg16]
  have e5_arg17 : V5 (main_arg17 : DevRef τ sig) = a17 := by
    rw [← h5, s5_frame (r := main_arg17) _ (by decide), e4_arg17]
  have e5_v0 : V5 (main_v0 : DevRef τ sig) = gf2 a0 := by
    rw [← h5, s5_frame (r := main_v0) _ (by decide), e4_v0]
  have e5_v24 : V5 (main_v24 : DevRef τ sig) = flatSuc a2 := by
    rw [← h5, s5_frame (r := main_v24) _ (by decide), e4_v24]
  have e5_v31 : V5 (main_v31 : DevRef τ sig) = value (gf2 a0) (wrapCol (flatPre a2)) := by
    rw [← h5, s5_frame (r := main_v31) _ (by decide), e4_v31]
  have e5_v50 : V5 (main_v50 : DevRef τ sig) = affine2 (posDist (pos2 a1) (wrapCol (flatSuc a2)) (wrapCol (flatPre a2))) a4 a5 := by
    rw [← h5, s5_v50, e4_v46, e4_arg4, e4_arg5]
  have e6_arg3 : V6 (main_arg3 : DevRef τ sig) = a3 := by
    rw [← h6, s6_frame (r := main_arg3) _ (by decide), e5_arg3]
  have e6_arg6 : V6 (main_arg6 : DevRef τ sig) = a6 := by
    rw [← h6, s6_frame (r := main_arg6) _ (by decide), e5_arg6]
  have e6_arg7 : V6 (main_arg7 : DevRef τ sig) = a7 := by
    rw [← h6, s6_frame (r := main_arg7) _ (by decide), e5_arg7]
  have e6_arg8 : V6 (main_arg8 : DevRef τ sig) = a8 := by
    rw [← h6, s6_frame (r := main_arg8) _ (by decide), e5_arg8]
  have e6_arg9 : V6 (main_arg9 : DevRef τ sig) = a9 := by
    rw [← h6, s6_frame (r := main_arg9) _ (by decide), e5_arg9]
  have e6_arg10 : V6 (main_arg10 : DevRef τ sig) = a10 := by
    rw [← h6, s6_frame (r := main_arg10) _ (by decide), e5_arg10]
  have e6_arg11 : V6 (main_arg11 : DevRef τ sig) = a11 := by
    rw [← h6, s6_frame (r := main_arg11) _ (by decide), e5_arg11]
  have e6_arg12 : V6 (main_arg12 : DevRef τ sig) = a12 := by
    rw [← h6, s6_frame (r := main_arg12) _ (by decide), e5_arg12]
  have e6_arg13 : V6 (main_arg13 : DevRef τ sig) = a13 := by
    rw [← h6, s6_frame (r := main_arg13) _ (by decide), e5_arg13]
  have e6_arg14 : V6 (main_arg14 : DevRef τ sig) = a14 := by
    rw [← h6, s6_frame (r := main_arg14) _ (by decide), e5_arg14]
  have e6_arg15 : V6 (main_arg15 : DevRef τ sig) = a15 := by
    rw [← h6, s6_frame (r := main_arg15) _ (by decide), e5_arg15]
  have e6_arg16 : V6 (main_arg16 : DevRef τ sig) = a16 := by
    rw [← h6, s6_frame (r := main_arg16) _ (by decide), e5_arg16]
  have e6_arg17 : V6 (main_arg17 : DevRef τ sig) = a17 := by
    rw [← h6, s6_frame (r := main_arg17) _ (by decide), e5_arg17]
  have e6_v0 : V6 (main_v0 : DevRef τ sig) = gf2 a0 := by
    rw [← h6, s6_frame (r := main_v0) _ (by decide), e5_v0]
  have e6_v24 : V6 (main_v24 : DevRef τ sig) = flatSuc a2 := by
    rw [← h6, s6_frame (r := main_v24) _ (by decide), e5_v24]
  have e6_v31 : V6 (main_v31 : DevRef τ sig) = value (gf2 a0) (wrapCol (flatPre a2)) := by
    rw [← h6, s6_frame (r := main_v31) _ (by decide), e5_v31]
  have e6_v51 : V6 (main_v51 : DevRef τ sig) = leakyE (affine2 (posDist (pos2 a1) (wrapCol (flatSuc a2)) (wrapCol (flatPre a2))) a4 a5) := by
    rw [← h6, s6_v51, e5_v50]
  have e7_arg3 : V7 (main_arg3 : DevRef τ sig) = a3 := by
    rw [← h7, s7_frame (r := main_arg3) _ (by decide), e6_arg3]
  have e7_arg8 : V7 (main_arg8 : DevRef τ sig) = a8 := by
    rw [← h7, s7_frame (r := main_arg8) _ (by decide), e6_arg8]
  have e7_arg9 : V7 (main_arg9 : DevRef τ sig) = a9 := by
    rw [← h7, s7_frame (r := main_arg9) _ (by decide), e6_arg9]
  have e7_arg10 : V7 (main_arg10 : DevRef τ sig) = a10 := by
    rw [← h7, s7_frame (r := main_arg10) _ (by decide), e6_arg10]
  have e7_arg11 : V7 (main_arg11 : DevRef τ sig) = a11 := by
    rw [← h7, s7_frame (r := main_arg11) _ (by decide), e6_arg11]
  have e7_arg12 : V7 (main_arg12 : DevRef τ sig) = a12 := by
    rw [← h7, s7_frame (r := main_arg12) _ (by decide), e6_arg12]
  have e7_arg13 : V7 (main_arg13 : DevRef τ sig) = a13 := by
    rw [← h7, s7_frame (r := main_arg13) _ (by decide), e6_arg13]
  have e7_arg14 : V7 (main_arg14 : DevRef τ sig) = a14 := by
    rw [← h7, s7_frame (r := main_arg14) _ (by decide), e6_arg14]
  have e7_arg15 : V7 (main_arg15 : DevRef τ sig) = a15 := by
    rw [← h7, s7_frame (r := main_arg15) _ (by decide), e6_arg15]
  have e7_arg16 : V7 (main_arg16 : DevRef τ sig) = a16 := by
    rw [← h7, s7_frame (r := main_arg16) _ (by decide), e6_arg16]
  have e7_arg17 : V7 (main_arg17 : DevRef τ sig) = a17 := by
    rw [← h7, s7_frame (r := main_arg17) _ (by decide), e6_arg17]
  have e7_v0 : V7 (main_v0 : DevRef τ sig) = gf2 a0 := by
    rw [← h7, s7_frame (r := main_v0) _ (by decide), e6_v0]
  have e7_v24 : V7 (main_v24 : DevRef τ sig) = flatSuc a2 := by
    rw [← h7, s7_frame (r := main_v24) _ (by decide), e6_v24]
  have e7_v31 : V7 (main_v31 : DevRef τ sig) = value (gf2 a0) (wrapCol (flatPre a2)) := by
    rw [← h7, s7_frame (r := main_v31) _ (by decide), e6_v31]
  have e7_v55 : V7 (main_v55 : DevRef τ sig) = affine64 (leakyE (affine2 (posDist (pos2 a1) (wrapCol (flatSuc a2)) (wrapCol (flatPre a2))) a4 a5)) a6 a7 := by
    rw [← h7, s7_v55, e6_v51, e6_arg6, e6_arg7]
  have e8_arg3 : V8 (main_arg3 : DevRef τ sig) = a3 := by
    rw [← h8, s8_frame (r := main_arg3) _ (by decide), e7_arg3]
  have e8_arg10 : V8 (main_arg10 : DevRef τ sig) = a10 := by
    rw [← h8, s8_frame (r := main_arg10) _ (by decide), e7_arg10]
  have e8_arg11 : V8 (main_arg11 : DevRef τ sig) = a11 := by
    rw [← h8, s8_frame (r := main_arg11) _ (by decide), e7_arg11]
  have e8_arg12 : V8 (main_arg12 : DevRef τ sig) = a12 := by
    rw [← h8, s8_frame (r := main_arg12) _ (by decide), e7_arg12]
  have e8_arg13 : V8 (main_arg13 : DevRef τ sig) = a13 := by
    rw [← h8, s8_frame (r := main_arg13) _ (by decide), e7_arg13]
  have e8_arg14 : V8 (main_arg14 : DevRef τ sig) = a14 := by
    rw [← h8, s8_frame (r := main_arg14) _ (by decide), e7_arg14]
  have e8_arg15 : V8 (main_arg15 : DevRef τ sig) = a15 := by
    rw [← h8, s8_frame (r := main_arg15) _ (by decide), e7_arg15]
  have e8_arg16 : V8 (main_arg16 : DevRef τ sig) = a16 := by
    rw [← h8, s8_frame (r := main_arg16) _ (by decide), e7_arg16]
  have e8_arg17 : V8 (main_arg17 : DevRef τ sig) = a17 := by
    rw [← h8, s8_frame (r := main_arg17) _ (by decide), e7_arg17]
  have e8_v0 : V8 (main_v0 : DevRef τ sig) = gf2 a0 := by
    rw [← h8, s8_frame (r := main_v0) _ (by decide), e7_v0]
  have e8_v24 : V8 (main_v24 : DevRef τ sig) = flatSuc a2 := by
    rw [← h8, s8_frame (r := main_v24) _ (by decide), e7_v24]
  have e8_v31 : V8 (main_v31 : DevRef τ sig) = value (gf2 a0) (wrapCol (flatPre a2)) := by
    rw [← h8, s8_frame (r := main_v31) _ (by decide), e7_v31]
  have e8_v79 : V8 (main_v79 : DevRef τ sig) = gnE (affine64 (leakyE (affine2 (posDist (pos2 a1) (wrapCol (flatSuc a2)) (wrapCol (flatPre a2))) a4 a5)) a6 a7) a8 a9 := by
    rw [← h8, s8_v79, e7_v55, e7_arg8, e7_arg9]
  have e9_arg3 : V9 (main_arg3 : DevRef τ sig) = a3 := by
    rw [← h9, s9_frame (r := main_arg3) _ (by decide), e8_arg3]
  have e9_arg10 : V9 (main_arg10 : DevRef τ sig) = a10 := by
    rw [← h9, s9_frame (r := main_arg10) _ (by decide), e8_arg10]
  have e9_arg11 : V9 (main_arg11 : DevRef τ sig) = a11 := by
    rw [← h9, s9_frame (r := main_arg11) _ (by decide), e8_arg11]
  have e9_arg12 : V9 (main_arg12 : DevRef τ sig) = a12 := by
    rw [← h9, s9_frame (r := main_arg12) _ (by decide), e8_arg12]
  have e9_arg13 : V9 (main_arg13 : DevRef τ sig) = a13 := by
    rw [← h9, s9_frame (r := main_arg13) _ (by decide), e8_arg13]
  have e9_arg14 : V9 (main_arg14 : DevRef τ sig) = a14 := by
    rw [← h9, s9_frame (r := main_arg14) _ (by decide), e8_arg14]
  have e9_arg15 : V9 (main_arg15 : DevRef τ sig) = a15 := by
    rw [← h9, s9_frame (r := main_arg15) _ (by decide), e8_arg15]
  have e9_arg16 : V9 (main_arg16 : DevRef τ sig) = a16 := by
    rw [← h9, s9_frame (r := main_arg16) _ (by decide), e8_arg16]
  have e9_arg17 : V9 (main_arg17 : DevRef τ sig) = a17 := by
    rw [← h9, s9_frame (r := main_arg17) _ (by decide), e8_arg17]
  have e9_v0 : V9 (main_v0 : DevRef τ sig) = gf2 a0 := by
    rw [← h9, s9_frame (r := main_v0) _ (by decide), e8_v0]
  have e9_v24 : V9 (main_v24 : DevRef τ sig) = flatSuc a2 := by
    rw [← h9, s9_frame (r := main_v24) _ (by decide), e8_v24]
  have e9_v80 : V9 (main_v80 : DevRef τ sig) = sumE (value (gf2 a0) (wrapCol (flatPre a2))) (gnE (affine64 (leakyE (affine2 (posDist (pos2 a1) (wrapCol (flatSuc a2)) (wrapCol (flatPre a2))) a4 a5)) a6 a7) a8 a9) := by
    rw [← h9, s9_v80, e8_v31, e8_v79]
  have e10_arg3 : V10 (main_arg3 : DevRef τ sig) = a3 := by
    rw [← h10, s10_frame (r := main_arg3) _ (by decide), e9_arg3]
  have e10_arg12 : V10 (main_arg12 : DevRef τ sig) = a12 := by
    rw [← h10, s10_frame (r := main_arg12) _ (by decide), e9_arg12]
  have e10_arg13 : V10 (main_arg13 : DevRef τ sig) = a13 := by
    rw [← h10, s10_frame (r := main_arg13) _ (by decide), e9_arg13]
  have e10_arg14 : V10 (main_arg14 : DevRef τ sig) = a14 := by
    rw [← h10, s10_frame (r := main_arg14) _ (by decide), e9_arg14]
  have e10_arg15 : V10 (main_arg15 : DevRef τ sig) = a15 := by
    rw [← h10, s10_frame (r := main_arg15) _ (by decide), e9_arg15]
  have e10_arg16 : V10 (main_arg16 : DevRef τ sig) = a16 := by
    rw [← h10, s10_frame (r := main_arg16) _ (by decide), e9_arg16]
  have e10_arg17 : V10 (main_arg17 : DevRef τ sig) = a17 := by
    rw [← h10, s10_frame (r := main_arg17) _ (by decide), e9_arg17]
  have e10_v0 : V10 (main_v0 : DevRef τ sig) = gf2 a0 := by
    rw [← h10, s10_frame (r := main_v0) _ (by decide), e9_v0]
  have e10_v24 : V10 (main_v24 : DevRef τ sig) = flatSuc a2 := by
    rw [← h10, s10_frame (r := main_v24) _ (by decide), e9_v24]
  have e10_v84 : V10 (main_v84 : DevRef τ sig) = affine64 (sumE (value (gf2 a0) (wrapCol (flatPre a2))) (gnE (affine64 (leakyE (affine2 (posDist (pos2 a1) (wrapCol (flatSuc a2)) (wrapCol (flatPre a2))) a4 a5)) a6 a7) a8 a9)) a10 a11 := by
    rw [← h10, s10_v84, e9_v80, e9_arg10, e9_arg11]
  have e11_arg12 : V11 (main_arg12 : DevRef τ sig) = a12 := by
    rw [← h11, s11_frame (r := main_arg12) _ (by decide), e10_arg12]
  have e11_arg13 : V11 (main_arg13 : DevRef τ sig) = a13 := by
    rw [← h11, s11_frame (r := main_arg13) _ (by decide), e10_arg13]
  have e11_arg14 : V11 (main_arg14 : DevRef τ sig) = a14 := by
    rw [← h11, s11_frame (r := main_arg14) _ (by decide), e10_arg14]
  have e11_arg15 : V11 (main_arg15 : DevRef τ sig) = a15 := by
    rw [← h11, s11_frame (r := main_arg15) _ (by decide), e10_arg15]
  have e11_arg16 : V11 (main_arg16 : DevRef τ sig) = a16 := by
    rw [← h11, s11_frame (r := main_arg16) _ (by decide), e10_arg16]
  have e11_arg17 : V11 (main_arg17 : DevRef τ sig) = a17 := by
    rw [← h11, s11_frame (r := main_arg17) _ (by decide), e10_arg17]
  have e11_v0 : V11 (main_v0 : DevRef τ sig) = gf2 a0 := by
    rw [← h11, s11_frame (r := main_v0) _ (by decide), e10_v0]
  have e11_v24 : V11 (main_v24 : DevRef τ sig) = flatSuc a2 := by
    rw [← h11, s11_frame (r := main_v24) _ (by decide), e10_v24]
  have e11_v95 : V11 (main_v95 : DevRef τ sig) = copy (scaleW (affine64 (sumE (value (gf2 a0) (wrapCol (flatPre a2))) (gnE (affine64 (leakyE (affine2 (posDist (pos2 a1) (wrapCol (flatSuc a2)) (wrapCol (flatPre a2))) a4 a5)) a6 a7) a8 a9)) a10 a11) a3) (wrapCol (flatSuc a2)) := by
    rw [← h11, s11_v95, e10_v84, e10_arg3, e10_v24]
  have e12_arg14 : V12 (main_arg14 : DevRef τ sig) = a14 := by
    rw [← h12, s12_frame (r := main_arg14) _ (by decide), e11_arg14]
  have e12_arg15 : V12 (main_arg15 : DevRef τ sig) = a15 := by
    rw [← h12, s12_frame (r := main_arg15) _ (by decide), e11_arg15]
  have e12_arg16 : V12 (main_arg16 : DevRef τ sig) = a16 := by
    rw [← h12, s12_frame (r := main_arg16) _ (by decide), e11_arg16]
  have e12_arg17 : V12 (main_arg17 : DevRef τ sig) = a17 := by
    rw [← h12, s12_frame (r := main_arg17) _ (by decide), e11_arg17]
  have e12_v0 : V12 (main_v0 : DevRef τ sig) = gf2 a0 := by
    rw [← h12, s12_frame (r := main_v0) _ (by decide), e11_v0]
  have e12_v24 : V12 (main_v24 : DevRef τ sig) = flatSuc a2 := by
    rw [← h12, s12_frame (r := main_v24) _ (by decide), e11_v24]
  have e12_v119 : V12 (main_v119 : DevRef τ sig) = gnN (copy (scaleW (affine64 (sumE (value (gf2 a0) (wrapCol (flatPre a2))) (gnE (affine64 (leakyE (affine2 (posDist (pos2 a1) (wrapCol (flatSuc a2)) (wrapCol (flatPre a2))) a4 a5)) a6 a7) a8 a9)) a10 a11) a3) (wrapCol (flatSuc a2))) a12 a13 := by
    rw [← h12, s12_v119, e11_v95, e11_arg12, e11_arg13]
  have e13_arg14 : V13 (main_arg14 : DevRef τ sig) = a14 := by
    rw [← h13, s13_frame (r := main_arg14) _ (by decide), e12_arg14]
  have e13_arg15 : V13 (main_arg15 : DevRef τ sig) = a15 := by
    rw [← h13, s13_frame (r := main_arg15) _ (by decide), e12_arg15]
  have e13_arg16 : V13 (main_arg16 : DevRef τ sig) = a16 := by
    rw [← h13, s13_frame (r := main_arg16) _ (by decide), e12_arg16]
  have e13_arg17 : V13 (main_arg17 : DevRef τ sig) = a17 := by
    rw [← h13, s13_frame (r := main_arg17) _ (by decide), e12_arg17]
  have e13_v0 : V13 (main_v0 : DevRef τ sig) = gf2 a0 := by
    rw [← h13, s13_frame (r := main_v0) _ (by decide), e12_v0]
  have e13_v119 : V13 (main_v119 : DevRef τ sig) = gnN (copy (scaleW (affine64 (sumE (value (gf2 a0) (wrapCol (flatPre a2))) (gnE (affine64 (leakyE (affine2 (posDist (pos2 a1) (wrapCol (flatSuc a2)) (wrapCol (flatPre a2))) a4 a5)) a6 a7) a8 a9)) a10 a11) a3) (wrapCol (flatSuc a2))) a12 a13 := by
    rw [← h13, s13_frame (r := main_v119) _ (by decide), e12_v119]
  have e13_v128 : V13 (main_v128 : DevRef τ sig) = maskB (wrapCol (flatSuc a2)) := by
    rw [← h13, s13_v128, e12_v24]
  have e14_arg16 : V14 (main_arg16 : DevRef τ sig) = a16 := by
    rw [← h14, s14_frame (r := main_arg16) _ (by decide), e13_arg16]
  have e14_arg17 : V14 (main_arg17 : DevRef τ sig) = a17 := by
    rw [← h14, s14_frame (r := main_arg17) _ (by decide), e13_arg17]
  have e14_v0 : V14 (main_v0 : DevRef τ sig) = gf2 a0 := by
    rw [← h14, s14_frame (r := main_v0) _ (by decide), e13_v0]
  have e14_v128 : V14 (main_v128 : DevRef τ sig) = maskB (wrapCol (flatSuc a2)) := by
    rw [← h14, s14_frame (r := main_v128) _ (by decide), e13_v128]
  have e14_v133 : V14 (main_v133 : DevRef τ sig) = fusePre (gf2 a0) (gnN (copy (scaleW (affine64 (sumE (value (gf2 a0) (wrapCol (flatPre a2))) (gnE (affine64 (leakyE (affine2 (posDist (pos2 a1) (wrapCol (flatSuc a2)) (wrapCol (flatPre a2))) a4 a5)) a6 a7) a8 a9)) a10 a11) a3) (wrapCol (flatSuc a2))) a12 a13) a14 a15 := by
    rw [← h14, s14_v133, e13_v0, e13_v119, e13_arg14, e13_arg15]
  have e15_v0 : V15 (main_v0 : DevRef τ sig) = gf2 a0 := by
    rw [← h15, s15_frame (r := main_v0) _ (by decide), e14_v0]
  have e15_v128 : V15 (main_v128 : DevRef τ sig) = maskB (wrapCol (flatSuc a2)) := by
    rw [← h15, s15_frame (r := main_v128) _ (by decide), e14_v128]
  have e15_v157 : V15 (main_v157 : DevRef τ sig) = gnN (fusePre (gf2 a0) (gnN (copy (scaleW (affine64 (sumE (value (gf2 a0) (wrapCol (flatPre a2))) (gnE (affine64 (leakyE (affine2 (posDist (pos2 a1) (wrapCol (flatSuc a2)) (wrapCol (flatPre a2))) a4 a5)) a6 a7) a8 a9)) a10 a11) a3) (wrapCol (flatSuc a2))) a12 a13) a14 a15) a16 a17 := by
    rw [← h15, s15_v157, e14_v133, e14_arg16, e14_arg17]
  have e16_v0 : V16 (main_v0 : DevRef τ sig) = gf2 a0 := by
    rw [← h16, s16_frame (r := main_v0) _ (by decide), e15_v0]
  have e16_v128 : V16 (main_v128 : DevRef τ sig) = maskB (wrapCol (flatSuc a2)) := by
    rw [← h16, s16_frame (r := main_v128) _ (by decide), e15_v128]
  have e16_v158 : V16 (main_v158 : DevRef τ sig) = leakyN (gnN (fusePre (gf2 a0) (gnN (copy (scaleW (affine64 (sumE (value (gf2 a0) (wrapCol (flatPre a2))) (gnE (affine64 (leakyE (affine2 (posDist (pos2 a1) (wrapCol (flatSuc a2)) (wrapCol (flatPre a2))) a4 a5)) a6 a7) a8 a9)) a10 a11) a3) (wrapCol (flatSuc a2))) a12 a13) a14 a15) a16 a17) := by
    rw [← h16, s16_v158, e15_v157]
  rw [s17_v161, e16_v128, e16_v158, e16_v0]
  rfl

/-- On every device, for any float values, from any memory with zero counters: every weakly fair execution of the
    reference terminates with the result buffer at `RefVal` of the arguments' launch contents and every argument
    buffer unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v161) = RefVal
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v161).trans (out_eq _),
      (h c main_arg0).trans (ops_frame (r := main_arg0) _ (by decide) (by decide) (by decide) (by decide) (by decide) (by decide) (by decide) (by decide) (by decide) (by decide) (by decide) (by decide) (by decide) (by decide) (by decide) (by decide) (by decide)),
      (h c main_arg1).trans (ops_frame (r := main_arg1) _ (by decide) (by decide) (by decide) (by decide) (by decide) (by decide) (by decide) (by decide) (by decide) (by decide) (by decide) (by decide) (by decide) (by decide) (by decide) (by decide) (by decide)),
      (h c main_arg2).trans (ops_frame (r := main_arg2) _ (by decide) (by decide) (by decide) (by decide) (by decide) (by decide) (by decide) (by decide) (by decide) (by decide) (by decide) (by decide) (by decide) (by decide) (by decide) (by decide) (by decide)),
      (h c main_arg3).trans (ops_frame (r := main_arg3) _ (by decide) (by decide) (by decide) (by decide) (by decide) (by decide) (by decide) (by decide) (by decide) (by decide) (by decide) (by decide) (by decide) (by decide) (by decide) (by decide) (by decide)),
      (h c main_arg4).trans (ops_frame (r := main_arg4) _ (by decide) (by decide) (by decide) (by decide) (by decide) (by decide) (by decide) (by decide) (by decide) (by decide) (by decide) (by decide) (by decide) (by decide) (by decide) (by decide) (by decide)),
      (h c main_arg5).trans (ops_frame (r := main_arg5) _ (by decide) (by decide) (by decide) (by decide) (by decide) (by decide) (by decide) (by decide) (by decide) (by decide) (by decide) (by decide) (by decide) (by decide) (by decide) (by decide) (by decide)),
      (h c main_arg6).trans (ops_frame (r := main_arg6) _ (by decide) (by decide) (by decide) (by decide) (by decide) (by decide) (by decide) (by decide) (by decide) (by decide) (by decide) (by decide) (by decide) (by decide) (by decide) (by decide) (by decide)),
      (h c main_arg7).trans (ops_frame (r := main_arg7) _ (by decide) (by decide) (by decide) (by decide) (by decide) (by decide) (by decide) (by decide) (by decide) (by decide) (by decide) (by decide) (by decide) (by decide) (by decide) (by decide) (by decide)),
      (h c main_arg8).trans (ops_frame (r := main_arg8) _ (by decide) (by decide) (by decide) (by decide) (by decide) (by decide) (by decide) (by decide) (by decide) (by decide) (by decide) (by decide) (by decide) (by decide) (by decide) (by decide) (by decide)),
      (h c main_arg9).trans (ops_frame (r := main_arg9) _ (by decide) (by decide) (by decide) (by decide) (by decide) (by decide) (by decide) (by decide) (by decide) (by decide) (by decide) (by decide) (by decide) (by decide) (by decide) (by decide) (by decide)),
      (h c main_arg10).trans (ops_frame (r := main_arg10) _ (by decide) (by decide) (by decide) (by decide) (by decide) (by decide) (by decide) (by decide) (by decide) (by decide) (by decide) (by decide) (by decide) (by decide) (by decide) (by decide) (by decide)),
      (h c main_arg11).trans (ops_frame (r := main_arg11) _ (by decide) (by decide) (by decide) (by decide) (by decide) (by decide) (by decide) (by decide) (by decide) (by decide) (by decide) (by decide) (by decide) (by decide) (by decide) (by decide) (by decide)),
      (h c main_arg12).trans (ops_frame (r := main_arg12) _ (by decide) (by decide) (by decide) (by decide) (by decide) (by decide) (by decide) (by decide) (by decide) (by decide) (by decide) (by decide) (by decide) (by decide) (by decide) (by decide) (by decide)),
      (h c main_arg13).trans (ops_frame (r := main_arg13) _ (by decide) (by decide) (by decide) (by decide) (by decide) (by decide) (by decide) (by decide) (by decide) (by decide) (by decide) (by decide) (by decide) (by decide) (by decide) (by decide) (by decide)),
      (h c main_arg14).trans (ops_frame (r := main_arg14) _ (by decide) (by decide) (by decide) (by decide) (by decide) (by decide) (by decide) (by decide) (by decide) (by decide) (by decide) (by decide) (by decide) (by decide) (by decide) (by decide) (by decide)),
      (h c main_arg15).trans (ops_frame (r := main_arg15) _ (by decide) (by decide) (by decide) (by decide) (by decide) (by decide) (by decide) (by decide) (by decide) (by decide) (by decide) (by decide) (by decide) (by decide) (by decide) (by decide) (by decide)),
      (h c main_arg16).trans (ops_frame (r := main_arg16) _ (by decide) (by decide) (by decide) (by decide) (by decide) (by decide) (by decide) (by decide) (by decide) (by decide) (by decide) (by decide) (by decide) (by decide) (by decide) (by decide) (by decide)),
      (h c main_arg17).trans (ops_frame (r := main_arg17) _ (by decide) (by decide) (by decide) (by decide) (by decide) (by decide) (by decide) (by decide) (by decide) (by decide) (by decide) (by decide) (by decide) (by decide) (by decide) (by decide) (by decide))⟩)
    (run_main m ρ)

end Cert.ReferenceIdeal.Hand

end
-- ==== Proof.KerStages.lean ====
/-
  The host stages of the graph-attention program, each named as the composition of the operations that compute it
  from its direct inputs, and the two regions' results as whole-array functions of the region-entry contents.

  The program: features x of shape [4,16,4096,64] are read as 262144 rows of 64; positions of shape [1,16,4096,2]
  are repeated over the batch and read as 262144 rows of 2.  The edge table [1000000,4] has columns (b, h, pre, suc);
  the flat node of an edge's source is (b*16 + h)*4096 + pre and of its target ((b*16 + h) + 1)*4096 + suc.  Both index
  vectors and the edge weights are padded with zeros from 1000000 to 1003520 = 245*4096 entries.  A negative index is
  wrapped by adding the row count 262144.  The first region maps each edge (a row block of 4096 edges per grid point)
  to a message of 64 entries; the messages are summed into their target rows; a mask marks the rows that are some
  edge's target; the second region maps each node (a row block of 4096 nodes per grid point) to its new features.
-/
import proofs.«164651_j61959198212617_2_alg».proof.Proof.Gen.KernelIdeal.Frame
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem

variable {F : FTy → Type} [FloatOps F]

/-! ## Stages before the first region -/

/-- The features as 262144 rows of 64. -/
def featRows (a0 : FVec F S4x16x4096x64 .f32) : FVec F S262144x64 .f32 :=
  shapeCast S262144x64 a0 shapeCasts_S4x16x4096x64_S262144x64

/-- The feature rows narrowed to bf16 (the identity at the ideal values). -/
def featRowsB (a0 : FVec F S4x16x4096x64 .f32) : FVec F S262144x64 .bf16 :=
  truncf .bf16 (featRows a0) bitsLt_bf16_f32

/-- The positions repeated over the batch, as 262144 rows of 2. -/
def posRows (a1 : FVec F S1x16x4096x2 .f32) : FVec F S262144x2 .f32 :=
  shapeCast S262144x2 (broadcastInDim S4x16x4096x2 ![0, 1, 2, 3] bcast_S1x16x4096x2_S4x16x4096x2_0_1_2_3 a1) shapeCasts_S4x16x4096x2_S262144x2

/-- Column 0 of the edge table (the batch index b). -/
def edgeCol0 (a2 : IVec S1000000x4 32) : IVec S1000000 32 :=
  shapeCast S1000000 (extractStridedSlice S1000000x1 ![0, 0] a2 slices_S1000000x4_S1000000x1_0_0) shapeCasts_S1000000x1_S1000000
/-- Column 1 of the edge table (the head index h). -/
def edgeCol1 (a2 : IVec S1000000x4 32) : IVec S1000000 32 :=
  shapeCast S1000000 (extractStridedSlice S1000000x1 ![0, 1] a2 slices_S1000000x4_S1000000x1_0_1) shapeCasts_S1000000x1_S1000000
/-- Column 2 of the edge table (the source position pre). -/
def edgeCol2 (a2 : IVec S1000000x4 32) : IVec S1000000 32 :=
  shapeCast S1000000 (extractStridedSlice S1000000x1 ![0, 2] a2 slices_S1000000x4_S1000000x1_0_2) shapeCasts_S1000000x1_S1000000
/-- Column 3 of the edge table (the target position suc). -/
def edgeCol3 (a2 : IVec S1000000x4 32) : IVec S1000000 32 :=
  shapeCast S1000000 (extractStridedSlice S1000000x1 ![0, 3] a2 slices_S1000000x4_S1000000x1_0_3) shapeCasts_S1000000x1_S1000000

/-- The integer k at each of the 1000000 edges. -/
def splatE (k : BitVec 32) : IVec S1000000 32 := broadcastInDim S1000000 ![] bcast_S_S1000000 (constantI S_ 32 k)
/-- The integer k at each of the 1003520 padded edges. -/
def splatP (k : BitVec 32) : IVec S1003520 32 := broadcastInDim S1003520 ![] bcast_S_S1003520 (constantI S_ 32 k)

/-- The flat source node of each edge: (b*16 + h)*4096 + pre. -/
def flatPre (a2 : IVec S1000000x4 32) : IVec S1000000 32 :=
  addi (muli (addi (muli (edgeCol0 a2) (splatE 16#32)) (edgeCol1 a2)) (splatE 4096#32)) (edgeCol2 a2)

/-- The flat target node of each edge: ((b*16 + h) + 1)*4096 + suc. -/
def flatSuc (a2 : IVec S1000000x4 32) : IVec S1000000 32 :=
  addi (muli (addi (addi (muli (edgeCol0 a2) (splatE 16#32)) (edgeCol1 a2)) (splatE 1#32)) (splatE 4096#32)) (edgeCol3 a2)

/-- An index vector padded with the integer 0 from 1000000 to 1003520 entries. -/
def padI (v : IVec S1000000 32) : IVec S1003520 32 :=
  pad S1003520 ![0] ![3520] ![0] v (id (constantI S_ 32 0#32)) pads_S1000000_S1003520_035200 h_S_

/-- A weight vector padded with the float of the integer 0 from 1000000 to 1003520 entries. -/
def padW (w : FVec F S1000000 .f32) : FVec F S1003520 .f32 :=
  pad S1003520 ![0] ![3520] ![0] w (sitofp .f32 (constantI S_ 32 0#32)) pads_S1000000_S1003520_035200 h_S_

/-- The padded weights as a column [1003520,1]. -/
def weightCol (a3 : FVec F S1000000 .f32) : FVec F S1003520x1 .f32 :=
  shapeCast S1003520x1 (padW a3) shapeCasts_S1003520_S1003520x1

/-- A padded index vector with negative entries wrapped by 262144, as a column [1003520,1]. -/
def wrapColP (v : IVec S1003520 32) : IVec S1003520x1 32 :=
  broadcastInDim S1003520x1 ![0] bcast_S1003520_S1003520x1_0
    (select (cmpi .slt v (splatP 0#32)) (addi v (splatP 262144#32)) v)

/-- An index vector with negative entries wrapped by 262144, as a column [1000000,1]. -/
def wrapCol (v : IVec S1000000 32) : IVec S1000000x1 32 :=
  broadcastInDim S1000000x1 ![0] bcast_S1000000_S1000000x1_0
    (select (cmpi .slt v (splatE 0#32)) (addi v (splatE 262144#32)) v)

/-- The bf16 feature row of each padded edge's source node. -/
def valueP (xb : FVec F S262144x64 .bf16) (pre : IVec S1003520 32) : FVec F S1003520x64 .bf16 :=
  Host.gather gather_S262144x64_S1003520x1_S1003520x64_1_0_n_n_0_1_164 xb (wrapColP pre)

/-- The position row of each padded edge's node. -/
def posAt (p : FVec F S262144x2 .f32) (ix : IVec S1003520 32) : FVec F S1003520x2 .f32 :=
  Host.gather gather_S262144x2_S1003520x1_S1003520x2_1_0_n_n_0_1_12 p (wrapColP ix)

/-- The position difference target minus source of each padded edge. -/
def posDistP (p : FVec F S262144x2 .f32) (pre suc : IVec S1003520 32) : FVec F S1003520x2 .f32 :=
  subf (posAt p suc) (posAt p pre)

/-- A vector of 64 entries as one row [1,64]. -/
def rowOf (b : FVec F S64 .f32) : FVec F S1x64 .f32 := shapeCast S1x64 b shapeCasts_S64_S1x64

/-! ## Stages between the regions -/

/-- The messages summed into their target rows, from the zero table. -/
def aggr (suc : IVec S1003520 32) (msg : FVec F S1003520x64 .f32) : FVec F S262144x64 .f32 :=
  Host.scatterAdd scatter_S262144x64_S1003520x1_S1003520x64_1_0_0_1
    (broadcastInDim S262144x64 ![] bcast_S_S262144x64 (constant (F := F) S_ .f32 0x00000000#32)) (wrapColP suc) msg

/-- The mask of rows that are some edge's target: one there, zero elsewhere, as a column [262144,1]. -/
def maskCol (suc : IVec S1000000 32) : FVec F S262144x1 .f32 :=
  shapeCast S262144x1
    (Host.scatter scatter_S262144_S1000000x1_S1000000_n_0_0_1 (fun _ b => b)
      (broadcastInDim S262144 ![] bcast_S_S262144 (constant (F := F) S_ .f32 0x00000000#32)) (wrapCol suc)
      (broadcastInDim S1000000 ![] bcast_S_S1000000 (constant (F := F) S_ .f32 0x3F800000#32)))
    shapeCasts_S262144_S262144x1

/-- The upper 64 rows of the [128,64] matrix. -/
def topHalf (a14 : FVec F S128x64 .f32) : FVec F S64x64 .f32 :=
  extractStridedSlice S64x64 ![0, 0] a14 slices_S128x64_S64x64_0_0
/-- The lower 64 rows of the [128,64] matrix. -/
def botHalf (a14 : FVec F S128x64 .f32) : FVec F S64x64 .f32 :=
  extractStridedSlice S64x64 ![64, 0] a14 slices_S128x64_S64x64_64_0

/-- The result rows as [4,16,4096,64]. -/
def unRows (y : FVec F S262144x64 .f32) : FVec F S4x16x4096x64 .f32 :=
  shapeCast S4x16x4096x64 y shapeCasts_S262144x64_S4x16x4096x64

/-! ## The regions' results as whole-array functions

Each grid point of a region handles one block of 4096 consecutive rows: row r of an array belongs to point r / 4096 and
is row r % 4096 of that point's block. -/

/-- The grid point of the first region whose block holds edge row i 0. -/
def t0 (i : S1003520x64.Idx) : Fin cfg0.N := ⟨(i 0).val / 4096, by have := (i 0).isLt; show _ < 245; change (i 0).val < 1003520 at this; omega⟩
/-- The index inside that block: row (i 0) % 4096, the same column. -/
def l0 (i : S1003520x64.Idx) : S4096x64.Idx := ix2 ⟨(i 0).val % 4096, Nat.mod_lt _ (by decide)⟩ (i 1)

/-- The grid point of the second region whose block holds node row i 0. -/
def t1 (i : S262144x64.Idx) : Fin cfg1.N := ⟨(i 0).val / 4096, by have := (i 0).isLt; show _ < 64; change (i 0).val < 262144 at this; omega⟩
/-- The index inside that block: row (i 0) % 4096, the same column. -/
def l1 (i : S262144x64.Idx) : S4096x64.Idx := ix2 ⟨(i 0).val % 4096, Nat.mod_lt _ (by decide)⟩ (i 1)

/-- The first region's output array [1003520,64] as one function of the contents V it is entered with: at row r, what the
    body leaves at row r % 4096 from the eleven input blocks of point r / 4096. -/
def edge0 (V : (c : Dev nD) → (b : Ref sig .tc) → Buf (Elt F) ((c : Thread nD τ).loc b)) (c : Dev nD) : FVec F S1003520x64 .f32 :=
  fun i => out0_11 (iblk0 V c 0 (t0 i)) (iblk0 V c 1 (t0 i)) (iblk0 V c 2 (t0 i)) (iblk0 V c 3 (t0 i)) (iblk0 V c 4 (t0 i))
    (iblk0 V c 5 (t0 i)) (iblk0 V c 6 (t0 i)) (iblk0 V c 7 (t0 i)) (iblk0 V c 8 (t0 i)) (iblk0 V c 9 (t0 i)) (iblk0 V c 10 (t0 i)) (l0 i)

/-- The second region's output array [262144,64] as one function of the contents V it is entered with: at row r, what the
    body leaves at row r % 4096 from the ten input blocks of point r / 4096. -/
def node1 (V : (c : Dev nD) → (b : Ref sig .tc) → Buf (Elt F) ((c : Thread nD τ).loc b)) (c : Dev nD) : FVec F S262144x64 .f32 :=
  fun i => out1_10 (iblk1 V c 0 (t1 i)) (iblk1 V c 1 (t1 i)) (iblk1 V c 2 (t1 i)) (iblk1 V c 3 (t1 i)) (iblk1 V c 4 (t1 i))
    (iblk1 V c 5 (t1 i)) (iblk1 V c 6 (t1 i)) (iblk1 V c 7 (t1 i)) (iblk1 V c 8 (t1 i)) (iblk1 V c 9 (t1 i)) (l1 i)

end Cert.KernelIdeal.Hand

end
-- ==== Proof.LibTypedRefs.lean ====
/-
  Contents moved to a typed reference's buffer type and back.

  A module-local function's operations are stated over references that carry the type of the tensor value they
  hold; each operation's function is moved to the buffer's own contents type along the reference's type
  equation, on the way in and on the way out.  The two moves are transports along one equation and its inverse,
  so one after the other they are the identity, for any signature, any value types and any typed reference —
  without computing the buffer's type.
-/
import Idealize.ShloMosaic.Lib.StableHlo

noncomputable section

namespace Cert.Lib.TypedRefs

open Idealize.ShloMosaic Idealize.ShloMosaic.StableHlo

variable {sig : RefSig} {Val : EltTy → Type} {T : BufTy}

/-- Out to the buffer's type and back in: the contents. -/
theorem ofBuf_toBuf (x : TRef sig T) (v : T.Contents Val) : x.ofBuf (x.toBuf v) = v := by
  obtain ⟨r, rfl, _, _⟩ := x; rfl

/-- In from the buffer's type and back out: the contents. -/
theorem toBuf_ofBuf (x : TRef sig T) (u : x.ref.ty.Contents Val) : x.toBuf (x.ofBuf u) = u := by
  obtain ⟨r, rfl, _, _⟩ := x; rfl

end Cert.Lib.TypedRefs

end
-- ==== Proof.KerHost.lean ====
/-
  The host stretches of the graph-attention program, read stretch by stretch.

  For an arbitrary valuation W of the TensorCore's buffers: what each stretch of host operations leaves in each buffer a
  later segment reads, as the named stage of the contents of its direct inputs, and that a buffer the stretch does not write
  keeps its contents (the buffers a stretch writes are listed once per stretch; membership in the list is decided).
-/
import proofs.«164651_j61959198212617_2_alg».proof.Proof.KerStages
import proofs.«164651_j61959198212617_2_alg».proof.Proof.LibTypedRefs
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo Idealize.SL.Sem

variable {F : FTy → Type} [FloatOps F]

/-! ## The buffers each stretch writes -/

/-- The buffers `hostOps0` writes, in order. -/
def writes0 : List (Ref sig .tc) := [main_v0, main_v1, main_v2, main_v3, main_v4, main_v5, main_v6, main_v7, main_v8, main_v9, main_v10, main_v11, main_c, main_v12, main_v13, main_v14, main_c_0, main_v15, main_v16, main_v17, main_c_1, main_v18, main_v19, main_v20, main_c_2, main_v21, main_v22, main_c_3, main_v23, main_v24, main_v25, main_c_4]
theorem hostOps0_writes : (hostOps0 : List (HloOp τ sig (Elt F))).Forall fun op => op.writes ⊆ ((writes0).map (Proc.devRef (τ := τ) .tc)).toFinset := by
  simp only [hostOps0, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer `hostOps0` does not write keeps its contents. -/
theorem keep0 (W : Valuation τ sig (Elt F)) {r : Ref sig .tc} (hr : r ∉ writes0) :
    after hostOps0 W (Proc.devRef .tc r) = W (Proc.devRef .tc r) :=
  after_of_writes_sub hostOps0 W hostOps0_writes hr

/-- The buffers `hostOps0_1` writes, in order. -/
def writes0_1 : List (Ref sig .tc) := [main_call0_v0, main_v26]
theorem hostOps0_1_writes : (hostOps0_1 : List (HloOp τ sig (Elt F))).Forall fun op => op.writes ⊆ ((writes0_1).map (Proc.devRef (τ := τ) .tc)).toFinset := by
  simp only [hostOps0_1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer `hostOps0_1` does not write keeps its contents. -/
theorem keep0_1 (W : Valuation τ sig (Elt F)) {r : Ref sig .tc} (hr : r ∉ writes0_1) :
    after hostOps0_1 W (Proc.devRef .tc r) = W (Proc.devRef .tc r) :=
  after_of_writes_sub hostOps0_1 W hostOps0_1_writes hr

/-- The buffers `hostOps0_2` writes, in order. -/
def writes0_2 : List (Ref sig .tc) := [main_c_5]
theorem hostOps0_2_writes : (hostOps0_2 : List (HloOp τ sig (Elt F))).Forall fun op => op.writes ⊆ ((writes0_2).map (Proc.devRef (τ := τ) .tc)).toFinset := by
  simp only [hostOps0_2, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer `hostOps0_2` does not write keeps its contents. -/
theorem keep0_2 (W : Valuation τ sig (Elt F)) {r : Ref sig .tc} (hr : r ∉ writes0_2) :
    after hostOps0_2 W (Proc.devRef .tc r) = W (Proc.devRef .tc r) :=
  after_of_writes_sub hostOps0_2 W hostOps0_2_writes hr

/-- The buffers `hostOps0_3` writes, in order. -/
def writes0_3 : List (Ref sig .tc) := [main_call1_v0, main_v27]
theorem hostOps0_3_writes : (hostOps0_3 : List (HloOp τ sig (Elt F))).Forall fun op => op.writes ⊆ ((writes0_3).map (Proc.devRef (τ := τ) .tc)).toFinset := by
  simp only [hostOps0_3, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer `hostOps0_3` does not write keeps its contents. -/
theorem keep0_3 (W : Valuation τ sig (Elt F)) {r : Ref sig .tc} (hr : r ∉ writes0_3) :
    after hostOps0_3 W (Proc.devRef .tc r) = W (Proc.devRef .tc r) :=
  after_of_writes_sub hostOps0_3 W hostOps0_3_writes hr

/-- The buffers `hostOps0_4` writes, in order. -/
def writes0_4 : List (Ref sig .tc) := [main_c_6]
theorem hostOps0_4_writes : (hostOps0_4 : List (HloOp τ sig (Elt F))).Forall fun op => op.writes ⊆ ((writes0_4).map (Proc.devRef (τ := τ) .tc)).toFinset := by
  simp only [hostOps0_4, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer `hostOps0_4` does not write keeps its contents. -/
theorem keep0_4 (W : Valuation τ sig (Elt F)) {r : Ref sig .tc} (hr : r ∉ writes0_4) :
    after hostOps0_4 W (Proc.devRef .tc r) = W (Proc.devRef .tc r) :=
  after_of_writes_sub hostOps0_4 W hostOps0_4_writes hr

/-- The buffers `hostOps0_5` writes, in order. -/
def writes0_5 : List (Ref sig .tc) := [main_call2_v0, main_v28]
theorem hostOps0_5_writes : (hostOps0_5 : List (HloOp τ sig (Elt F))).Forall fun op => op.writes ⊆ ((writes0_5).map (Proc.devRef (τ := τ) .tc)).toFinset := by
  simp only [hostOps0_5, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer `hostOps0_5` does not write keeps its contents. -/
theorem keep0_5 (W : Valuation τ sig (Elt F)) {r : Ref sig .tc} (hr : r ∉ writes0_5) :
    after hostOps0_5 W (Proc.devRef .tc r) = W (Proc.devRef .tc r) :=
  after_of_writes_sub hostOps0_5 W hostOps0_5_writes hr

/-- The buffers `hostOps0_6` writes, in order. -/
def writes0_6 : List (Ref sig .tc) := [main_v29, main_c_7, main_v30, main_v31, main_c_8, main_v32, main_v33, main_v34, main_v35, main_v36, main_c_9, main_v37, main_v38, main_c_10, main_v39, main_v40, main_v41, main_v42, main_v43, main_c_11, main_v44, main_v45, main_c_12, main_v46, main_v47, main_v48, main_v49, main_v50, main_v51, main_v52, main_v53, main_v54, main_v55, main_v56]
theorem hostOps0_6_writes : (hostOps0_6 : List (HloOp τ sig (Elt F))).Forall fun op => op.writes ⊆ ((writes0_6).map (Proc.devRef (τ := τ) .tc)).toFinset := by
  simp only [hostOps0_6, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer `hostOps0_6` does not write keeps its contents. -/
theorem keep0_6 (W : Valuation τ sig (Elt F)) {r : Ref sig .tc} (hr : r ∉ writes0_6) :
    after hostOps0_6 W (Proc.devRef .tc r) = W (Proc.devRef .tc r) :=
  after_of_writes_sub hostOps0_6 W hostOps0_6_writes hr

/-- The buffers `hostOps1` writes, in order. -/
def writes1 : List (Ref sig .tc) := [main_cst, main_v58, main_c_13, main_v59, main_v60, main_c_14, main_v61, main_v62, main_v63, main_v64, main_v65, main_cst_15, main_v66, main_c_16, main_v67, main_v68, main_c_17, main_v69, main_v70, main_v71, main_v72, main_cst_18, main_v73, main_v74, main_v75, main_v76, main_v77, main_v78, main_v79, main_v80, main_v81, main_v82]
theorem hostOps1_writes : (hostOps1 : List (HloOp τ sig (Elt F))).Forall fun op => op.writes ⊆ ((writes1).map (Proc.devRef (τ := τ) .tc)).toFinset := by
  simp only [hostOps1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer `hostOps1` does not write keeps its contents. -/
theorem keep1 (W : Valuation τ sig (Elt F)) {r : Ref sig .tc} (hr : r ∉ writes1) :
    after hostOps1 W (Proc.devRef .tc r) = W (Proc.devRef .tc r) :=
  after_of_writes_sub hostOps1 W hostOps1_writes hr

/-- The buffers `hostOps2` writes, in order. -/
def writes2 : List (Ref sig .tc) := [main_v84]
theorem hostOps2_writes : (hostOps2 : List (HloOp τ sig (Elt F))).Forall fun op => op.writes ⊆ ((writes2).map (Proc.devRef (τ := τ) .tc)).toFinset := by
  simp only [hostOps2, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer `hostOps2` does not write keeps its contents. -/
theorem keep2 (W : Valuation τ sig (Elt F)) {r : Ref sig .tc} (hr : r ∉ writes2) :
    after hostOps2 W (Proc.devRef .tc r) = W (Proc.devRef .tc r) :=
  after_of_writes_sub hostOps2 W hostOps2_writes hr

/-! ## What each stretch computes -/

section Results
variable (W : Valuation τ sig (Elt F))

/-- The last stretch: the result rows as [4,16,4096,64]. -/
theorem after2_v84 : after hostOps2 W (Proc.devRef .tc main_v84) = unRows (W (Proc.devRef .tc main_v83)) := by
  after_results; rfl

/-- The first padding: the source indices padded with the contents of the zero scalar. -/
theorem after0_1_v26 : after hostOps0_1 W (Proc.devRef .tc main_v26)
    = pad S1003520 ![0] ![3520] ![0] (W (Proc.devRef .tc main_v17) : IVec S1000000 32) (W (Proc.devRef .tc main_c_4) : IVec S_ 32) pads_S1000000_S1003520_035200 h_S_ := by
  after_results; rfl
theorem after0_2_c5 : after hostOps0_2 W (Proc.devRef .tc main_c_5) = (constantI S_ 32 0#32 : IVec S_ 32) := by
  after_results
/-- The second padding: the target indices padded with the contents of the zero scalar. -/
theorem after0_3_v27 : after hostOps0_3 W (Proc.devRef .tc main_v27)
    = pad S1003520 ![0] ![3520] ![0] (W (Proc.devRef .tc main_v25) : IVec S1000000 32) (W (Proc.devRef .tc main_c_5) : IVec S_ 32) pads_S1000000_S1003520_035200 h_S_ := by
  after_results; rfl
theorem after0_4_c6 : after hostOps0_4 W (Proc.devRef .tc main_c_6) = (constantI S_ 32 0#32 : IVec S_ 32) := by
  after_results
/-- The third padding: the weights padded with the float of the contents of the zero scalar. -/
theorem after0_5_v28 : after hostOps0_5 W (Proc.devRef .tc main_v28)
    = pad S1003520 ![0] ![3520] ![0] (W (Proc.devRef .tc main_arg3) : FVec F S1000000 .f32) (sitofp .f32 (W (Proc.devRef .tc main_c_6) : IVec S_ 32) : FVec F S_ .f32) pads_S1000000_S1003520_035200 h_S_ := by
  after_results; rfl

end Results

end Cert.KernelIdeal.Hand

end
-- ==== Proof.KerHostOps.lean ====
/-
  The three long host stretches of the graph-attention program, read for an arbitrary valuation W of the TensorCore's
  buffers: what each leaves in each buffer a later segment reads, as the named stage of the contents of its direct inputs.
-/
import proofs.«164651_j61959198212617_2_alg».proof.Proof.KerHost

set_option maxRecDepth 16384
set_option maxHeartbeats 1000000

noncomputable section

namespace Cert.KernelIdeal.Hand

open Cert.KernelIdeal Cert.KernelIdeal.Gen
open Idealize.ShloMosaic Idealize.ShloMosaic.TcCoe Idealize.ShloMosaic.ValueIdx Idealize.ShloMosaic.StableHlo Idealize.SL.Sem

variable {F : FTy → Type} [FloatOps F]
variable (W : Valuation τ sig (Elt F))

/-- The first stretch: the feature rows, their bf16 copy, the position rows, the two flat index vectors, the zero scalar. -/
theorem after0_v0 : after hostOps0 W (Proc.devRef .tc main_v0) = featRows (W (Proc.devRef .tc main_arg0)) := by
  after_results_simp; rfl
theorem after0_v1 : after hostOps0 W (Proc.devRef .tc main_v1) = featRowsB (W (Proc.devRef .tc main_arg0)) := by
  after_results_simp; rfl
theorem after0_v3 : after hostOps0 W (Proc.devRef .tc main_v3) = posRows (W (Proc.devRef .tc main_arg1)) := by
  after_results_simp; rfl
theorem after0_v17 : after hostOps0 W (Proc.devRef .tc main_v17) = flatPre (W (Proc.devRef .tc main_arg2)) := by
  after_results_simp; rfl
theorem after0_v25 : after hostOps0 W (Proc.devRef .tc main_v25) = flatSuc (W (Proc.devRef .tc main_arg2)) := by
  after_results_simp; rfl
theorem after0_c4 : after hostOps0 W (Proc.devRef .tc main_c_4) = (constantI S_ 32 0#32 : IVec S_ 32) := by
  after_results_simp

/-- The stretch before the first region: the weight column, the gathered source rows, the position differences, the
    weight rows. -/
theorem after0_6_v29 : after hostOps0_6 W (Proc.devRef .tc main_v29)
    = shapeCast S1003520x1 (W (Proc.devRef .tc main_v28) : FVec F S1003520 .f32) shapeCasts_S1003520_S1003520x1 := by
  after_results_simp; rfl
theorem after0_6_v36 : after hostOps0_6 W (Proc.devRef .tc main_v36)
    = valueP (W (Proc.devRef .tc main_v1)) (W (Proc.devRef .tc main_v26)) := by
  after_results_simp; rfl
theorem after0_6_v51 : after hostOps0_6 W (Proc.devRef .tc main_v51)
    = posDistP (W (Proc.devRef .tc main_v3)) (W (Proc.devRef .tc main_v26)) (W (Proc.devRef .tc main_v27)) := by
  after_results_simp; rfl
theorem after0_6_v52 : after hostOps0_6 W (Proc.devRef .tc main_v52) = rowOf (W (Proc.devRef .tc main_arg5)) := by
  after_results_simp; rfl
theorem after0_6_v53 : after hostOps0_6 W (Proc.devRef .tc main_v53) = rowOf (W (Proc.devRef .tc main_arg7)) := by
  after_results_simp; rfl
theorem after0_6_v54 : after hostOps0_6 W (Proc.devRef .tc main_v54) = rowOf (W (Proc.devRef .tc main_arg8)) := by
  after_results_simp; rfl
theorem after0_6_v55 : after hostOps0_6 W (Proc.devRef .tc main_v55) = rowOf (W (Proc.devRef .tc main_arg9)) := by
  after_results_simp; rfl
theorem after0_6_v56 : after hostOps0_6 W (Proc.devRef .tc main_v56) = rowOf (W (Proc.devRef .tc main_arg11)) := by
  after_results_simp; rfl

/-- The stretch between the regions: the summed messages, the target mask, the two halves of the [128,64] matrix, the
    weight rows. -/
theorem after1_v65 : after hostOps1 W (Proc.devRef .tc main_v65)
    = aggr (W (Proc.devRef .tc main_v27)) (W (Proc.devRef .tc main_v57)) := by
  after_results_simp; rfl
theorem after1_v75 : after hostOps1 W (Proc.devRef .tc main_v75) = maskCol (F := F) (W (Proc.devRef .tc main_v25)) := by
  after_results_simp; rfl
theorem after1_v76 : after hostOps1 W (Proc.devRef .tc main_v76) = topHalf (W (Proc.devRef .tc main_arg14)) := by
  after_results_simp; rfl
theorem after1_v77 : after hostOps1 W (Proc.devRef .tc main_v77) = botHalf (W (Proc.devRef .tc main_arg14)) := by
  after_results_simp; rfl
theorem after1_v78 : after hostOps1 W (Proc.devRef .tc main_v78) = rowOf (W (Proc.devRef .tc main_arg15)) := by
  after_results_simp; rfl
theorem after1_v79 : after hostOps1 W (Proc.devRef .tc main_v79) = rowOf (W (Proc.devRef .tc main_arg12)) := by
  after_results_simp; rfl
theorem after1_v80 : after hostOps1 W (Proc.devRef .tc main_v80) = rowOf (W (Proc.devRef .tc main_arg13)) := by
  after_results_simp; rfl
theorem after1_v81 : after hostOps1 W (Proc.devRef .tc main_v81) = rowOf (W (Proc.devRef .tc main_arg16)) := by
  after_results_simp; rfl
theorem after1_v82 : after hostOps1 W (Proc.devRef .tc main_v82) = rowOf (W (Proc.devRef .tc main_arg17)) := by
  after_results_simp; rfl

/-! ## The three paddings, from a valuation whose padding scalar is the integer zero -/

/-- The source indices padded with zero. -/
theorem after0_1_v26' (h4 : W (Proc.devRef .tc main_c_4) = (constantI S_ 32 0#32 : IVec S_ 32)) :
    after hostOps0_1 W (Proc.devRef .tc main_v26) = padI (W (Proc.devRef .tc main_v17)) := by
  rw [after0_1_v26, h4]; rfl
/-- The target indices padded with zero. -/
theorem after0_3_v27' (h5 : W (Proc.devRef .tc main_c_5) = (constantI S_ 32 0#32 : IVec S_ 32)) :
    after hostOps0_3 W (Proc.devRef .tc main_v27) = padI (W (Proc.devRef .tc main_v25)) := by
  rw [after0_3_v27, h5]; rfl
/-- The weights padded with the float of zero. -/
theorem after0_5_v28' (h6 : W (Proc.devRef .tc main_c_6) = (constantI S_ 32 0#32 : IVec S_ 32)) :
    after hostOps0_5 W (Proc.devRef .tc main_v28) = padW (W (Proc.devRef .tc main_arg3)) := by
  rw [after0_5_v28, h6]; rfl

end Cert.KernelIdeal.Hand

end
-- ==== Proof.KerRegion1.lean ====
/-
  The second region's output array as one function of the contents the region is entered with.

  The region's grid has 64 points; point t reads row block t (rows 4096 t … 4096 t + 4095) of the node features, of the
  summed messages and of the mask, reads the weight matrices and rows whole, and writes row block t of the output.  So the
  output array after the region is, at row r, what the body leaves at row r % 4096 from the blocks of point r / 4096.
-/
import proofs.«164651_j61959198212617_2_alg».proof.Proof.KerStages
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-- The zero offsets of a whole-buffer access, however spelt. -/
theorem hz2 : (![0, 0] : Fin 2 → Nat) = fun _ => 0 := funext fun a => by fin_cases a <;> rfl

/-! ## Where each window's block sits at a point -/

/-- The row-blocked windows (features, summed messages, mask, output) are at block row t, block column 0; the whole
    windows are at block (0, 0): decided over the 64 points. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_10.index t (0 : Fin 2) = t.val ∧ win1_10.index t (1 : Fin 2) = 0 :=
  (by decide +kernel : ∀ t : Fin grid1.N, _)

theorem idx1w : ∀ t : Fin cfg1.N,
    win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0 :=
  (by decide +kernel : ∀ t : Fin grid1.N, _)

/-! ## The input blocks read at explicit coordinates -/

/-- Row p of point t's block of the node features is row 4096 t + p of the array. -/
theorem iblk1_0_apply (c : Dev nD) (t : Fin cfg1.N) (p : Fin 4096) (k : Fin 64) (r : Fin 262144) (hr : r.val = t.val * 4096 + p.val) :
    iblk1 V c 0 t (ix2 p k) = V c main_v0 (ix2 r k) := by
  obtain ⟨e0, e1, -⟩ := idx1 t
  show V c main_v0 (((cfg1.win 0).blk t).view.emb (ix2 p k)) = V c main_v0 (ix2 r k)
  refine congrArg (V c main_v0) (funext fun a => Fin.ext ?_)
  match a with
  | ⟨0, _⟩ => show win1_0.index t (0 : Fin 2) * 4096 + 1 * p.val = r.val; omega
  | ⟨1, _⟩ => show win1_0.index t (1 : Fin 2) * 64 + 1 * k.val = k.val; omega

/-- Row p of point t's block of the summed messages is row 4096 t + p of the array. -/
theorem iblk1_1_apply (c : Dev nD) (t : Fin cfg1.N) (p : Fin 4096) (k : Fin 64) (r : Fin 262144) (hr : r.val = t.val * 4096 + p.val) :
    iblk1 V c 1 t (ix2 p k) = V c main_v65 (ix2 r k) := by
  obtain ⟨-, -, e0, e1, -⟩ := idx1 t
  show V c main_v65 (((cfg1.win 1).blk t).view.emb (ix2 p k)) = V c main_v65 (ix2 r k)
  refine congrArg (V c main_v65) (funext fun a => Fin.ext ?_)
  match a with
  | ⟨0, _⟩ => show win1_1.index t (0 : Fin 2) * 4096 + 1 * p.val = r.val; omega
  | ⟨1, _⟩ => show win1_1.index t (1 : Fin 2) * 64 + 1 * k.val = k.val; omega

/-- Row p of point t's block of the mask column is row 4096 t + p of the array. -/
theorem iblk1_2_apply (c : Dev nD) (t : Fin cfg1.N) (p : Fin 4096) (k : Fin 1) (r : Fin 262144) (hr : r.val = t.val * 4096 + p.val) :
    iblk1 V c 2 t (ix2 p k) = V c main_v75 (ix2 r k) := by
  obtain ⟨-, -, -, -, e0, e1, -⟩ := idx1 t
  show V c main_v75 (((cfg1.win 2).blk t).view.emb (ix2 p k)) = V c main_v75 (ix2 r k)
  refine congrArg (V c main_v75) (funext fun a => Fin.ext ?_)
  match a with
  | ⟨0, _⟩ => show win1_2.index t (0 : Fin 2) * 4096 + 1 * p.val = r.val; omega
  | ⟨1, _⟩ => show win1_2.index t (1 : Fin 2) * 1 + 1 * k.val = k.val; omega

/-- A window over a whole array reads the array at every point. -/
theorem iblk1_3_apply (c : Dev nD) (t : Fin cfg1.N) (y : S64x64.Idx) : iblk1 V c 3 t y = V c main_v76 y := by
  obtain ⟨e0, e1, -⟩ := idx1w t
  show V c main_v76 (((cfg1.win 3).blk t).view.emb y) = V c main_v76 y
  refine congrArg (V c main_v76) (funext fun a => Fin.ext ?_)
  match a with
  | ⟨0, _⟩ => show win1_3.index t (0 : Fin 2) * 64 + 1 * (y 0).val = (y 0).val; omega
  | ⟨1, _⟩ => show win1_3.index t (1 : Fin 2) * 64 + 1 * (y 1).val = (y 1).val; omega
theorem iblk1_4_apply (c : Dev nD) (t : Fin cfg1.N) (y : S64x64.Idx) : iblk1 V c 4 t y = V c main_v77 y := by
  obtain ⟨-, -, e0, e1, -⟩ := idx1w t
  show V c main_v77 (((cfg1.win 4).blk t).view.emb y) = V c main_v77 y
  refine congrArg (V c main_v77) (funext fun a => Fin.ext ?_)
  match a with
  | ⟨0, _⟩ => show win1_4.index t (0 : Fin 2) * 64 + 1 * (y 0).val = (y 0).val; omega
  | ⟨1, _⟩ => show win1_4.index t (1 : Fin 2) * 64 + 1 * (y 1).val = (y 1).val; omega
theorem iblk1_5_apply (c : Dev nD) (t : Fin cfg1.N) (y : S1x64.Idx) : iblk1 V c 5 t y = V c main_v78 y := by
  obtain ⟨-, -, -, -, e0, e1, -⟩ := idx1w t
  show V c main_v78 (((cfg1.win 5).blk t).view.emb y) = V c main_v78 y
  refine congrArg (V c main_v78) (funext fun a => Fin.ext ?_)
  match a with
  | ⟨0, _⟩ => show win1_5.index t (0 : Fin 2) * 1 + 1 * (y 0).val = (y 0).val; omega
  | ⟨1, _⟩ => show win1_5.index t (1 : Fin 2) * 64 + 1 * (y 1).val = (y 1).val; omega
theorem iblk1_6_apply (c : Dev nD) (t : Fin cfg1.N) (y : S1x64.Idx) : iblk1 V c 6 t y = V c main_v79 y := by
  obtain ⟨-, -, -, -, -, -, e0, e1, -⟩ := idx1w t
  show V c main_v79 (((cfg1.win 6).blk t).view.emb y) = V c main_v79 y
  refine congrArg (V c main_v79) (funext fun a => Fin.ext ?_)
  match a with
  | ⟨0, _⟩ => show win1_6.index t (0 : Fin 2) * 1 + 1 * (y 0).val = (y 0).val; omega
  | ⟨1, _⟩ => show win1_6.index t (1 : Fin 2) * 64 + 1 * (y 1).val = (y 1).val; omega
theorem iblk1_7_apply (c : Dev nD) (t : Fin cfg1.N) (y : S1x64.Idx) : iblk1 V c 7 t y = V c main_v80 y := by
  obtain ⟨-, -, -, -, -, -, -, -, e0, e1, -⟩ := idx1w t
  show V c main_v80 (((cfg1.win 7).blk t).view.emb y) = V c main_v80 y
  refine congrArg (V c main_v80) (funext fun a => Fin.ext ?_)
  match a with
  | ⟨0, _⟩ => show win1_7.index t (0 : Fin 2) * 1 + 1 * (y 0).val = (y 0).val; omega
  | ⟨1, _⟩ => show win1_7.index t (1 : Fin 2) * 64 + 1 * (y 1).val = (y 1).val; omega
theorem iblk1_8_apply (c : Dev nD) (t : Fin cfg1.N) (y : S1x64.Idx) : iblk1 V c 8 t y = V c main_v81 y := by
  obtain ⟨-, -, -, -, -, -, -, -, -, -, e0, e1, -⟩ := idx1w t
  show V c main_v81 (((cfg1.win 8).blk t).view.emb y) = V c main_v81 y
  refine congrArg (V c main_v81) (funext fun a => Fin.ext ?_)
  match a with
  | ⟨0, _⟩ => show win1_8.index t (0 : Fin 2) * 1 + 1 * (y 0).val = (y 0).val; omega
  | ⟨1, _⟩ => show win1_8.index t (1 : Fin 2) * 64 + 1 * (y 1).val = (y 1).val; omega
theorem iblk1_9_apply (c : Dev nD) (t : Fin cfg1.N) (y : S1x64.Idx) : iblk1 V c 9 t y = V c main_v82 y := by
  obtain ⟨-, -, -, -, -, -, -, -, -, -, -, -, e0, e1⟩ := idx1w t
  show V c main_v82 (((cfg1.win 9).blk t).view.emb y) = V c main_v82 y
  refine congrArg (V c main_v82) (funext fun a => Fin.ext ?_)
  match a with
  | ⟨0, _⟩ => show win1_9.index t (0 : Fin 2) * 1 + 1 * (y 0).val = (y 0).val; omega
  | ⟨1, _⟩ => show win1_9.index t (1 : Fin 2) * 64 + 1 * (y 1).val = (y 1).val; omega

/-! ## What a point writes back, the cover, and the array -/

/-- The point that holds the row under index y of point t's output block is t, and the index inside the block is y. -/
theorem t1_emb (t : Fin cfg1.N) (y : S4096x64.Idx) : t1 (((cfg1.win 10).blk t).view.emb y) = t := by
  obtain ⟨-, -, -, -, -, -, e0, e1⟩ := idx1 t
  apply Fin.ext
  show (win1_10.index t (0 : Fin 2) * 4096 + 1 * (y 0).val) / 4096 = t.val
  have := (y 0).isLt
  change (y 0).val < 4096 at this
  omega
theorem l1_emb (t : Fin cfg1.N) (y : S4096x64.Idx) : l1 (((cfg1.win 10).blk t).view.emb y) = y := by
  obtain ⟨-, -, -, -, -, -, e0, e1⟩ := idx1 t
  funext a; apply Fin.ext
  have h0 := (y 0).isLt
  change (y 0).val < 4096 at h0
  match a with
  | ⟨0, _⟩ => show (win1_10.index t (0 : Fin 2) * 4096 + 1 * (y 0).val) % 4096 = (y 0).val; omega
  | ⟨1, _⟩ => show win1_10.index t (1 : Fin 2) * 64 + 1 * (y 1).val = (y 1).val; omega

/-- An index of the output array is in point t's block iff each coordinate is in the block's range on its axis. -/
theorem mem_blk1 (t : Fin cfg1.N) (i : S262144x64.Idx) :
    i ∈ ((cfg1.win 10).blk t).view.set ↔ ∀ a : Fin 2, win1_10.index t a * S4096x64.size a ≤ (i a).val ∧ (i a).val < win1_10.index t a * S4096x64.size a + S4096x64.size a := by
  show i ∈ ((View.whole main_v83).slice (win1_10.rect t)).set ↔ _
  rw [View.set_slice_whole, Rect.mem_set_unit]
  exact Iff.rfl

/-- Every row is in the block of the point r / 4096. -/
theorem cover1 (i : S262144x64.Idx) : ∃ t : Fin cfg1.N, (cfg1.win 10).flush t = true ∧ i ∈ ((cfg1.win 10).blk t).view.set := by
  refine ⟨t1 i, flush1_10 _, ?_⟩
  rw [mem_blk1]
  obtain ⟨-, -, -, -, -, -, e0, e1⟩ := idx1 (t1 i)
  have ht : (t1 i).val = (i 0).val / 4096 := rfl
  have h1 := (i 1).isLt
  change (i 1).val < 64 at h1
  intro a
  match a with
  | ⟨0, _⟩ => show win1_10.index (t1 i) (0 : Fin 2) * 4096 ≤ (i 0).val ∧ (i 0).val < win1_10.index (t1 i) (0 : Fin 2) * 4096 + 4096; omega
  | ⟨1, _⟩ => show win1_10.index (t1 i) (1 : Fin 2) * 64 ≤ (i 1).val ∧ (i 1).val < win1_10.index (t1 i) (1 : Fin 2) * 64 + 64; omega

/-! ## What a point writes back, and the array -/

/-- The whole-array function under index y of point t's output block is what the body leaves at y from point t's blocks. -/
theorem node1_emb (c : Dev nD) (t : Fin cfg1.N) (y : S4096x64.Idx) :
    node1 V c (((cfg1.win 10).blk t).view.emb y)
      = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) y := by
  unfold node1
  rw [t1_emb t y, l1_emb t y]

/-- The output window is not cut: what is written back of a staging buffer's contents is the contents. -/
theorem cut1_apply {α : Type} (t : Fin cfg1.N) (X : S4096x64.Idx → α) (y : S4096x64.Idx) :
    (cfg1.win 10).cut (grid1.coords t) X y = X y := rfl
/-- A block of an array read at an index is the array at the index's place in it. -/
theorem read1_apply (t : Fin cfg1.N) (G : S262144x64.Idx → Elt F .f32) (y : S4096x64.Idx) :
    ((cfg1.win 10).blk t).view.read (Elt F) G y = G (((cfg1.win 10).blk t).view.emb y) := rfl

/-- What point t writes back is block t of the whole-array function. -/
theorem flushed1_eq (c : Dev nD) (t : Fin cfg1.N) :
    (dat1 V c).flushed 10 t = ((cfg1.win 10).blk t).view.read (Elt F) (node1 V c) := by
  show (cfg1.win 10).cut (grid1.coords t) ((dat1 V c).after 10 t) = _
  rw [after1_10]
  funext y
  exact (cut1_apply t _ y).trans ((node1_emb V c t y).symm.trans (read1_apply t (node1 V c) y).symm)

/-- The output array after the region is the whole-array function of the entry contents: every point writes its block
    of it, and the blocks cover the array. -/
theorem final1 (c : Dev nD) : (dat1 V c).arrAt 10 cfg1.N = node1 V c :=
  (dat1 V c).arrAt_eq_of_cover 10 (node1 V c) (fun t _ => flushed1_eq V c t) cover1

/-- At the region's exit the output buffer holds the whole-array function of the region's entry contents. -/
theorem W10_main_v83 (m : (ℓ : Loc nD τ sig) → Buf (Elt F) ℓ) (ρ : Dev nD → PrngReg) (c : Dev nD) :
    W10 m ρ c (Proc.devRef .tc main_v83) = node1 (V9 m ρ) c :=
  (W10_arr m ρ c 10).trans (final1 (V9 m ρ) c)

end Cert.KernelIdeal.Hand

end
-- ==== Proof.KerRegion0.lean ====
/-
  The first region's output array as one function of the contents the region is entered with.

  The region's grid has 245 points; point t reads row block t (rows 4096 t … 4096 t + 4095) of the position differences,
  of the source feature rows and of the weight column, reads the weight matrices and rows whole, and writes row block t of
  the messages.  So the message array after the region is, at row r, what the body leaves at row r % 4096 from the blocks
  of point r / 4096.
-/
import proofs.«164651_j61959198212617_2_alg».proof.Proof.KerRegion1

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-! ## Where each window's block sits at a point -/

/-- The row-blocked windows and the output are at block row t, block column 0: decided over the 245 points. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 2) = t.val ∧ win0_11.index t (1 : Fin 2) = 0 :=
  (by decide +kernel : ∀ t : Fin grid0.N, _)

/-- The windows over whole arrays are at block (0, 0) at every point: decided over the 245 points. -/
theorem idx0w : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-! ## The input blocks read at explicit coordinates -/

/-- Row p of point t's block of the position differences is row 4096 t + p of the array. -/
theorem iblk0_0_apply (c : Dev nD) (t : Fin cfg0.N) (p : Fin 4096) (k : Fin 2) (r : Fin 1003520) (hr : r.val = t.val * 4096 + p.val) :
    iblk0 V c 0 t (ix2 p k) = V c main_v51 (ix2 r k) := by
  obtain ⟨e0, e1, -⟩ := idx0 t
  show V c main_v51 (((cfg0.win 0).blk t).view.emb (ix2 p k)) = V c main_v51 (ix2 r k)
  refine congrArg (V c main_v51) (funext fun a => Fin.ext ?_)
  match a with
  | ⟨0, _⟩ => show win0_0.index t (0 : Fin 2) * 4096 + 1 * p.val = r.val; omega
  | ⟨1, _⟩ => show win0_0.index t (1 : Fin 2) * 2 + 1 * k.val = k.val; omega

/-- Row p of point t's block of the source feature rows is row 4096 t + p of the array. -/
theorem iblk0_1_apply (c : Dev nD) (t : Fin cfg0.N) (p : Fin 4096) (k : Fin 64) (r : Fin 1003520) (hr : r.val = t.val * 4096 + p.val) :
    iblk0 V c 1 t (ix2 p k) = V c main_v36 (ix2 r k) := by
  obtain ⟨-, -, e0, e1, -⟩ := idx0 t
  show V c main_v36 (((cfg0.win 1).blk t).view.emb (ix2 p k)) = V c main_v36 (ix2 r k)
  refine congrArg (V c main_v36) (funext fun a => Fin.ext ?_)
  match a with
  | ⟨0, _⟩ => show win0_1.index t (0 : Fin 2) * 4096 + 1 * p.val = r.val; omega
  | ⟨1, _⟩ => show win0_1.index t (1 : Fin 2) * 64 + 1 * k.val = k.val; omega

/-- Row p of point t's block of the weight column is row 4096 t + p of the array. -/
theorem iblk0_2_apply (c : Dev nD) (t : Fin cfg0.N) (p : Fin 4096) (k : Fin 1) (r : Fin 1003520) (hr : r.val = t.val * 4096 + p.val) :
    iblk0 V c 2 t (ix2 p k) = V c main_v29 (ix2 r k) := by
  obtain ⟨-, -, -, -, e0, e1, -⟩ := idx0 t
  show V c main_v29 (((cfg0.win 2).blk t).view.emb (ix2 p k)) = V c main_v29 (ix2 r k)
  refine congrArg (V c main_v29) (funext fun a => Fin.ext ?_)
  match a with
  | ⟨0, _⟩ => show win0_2.index t (0 : Fin 2) * 4096 + 1 * p.val = r.val; omega
  | ⟨1, _⟩ => show win0_2.index t (1 : Fin 2) * 1 + 1 * k.val = k.val; omega

/-- A window over a whole array reads the array at every point. -/
theorem iblk0_3_apply (c : Dev nD) (t : Fin cfg0.N) (y : S2x64.Idx) : iblk0 V c 3 t y = V c main_arg4 y := by
  obtain ⟨e0, e1, -⟩ := idx0w t
  show V c main_arg4 (((cfg0.win 3).blk t).view.emb y) = V c main_arg4 y
  refine congrArg (V c main_arg4) (funext fun a => Fin.ext ?_)
  match a with
  | ⟨0, _⟩ => show win0_3.index t (0 : Fin 2) * 2 + 1 * (y 0).val = (y 0).val; omega
  | ⟨1, _⟩ => show win0_3.index t (1 : Fin 2) * 64 + 1 * (y 1).val = (y 1).val; omega
theorem iblk0_4_apply (c : Dev nD) (t : Fin cfg0.N) (y : S1x64.Idx) : iblk0 V c 4 t y = V c main_v52 y := by
  obtain ⟨-, -, e0, e1, -⟩ := idx0w t
  show V c main_v52 (((cfg0.win 4).blk t).view.emb y) = V c main_v52 y
  refine congrArg (V c main_v52) (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega
theorem iblk0_5_apply (c : Dev nD) (t : Fin cfg0.N) (y : S64x64.Idx) : iblk0 V c 5 t y = V c main_arg6 y := by
  obtain ⟨-, -, -, -, e0, e1, -⟩ := idx0w t
  show V c main_arg6 (((cfg0.win 5).blk t).view.emb y) = V c main_arg6 y
  refine congrArg (V c main_arg6) (funext fun a => Fin.ext ?_)
  match a with
  | ⟨0, _⟩ => show win0_5.index t (0 : Fin 2) * 64 + 1 * (y 0).val = (y 0).val; omega
  | ⟨1, _⟩ => show win0_5.index t (1 : Fin 2) * 64 + 1 * (y 1).val = (y 1).val; omega
theorem iblk0_6_apply (c : Dev nD) (t : Fin cfg0.N) (y : S1x64.Idx) : iblk0 V c 6 t y = V c main_v53 y := by
  obtain ⟨-, -, -, -, -, -, e0, e1, -⟩ := idx0w t
  show V c main_v53 (((cfg0.win 6).blk t).view.emb y) = V c main_v53 y
  refine congrArg (V c main_v53) (funext fun a => Fin.ext ?_)
  match a with
  | ⟨0, _⟩ => show win0_6.index t (0 : Fin 2) * 1 + 1 * (y 0).val = (y 0).val; omega
  | ⟨1, _⟩ => show win0_6.index t (1 : Fin 2) * 64 + 1 * (y 1).val = (y 1).val; omega
theorem iblk0_7_apply (c : Dev nD) (t : Fin cfg0.N) (y : S1x64.Idx) : iblk0 V c 7 t y = V c main_v54 y := by
  obtain ⟨-, -, -, -, -, -, -, -, e0, e1, -⟩ := idx0w t
  show V c main_v54 (((cfg0.win 7).blk t).view.emb y) = V c main_v54 y
  refine congrArg (V c main_v54) (funext fun a => Fin.ext ?_)
  match a with
  | ⟨0, _⟩ => show win0_7.index t (0 : Fin 2) * 1 + 1 * (y 0).val = (y 0).val; omega
  | ⟨1, _⟩ => show win0_7.index t (1 : Fin 2) * 64 + 1 * (y 1).val = (y 1).val; omega
theorem iblk0_8_apply (c : Dev nD) (t : Fin cfg0.N) (y : S1x64.Idx) : iblk0 V c 8 t y = V c main_v55 y := by
  obtain ⟨-, -, -, -, -, -, -, -, -, -, e0, e1, -⟩ := idx0w t
  show V c main_v55 (((cfg0.win 8).blk t).view.emb y) = V c main_v55 y
  refine congrArg (V c main_v55) (funext fun a => Fin.ext ?_)
  match a with
  | ⟨0, _⟩ => show win0_8.index t (0 : Fin 2) * 1 + 1 * (y 0).val = (y 0).val; omega
  | ⟨1, _⟩ => show win0_8.index t (1 : Fin 2) * 64 + 1 * (y 1).val = (y 1).val; omega
theorem iblk0_9_apply (c : Dev nD) (t : Fin cfg0.N) (y : S64x64.Idx) : iblk0 V c 9 t y = V c main_arg10 y := by
  obtain ⟨-, -, -, -, -, -, -, -, -, -, -, -, e0, e1, -⟩ := idx0w t
  show V c main_arg10 (((cfg0.win 9).blk t).view.emb y) = V c main_arg10 y
  refine congrArg (V c main_arg10) (funext fun a => Fin.ext ?_)
  match a with
  | ⟨0, _⟩ => show win0_9.index t (0 : Fin 2) * 64 + 1 * (y 0).val = (y 0).val; omega
  | ⟨1, _⟩ => show win0_9.index t (1 : Fin 2) * 64 + 1 * (y 1).val = (y 1).val; omega
theorem iblk0_10_apply (c : Dev nD) (t : Fin cfg0.N) (y : S1x64.Idx) : iblk0 V c 10 t y = V c main_v56 y := by
  obtain ⟨-, -, -, -, -, -, -, -, -, -, -, -, -, -, e0, e1⟩ := idx0w t
  show V c main_v56 (((cfg0.win 10).blk t).view.emb y) = V c main_v56 y
  refine congrArg (V c main_v56) (funext fun a => Fin.ext ?_)
  match a with
  | ⟨0, _⟩ => show win0_10.index t (0 : Fin 2) * 1 + 1 * (y 0).val = (y 0).val; omega
  | ⟨1, _⟩ => show win0_10.index t (1 : Fin 2) * 64 + 1 * (y 1).val = (y 1).val; omega

/-! ## The output block's place, and the cover -/

/-- The point that holds the row under index y of point t's output block is t. -/
theorem t0_emb (t : Fin cfg0.N) (y : S4096x64.Idx) : t0 (((cfg0.win 11).blk t).view.emb y) = t := by
  obtain ⟨-, -, -, -, -, -, e0, e1⟩ := idx0 t
  apply Fin.ext
  show (win0_11.index t (0 : Fin 2) * 4096 + 1 * (y 0).val) / 4096 = t.val
  have := (y 0).isLt
  change (y 0).val < 4096 at this
  omega
/-- The index inside the block of the row under index y of point t's output block is y. -/
theorem l0_emb (t : Fin cfg0.N) (y : S4096x64.Idx) : l0 (((cfg0.win 11).blk t).view.emb y) = y := by
  obtain ⟨-, -, -, -, -, -, e0, e1⟩ := idx0 t
  funext a; apply Fin.ext
  have h0 := (y 0).isLt
  change (y 0).val < 4096 at h0
  match a with
  | ⟨0, _⟩ => show (win0_11.index t (0 : Fin 2) * 4096 + 1 * (y 0).val) % 4096 = (y 0).val; omega
  | ⟨1, _⟩ => show win0_11.index t (1 : Fin 2) * 64 + 1 * (y 1).val = (y 1).val; omega

/-- An index of the output array is in point t's block iff each coordinate is in the block's range on its axis. -/
theorem mem_blk0 (t : Fin cfg0.N) (i : S1003520x64.Idx) :
    i ∈ ((cfg0.win 11).blk t).view.set ↔ ∀ a : Fin 2, win0_11.index t a * S4096x64.size a ≤ (i a).val ∧ (i a).val < win0_11.index t a * S4096x64.size a + S4096x64.size a := by
  show i ∈ ((View.whole main_v57).slice (win0_11.rect t)).set ↔ _
  rw [View.set_slice_whole, Rect.mem_set_unit]
  exact Iff.rfl

/-- Every row r is in the block of the point r / 4096. -/
theorem cover0 (i : S1003520x64.Idx) : ∃ t : Fin cfg0.N, (cfg0.win 11).flush t = true ∧ i ∈ ((cfg0.win 11).blk t).view.set := by
  refine ⟨t0 i, flush0_11 _, ?_⟩
  rw [mem_blk0]
  obtain ⟨-, -, -, -, -, -, e0, e1⟩ := idx0 (t0 i)
  have ht : (t0 i).val = (i 0).val / 4096 := rfl
  have h1 := (i 1).isLt
  change (i 1).val < 64 at h1
  intro a
  match a with
  | ⟨0, _⟩ => show win0_11.index (t0 i) (0 : Fin 2) * 4096 ≤ (i 0).val ∧ (i 0).val < win0_11.index (t0 i) (0 : Fin 2) * 4096 + 4096; omega
  | ⟨1, _⟩ => show win0_11.index (t0 i) (1 : Fin 2) * 64 ≤ (i 1).val ∧ (i 1).val < win0_11.index (t0 i) (1 : Fin 2) * 64 + 64; omega

/-! ## What a point writes back, and the array -/

/-- The whole-array function under index y of point t's output block is what the body leaves at y from point t's blocks. -/
theorem edge0_emb (c : Dev nD) (t : Fin cfg0.N) (y : S4096x64.Idx) :
    edge0 V c (((cfg0.win 11).blk t).view.emb y)
      = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) y := by
  unfold edge0
  rw [t0_emb t y, l0_emb t y]

/-- The output window is not cut: what is written back of a staging buffer's contents is the contents. -/
theorem cut0_apply {α : Type} (t : Fin cfg0.N) (X : S4096x64.Idx → α) (y : S4096x64.Idx) :
    (cfg0.win 11).cut (grid0.coords t) X y = X y := rfl
/-- A block of an array read at an index is the array at the index's place in it. -/
theorem read0_apply (t : Fin cfg0.N) (G : S1003520x64.Idx → Elt F .f32) (y : S4096x64.Idx) :
    ((cfg0.win 11).blk t).view.read (Elt F) G y = G (((cfg0.win 11).blk t).view.emb y) := rfl

/-- What point t writes back is block t of the whole-array function. -/
theorem flushed0_eq (c : Dev nD) (t : Fin cfg0.N) :
    (dat0 V c).flushed 11 t = ((cfg0.win 11).blk t).view.read (Elt F) (edge0 V c) := by
  show (cfg0.win 11).cut (grid0.coords t) ((dat0 V c).after 11 t) = _
  rw [after0_11]
  funext y
  exact (cut0_apply t _ y).trans ((edge0_emb V c t y).symm.trans (read0_apply t (edge0 V c) y).symm)

/-- The output array after the region is the whole-array function of the entry contents: every point writes its block
    of it, and the blocks cover the array. -/
theorem final0 (c : Dev nD) : (dat0 V c).arrAt 11 cfg0.N = edge0 V c :=
  (dat0 V c).arrAt_eq_of_cover 11 (edge0 V c) (fun t _ => flushed0_eq V c t) cover0

/-- At the region's exit the output buffer holds the whole-array function of the region's entry contents. -/
theorem W8_main_v57 (m : (ℓ : Loc nD τ sig) → Buf (Elt F) ℓ) (ρ : Dev nD → PrngReg) (c : Dev nD) :
    W8 m ρ c (Proc.devRef .tc main_v57) = edge0 (V7 m ρ) c :=
  (W8_arr m ρ c 11).trans (final0 (V7 m ρ) c)

end Cert.KernelIdeal.Hand

end
-- ==== Proof.KerBounds.lean ====
/-
  The buffer contents at the named boundaries of the graph-attention program's run, as stages of the launch contents.

  The boundaries: before the first region (after the seven host stretches), after the first region, before the second
  region (after the host stretch between the regions), after the second region, and after the last stretch.  Each buffer a
  later segment reads is followed from the stretch that computes it through the stretches and regions that leave it alone.
-/
import proofs.«164651_j61959198212617_2_alg».proof.Proof.KerHostOps
import proofs.«164651_j61959198212617_2_alg».proof.Proof.KerRegion0

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo Idealize.SL.Sem

variable {F : FTy → Type} [FloatOps F]
variable (m : (ℓ : Loc nD τ sig) → Buf (Elt F) ℓ) (ρ : Dev nD → PrngReg) (c : Dev nD)

/-! ## The arguments, as launched, at the boundaries where they are read -/

theorem W5_main_arg3 : W5 m ρ c (Proc.devRef .tc main_arg3) = m ((c.tc : Thread nD τ).loc main_arg3) :=
  ((keep0_4 (W4 m ρ c) (by decide)).trans ((keep0_3 (W3 m ρ c) (by decide)).trans ((keep0_2 (W2 m ρ c) (by decide)).trans ((keep0_1 (W1 m ρ c) (by decide)).trans (keep0 (W0 m ρ c) (by decide))))))
theorem W6_main_arg5 : W6 m ρ c (Proc.devRef .tc main_arg5) = m ((c.tc : Thread nD τ).loc main_arg5) :=
  ((keep0_5 (W5 m ρ c) (by decide)).trans ((keep0_4 (W4 m ρ c) (by decide)).trans ((keep0_3 (W3 m ρ c) (by decide)).trans ((keep0_2 (W2 m ρ c) (by decide)).trans ((keep0_1 (W1 m ρ c) (by decide)).trans (keep0 (W0 m ρ c) (by decide)))))))
theorem W6_main_arg7 : W6 m ρ c (Proc.devRef .tc main_arg7) = m ((c.tc : Thread nD τ).loc main_arg7) :=
  ((keep0_5 (W5 m ρ c) (by decide)).trans ((keep0_4 (W4 m ρ c) (by decide)).trans ((keep0_3 (W3 m ρ c) (by decide)).trans ((keep0_2 (W2 m ρ c) (by decide)).trans ((keep0_1 (W1 m ρ c) (by decide)).trans (keep0 (W0 m ρ c) (by decide)))))))
theorem W6_main_arg8 : W6 m ρ c (Proc.devRef .tc main_arg8) = m ((c.tc : Thread nD τ).loc main_arg8) :=
  ((keep0_5 (W5 m ρ c) (by decide)).trans ((keep0_4 (W4 m ρ c) (by decide)).trans ((keep0_3 (W3 m ρ c) (by decide)).trans ((keep0_2 (W2 m ρ c) (by decide)).trans ((keep0_1 (W1 m ρ c) (by decide)).trans (keep0 (W0 m ρ c) (by decide)))))))
theorem W6_main_arg9 : W6 m ρ c (Proc.devRef .tc main_arg9) = m ((c.tc : Thread nD τ).loc main_arg9) :=
  ((keep0_5 (W5 m ρ c) (by decide)).trans ((keep0_4 (W4 m ρ c) (by decide)).trans ((keep0_3 (W3 m ρ c) (by decide)).trans ((keep0_2 (W2 m ρ c) (by decide)).trans ((keep0_1 (W1 m ρ c) (by decide)).trans (keep0 (W0 m ρ c) (by decide)))))))
theorem W6_main_arg11 : W6 m ρ c (Proc.devRef .tc main_arg11) = m ((c.tc : Thread nD τ).loc main_arg11) :=
  ((keep0_5 (W5 m ρ c) (by decide)).trans ((keep0_4 (W4 m ρ c) (by decide)).trans ((keep0_3 (W3 m ρ c) (by decide)).trans ((keep0_2 (W2 m ρ c) (by decide)).trans ((keep0_1 (W1 m ρ c) (by decide)).trans (keep0 (W0 m ρ c) (by decide)))))))
theorem W7_main_arg4 : W7 m ρ c (Proc.devRef .tc main_arg4) = m ((c.tc : Thread nD τ).loc main_arg4) :=
  ((keep0_6 (W6 m ρ c) (by decide)).trans ((keep0_5 (W5 m ρ c) (by decide)).trans ((keep0_4 (W4 m ρ c) (by decide)).trans ((keep0_3 (W3 m ρ c) (by decide)).trans ((keep0_2 (W2 m ρ c) (by decide)).trans ((keep0_1 (W1 m ρ c) (by decide)).trans (keep0 (W0 m ρ c) (by decide))))))))
theorem W7_main_arg6 : W7 m ρ c (Proc.devRef .tc main_arg6) = m ((c.tc : Thread nD τ).loc main_arg6) :=
  ((keep0_6 (W6 m ρ c) (by decide)).trans ((keep0_5 (W5 m ρ c) (by decide)).trans ((keep0_4 (W4 m ρ c) (by decide)).trans ((keep0_3 (W3 m ρ c) (by decide)).trans ((keep0_2 (W2 m ρ c) (by decide)).trans ((keep0_1 (W1 m ρ c) (by decide)).trans (keep0 (W0 m ρ c) (by decide))))))))
theorem W7_main_arg10 : W7 m ρ c (Proc.devRef .tc main_arg10) = m ((c.tc : Thread nD τ).loc main_arg10) :=
  ((keep0_6 (W6 m ρ c) (by decide)).trans ((keep0_5 (W5 m ρ c) (by decide)).trans ((keep0_4 (W4 m ρ c) (by decide)).trans ((keep0_3 (W3 m ρ c) (by decide)).trans ((keep0_2 (W2 m ρ c) (by decide)).trans ((keep0_1 (W1 m ρ c) (by decide)).trans (keep0 (W0 m ρ c) (by decide))))))))
theorem W8_main_arg12 : W8 m ρ c (Proc.devRef .tc main_arg12) = m ((c.tc : Thread nD τ).loc main_arg12) :=
  ((W8_of_ne m ρ c main_arg12 (by decide)).trans ((keep0_6 (W6 m ρ c) (by decide)).trans ((keep0_5 (W5 m ρ c) (by decide)).trans ((keep0_4 (W4 m ρ c) (by decide)).trans ((keep0_3 (W3 m ρ c) (by decide)).trans ((keep0_2 (W2 m ρ c) (by decide)).trans ((keep0_1 (W1 m ρ c) (by decide)).trans (keep0 (W0 m ρ c) (by decide)))))))))
theorem W8_main_arg13 : W8 m ρ c (Proc.devRef .tc main_arg13) = m ((c.tc : Thread nD τ).loc main_arg13) :=
  ((W8_of_ne m ρ c main_arg13 (by decide)).trans ((keep0_6 (W6 m ρ c) (by decide)).trans ((keep0_5 (W5 m ρ c) (by decide)).trans ((keep0_4 (W4 m ρ c) (by decide)).trans ((keep0_3 (W3 m ρ c) (by decide)).trans ((keep0_2 (W2 m ρ c) (by decide)).trans ((keep0_1 (W1 m ρ c) (by decide)).trans (keep0 (W0 m ρ c) (by decide)))))))))
theorem W8_main_arg14 : W8 m ρ c (Proc.devRef .tc main_arg14) = m ((c.tc : Thread nD τ).loc main_arg14) :=
  ((W8_of_ne m ρ c main_arg14 (by decide)).trans ((keep0_6 (W6 m ρ c) (by decide)).trans ((keep0_5 (W5 m ρ c) (by decide)).trans ((keep0_4 (W4 m ρ c) (by decide)).trans ((keep0_3 (W3 m ρ c) (by decide)).trans ((keep0_2 (W2 m ρ c) (by decide)).trans ((keep0_1 (W1 m ρ c) (by decide)).trans (keep0 (W0 m ρ c) (by decide)))))))))
theorem W8_main_arg15 : W8 m ρ c (Proc.devRef .tc main_arg15) = m ((c.tc : Thread nD τ).loc main_arg15) :=
  ((W8_of_ne m ρ c main_arg15 (by decide)).trans ((keep0_6 (W6 m ρ c) (by decide)).trans ((keep0_5 (W5 m ρ c) (by decide)).trans ((keep0_4 (W4 m ρ c) (by decide)).trans ((keep0_3 (W3 m ρ c) (by decide)).trans ((keep0_2 (W2 m ρ c) (by decide)).trans ((keep0_1 (W1 m ρ c) (by decide)).trans (keep0 (W0 m ρ c) (by decide)))))))))
theorem W8_main_arg16 : W8 m ρ c (Proc.devRef .tc main_arg16) = m ((c.tc : Thread nD τ).loc main_arg16) :=
  ((W8_of_ne m ρ c main_arg16 (by decide)).trans ((keep0_6 (W6 m ρ c) (by decide)).trans ((keep0_5 (W5 m ρ c) (by decide)).trans ((keep0_4 (W4 m ρ c) (by decide)).trans ((keep0_3 (W3 m ρ c) (by decide)).trans ((keep0_2 (W2 m ρ c) (by decide)).trans ((keep0_1 (W1 m ρ c) (by decide)).trans (keep0 (W0 m ρ c) (by decide)))))))))
theorem W8_main_arg17 : W8 m ρ c (Proc.devRef .tc main_arg17) = m ((c.tc : Thread nD τ).loc main_arg17) :=
  ((W8_of_ne m ρ c main_arg17 (by decide)).trans ((keep0_6 (W6 m ρ c) (by decide)).trans ((keep0_5 (W5 m ρ c) (by decide)).trans ((keep0_4 (W4 m ρ c) (by decide)).trans ((keep0_3 (W3 m ρ c) (by decide)).trans ((keep0_2 (W2 m ρ c) (by decide)).trans ((keep0_1 (W1 m ρ c) (by decide)).trans (keep0 (W0 m ρ c) (by decide)))))))))

/-! ## Before the first region -/

/-- The feature rows. -/
theorem W1_main_v0 : W1 m ρ c (Proc.devRef .tc main_v0) = featRows (m ((c.tc : Thread nD τ).loc main_arg0)) := after0_v0 (W0 m ρ c)
theorem W7_keep_v0 : W7 m ρ c (Proc.devRef .tc main_v0) = W1 m ρ c (Proc.devRef .tc main_v0) :=
  ((keep0_6 (W6 m ρ c) (by decide)).trans ((keep0_5 (W5 m ρ c) (by decide)).trans ((keep0_4 (W4 m ρ c) (by decide)).trans ((keep0_3 (W3 m ρ c) (by decide)).trans ((keep0_2 (W2 m ρ c) (by decide)).trans (keep0_1 (W1 m ρ c) (by decide)))))))

theorem W7_main_v0 : W7 m ρ c (Proc.devRef .tc main_v0) = featRows (m ((c.tc : Thread nD τ).loc main_arg0)) := (W7_keep_v0 m ρ c).trans (W1_main_v0 m ρ c)

/-- The bf16 feature rows and the position rows, up to the last stretch before the region. -/
theorem W6_keep_v1 : W6 m ρ c (Proc.devRef .tc main_v1) = W1 m ρ c (Proc.devRef .tc main_v1) :=
  ((keep0_5 (W5 m ρ c) (by decide)).trans ((keep0_4 (W4 m ρ c) (by decide)).trans ((keep0_3 (W3 m ρ c) (by decide)).trans ((keep0_2 (W2 m ρ c) (by decide)).trans (keep0_1 (W1 m ρ c) (by decide))))))

theorem W6_main_v1 : W6 m ρ c (Proc.devRef .tc main_v1) = featRowsB (m ((c.tc : Thread nD τ).loc main_arg0)) := (W6_keep_v1 m ρ c).trans (after0_v1 (W0 m ρ c))
theorem W6_keep_v3 : W6 m ρ c (Proc.devRef .tc main_v3) = W1 m ρ c (Proc.devRef .tc main_v3) :=
  ((keep0_5 (W5 m ρ c) (by decide)).trans ((keep0_4 (W4 m ρ c) (by decide)).trans ((keep0_3 (W3 m ρ c) (by decide)).trans ((keep0_2 (W2 m ρ c) (by decide)).trans (keep0_1 (W1 m ρ c) (by decide))))))

theorem W6_main_v3 : W6 m ρ c (Proc.devRef .tc main_v3) = posRows (m ((c.tc : Thread nD τ).loc main_arg1)) := (W6_keep_v3 m ρ c).trans (after0_v3 (W0 m ρ c))

/-- The flat target indices. -/
theorem W1_main_v25 : W1 m ρ c (Proc.devRef .tc main_v25) = flatSuc (m ((c.tc : Thread nD τ).loc main_arg2)) := after0_v25 (W0 m ρ c)
theorem W3_keep_v25 : W3 m ρ c (Proc.devRef .tc main_v25) = W1 m ρ c (Proc.devRef .tc main_v25) :=
  ((keep0_2 (W2 m ρ c) (by decide)).trans (keep0_1 (W1 m ρ c) (by decide)))

theorem W7_keep_v25 : W7 m ρ c (Proc.devRef .tc main_v25) = W1 m ρ c (Proc.devRef .tc main_v25) :=
  ((keep0_6 (W6 m ρ c) (by decide)).trans ((keep0_5 (W5 m ρ c) (by decide)).trans ((keep0_4 (W4 m ρ c) (by decide)).trans ((keep0_3 (W3 m ρ c) (by decide)).trans ((keep0_2 (W2 m ρ c) (by decide)).trans (keep0_1 (W1 m ρ c) (by decide)))))))

theorem W7_main_v25 : W7 m ρ c (Proc.devRef .tc main_v25) = flatSuc (m ((c.tc : Thread nD τ).loc main_arg2)) := (W7_keep_v25 m ρ c).trans (W1_main_v25 m ρ c)

/-- The padded flat source indices. -/
theorem W1_main_v17 : W1 m ρ c (Proc.devRef .tc main_v17) = flatPre (m ((c.tc : Thread nD τ).loc main_arg2)) := after0_v17 (W0 m ρ c)
theorem W2_main_v26 : W2 m ρ c (Proc.devRef .tc main_v26) = padI (flatPre (m ((c.tc : Thread nD τ).loc main_arg2))) :=
  (after0_1_v26' (W1 m ρ c) (after0_c4 (W0 m ρ c))).trans (by rw [W1_main_v17 m ρ c])
theorem W6_keep_v26 : W6 m ρ c (Proc.devRef .tc main_v26) = W2 m ρ c (Proc.devRef .tc main_v26) :=
  ((keep0_5 (W5 m ρ c) (by decide)).trans ((keep0_4 (W4 m ρ c) (by decide)).trans ((keep0_3 (W3 m ρ c) (by decide)).trans (keep0_2 (W2 m ρ c) (by decide)))))

theorem W6_main_v26 : W6 m ρ c (Proc.devRef .tc main_v26) = padI (flatPre (m ((c.tc : Thread nD τ).loc main_arg2))) := (W6_keep_v26 m ρ c).trans (W2_main_v26 m ρ c)

/-- The padded flat target indices. -/
theorem W4_main_v27 : W4 m ρ c (Proc.devRef .tc main_v27) = padI (flatSuc (m ((c.tc : Thread nD τ).loc main_arg2))) :=
  (after0_3_v27' (W3 m ρ c) (after0_2_c5 (W2 m ρ c))).trans (by rw [W3_keep_v25 m ρ c, W1_main_v25 m ρ c])
theorem W6_keep_v27 : W6 m ρ c (Proc.devRef .tc main_v27) = W4 m ρ c (Proc.devRef .tc main_v27) :=
  ((keep0_5 (W5 m ρ c) (by decide)).trans (keep0_4 (W4 m ρ c) (by decide)))

theorem W6_main_v27 : W6 m ρ c (Proc.devRef .tc main_v27) = padI (flatSuc (m ((c.tc : Thread nD τ).loc main_arg2))) := (W6_keep_v27 m ρ c).trans (W4_main_v27 m ρ c)
theorem W7_keep_v27 : W7 m ρ c (Proc.devRef .tc main_v27) = W4 m ρ c (Proc.devRef .tc main_v27) :=
  ((keep0_6 (W6 m ρ c) (by decide)).trans ((keep0_5 (W5 m ρ c) (by decide)).trans (keep0_4 (W4 m ρ c) (by decide))))

theorem W7_main_v27 : W7 m ρ c (Proc.devRef .tc main_v27) = padI (flatSuc (m ((c.tc : Thread nD τ).loc main_arg2))) := (W7_keep_v27 m ρ c).trans (W4_main_v27 m ρ c)

/-- The padded weights. -/
theorem W6_main_v28 : W6 m ρ c (Proc.devRef .tc main_v28) = padW (m ((c.tc : Thread nD τ).loc main_arg3)) :=
  (after0_5_v28' (W5 m ρ c) (after0_4_c6 (W4 m ρ c))).trans (by rw [W5_main_arg3 m ρ c])

/-- The first region's inputs. -/
theorem W7_main_v29 : W7 m ρ c (Proc.devRef .tc main_v29) = weightCol (m ((c.tc : Thread nD τ).loc main_arg3)) :=
  (after0_6_v29 (W6 m ρ c)).trans (by rw [W6_main_v28 m ρ c]; rfl)
theorem W7_main_v36 : W7 m ρ c (Proc.devRef .tc main_v36) = valueP (featRowsB (m ((c.tc : Thread nD τ).loc main_arg0))) (padI (flatPre (m ((c.tc : Thread nD τ).loc main_arg2)))) :=
  (after0_6_v36 (W6 m ρ c)).trans (by rw [W6_main_v1 m ρ c, W6_main_v26 m ρ c])
theorem W7_main_v51 : W7 m ρ c (Proc.devRef .tc main_v51) = posDistP (posRows (m ((c.tc : Thread nD τ).loc main_arg1))) (padI (flatPre (m ((c.tc : Thread nD τ).loc main_arg2)))) (padI (flatSuc (m ((c.tc : Thread nD τ).loc main_arg2)))) :=
  (after0_6_v51 (W6 m ρ c)).trans (by rw [W6_main_v3 m ρ c, W6_main_v26 m ρ c, W6_main_v27 m ρ c])
theorem W7_main_v52 : W7 m ρ c (Proc.devRef .tc main_v52) = rowOf (m ((c.tc : Thread nD τ).loc main_arg5)) :=
  (after0_6_v52 (W6 m ρ c)).trans (by rw [W6_main_arg5 m ρ c])
theorem W7_main_v53 : W7 m ρ c (Proc.devRef .tc main_v53) = rowOf (m ((c.tc : Thread nD τ).loc main_arg7)) :=
  (after0_6_v53 (W6 m ρ c)).trans (by rw [W6_main_arg7 m ρ c])
theorem W7_main_v54 : W7 m ρ c (Proc.devRef .tc main_v54) = rowOf (m ((c.tc : Thread nD τ).loc main_arg8)) :=
  (after0_6_v54 (W6 m ρ c)).trans (by rw [W6_main_arg8 m ρ c])
theorem W7_main_v55 : W7 m ρ c (Proc.devRef .tc main_v55) = rowOf (m ((c.tc : Thread nD τ).loc main_arg9)) :=
  (after0_6_v55 (W6 m ρ c)).trans (by rw [W6_main_arg9 m ρ c])
theorem W7_main_v56 : W7 m ρ c (Proc.devRef .tc main_v56) = rowOf (m ((c.tc : Thread nD τ).loc main_arg11)) :=
  (after0_6_v56 (W6 m ρ c)).trans (by rw [W6_main_arg11 m ρ c])

/-! ## After the first region, and before the second -/

theorem W8_main_v27 : W8 m ρ c (Proc.devRef .tc main_v27) = padI (flatSuc (m ((c.tc : Thread nD τ).loc main_arg2))) :=
  (W8_of_ne m ρ c main_v27 (by decide)).trans (W7_main_v27 m ρ c)
theorem W8_main_v25 : W8 m ρ c (Proc.devRef .tc main_v25) = flatSuc (m ((c.tc : Thread nD τ).loc main_arg2)) :=
  (W8_of_ne m ρ c main_v25 (by decide)).trans (W7_main_v25 m ρ c)
theorem W9_main_v0 : W9 m ρ c (Proc.devRef .tc main_v0) = featRows (m ((c.tc : Thread nD τ).loc main_arg0)) :=
  (keep1 (W8 m ρ c) (by decide)).trans ((W8_of_ne m ρ c main_v0 (by decide)).trans (W7_main_v0 m ρ c))

/-- The second region's inputs. -/
theorem W9_main_v65 : W9 m ρ c (Proc.devRef .tc main_v65) = aggr (padI (flatSuc (m ((c.tc : Thread nD τ).loc main_arg2)))) (edge0 (V7 m ρ) c) :=
  (after1_v65 (W8 m ρ c)).trans (by rw [W8_main_v27 m ρ c, W8_main_v57 m ρ c])
theorem W9_main_v75 : W9 m ρ c (Proc.devRef .tc main_v75) = maskCol (F := F) (flatSuc (m ((c.tc : Thread nD τ).loc main_arg2))) :=
  (after1_v75 (W8 m ρ c)).trans (by rw [W8_main_v25 m ρ c])
theorem W9_main_v76 : W9 m ρ c (Proc.devRef .tc main_v76) = topHalf (m ((c.tc : Thread nD τ).loc main_arg14)) :=
  (after1_v76 (W8 m ρ c)).trans (by rw [W8_main_arg14 m ρ c])
theorem W9_main_v77 : W9 m ρ c (Proc.devRef .tc main_v77) = botHalf (m ((c.tc : Thread nD τ).loc main_arg14)) :=
  (after1_v77 (W8 m ρ c)).trans (by rw [W8_main_arg14 m ρ c])
theorem W9_main_v78 : W9 m ρ c (Proc.devRef .tc main_v78) = rowOf (m ((c.tc : Thread nD τ).loc main_arg15)) :=
  (after1_v78 (W8 m ρ c)).trans (by rw [W8_main_arg15 m ρ c])
theorem W9_main_v79 : W9 m ρ c (Proc.devRef .tc main_v79) = rowOf (m ((c.tc : Thread nD τ).loc main_arg12)) :=
  (after1_v79 (W8 m ρ c)).trans (by rw [W8_main_arg12 m ρ c])
theorem W9_main_v80 : W9 m ρ c (Proc.devRef .tc main_v80) = rowOf (m ((c.tc : Thread nD τ).loc main_arg13)) :=
  (after1_v80 (W8 m ρ c)).trans (by rw [W8_main_arg13 m ρ c])
theorem W9_main_v81 : W9 m ρ c (Proc.devRef .tc main_v81) = rowOf (m ((c.tc : Thread nD τ).loc main_arg16)) :=
  (after1_v81 (W8 m ρ c)).trans (by rw [W8_main_arg16 m ρ c])
theorem W9_main_v82 : W9 m ρ c (Proc.devRef .tc main_v82) = rowOf (m ((c.tc : Thread nD τ).loc main_arg17)) :=
  (after1_v82 (W8 m ρ c)).trans (by rw [W8_main_arg17 m ρ c])

/-! ## The result -/

/-- After the last stretch the result buffer holds the second region's whole-array function, as [4,16,4096,64]. -/
theorem W11_main_v84_cast : W11 m ρ c (Proc.devRef .tc main_v84) = unRows (W10 m ρ c (Proc.devRef .tc main_v83)) := after2_v84 (W10 m ρ c)
theorem W11_main_v84 : W11 m ρ c (Proc.devRef .tc main_v84) = unRows (node1 (V9 m ρ) c) :=
  (after2_v84 (W10 m ρ c)).trans (by rw [W10_main_v83 m ρ c])

end Cert.KernelIdeal.Hand

end
-- ==== Proof.KerBoundary.lean ====
/-
  The contents the two regions are entered with, and the result, as stages of the launch contents — the boundary facts of
  the graph-attention program's run in one place.
-/
import proofs.«164651_j61959198212617_2_alg».proof.Proof.KerBounds

noncomputable section

namespace Cert.KernelIdeal.Hand

open Cert.KernelIdeal Cert.KernelIdeal.Gen
open Idealize.ShloMosaic Idealize.ShloMosaic.TcCoe Idealize.ShloMosaic.ValueIdx Idealize.ShloMosaic.StableHlo Idealize.SL.Sem

variable {F : FTy → Type} [FloatOps F]
variable (m : (ℓ : Loc nD τ sig) → Buf (Elt F) ℓ) (ρ : Dev nD → PrngReg) (c : Dev nD)

/-! ## What the first region (the edges) is entered with -/

theorem V7_main_v51 : V7 m ρ c main_v51 = posDistP (posRows (m ((c.tc : Thread nD τ).loc main_arg1))) (padI (flatPre (m ((c.tc : Thread nD τ).loc main_arg2)))) (padI (flatSuc (m ((c.tc : Thread nD τ).loc main_arg2)))) := W7_main_v51 m ρ c
theorem V7_main_v36 : V7 m ρ c main_v36 = valueP (featRowsB (m ((c.tc : Thread nD τ).loc main_arg0))) (padI (flatPre (m ((c.tc : Thread nD τ).loc main_arg2)))) := W7_main_v36 m ρ c
theorem V7_main_v29 : V7 m ρ c main_v29 = weightCol (m ((c.tc : Thread nD τ).loc main_arg3)) := W7_main_v29 m ρ c
theorem V7_main_arg4 : V7 m ρ c main_arg4 = m ((c.tc : Thread nD τ).loc main_arg4) := W7_main_arg4 m ρ c
theorem V7_main_v52 : V7 m ρ c main_v52 = rowOf (m ((c.tc : Thread nD τ).loc main_arg5)) := W7_main_v52 m ρ c
theorem V7_main_arg6 : V7 m ρ c main_arg6 = m ((c.tc : Thread nD τ).loc main_arg6) := W7_main_arg6 m ρ c
theorem V7_main_v53 : V7 m ρ c main_v53 = rowOf (m ((c.tc : Thread nD τ).loc main_arg7)) := W7_main_v53 m ρ c
theorem V7_main_v54 : V7 m ρ c main_v54 = rowOf (m ((c.tc : Thread nD τ).loc main_arg8)) := W7_main_v54 m ρ c
theorem V7_main_v55 : V7 m ρ c main_v55 = rowOf (m ((c.tc : Thread nD τ).loc main_arg9)) := W7_main_v55 m ρ c
theorem V7_main_arg10 : V7 m ρ c main_arg10 = m ((c.tc : Thread nD τ).loc main_arg10) := W7_main_arg10 m ρ c
theorem V7_main_v56 : V7 m ρ c main_v56 = rowOf (m ((c.tc : Thread nD τ).loc main_arg11)) := W7_main_v56 m ρ c

/-! ## What the second region (the nodes) is entered with -/

theorem V9_main_v0 : V9 m ρ c main_v0 = featRows (m ((c.tc : Thread nD τ).loc main_arg0)) := W9_main_v0 m ρ c
theorem V9_main_v65 : V9 m ρ c main_v65 = aggr (padI (flatSuc (m ((c.tc : Thread nD τ).loc main_arg2)))) (edge0 (V7 m ρ) c) := W9_main_v65 m ρ c
theorem V9_main_v75 : V9 m ρ c main_v75 = maskCol (F := F) (flatSuc (m ((c.tc : Thread nD τ).loc main_arg2))) := W9_main_v75 m ρ c
theorem V9_main_v76 : V9 m ρ c main_v76 = topHalf (m ((c.tc : Thread nD τ).loc main_arg14)) := W9_main_v76 m ρ c
theorem V9_main_v77 : V9 m ρ c main_v77 = botHalf (m ((c.tc : Thread nD τ).loc main_arg14)) := W9_main_v77 m ρ c
theorem V9_main_v78 : V9 m ρ c main_v78 = rowOf (m ((c.tc : Thread nD τ).loc main_arg15)) := W9_main_v78 m ρ c
theorem V9_main_v79 : V9 m ρ c main_v79 = rowOf (m ((c.tc : Thread nD τ).loc main_arg12)) := W9_main_v79 m ρ c
theorem V9_main_v80 : V9 m ρ c main_v80 = rowOf (m ((c.tc : Thread nD τ).loc main_arg13)) := W9_main_v80 m ρ c
theorem V9_main_v81 : V9 m ρ c main_v81 = rowOf (m ((c.tc : Thread nD τ).loc main_arg16)) := W9_main_v81 m ρ c
theorem V9_main_v82 : V9 m ρ c main_v82 = rowOf (m ((c.tc : Thread nD τ).loc main_arg17)) := W9_main_v82 m ρ c

/-! ## The result -/

/-- After the last stretch the result buffer holds the second region's whole-array function, as [4,16,4096,64]. -/
theorem result_main_v84 : W11 m ρ c (Proc.devRef .tc main_v84) = unRows (node1 (V9 m ρ) c) := W11_main_v84 m ρ c

end Cert.KernelIdeal.Hand

end
-- ==== Proof.LibColumns.lean ====
/-
  A row statistic kept as a column. A reduction over the lanes of an [a, b] array leaves one value per row, an [a]
  vector; "keepdims" reshapes it to the column [a, 1], and the column is then broadcast back over the lanes to [a, b].
  Read at an index, the column at (i, 0) is the vector at i, and the broadcast at (p, c) is the column at (p, 0):
  every lane of row p sees row p's statistic. Also the lane reductions themselves at the ideal values, read at a row:
  a lane sum is the sum over the row, a lane maximum the maximum over the row taken from the accumulator's value.
  General facts, for any extents.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx
open scoped BigOperators

variable {α : Type}

/-- An [a] vector cast to the column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a lane sum of an [a, b] array, read at row p, is the sum over the row. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

/-- At the ideal values a lane maximum of an [a, b] array, read at row p, is the maximum over the row taken from
    the accumulator's value. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f => (Finset.univ : Finset (Fin b)).fold max (Ideal.ofBits φ acc) f) (funext fun k => congrArg v (funext fun ax => Fin.ext (by
      match ax with
      | ⟨0, _⟩ => rfl
      | ⟨1, _⟩ => rfl))))

end Cert.Columns

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.LibLayerNorm.lean ====
/-
  A block of rows normalised lane-wise, at an index, at the ideal values, for any number of rows `R` and lanes `B`.

  The vector unit's spelling: the lane sum of the block as a column, divided by a constant word `dW` (the mean `μ`),
  spread back over the lanes and subtracted; the squares of the deviations summed over the lanes and divided by `dW`
  again (the variance), a word `eW` added, the inverse square root taken and spread over the lanes; the product
  rescaled by a row `g`, shifted by a row `β`, and clamped below at a word `zW`.  Read at `(p, q)` it is
  `max ((h p q - μ p) * rsqrt (σ² p + eW) * g q + β q) zW`, where `μ p` and `σ² p` are sums over row `p` only.
-/
import proofs.«164651_j61959198212617_2_alg».proof.Proof.LibColumns
import proofs.«164651_j61959198212617_2_alg».proof.Proof.LibRows

noncomputable section

namespace Cert.Lib.LayerNorm

open Idealize.ShloMosaic Idealize.ShloMosaic.ValueIdx
open scoped BigOperators

variable {R B : ℕ}

/-- The mean of each row as a column: the lane sum from zero, cast to a column, divided by the word `dW`. -/
def colMean (h : FVec Ideal ⟨2, ![R, B]⟩ .f32) (dW : BitVec 32)
    (hred : (⟨2, ![R, B]⟩ : Shape).Reduces [1] ⟨1, ![R]⟩) (hcol : (⟨1, ![R]⟩ : Shape).ShapeCasts ⟨2, ![R, 1]⟩) :
    FVec Ideal ⟨2, ![R, 1]⟩ .f32 :=
  divf (shapeCast ⟨2, ![R, 1]⟩ (multiReduction .add [1] ⟨1, ![R]⟩ h 0x00000000#32 hred (.inl rfl) rfl) hcol)
    (broadcast ⟨2, ![R, 1]⟩ (Scalar.ofBits (F := Ideal) .f32 dW))

/-- The deviations of a block from its rows' means. -/
def centred (h : FVec Ideal ⟨2, ![R, B]⟩ .f32) (dW : BitVec 32)
    (hred : (⟨2, ![R, B]⟩ : Shape).Reduces [1] ⟨1, ![R]⟩) (hcol : (⟨1, ![R]⟩ : Shape).ShapeCasts ⟨2, ![R, 1]⟩)
    (hlane : (⟨2, ![R, 1]⟩ : Shape).Broadcasts ⟨2, ![R, B]⟩) : FVec Ideal ⟨2, ![R, B]⟩ .f32 :=
  subf h (broadcastTo ⟨2, ![R, B]⟩ (colMean h dW hred hcol) hlane)

/-- The normalised, rescaled, shifted and clamped block, as the vector unit spells it. -/
def normRows (h : FVec Ideal ⟨2, ![R, B]⟩ .f32) (g β : FVec Ideal ⟨2, ![1, B]⟩ .f32) (dW eW zW : BitVec 32)
    (hred : (⟨2, ![R, B]⟩ : Shape).Reduces [1] ⟨1, ![R]⟩) (hcol : (⟨1, ![R]⟩ : Shape).ShapeCasts ⟨2, ![R, 1]⟩)
    (hlane : (⟨2, ![R, 1]⟩ : Shape).Broadcasts ⟨2, ![R, B]⟩) (hrow : (⟨2, ![1, B]⟩ : Shape).Broadcasts ⟨2, ![R, B]⟩)
    (hself : (⟨2, ![1, B]⟩ : Shape).ShapeCasts ⟨2, ![1, B]⟩) : FVec Ideal ⟨2, ![R, B]⟩ .f32 :=
  maximumf
    (addf
      (mulf
        (mulf (centred h dW hred hcol hlane)
          (broadcastTo ⟨2, ![R, B]⟩
            (rsqrt (addf (colMean (mulf (centred h dW hred hcol hlane) (centred h dW hred hcol hlane)) dW hred hcol)
              (broadcast ⟨2, ![R, 1]⟩ (Scalar.ofBits (F := Ideal) .f32 eW)))) hlane))
        (broadcastTo ⟨2, ![R, B]⟩ (shapeCast ⟨2, ![1, B]⟩ g hself) hrow))
      (broadcastTo ⟨2, ![R, B]⟩ (shapeCast ⟨2, ![1, B]⟩ β hself) hrow))
    (broadcast ⟨2, ![R, B]⟩ (Scalar.ofBits (F := Ideal) .f32 zW))

/-- The mean column at row `p` is the sum over row `p` divided by the word. -/
theorem colMean_apply (h : FVec Ideal ⟨2, ![R, B]⟩ .f32) (dW : BitVec 32)
    (hred : (⟨2, ![R, B]⟩ : Shape).Reduces [1] ⟨1, ![R]⟩) (hcol : (⟨1, ![R]⟩ : Shape).ShapeCasts ⟨2, ![R, 1]⟩)
    (p : Fin R) (u : Fin 1) :
    colMean h dW hred hcol (ix2 p u) = Ideal.div (∑ k : Fin B, h (ix2 p k)) (Ideal.ofBits .f32 dW) := by
  unfold colMean
  rw [divf_apply, Cert.Columns.shapeCast_a_a1_apply]
  exact congrArg (fun s => Ideal.div s (Ideal.ofBits .f32 dW))
    (Cert.Columns.laneSum_apply h 0x00000000#32 hred (.inl rfl) rfl p)

/-- A deviation at `(p, k)` is the entry minus its row's mean. -/
theorem centred_apply (h : FVec Ideal ⟨2, ![R, B]⟩ .f32) (dW : BitVec 32)
    (hred : (⟨2, ![R, B]⟩ : Shape).Reduces [1] ⟨1, ![R]⟩) (hcol : (⟨1, ![R]⟩ : Shape).ShapeCasts ⟨2, ![R, 1]⟩)
    (hlane : (⟨2, ![R, 1]⟩ : Shape).Broadcasts ⟨2, ![R, B]⟩) (p : Fin R) (k : Fin B) :
    centred h dW hred hcol hlane (ix2 p k)
      = h (ix2 p k) - Ideal.div (∑ k' : Fin B, h (ix2 p k')) (Ideal.ofBits .f32 dW) := by
  unfold centred
  rw [subf_apply, Cert.Columns.broadcastTo_a1_ab_apply _ _ p k 0, colMean_apply]

/-- The whole chain at `(p, q)`. -/
theorem normRows_apply (h : FVec Ideal ⟨2, ![R, B]⟩ .f32) (g β : FVec Ideal ⟨2, ![1, B]⟩ .f32) (dW eW zW : BitVec 32)
    (hred : (⟨2, ![R, B]⟩ : Shape).Reduces [1] ⟨1, ![R]⟩) (hcol : (⟨1, ![R]⟩ : Shape).ShapeCasts ⟨2, ![R, 1]⟩)
    (hlane : (⟨2, ![R, 1]⟩ : Shape).Broadcasts ⟨2, ![R, B]⟩) (hrow : (⟨2, ![1, B]⟩ : Shape).Broadcasts ⟨2, ![R, B]⟩)
    (hself : (⟨2, ![1, B]⟩ : Shape).ShapeCasts ⟨2, ![1, B]⟩) (p : Fin R) (q : Fin B) :
    normRows h g β dW eW zW hred hcol hlane hrow hself (ix2 p q)
      = max ((h (ix2 p q) - Ideal.div (∑ k : Fin B, h (ix2 p k)) (Ideal.ofBits .f32 dW))
              * Ideal.rsqrt (Ideal.div (∑ k : Fin B,
                    (h (ix2 p k) - Ideal.div (∑ k' : Fin B, h (ix2 p k')) (Ideal.ofBits .f32 dW))
                      * (h (ix2 p k) - Ideal.div (∑ k' : Fin B, h (ix2 p k')) (Ideal.ofBits .f32 dW)))
                  (Ideal.ofBits .f32 dW) + Ideal.ofBits .f32 eW)
              * g (ix2 0 q) + β (ix2 0 q)) (Ideal.ofBits .f32 zW) := by
  unfold normRows
  rw [maximumf_apply, addf_apply, mulf_apply, mulf_apply, centred_apply,
    Cert.Columns.broadcastTo_a1_ab_apply _ _ p q 0, Cert.Lib.Rows.broadcastTo_row_apply,
    Cert.Lib.Rows.broadcastTo_row_apply, shapeCast_self, shapeCast_self]
  have hvar : rsqrt (addf (colMean (mulf (centred h dW hred hcol hlane) (centred h dW hred hcol hlane)) dW hred hcol)
        (broadcast ⟨2, ![R, 1]⟩ (Scalar.ofBits (F := Ideal) .f32 eW))) (ix2 p (0 : Fin 1))
      = Ideal.rsqrt (Ideal.div (∑ k : Fin B,
                    (h (ix2 p k) - Ideal.div (∑ k' : Fin B, h (ix2 p k')) (Ideal.ofBits .f32 dW))
                      * (h (ix2 p k) - Ideal.div (∑ k' : Fin B, h (ix2 p k')) (Ideal.ofBits .f32 dW)))
                  (Ideal.ofBits .f32 dW) + Ideal.ofBits .f32 eW) := by
    show Ideal.rsqrt (colMean (mulf (centred h dW hred hcol hlane) (centred h dW hred hcol hlane)) dW hred hcol (ix2 p 0)
        + Ideal.ofBits .f32 eW) = _
    rw [colMean_apply]
    simp only [mulf_apply, centred_apply]
  rw [hvar]
  rfl

end Cert.Lib.LayerNorm

end
-- ==== Proof.LibHostRows2.lean ====
/-
  The host's reductions over the last axis of a rank-2 array, read at a row, at the ideal values and for any extents.

  A one-operand host reduce with a maximum body over the last axis of an [a, n] array is, at row p, the running
  maximum from the initial value over the n entries of row p; the host's sum over the last axis is, at row p, the
  initial value plus the sum of the n entries of row p.
-/
import Idealize.ShloMosaic.Lib.ValueIdx
import Idealize.ShloMosaic.PureOps.Ideal.Laws

noncomputable section

namespace Cert.Lib.HostRows2

open Idealize.ShloMosaic Idealize.ShloMosaic.ValueIdx

/-- The host's maximum over the last axis of an [a, n] array, from the initial value, read at row p: the running
    maximum over the row. -/
theorem hostMax_last2_apply {a n : ℕ} {φ : FTy} {u : Shape} (x : FVec Ideal ⟨2, ![a, n]⟩ φ) (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce FloatOps.maximumf x init h' hu (ix1 p)
      = (Finset.univ : Finset (Fin n)).fold max (init (Shape.Idx.first hu)) (fun k => x (ix2 p k)) := by
  refine (Host.reduce_eq_fold_single FloatOps.maximumf x init h' h hu (ix1 p)).trans ?_
  show (Finset.univ : Finset (Fin n)).fold max (init (Shape.Idx.first hu)) (x ∘ h.lift (ix1 p)) = _
  refine congrArg (fun f => (Finset.univ : Finset (Fin n)).fold max (init (Shape.Idx.first hu)) f) (funext fun k => congrArg x ?_)
  exact funext fun ax => Fin.ext (by match ax with | ⟨0, _⟩ => rfl | ⟨1, _⟩ => rfl)

/-- The host's sum over the last axis of an [a, n] array, from the initial value, read at row p: the initial value
    plus the sum over the row. -/
theorem hostSum_last2_apply {a n : ℕ} {φ : FTy} {u : Shape} (x : FVec Ideal ⟨2, ![a, n]⟩ φ) (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduceAdd x init h' hu (ix1 p) = init (Shape.Idx.first hu) + ∑ k : Fin n, x (ix2 p k) := by
  show Ideal.hostReduceAdd h' x (init (Shape.Idx.first hu)) (ix1 p) = _
  rw [Ideal.hostReduceAdd_single h' h]
  refine congrArg (_ + ·) (Finset.sum_congr rfl fun k _ => congrArg x ?_)
  exact funext fun ax => Fin.ext (by match ax with | ⟨0, _⟩ => rfl | ⟨1, _⟩ => rfl)

end Cert.Lib.HostRows2

end
-- ==== Proof.LibHostColumns.lean ====
/-
  A per-row value spread over the lanes by the host.  The host turns a vector [a] into the column [a, 1] by a
  broadcast onto axis 0, and spreads the column over b lanes by a broadcast onto axes 0 and 1.  Read at an
  index, the column at (i, 0) is the vector at i, and the spread array at (p, c) is the column at (p, 0): every
  lane of row p sees row p's value.  General facts, for any extents and entry type.
-/
import Idealize.ShloMosaic.Lib.Pipeline.Value
import Idealize.ShloMosaic.Lib.ValueIdx

noncomputable section

namespace Cert.Lib.HostColumns

open Idealize.ShloMosaic Idealize.ShloMosaic.ValueIdx

variable {α : Type}

/-- A vector [a] broadcast onto axis 0 of the column [a, 1] reads, at (i, u), the vector at i. -/
theorem bcast_vec_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply (![0] : Fin 1 → Fin 2) h x (ix2 i u) (ix1 i) (fun ax => ?_)
  match ax with
  | ⟨0, _⟩ =>
    show i.val = if a = 1 then 0 else i.val
    split
    · have := i.isLt; omega
    · rfl

/-- A column [a, 1] broadcast onto axes 0, 1 of [a, b] reads, at (p, c), the column at row p. -/
theorem bcast_col_lanes_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) (u : Fin 1) :
    broadcastInDim ⟨2, ![a, b]⟩ (![0, 1] : Fin 2 → Fin 2) h v (ix2 p c) = v (ix2 p u) := by
  refine broadcastInDim_apply (![0, 1] : Fin 2 → Fin 2) h v (ix2 p c) (ix2 p u) (fun ax => ?_)
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Cert.Lib.HostColumns

end
-- ==== Proof.LibRowBroadcast.lean ====
/-
  The host's broadcasts of a row and of a scalar, read at an index, generic in the extents.

  A row [1, C] broadcast onto axes 0, 1 of [R, C] reads, at (r, c), the row at (0, c): the same bias is
  added to every row.  A scalar broadcast to any shape reads the scalar everywhere.
-/
import Idealize.ShloMosaic.Lib.ValueIdx
import Idealize.ShloMosaic.Lib.Pipeline.Value

noncomputable section

namespace Cert.Lib.RowBroadcast

open Idealize.ShloMosaic Idealize.ShloMosaic.ValueIdx

variable {α : Type}

/-- A row [1, C] broadcast onto axes 0, 1 of [R, C], read at (r, c), is the row at (0, c). -/
theorem broadcastInDim_row_apply {R C : Nat} (x : (⟨2, ![1, C]⟩ : Shape).Idx → α)
    (h : (⟨2, ![1, C]⟩ : Shape).BroadcastsInDim ⟨2, ![R, C]⟩ (![0, 1] : Fin 2 → Fin 2)) (r : Fin R) (c : Fin C) :
    broadcastInDim ⟨2, ![R, C]⟩ (![0, 1] : Fin 2 → Fin 2) h x (ix2 r c) = x (ix2 0 c) :=
  broadcastInDim_apply (![0, 1] : Fin 2 → Fin 2) h x (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A scalar broadcast to any shape reads the scalar at every index. -/
theorem broadcastInDim_scalar_apply {t : Shape} (x : (⟨0, ![]⟩ : Shape).Idx → α)
    (h : (⟨0, ![]⟩ : Shape).BroadcastsInDim t (![] : Fin 0 → Fin t.rank)) (j : t.Idx) (k : (⟨0, ![]⟩ : Shape).Idx) :
    broadcastInDim t (![] : Fin 0 → Fin t.rank) h x j = x k :=
  broadcastInDim_apply (![] : Fin 0 → Fin t.rank) h x j k (fun a => a.elim0)

end Cert.Lib.RowBroadcast

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«164651_j61959198212617_2_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.LibDotBlocks.lean ====
/-
  A matrix product computed on blocks of its operands is the whole product there.

  At the ideal values — floats extended reals, every operation exact — a `tpu.matmul` into the zero
  accumulator and the host's `dot_general`, both with the plain dimension numbers "rows × contraction
  times contraction × columns", are the same sum over the contraction index.  So a block of rows of the
  left operand times a block of columns of the right operand, multiplied on the matrix unit, gives at its
  local index (p, q) the whole product's entry at (r, c), as soon as row p of the left block is row r of
  the whole left operand and column q of the right block is column c of the whole right operand.  The
  contraction is not blocked; no finiteness is used: both sides are one and the same sum.
-/
import proofs.«164651_j61959198212617_2_alg».proof.Proof.LibRowBlocks

noncomputable section

namespace Cert.Lib.DotBlocks

open Idealize.ShloMosaic Idealize.ShloMosaic.ValueIdx Cert.Lib.PlainDot Cert.Lib.RowBlocks

variable {M K N : Nat}

/-- A block of B rows of the left operand times a block of D columns of the right operand, into the zero
    accumulator: its entry at the local index (p, q) is the whole product's entry at (r, c), when row p of
    the left block is row r of the whole left operand and column q of the right block is column c of the
    whole right operand (the operands' float formats may differ between the blocks and the whole: at the
    ideal values every format is the extended reals). -/
theorem matmul_block_eq_dotGeneral {B D : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, D]⟩ φ₂) (p : Fin B) (q : Fin D) (r : Fin M) (c : Fin N)
    (hx : ∀ k : Fin K, (xb (ix2 p k) : EReal) = x (ix2 r k)) (hw : ∀ k : Fin K, (wb (ix2 k q) : EReal) = w (ix2 k c)) :
    matmul (DotDims.plain B K D) prec xb wb (constant (F := Ideal) ⟨2, ![B, D]⟩ .f32 0x00000000#32) (ix2 p q)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.DotBlocks

end
-- ==== Proof.LibDenseLayers.lean ====
/-
  Dense layers on the matrix unit, block by block, against the host's whole-array spelling.

  At the ideal values — floats extended reals, every operation exact, a change of float format the identity —
  for any extents:

  * an affine map computed on a block of B rows, `(block of x) · w + (row b spread over the rows)` with the
    operands narrowed to a smaller float format and the product taken into the zero accumulator, read at the
    block-local index (p, q), is the host's `x · w + b` read at (r, q), when row p of the block is row r of x;
  * clamping below at a constant word is the same function on both sides;
  * a product against a matrix [H1 + H2, N] of two arrays joined along their columns is the sum of the two
    products against the upper H1 rows and the lower H2 rows: a sum over H1 + H2 indices is the sum over the first
    H1 plus the sum over the last H2 (only commutativity and associativity of +, so no finiteness is needed);
  * hence the two-product layer `(block of a) · w_top + (block of e) · w_bottom + b` on the matrix unit is the
    host's `concat(a, e) · w + b`.
-/
import proofs.«164651_j61959198212617_2_alg».proof.Proof.LibDotBlocks
import proofs.«164651_j61959198212617_2_alg».proof.Proof.LibRows
import proofs.«164651_j61959198212617_2_alg».proof.Proof.LibRowBroadcast
import Idealize.ShloMosaic.Lib.ValueIdx
import Idealize.ShloMosaic.Lib.Pipeline.Value
import Idealize.ShloMosaic.PureOps.Ideal.Laws
import Mathlib.Algebra.BigOperators.Fin

noncomputable section

namespace Cert.Lib.DenseLayers

open Idealize.ShloMosaic Idealize.ShloMosaic.ValueIdx

/-- A vector [N] broadcast onto axis 1 of the row [1, N], read at (0, q), is the vector at q. -/
theorem vec_row_apply {α : Type} {N : Nat} (b : (⟨1, ![N]⟩ : Shape).Idx → α)
    (hb1 : (⟨1, ![N]⟩ : Shape).BroadcastsInDim ⟨2, ![1, N]⟩ (![1] : Fin 1 → Fin 2)) (q : Fin N) :
    broadcastInDim ⟨2, ![1, N]⟩ (![1] : Fin 1 → Fin 2) hb1 b (ix2 0 q) = b (ix1 q) :=
  broadcastInDim_apply (![1] : Fin 1 → Fin 2) hb1 b (ix2 0 q) (ix1 q) (fun a => by
    match a with
    | ⟨0, _⟩ =>
      show q.val = if N = 1 then 0 else q.val
      by_cases hC : N = 1
      · rw [if_pos hC]; have := q.isLt; omega
      · rw [if_neg hC])

/-- The bias: the block's row [1, N] spread over its B rows, read at (p, q), is the host's vector [N] made a row
    and spread over the M rows, read at (r, q), when the block's row holds the vector. -/
theorem bias_block_apply {α : Type} {M B N : Nat} (b : (⟨1, ![N]⟩ : Shape).Idx → α) (bb : (⟨2, ![1, N]⟩ : Shape).Idx → α)
    (hbt : (⟨2, ![1, N]⟩ : Shape).Broadcasts ⟨2, ![B, N]⟩)
    (hb1 : (⟨1, ![N]⟩ : Shape).BroadcastsInDim ⟨2, ![1, N]⟩ (![1] : Fin 1 → Fin 2))
    (hb01 : (⟨2, ![1, N]⟩ : Shape).BroadcastsInDim ⟨2, ![M, N]⟩ (![0, 1] : Fin 2 → Fin 2))
    (p : Fin B) (r : Fin M) (q : Fin N) (hb : bb (ix2 0 q) = b (ix1 q)) :
    broadcastTo ⟨2, ![B, N]⟩ bb hbt (ix2 p q)
      = broadcastInDim ⟨2, ![M, N]⟩ (![0, 1] : Fin 2 → Fin 2) hb01
          (broadcastInDim ⟨2, ![1, N]⟩ (![1] : Fin 1 → Fin 2) hb1 b) (ix2 r q) := by
  rw [Cert.Lib.Rows.broadcastTo_row_apply, Cert.Lib.RowBroadcast.broadcastInDim_row_apply, vec_row_apply, hb]

/-- An affine map on a block of rows is the host's affine map at the block's rows. -/
theorem affine_block_apply {M B K N : Nat} {ψ₁ ψ₂ : FTy}
    (X : FVec Ideal ⟨2, ![M, K]⟩ .f32) (W : FVec Ideal ⟨2, ![K, N]⟩ .f32) (b : FVec Ideal ⟨1, ![N]⟩ .f32)
    (xb : FVec Ideal ⟨2, ![B, K]⟩ .f32) (wb : FVec Ideal ⟨2, ![K, N]⟩ .f32) (bb : FVec Ideal ⟨2, ![1, N]⟩ .f32)
    (g₁ : ψ₁.bits < FTy.f32.bits) (g₂ : ψ₂.bits < FTy.f32.bits) (prec prec' : Option ContractPrecision)
    (hbt : (⟨2, ![1, N]⟩ : Shape).Broadcasts ⟨2, ![B, N]⟩)
    (hb1 : (⟨1, ![N]⟩ : Shape).BroadcastsInDim ⟨2, ![1, N]⟩ (![1] : Fin 1 → Fin 2))
    (hb01 : (⟨2, ![1, N]⟩ : Shape).BroadcastsInDim ⟨2, ![M, N]⟩ (![0, 1] : Fin 2 → Fin 2))
    (p : Fin B) (r : Fin M) (q : Fin N)
    (hx : ∀ k : Fin K, xb (ix2 p k) = X (ix2 r k)) (hw : ∀ k : Fin K, wb (ix2 k q) = W (ix2 k q))
    (hb : bb (ix2 0 q) = b (ix1 q)) :
    addf (matmul (DotDims.plain B K N) prec (truncf ψ₁ xb g₁) (truncf ψ₂ wb g₂) (constant (F := Ideal) ⟨2, ![B, N]⟩ .f32 0x00000000#32))
        (broadcastTo ⟨2, ![B, N]⟩ bb hbt) (ix2 p q)
      = addf (Host.dotGeneral (DotDims.plain M K N) prec' X W)
          (broadcastInDim ⟨2, ![M, N]⟩ (![0, 1] : Fin 2 → Fin 2) hb01
            (broadcastInDim ⟨2, ![1, N]⟩ (![1] : Fin 1 → Fin 2) hb1 b)) (ix2 r q) := by
  rw [addf_apply, addf_apply, bias_block_apply b bb hbt hb1 hb01 p r q hb,
    Cert.Lib.DotBlocks.matmul_block_eq_dotGeneral prec prec' X W (truncf ψ₁ xb g₁) (truncf ψ₂ wb g₂) p q r q hx hw]

/-- Clamping below at the constant word z: the vector unit's `max(A, splat z)` at an index is the host's
    `max(A', broadcast of the scalar constant z)` at an index where A and A' agree. -/
theorem relu_eq {s t : Shape} (A : FVec Ideal s .f32) (A' : FVec Ideal t .f32) (z : BitVec FTy.f32.bits) (i : s.Idx) (j : t.Idx)
    (h0 : (⟨0, ![]⟩ : Shape).BroadcastsInDim t (![] : Fin 0 → Fin t.rank)) (hA : A i = A' j) :
    maximumf A (broadcast s (Scalar.ofBits (F := Ideal) .f32 z)) i
      = maximumf A' (broadcastInDim t (![] : Fin 0 → Fin t.rank) h0 (constant (F := Ideal) ⟨0, ![]⟩ .f32 z)) j := by
  rw [maximumf_apply, maximumf_apply, hA,
    Cert.Lib.RowBroadcast.broadcastInDim_scalar_apply _ h0 j (fun a => a.elim0)]
  rfl

/-- A sum over K = K1 + K2 indices is the sum over the first K1 plus the sum over the last K2. -/
theorem sum_split {β : Type} [AddCommMonoid β] {K K1 K2 : Nat} (hK : K = K1 + K2) (f : Fin K → β) :
    ∑ k : Fin K, f k = (∑ k : Fin K1, f ⟨k.val, by omega⟩) + ∑ k : Fin K2, f ⟨K1 + k.val, by omega⟩ := by
  subst hK
  rw [Fin.sum_univ_add]
  rfl

/-- The host's product of two arrays joined along their columns against a matrix [H1 + H2, N], read at (r, q): the
    first array against the upper H1 rows plus the second against the lower H2 rows. -/
theorem concat_dot_apply {M K H1 H2 N : Nat} (hK : K = H1 + H2)
    (A : FVec Ideal ⟨2, ![M, H1]⟩ .f32) (E : FVec Ideal ⟨2, ![M, H2]⟩ .f32) (W : FVec Ideal ⟨2, ![K, N]⟩ .f32)
    (hc : Shape.Concatenates [(⟨2, ![M, H1]⟩ : Shape), ⟨2, ![M, H2]⟩] ⟨2, ![M, K]⟩ 1)
    (prec : Option ContractPrecision) (r : Fin M) (q : Fin N) :
    Host.dotGeneral (DotDims.plain M K N) prec
        (concatenate (⟨2, ![M, K]⟩ : Shape) 1 [⟨(⟨2, ![M, H1]⟩ : Shape), A⟩, ⟨(⟨2, ![M, H2]⟩ : Shape), E⟩] hc) W (ix2 r q)
      = (∑ k : Fin H1, A (ix2 r k) * W (ix2 ⟨k.val, by omega⟩ q))
        + ∑ k : Fin H2, E (ix2 r k) * W (ix2 ⟨H1 + k.val, by omega⟩ q) := by
  rw [Cert.Lib.RowBlocks.dotGeneral_plain_apply, sum_split hK]
  congr 1
  · refine Finset.sum_congr rfl fun k _ => ?_
    rw [concatenate_pair_apply_left (t := (⟨2, ![M, K]⟩ : Shape)) (1 : Fin 2) A E hc (ix2 r ⟨k.val, by omega⟩) rfl (ix2 r k)
      (fun b => by match b with | ⟨0, _⟩ => rfl | ⟨1, _⟩ => rfl)]
  · refine Finset.sum_congr rfl fun k _ => ?_
    rw [concatenate_pair_apply_right (t := (⟨2, ![M, K]⟩ : Shape)) (1 : Fin 2) A E hc (ix2 r ⟨H1 + k.val, by omega⟩) rfl rfl (ix2 r k)
      (fun b hb => by match b with | ⟨0, _⟩ => rfl | ⟨1, _⟩ => exact absurd rfl hb)
      (by show k.val + H1 = H1 + k.val; omega)]

/-- The two-product layer on a block of rows is the host's product of the joined arrays, plus the bias. -/
theorem dual_block_apply {M B K H1 H2 N : Nat} {ψ₁ ψ₂ ψ₃ ψ₄ : FTy} (hK : K = H1 + H2)
    (A : FVec Ideal ⟨2, ![M, H1]⟩ .f32) (E : FVec Ideal ⟨2, ![M, H2]⟩ .f32) (W : FVec Ideal ⟨2, ![K, N]⟩ .f32)
    (b : FVec Ideal ⟨1, ![N]⟩ .f32)
    (ab : FVec Ideal ⟨2, ![B, H1]⟩ .f32) (eb : FVec Ideal ⟨2, ![B, H2]⟩ .f32)
    (wt : FVec Ideal ⟨2, ![H1, N]⟩ .f32) (wl : FVec Ideal ⟨2, ![H2, N]⟩ .f32) (bb : FVec Ideal ⟨2, ![1, N]⟩ .f32)
    (g₁ : ψ₁.bits < FTy.f32.bits) (g₂ : ψ₂.bits < FTy.f32.bits) (g₃ : ψ₃.bits < FTy.f32.bits) (g₄ : ψ₄.bits < FTy.f32.bits)
    (prec₁ prec₂ prec' : Option ContractPrecision)
    (hc : Shape.Concatenates [(⟨2, ![M, H1]⟩ : Shape), ⟨2, ![M, H2]⟩] ⟨2, ![M, K]⟩ 1)
    (hbt : (⟨2, ![1, N]⟩ : Shape).Broadcasts ⟨2, ![B, N]⟩)
    (hb1 : (⟨1, ![N]⟩ : Shape).BroadcastsInDim ⟨2, ![1, N]⟩ (![1] : Fin 1 → Fin 2))
    (hb01 : (⟨2, ![1, N]⟩ : Shape).BroadcastsInDim ⟨2, ![M, N]⟩ (![0, 1] : Fin 2 → Fin 2))
    (p : Fin B) (r : Fin M) (q : Fin N)
    (ha : ∀ k : Fin H1, ab (ix2 p k) = A (ix2 r k)) (he : ∀ k : Fin H2, eb (ix2 p k) = E (ix2 r k))
    (hwt : ∀ k : Fin H1, wt (ix2 k q) = W (ix2 ⟨k.val, by omega⟩ q))
    (hwl : ∀ k : Fin H2, wl (ix2 k q) = W (ix2 ⟨H1 + k.val, by omega⟩ q))
    (hb : bb (ix2 0 q) = b (ix1 q)) :
    addf (addf (matmul (DotDims.plain B H1 N) prec₁ (truncf ψ₁ ab g₁) (truncf ψ₂ wt g₂) (constant (F := Ideal) ⟨2, ![B, N]⟩ .f32 0x00000000#32))
               (matmul (DotDims.plain B H2 N) prec₂ (truncf ψ₃ eb g₃) (truncf ψ₄ wl g₄) (constant (F := Ideal) ⟨2, ![B, N]⟩ .f32 0x00000000#32)))
        (broadcastTo ⟨2, ![B, N]⟩ bb hbt) (ix2 p q)
      = addf (Host.dotGeneral (DotDims.plain M K N) prec'
                (concatenate (⟨2, ![M, K]⟩ : Shape) 1 [⟨(⟨2, ![M, H1]⟩ : Shape), A⟩, ⟨(⟨2, ![M, H2]⟩ : Shape), E⟩] hc) W)
          (broadcastInDim ⟨2, ![M, N]⟩ (![0, 1] : Fin 2 → Fin 2) hb01
            (broadcastInDim ⟨2, ![1, N]⟩ (![1] : Fin 1 → Fin 2) hb1 b)) (ix2 r q) := by
  rw [addf_apply, addf_apply, addf_apply, bias_block_apply b bb hbt hb1 hb01 p r q hb, concat_dot_apply hK,
    Cert.Lib.PlainDot.matmul_plain_zero_apply, Cert.Lib.PlainDot.matmul_plain_zero_apply]
  congr 2
  · exact Finset.sum_congr rfl fun k _ => congrArg₂ (fun u v : EReal => u * v) (ha k) (hwt k)
  · exact Finset.sum_congr rfl fun k _ => congrArg₂ (fun u v : EReal => u * v) (he k) (hwl k)

end Cert.Lib.DenseLayers

end
-- ==== Proof.LibGroupNorm.lean ====
/-
  Normalising each row of an [R, B] array over its B lanes, at the ideal values, for any R and B.

  The row function: with mu the row's sum divided by the word dW and var the sum of the squared deviations from mu
  divided by dW again, entry j of the normalised row is (x j - mu) * rsqrt (var + eW) * g j + b j.  Two spellings of
  it on whole arrays are read at an index (p, q) here and both give that function of row p: the vector unit's (lane
  sums cast to columns, splat constants, columns and rows spread with vector.broadcast) and the host's (reduce-add
  from a scalar constant, broadcast_in_dim for every change of shape, the scale and shift given as vectors [B]).
-/
import proofs.«164651_j61959198212617_2_alg».proof.Proof.LibLayerNorm
import proofs.«164651_j61959198212617_2_alg».proof.Proof.LibHostRows2
import proofs.«164651_j61959198212617_2_alg».proof.Proof.LibHostColumns
import proofs.«164651_j61959198212617_2_alg».proof.Proof.LibRowBroadcast
import proofs.«164651_j61959198212617_2_alg».proof.Proof.LibDenseLayers

noncomputable section

namespace Cert.Lib.GroupNorm

open Idealize.ShloMosaic Idealize.ShloMosaic.ValueIdx
open scoped BigOperators

variable {R B : ℕ}

/-- The mean of a row: its sum divided by the word `dW`. -/
def rowMean (dW : BitVec 32) (x : Fin B → EReal) : EReal := Ideal.div (∑ k : Fin B, x k) (Ideal.ofBits .f32 dW)

/-- Entry `j` of the normalised, rescaled and shifted row. -/
def gnAt (dW eW : BitVec 32) (x g b : Fin B → EReal) (j : Fin B) : EReal :=
  (x j - rowMean dW x)
      * Ideal.rsqrt (Ideal.div (∑ k : Fin B, (x k - rowMean dW x) * (x k - rowMean dW x)) (Ideal.ofBits .f32 dW)
          + Ideal.ofBits .f32 eW)
      * g j + b j

/-! ## The vector unit's spelling -/

/-- The block normalised lane-wise as the vector unit spells it: deviations from the mean column, times the
    inverse square root of the variance column plus a splat word, times a row, plus a row. -/
def vecNorm (h : FVec Ideal ⟨2, ![R, B]⟩ .f32) (g β : FVec Ideal ⟨2, ![1, B]⟩ .f32) (dW eW : BitVec 32)
    (hred : (⟨2, ![R, B]⟩ : Shape).Reduces [1] ⟨1, ![R]⟩) (hcol : (⟨1, ![R]⟩ : Shape).ShapeCasts ⟨2, ![R, 1]⟩)
    (hlane : (⟨2, ![R, 1]⟩ : Shape).Broadcasts ⟨2, ![R, B]⟩) (hrow : (⟨2, ![1, B]⟩ : Shape).Broadcasts ⟨2, ![R, B]⟩) :
    FVec Ideal ⟨2, ![R, B]⟩ .f32 :=
  addf
    (mulf
      (mulf (Cert.Lib.LayerNorm.centred h dW hred hcol hlane)
        (broadcastTo ⟨2, ![R, B]⟩
          (rsqrt (addf (Cert.Lib.LayerNorm.colMean (mulf (Cert.Lib.LayerNorm.centred h dW hred hcol hlane)
                (Cert.Lib.LayerNorm.centred h dW hred hcol hlane)) dW hred hcol)
            (broadcast ⟨2, ![R, 1]⟩ (Scalar.ofBits (F := Ideal) .f32 eW)))) hlane))
      (broadcastTo ⟨2, ![R, B]⟩ g hrow))
    (broadcastTo ⟨2, ![R, B]⟩ β hrow)

/-- The vector unit's chain at (p, q) is the row function of row p. -/
theorem vecNorm_apply (h : FVec Ideal ⟨2, ![R, B]⟩ .f32) (g β : FVec Ideal ⟨2, ![1, B]⟩ .f32) (dW eW : BitVec 32)
    (hred : (⟨2, ![R, B]⟩ : Shape).Reduces [1] ⟨1, ![R]⟩) (hcol : (⟨1, ![R]⟩ : Shape).ShapeCasts ⟨2, ![R, 1]⟩)
    (hlane : (⟨2, ![R, 1]⟩ : Shape).Broadcasts ⟨2, ![R, B]⟩) (hrow : (⟨2, ![1, B]⟩ : Shape).Broadcasts ⟨2, ![R, B]⟩)
    (p : Fin R) (q : Fin B) :
    vecNorm h g β dW eW hred hcol hlane hrow (ix2 p q)
      = gnAt dW eW (fun k => h (ix2 p k)) (fun k => g (ix2 0 k)) (fun k => β (ix2 0 k)) q := by
  unfold vecNorm gnAt rowMean
  rw [addf_apply, mulf_apply, mulf_apply, Cert.Lib.LayerNorm.centred_apply,
    Cert.Columns.broadcastTo_a1_ab_apply _ _ p q 0, Cert.Lib.Rows.broadcastTo_row_apply,
    Cert.Lib.Rows.broadcastTo_row_apply]
  have hvar : rsqrt (addf (Cert.Lib.LayerNorm.colMean (mulf (Cert.Lib.LayerNorm.centred h dW hred hcol hlane)
        (Cert.Lib.LayerNorm.centred h dW hred hcol hlane)) dW hred hcol)
        (broadcast ⟨2, ![R, 1]⟩ (Scalar.ofBits (F := Ideal) .f32 eW))) (ix2 p (0 : Fin 1))
      = Ideal.rsqrt (Ideal.div (∑ k : Fin B,
                    (h (ix2 p k) - Ideal.div (∑ k' : Fin B, h (ix2 p k')) (Ideal.ofBits .f32 dW))
                      * (h (ix2 p k) - Ideal.div (∑ k' : Fin B, h (ix2 p k')) (Ideal.ofBits .f32 dW)))
                  (Ideal.ofBits .f32 dW) + Ideal.ofBits .f32 eW) := by
    show Ideal.rsqrt (Cert.Lib.LayerNorm.colMean (mulf (Cert.Lib.LayerNorm.centred h dW hred hcol hlane)
        (Cert.Lib.LayerNorm.centred h dW hred hcol hlane)) dW hred hcol (ix2 p 0) + Ideal.ofBits .f32 eW) = _
    rw [Cert.Lib.LayerNorm.colMean_apply]
    simp only [mulf_apply, Cert.Lib.LayerNorm.centred_apply]
  rw [hvar]

/-! ## The host's spelling -/

/-- The mean of each row as a column [R, 1], as the host spells it: reduce-add from the zero constant, the
    vector made a column, divided by the broadcast constant `dW`. -/
def hostMean (x : FVec Ideal ⟨2, ![R, B]⟩ .f32) (dW : BitVec 32)
    (hr : (⟨2, ![R, B]⟩ : Shape).ReducesTo [1] ⟨1, ![R]⟩) (h0 : 0 < (⟨0, ![]⟩ : Shape).numel)
    (hc : (⟨1, ![R]⟩ : Shape).BroadcastsInDim ⟨2, ![R, 1]⟩ (![0] : Fin 1 → Fin 2))
    (hs : (⟨0, ![]⟩ : Shape).BroadcastsInDim ⟨2, ![R, 1]⟩ (![] : Fin 0 → Fin 2)) : FVec Ideal ⟨2, ![R, 1]⟩ .f32 :=
  Host.divf
    (broadcastInDim ⟨2, ![R, 1]⟩ (![0] : Fin 1 → Fin 2) hc
      (Host.reduceAdd x (constant (F := Ideal) ⟨0, ![]⟩ .f32 0x00000000#32) hr h0))
    (broadcastInDim ⟨2, ![R, 1]⟩ (![] : Fin 0 → Fin 2) hs (constant (F := Ideal) ⟨0, ![]⟩ .f32 dW))

/-- The deviations from the rows' means, as the host spells them. -/
def hostCentred (x : FVec Ideal ⟨2, ![R, B]⟩ .f32) (dW : BitVec 32)
    (hr : (⟨2, ![R, B]⟩ : Shape).ReducesTo [1] ⟨1, ![R]⟩) (h0 : 0 < (⟨0, ![]⟩ : Shape).numel)
    (hc : (⟨1, ![R]⟩ : Shape).BroadcastsInDim ⟨2, ![R, 1]⟩ (![0] : Fin 1 → Fin 2))
    (hs : (⟨0, ![]⟩ : Shape).BroadcastsInDim ⟨2, ![R, 1]⟩ (![] : Fin 0 → Fin 2))
    (hl : (⟨2, ![R, 1]⟩ : Shape).BroadcastsInDim ⟨2, ![R, B]⟩ (![0, 1] : Fin 2 → Fin 2)) : FVec Ideal ⟨2, ![R, B]⟩ .f32 :=
  subf x (broadcastInDim ⟨2, ![R, B]⟩ (![0, 1] : Fin 2 → Fin 2) hl (hostMean x dW hr h0 hc hs))

/-- The whole host chain. -/
def hostNorm (x : FVec Ideal ⟨2, ![R, B]⟩ .f32) (g b : FVec Ideal ⟨1, ![B]⟩ .f32) (dW eW : BitVec 32)
    (hr : (⟨2, ![R, B]⟩ : Shape).ReducesTo [1] ⟨1, ![R]⟩) (h0 : 0 < (⟨0, ![]⟩ : Shape).numel)
    (hc : (⟨1, ![R]⟩ : Shape).BroadcastsInDim ⟨2, ![R, 1]⟩ (![0] : Fin 1 → Fin 2))
    (hs : (⟨0, ![]⟩ : Shape).BroadcastsInDim ⟨2, ![R, 1]⟩ (![] : Fin 0 → Fin 2))
    (hl : (⟨2, ![R, 1]⟩ : Shape).BroadcastsInDim ⟨2, ![R, B]⟩ (![0, 1] : Fin 2 → Fin 2))
    (hb1 : (⟨1, ![B]⟩ : Shape).BroadcastsInDim ⟨2, ![1, B]⟩ (![1] : Fin 1 → Fin 2))
    (hb01 : (⟨2, ![1, B]⟩ : Shape).BroadcastsInDim ⟨2, ![R, B]⟩ (![0, 1] : Fin 2 → Fin 2)) : FVec Ideal ⟨2, ![R, B]⟩ .f32 :=
  addf
    (mulf
      (mulf (hostCentred x dW hr h0 hc hs hl)
        (broadcastInDim ⟨2, ![R, B]⟩ (![0, 1] : Fin 2 → Fin 2) hl
          (Host.rsqrt (addf
            (hostMean (mulf (hostCentred x dW hr h0 hc hs hl) (hostCentred x dW hr h0 hc hs hl)) dW hr h0 hc hs)
            (broadcastInDim ⟨2, ![R, 1]⟩ (![] : Fin 0 → Fin 2) hs (constant (F := Ideal) ⟨0, ![]⟩ .f32 eW))))))
      (broadcastInDim ⟨2, ![R, B]⟩ (![0, 1] : Fin 2 → Fin 2) hb01
        (broadcastInDim ⟨2, ![1, B]⟩ (![1] : Fin 1 → Fin 2) hb1 g)))
    (broadcastInDim ⟨2, ![R, B]⟩ (![0, 1] : Fin 2 → Fin 2) hb01
      (broadcastInDim ⟨2, ![1, B]⟩ (![1] : Fin 1 → Fin 2) hb1 b))

/-- The host's mean column at row `p`: the sum over the row divided by the word. -/
theorem hostMean_apply (x : FVec Ideal ⟨2, ![R, B]⟩ .f32) (dW : BitVec 32)
    (hr : (⟨2, ![R, B]⟩ : Shape).ReducesTo [1] ⟨1, ![R]⟩) (hrd : (⟨2, ![R, B]⟩ : Shape).Reduces [1] ⟨1, ![R]⟩)
    (h0 : 0 < (⟨0, ![]⟩ : Shape).numel)
    (hc : (⟨1, ![R]⟩ : Shape).BroadcastsInDim ⟨2, ![R, 1]⟩ (![0] : Fin 1 → Fin 2))
    (hs : (⟨0, ![]⟩ : Shape).BroadcastsInDim ⟨2, ![R, 1]⟩ (![] : Fin 0 → Fin 2)) (p : Fin R) (u : Fin 1) :
    hostMean x dW hr h0 hc hs (ix2 p u) = Ideal.div (∑ k : Fin B, x (ix2 p k)) (Ideal.ofBits .f32 dW) := by
  unfold hostMean
  show Ideal.div (broadcastInDim ⟨2, ![R, 1]⟩ (![0] : Fin 1 → Fin 2) hc
      (Host.reduceAdd x (constant (F := Ideal) ⟨0, ![]⟩ .f32 0x00000000#32) hr h0) (ix2 p u))
    (broadcastInDim ⟨2, ![R, 1]⟩ (![] : Fin 0 → Fin 2) hs (constant (F := Ideal) ⟨0, ![]⟩ .f32 dW) (ix2 p u)) = _
  rw [Cert.Lib.HostColumns.bcast_vec_col_apply, Cert.Lib.HostRows2.hostSum_last2_apply x _ hr hrd h0 p,
    Cert.Lib.RowBroadcast.broadcastInDim_scalar_apply _ _ _ ix0]
  show Ideal.div (Ideal.ofBits .f32 0x00000000#32 + _) (Ideal.ofBits .f32 dW) = _
  rw [Ideal.ofBits_zero_f32, zero_add]

/-- A host deviation at (p, k): the entry minus its row's mean. -/
theorem hostCentred_apply (x : FVec Ideal ⟨2, ![R, B]⟩ .f32) (dW : BitVec 32)
    (hr : (⟨2, ![R, B]⟩ : Shape).ReducesTo [1] ⟨1, ![R]⟩) (hrd : (⟨2, ![R, B]⟩ : Shape).Reduces [1] ⟨1, ![R]⟩)
    (h0 : 0 < (⟨0, ![]⟩ : Shape).numel)
    (hc : (⟨1, ![R]⟩ : Shape).BroadcastsInDim ⟨2, ![R, 1]⟩ (![0] : Fin 1 → Fin 2))
    (hs : (⟨0, ![]⟩ : Shape).BroadcastsInDim ⟨2, ![R, 1]⟩ (![] : Fin 0 → Fin 2))
    (hl : (⟨2, ![R, 1]⟩ : Shape).BroadcastsInDim ⟨2, ![R, B]⟩ (![0, 1] : Fin 2 → Fin 2)) (p : Fin R) (k : Fin B) :
    hostCentred x dW hr h0 hc hs hl (ix2 p k)
      = x (ix2 p k) - Ideal.div (∑ k' : Fin B, x (ix2 p k')) (Ideal.ofBits .f32 dW) := by
  unfold hostCentred
  rw [subf_apply, Cert.Lib.HostColumns.bcast_col_lanes_apply _ _ p k 0, hostMean_apply x dW hr hrd h0 hc hs]

/-- The host's chain at (p, q) is the row function of row p. -/
theorem hostNorm_apply (x : FVec Ideal ⟨2, ![R, B]⟩ .f32) (g b : FVec Ideal ⟨1, ![B]⟩ .f32) (dW eW : BitVec 32)
    (hr : (⟨2, ![R, B]⟩ : Shape).ReducesTo [1] ⟨1, ![R]⟩) (hrd : (⟨2, ![R, B]⟩ : Shape).Reduces [1] ⟨1, ![R]⟩)
    (h0 : 0 < (⟨0, ![]⟩ : Shape).numel)
    (hc : (⟨1, ![R]⟩ : Shape).BroadcastsInDim ⟨2, ![R, 1]⟩ (![0] : Fin 1 → Fin 2))
    (hs : (⟨0, ![]⟩ : Shape).BroadcastsInDim ⟨2, ![R, 1]⟩ (![] : Fin 0 → Fin 2))
    (hl : (⟨2, ![R, 1]⟩ : Shape).BroadcastsInDim ⟨2, ![R, B]⟩ (![0, 1] : Fin 2 → Fin 2))
    (hb1 : (⟨1, ![B]⟩ : Shape).BroadcastsInDim ⟨2, ![1, B]⟩ (![1] : Fin 1 → Fin 2))
    (hb01 : (⟨2, ![1, B]⟩ : Shape).BroadcastsInDim ⟨2, ![R, B]⟩ (![0, 1] : Fin 2 → Fin 2)) (p : Fin R) (q : Fin B) :
    hostNorm x g b dW eW hr h0 hc hs hl hb1 hb01 (ix2 p q)
      = gnAt dW eW (fun k => x (ix2 p k)) (fun k => g (ix1 k)) (fun k => b (ix1 k)) q := by
  unfold hostNorm gnAt rowMean
  rw [addf_apply, mulf_apply, mulf_apply, hostCentred_apply x dW hr hrd h0 hc hs hl,
    Cert.Lib.HostColumns.bcast_col_lanes_apply _ _ p q 0,
    Cert.Lib.RowBroadcast.broadcastInDim_row_apply, Cert.Lib.RowBroadcast.broadcastInDim_row_apply,
    Cert.Lib.DenseLayers.vec_row_apply, Cert.Lib.DenseLayers.vec_row_apply]
  have hvar : Host.rsqrt (addf
        (hostMean (mulf (hostCentred x dW hr h0 hc hs hl) (hostCentred x dW hr h0 hc hs hl)) dW hr h0 hc hs)
        (broadcastInDim ⟨2, ![R, 1]⟩ (![] : Fin 0 → Fin 2) hs (constant (F := Ideal) ⟨0, ![]⟩ .f32 eW))) (ix2 p (0 : Fin 1))
      = Ideal.rsqrt (Ideal.div (∑ k : Fin B,
                    (x (ix2 p k) - Ideal.div (∑ k' : Fin B, x (ix2 p k')) (Ideal.ofBits .f32 dW))
                      * (x (ix2 p k) - Ideal.div (∑ k' : Fin B, x (ix2 p k')) (Ideal.ofBits .f32 dW)))
                  (Ideal.ofBits .f32 dW) + Ideal.ofBits .f32 eW) := by
    show Ideal.rsqrt (hostMean (mulf (hostCentred x dW hr h0 hc hs hl) (hostCentred x dW hr h0 hc hs hl)) dW hr h0 hc hs (ix2 p 0)
        + broadcastInDim ⟨2, ![R, 1]⟩ (![] : Fin 0 → Fin 2) hs (constant (F := Ideal) ⟨0, ![]⟩ .f32 eW) (ix2 p 0)) = _
    rw [hostMean_apply _ dW hr hrd h0 hc hs, Cert.Lib.RowBroadcast.broadcastInDim_scalar_apply _ _ _ ix0]
    simp only [mulf_apply, hostCentred_apply x dW hr hrd h0 hc hs hl]
    rfl
  rw [hvar]

end Cert.Lib.GroupNorm

end
-- ==== Proof.LibSigmoid.lean ====
/-
  The logistic function spelt with a division, on the extended reals.

  The single-precision word 0x3F800000 denotes the number one, so the quotient of that constant by
  the constant plus the exponential of the negated argument is the logistic function of the argument:
  1 / (1 + exp (-x)).
-/
import Idealize.ShloMosaic.PureOps.Ideal

namespace Cert.GruLib

open Idealize.ShloMosaic

/-- The single-precision word 0x3F800000 denotes the number one. -/
theorem ofBits_one : Ideal.ofBits .f32 0x3F800000#32 = 1 := by
  simp [Ideal.ofBits, Ideal.ieee, -EReal.coe_mul]; norm_num

/-- One over (one plus the exponential of minus x), with the ones given by their words, is the logistic function of x. -/
theorem div_one_add_exp_neg (x : EReal) :
    Ideal.div (Ideal.ofBits .f32 0x3F800000#32) (Ideal.ofBits .f32 0x3F800000#32 + Ideal.exp (-x)) = Ideal.logistic x := by
  rw [ofBits_one]; rfl

end Cert.GruLib
-- ==== Proof.Spec.lean ====
/-
  The row functions of the graph-attention layer, on the extended reals.

  An EDGE carries a 2-vector d (the difference of the two end points' positions), a 64-vector v (the features
  gathered at its source) and a weight w.  Its contribution to its target node is
      ((v + GN(leaky(d W1 + b1) W2 + b2)) Wa + ba) * w,
  with GN the normalisation of a row over its 64 lanes, rescaled and shifted.  A NODE carries its own features x,
  the sum c of the contributions that reached it, and a mark telling whether any edge reached it; its new features are
  leaky(GN([x, GN(c)] Wf + bf)) when marked and x otherwise.  The kernel takes the mark as a number m in {0, 1} and
  blends, m * new + (1 - m) * x, and multiplies [x, GN(c)] against the two halves of Wf separately.
-/
import proofs.«164651_j61959198212617_2_alg».proof.Proof.LibGroupNorm
import proofs.«164651_j61959198212617_2_alg».proof.Proof.LibSigmoid

noncomputable section

namespace Cert.Spec

open Idealize.ShloMosaic
open scoped BigOperators
open Cert.Lib.GroupNorm (gnAt)

/-- The leaky rectifier with slope word 0x3C23D70A, exactly as both programs spell it: compare with zero, keep
    the entry or its product with the slope. -/
def leakyS (x : EReal) : EReal :=
  Scalar.select (FloatOps.cmpf (F := Ideal) (φ := .f32) .oge x (Ideal.ofBits .f32 0x00000000#32)) x
    (Ideal.ofBits .f32 0x3C23D70A#32 * x)

/-- An affine map of a row: entry j of x W + b. -/
def affS {K N : ℕ} (x : Fin K → EReal) (W : Fin K → Fin N → EReal) (b : Fin N → EReal) (j : Fin N) : EReal :=
  (∑ k : Fin K, x k * W k j) + b j

/-- The normalisation both programs use: divisor word 64.0, epsilon word 1e-5 rounded to single precision. -/
abbrev gn64 (x g b : Fin 64 → EReal) (j : Fin 64) : EReal := gnAt 0x42800000#32 0x3727C5AC#32 x g b j

/-- The attention value of an edge before its weight. -/
def attRow (d : Fin 2 → EReal) (v : Fin 64 → EReal)
    (W1 : Fin 2 → Fin 64 → EReal) (b1 : Fin 64 → EReal) (W2 : Fin 64 → Fin 64 → EReal) (b2 g β : Fin 64 → EReal)
    (Wa : Fin 64 → Fin 64 → EReal) (ba : Fin 64 → EReal) (q : Fin 64) : EReal :=
  affS (fun k => v k + gn64 (affS (fun i => leakyS (affS d W1 b1 i)) W2 b2) g β k) Wa ba q

/-- An edge's contribution: its attention value times its weight. -/
def edgeRow (d : Fin 2 → EReal) (v : Fin 64 → EReal) (w : EReal)
    (W1 : Fin 2 → Fin 64 → EReal) (b1 : Fin 64 → EReal) (W2 : Fin 64 → Fin 64 → EReal) (b2 g β : Fin 64 → EReal)
    (Wa : Fin 64 → Fin 64 → EReal) (ba : Fin 64 → EReal) (q : Fin 64) : EReal :=
  attRow d v W1 b1 W2 b2 g β Wa ba q * w

/-- The fused features of a node: leaky(GN(x Wtop + GN(c) Wbot + bf)). -/
def fusedRow (x c : Fin 64 → EReal) (Wt Wb : Fin 64 → Fin 64 → EReal) (bf gn βn gf βf : Fin 64 → EReal) (q : Fin 64) : EReal :=
  leakyS (gn64 (fun j => ((∑ k : Fin 64, x k * Wt k j) + ∑ k : Fin 64, gn64 c gn βn k * Wb k j) + bf j) gf βf q)

/-- The kernel's blend by a numeric mark m. -/
def blendRow (m : EReal) (x c : Fin 64 → EReal) (Wt Wb : Fin 64 → Fin 64 → EReal) (bf gn βn gf βf : Fin 64 → EReal) (q : Fin 64) : EReal :=
  m * fusedRow x c Wt Wb bf gn βn gf βf q + (Ideal.ofBits .f32 0x3F800000#32 - m) * x q

/-- At mark one the blend is the fused row; at mark zero it is the node's own features. -/
theorem blendRow_one (x c : Fin 64 → EReal) (Wt Wb : Fin 64 → Fin 64 → EReal) (bf gn βn gf βf : Fin 64 → EReal) (q : Fin 64) :
    blendRow (Ideal.ofBits .f32 0x3F800000#32) x c Wt Wb bf gn βn gf βf q = fusedRow x c Wt Wb bf gn βn gf βf q := by
  unfold blendRow
  have h0 : ((1 : EReal) - 1) = 0 := by
    have h : ((1 : ℝ) : EReal) - ((1 : ℝ) : EReal) = ((1 - 1 : ℝ) : EReal) := (EReal.coe_sub 1 1).symm
    simpa using h
  rw [Cert.GruLib.ofBits_one, one_mul, h0, zero_mul, add_zero]

theorem blendRow_zero (x c : Fin 64 → EReal) (Wt Wb : Fin 64 → Fin 64 → EReal) (bf gn βn gf βf : Fin 64 → EReal) (q : Fin 64) :
    blendRow (Ideal.ofBits .f32 0x00000000#32) x c Wt Wb bf gn βn gf βf q = x q := by
  unfold blendRow
  rw [Ideal.ofBits_zero_f32, Cert.GruLib.ofBits_one, zero_mul, zero_add, sub_zero, one_mul]

/-- A weight of zero kills the contribution, whatever the attention value is. -/
theorem edgeRow_zero (d : Fin 2 → EReal) (v : Fin 64 → EReal)
    (W1 : Fin 2 → Fin 64 → EReal) (b1 : Fin 64 → EReal) (W2 : Fin 64 → Fin 64 → EReal) (b2 g β : Fin 64 → EReal)
    (Wa : Fin 64 → Fin 64 → EReal) (ba : Fin 64 → EReal) (q : Fin 64) :
    edgeRow d v 0 W1 b1 W2 b2 g β Wa ba q = 0 := by
  unfold edgeRow; exact mul_zero _

end Cert.Spec

end
-- ==== Proof.EdgeBody.lean ====
/-
  The edge region's body, read at an index of its output block, at the ideal values.

  A grid point of the edge region holds 4096 consecutive edges.  Row p of the block it writes depends only on row p
  of its three row-blocked inputs (the position difference, the gathered source features, the weight) and on the
  whole weight matrices and rows: it is the edge's contribution `edgeRow`.  The two dense layers are matrix products
  into a zero accumulator (plain sums at the ideal values, the narrowing of the operands being the identity there),
  the normalisation is the lane-wise chain read in the group-norm module, and the leaky rectifier is pointwise.
-/
import proofs.«164651_j61959198212617_2_alg».proof.Proof.Gen.KernelIdeal.Frame
import proofs.«164651_j61959198212617_2_alg».proof.Proof.Spec
import proofs.«164651_j61959198212617_2_alg».proof.Proof.LibPlainDot
import proofs.«164651_j61959198212617_2_alg».proof.Proof.LibRows
import proofs.«164651_j61959198212617_2_alg».proof.Proof.LibColumns

set_option maxRecDepth 16384

noncomputable section

namespace Cert.KernelIdeal.Body

open Cert.KernelIdeal Cert.KernelIdeal.Gen Idealize.ShloMosaic Idealize.ShloMosaic.ValueIdx Cert.Spec
open Cert.Lib.GroupNorm (vecNorm vecNorm_apply gnAt)
open scoped BigOperators

/-- The offsets of a whole-block access are all zero. -/
theorem hz : (![0, 0] : Fin 2 → Nat) = fun _ => 0 := funext fun a => by fin_cases a <;> rfl

/-- The two matrix products of the edge body are plain: rows against columns. -/
theorem dot2_eq : dot_S4096x2_S2x64_S4096x64_1_0_0_1_n_n = DotDims.plain 4096 2 64 := rfl
theorem dot64_eq : dot_S4096x64_S64x64_S4096x64_1_0_0_1_n_n = DotDims.plain 4096 64 64 := rfl

/-- The hidden layer of the distance network, at (p, k): leaky(d W1 + b1) W2 + b2 on row p. -/
theorem pay4_apply (x0 : Vec Ideal S4096x2 .f32) (x3 : Vec Ideal S2x64 .f32) (x4 : Vec Ideal S1x64 .f32)
    (x5 : Vec Ideal S64x64 .f32) (x6 : Vec Ideal S1x64 .f32) (p : Fin 4096) (k : Fin 64) :
    k0_pay4 (F := Ideal) x0 x3 x4 x5 x6 (ix2 p k)
      = affS (fun i => leakyS (affS (fun a => x0 (ix2 p a)) (fun a j => x3 (ix2 a j)) (fun j => x4 (ix2 0 j)) i))
          (fun i j => x5 (ix2 i j)) (fun j => x6 (ix2 0 j)) k := by
  unfold k0_pay4 affS leakyS
  dsimp only
  simp only [dot2_eq, dot64_eq, addf_apply, Cert.Lib.PlainDot.matmul_plain_zero_apply,
    Cert.Lib.Rows.broadcastTo_row_apply, shapeCast_self, truncf_apply, select_apply, cmpf_apply, mulf_apply,
    broadcast_apply]
  rfl

/-- The payloads that only re-type a block (a shape cast to the same shape, a widening of the float format) read
    the block. -/
theorem pay2_apply (x1 : Vec Ideal S4096x64 .bf16) (i : S4096x64.Idx) : k0_pay2 (F := Ideal) x1 i = x1 i := by
  unfold k0_pay2; rw [extf_apply, shapeCast_self]
theorem pay3_apply (x2 : Vec Ideal S4096x1 .f32) (i : S4096x1.Idx) : k0_pay3 (F := Ideal) x2 i = x2 i := by
  unfold k0_pay3; rw [shapeCast_self]
theorem pay5_apply (x : Vec Ideal S1x64 .f32) (i : S1x64.Idx) : k0_pay5 (F := Ideal) x i = x i := by
  unfold k0_pay5; rw [shapeCast_self]
theorem pay6_apply (x : Vec Ideal S1x64 .f32) (i : S1x64.Idx) : k0_pay6 (F := Ideal) x i = x i := by
  unfold k0_pay6; rw [shapeCast_self]

/-- The attention layer on the normalised hidden layer, times the weight, at (p, q).  The mean column the body was
    given is the lane sum of the hidden layer over the splat divisor, which is how the normalisation spells it. -/
theorem pay1_apply (v4 : FVec Ideal S4096x64 .f32) (v6 : FVec Ideal S4096x1 .f32) (h2 : FVec Ideal S4096x64 .f32)
    (g β : FVec Ideal S1x64 .f32) (x9 : Vec Ideal S64x64 .f32) (x10 : Vec Ideal S1x64 .f32) (p : Fin 4096) (q : Fin 64) :
    k0_pay1 (F := Ideal) v4 v6 h2 g β
        (shapeCast S4096x1 (multiReduction .add [1] S4096 h2 0x00000000#32 reduces_S4096x64_S4096 (.inl rfl) rfl) shapeCasts_S4096_S4096x1)
        (broadcast S4096x1 (Scalar.ofBits (F := Ideal) .f32 0x42800000#32)) x9 x10 (ix2 p q)
      = affS (fun k => v4 (ix2 p k) + gn64 (fun j => h2 (ix2 p j)) (fun j => g (ix2 0 j)) (fun j => β (ix2 0 j)) k)
          (fun i j => x9 (ix2 i j)) (fun j => x10 (ix2 0 j)) q * v6 (ix2 p 0) := by
  have e : k0_pay1 (F := Ideal) v4 v6 h2 g β
        (shapeCast S4096x1 (multiReduction .add [1] S4096 h2 0x00000000#32 reduces_S4096x64_S4096 (.inl rfl) rfl) shapeCasts_S4096_S4096x1)
        (broadcast S4096x1 (Scalar.ofBits (F := Ideal) .f32 0x42800000#32)) x9 x10
      = mulf (addf (matmul (DotDims.plain 4096 64 64) none
            (truncf .bf16 (addf v4 (vecNorm h2 g β 0x42800000#32 0x3727C5AC#32 reduces_S4096x64_S4096 shapeCasts_S4096_S4096x1
              broadcasts_S4096x1_S4096x64 broadcasts_S1x64_S4096x64)) bitsLt_bf16_f32)
            (truncf .bf16 x9 bitsLt_bf16_f32) (constant (F := Ideal) S4096x64 .f32 0x00000000#32))
          (broadcastTo S4096x64 (shapeCast S1x64 x10 shapeCasts_S1x64_S1x64) broadcasts_S1x64_S4096x64))
        (broadcastTo S4096x64 v6 broadcasts_S4096x1_S4096x64) := rfl
  rw [e, mulf_apply, addf_apply, Cert.Lib.PlainDot.matmul_plain_zero_apply, Cert.Lib.Rows.broadcastTo_row_apply,
    shapeCast_self, Cert.Columns.broadcastTo_a1_ab_apply _ _ p q 0]
  unfold affS
  simp only [truncf_apply, addf_apply, vecNorm_apply]

/-- THE EDGE BODY AT (p, q): what a grid point leaves at row p, lane q of its output block is the contribution of
    the edge in row p. -/
theorem out0_11_apply (x0 : Vec Ideal S4096x2 .f32) (x1 : Vec Ideal S4096x64 .bf16) (x2 : Vec Ideal S4096x1 .f32)
    (x3 : Vec Ideal S2x64 .f32) (x4 : Vec Ideal S1x64 .f32) (x5 : Vec Ideal S64x64 .f32) (x6 : Vec Ideal S1x64 .f32)
    (x7 : Vec Ideal S1x64 .f32) (x8 : Vec Ideal S1x64 .f32) (x9 : Vec Ideal S64x64 .f32) (x10 : Vec Ideal S1x64 .f32)
    (p : Fin 4096) (q : Fin 64) :
    out0_11 (F := Ideal) x0 x1 x2 x3 x4 x5 x6 x7 x8 x9 x10 (ix2 p q)
      = edgeRow (fun a => x0 (ix2 p a)) (fun k => x1 (ix2 p k)) (x2 (ix2 p 0))
          (fun a j => x3 (ix2 a j)) (fun j => x4 (ix2 0 j)) (fun i j => x5 (ix2 i j)) (fun j => x6 (ix2 0 j))
          (fun j => x7 (ix2 0 j)) (fun j => x8 (ix2 0 j)) (fun i j => x9 (ix2 i j)) (fun j => x10 (ix2 0 j)) q := by
  unfold out0_11
  rw [View.canon_unit_zero hz]
  simp only [View.ld_unit_zero (S := S4096x2) hz, View.ld_unit_zero (S := S4096x64) hz, View.ld_unit_zero (S := S4096x1) hz,
    View.ld_unit_zero (S := S2x64) hz, View.ld_unit_zero (S := S1x64) hz, View.ld_unit_zero (S := S64x64) hz]
  show k0_pay1 (F := Ideal) (k0_pay2 x1) (k0_pay3 x2) (k0_pay4 x0 x3 x4 x5 x6) (k0_pay5 x7) (k0_pay6 x8)
      (shapeCast S4096x1 (multiReduction .add [1] S4096 (k0_pay4 x0 x3 x4 x5 x6) 0x00000000#32 reduces_S4096x64_S4096 (.inl rfl) rfl) shapeCasts_S4096_S4096x1)
      (broadcast S4096x1 (Scalar.ofBits (F := Ideal) .f32 0x42800000#32)) x9 x10 (ix2 p q) = _
  rw [pay1_apply]
  unfold edgeRow attRow
  simp only [pay4_apply, pay2_apply, pay3_apply, pay5_apply, pay6_apply]

end Cert.KernelIdeal.Body

end
-- ==== Proof.NodeBody.lean ====
/-
  The node region's body, read at an index of its output block, at the ideal values.

  A grid point of the node region holds 4096 consecutive nodes.  Row p of the block it writes depends only on row p
  of its three row-blocked inputs (the node's features, the sum of the contributions that reached it, its mark) and
  on the whole matrices and rows: it is the blend `blendRow` of the fused features and the node's own features.
  The aggregate is normalised lane-wise; the fusion layer is the sum of two matrix products into zero accumulators
  plus a row; its result is normalised again and goes through the leaky rectifier.
-/
import proofs.«164651_j61959198212617_2_alg».proof.Proof.Gen.KernelIdeal.Frame
import proofs.«164651_j61959198212617_2_alg».proof.Proof.Spec
import proofs.«164651_j61959198212617_2_alg».proof.Proof.LibPlainDot
import proofs.«164651_j61959198212617_2_alg».proof.Proof.LibRows
import proofs.«164651_j61959198212617_2_alg».proof.Proof.LibColumns

set_option maxRecDepth 16384

noncomputable section

namespace Cert.KernelIdeal.NodeBody

open Cert.KernelIdeal Cert.KernelIdeal.Gen Idealize.ShloMosaic Idealize.ShloMosaic.ValueIdx Cert.Spec
open Cert.Lib.GroupNorm (vecNorm vecNorm_apply gnAt)
open scoped BigOperators

/-- The offsets of a whole-block access are all zero. -/
theorem hz : (![0, 0] : Fin 2 → Nat) = fun _ => 0 := funext fun a => by fin_cases a <;> rfl

/-- The matrix products of the node body are plain: rows against columns. -/
theorem dot64_eq : dot_S4096x64_S64x64_S4096x64_1_0_0_1_n_n = DotDims.plain 4096 64 64 := rfl

/-- The payloads that only re-type a block read the block. -/
theorem pay2_apply (x : Vec Ideal S4096x64 .f32) (i : S4096x64.Idx) : k1_pay2 (F := Ideal) x i = x i := by
  unfold k1_pay2; rw [shapeCast_self]
theorem pay3_apply (x : Vec Ideal S4096x1 .f32) (i : S4096x1.Idx) : k1_pay3 (F := Ideal) x i = x i := by
  unfold k1_pay3; rw [shapeCast_self]
theorem pay5_apply (x : Vec Ideal S64x64 .f32) (i : S64x64.Idx) : k1_pay5 (F := Ideal) x i = x i := by
  unfold k1_pay5; rw [shapeCast_self]
theorem pay6_apply (x : Vec Ideal S64x64 .f32) (i : S64x64.Idx) : k1_pay6 (F := Ideal) x i = x i := by
  unfold k1_pay6; rw [shapeCast_self]
theorem pay7_apply (x : Vec Ideal S1x64 .f32) (i : S1x64.Idx) : k1_pay7 (F := Ideal) x i = x i := by
  unfold k1_pay7; rw [shapeCast_self]

/-- The normalised aggregate at (p, k): the row function of row p of the aggregate. -/
theorem pay4_apply (x1 : Vec Ideal S4096x64 .f32) (x6 x7 : Vec Ideal S1x64 .f32) (p : Fin 4096) (k : Fin 64) :
    k1_pay4 (F := Ideal) x1 x6 x7 (ix2 p k)
      = gn64 (fun j => x1 (ix2 p j)) (fun j => x6 (ix2 0 j)) (fun j => x7 (ix2 0 j)) k := by
  have e : k1_pay4 (F := Ideal) x1 x6 x7
      = vecNorm (shapeCast S4096x64 x1 shapeCasts_S4096x64_S4096x64) (shapeCast S1x64 x6 shapeCasts_S1x64_S1x64)
          (shapeCast S1x64 x7 shapeCasts_S1x64_S1x64) 0x42800000#32 0x3727C5AC#32 reduces_S4096x64_S4096
          shapeCasts_S4096_S4096x1 broadcasts_S4096x1_S4096x64 broadcasts_S1x64_S4096x64 := rfl
  rw [e, vecNorm_apply]
  simp only [shapeCast_self]

/-- The marked part at (p, q): the mark times the fused features of row p. -/
theorem pay8_apply (v1 : FVec Ideal S4096x64 .f32) (v5 : FVec Ideal S4096x1 .f32) (v31 : FVec Ideal S4096x64 .f32)
    (v33 v35 : FVec Ideal S64x64 .f32) (v37 : FVec Ideal S1x64 .f32) (v47 v49 : Vec Ideal S1x64 .f32)
    (p : Fin 4096) (q : Fin 64) :
    k1_pay8 (F := Ideal) v1 v5 v31 v33 v35 v37 v47 v49 (ix2 p q)
      = v5 (ix2 p 0) * leakyS (gn64 (fun j => ((∑ k : Fin 64, v1 (ix2 p k) * v33 (ix2 k j))
            + ∑ k : Fin 64, v31 (ix2 p k) * v35 (ix2 k j)) + v37 (ix2 0 j))
          (fun j => v47 (ix2 0 j)) (fun j => v49 (ix2 0 j)) q) := by
  have e : k1_pay8 (F := Ideal) v1 v5 v31 v33 v35 v37 v47 v49
      = mulf (broadcastTo S4096x64 v5 broadcasts_S4096x1_S4096x64)
          (select (cmpf .oge
              (vecNorm (addf (addf
                  (matmul (DotDims.plain 4096 64 64) none (truncf .bf16 v1 bitsLt_bf16_f32) (truncf .bf16 v33 bitsLt_bf16_f32)
                    (constant (F := Ideal) S4096x64 .f32 0x00000000#32))
                  (matmul (DotDims.plain 4096 64 64) none (truncf .bf16 v31 bitsLt_bf16_f32) (truncf .bf16 v35 bitsLt_bf16_f32)
                    (constant (F := Ideal) S4096x64 .f32 0x00000000#32)))
                  (broadcastTo S4096x64 v37 broadcasts_S1x64_S4096x64))
                (shapeCast S1x64 v47 shapeCasts_S1x64_S1x64) (shapeCast S1x64 v49 shapeCasts_S1x64_S1x64)
                0x42800000#32 0x3727C5AC#32 reduces_S4096x64_S4096 shapeCasts_S4096_S4096x1 broadcasts_S4096x1_S4096x64
                broadcasts_S1x64_S4096x64)
              (broadcast S4096x64 (Scalar.ofBits (F := Ideal) .f32 0x00000000#32)))
            (vecNorm (addf (addf
                  (matmul (DotDims.plain 4096 64 64) none (truncf .bf16 v1 bitsLt_bf16_f32) (truncf .bf16 v33 bitsLt_bf16_f32)
                    (constant (F := Ideal) S4096x64 .f32 0x00000000#32))
                  (matmul (DotDims.plain 4096 64 64) none (truncf .bf16 v31 bitsLt_bf16_f32) (truncf .bf16 v35 bitsLt_bf16_f32)
                    (constant (F := Ideal) S4096x64 .f32 0x00000000#32)))
                  (broadcastTo S4096x64 v37 broadcasts_S1x64_S4096x64))
                (shapeCast S1x64 v47 shapeCasts_S1x64_S1x64) (shapeCast S1x64 v49 shapeCasts_S1x64_S1x64)
                0x42800000#32 0x3727C5AC#32 reduces_S4096x64_S4096 shapeCasts_S4096_S4096x1 broadcasts_S4096x1_S4096x64
                broadcasts_S1x64_S4096x64)
            (mulf (broadcast S4096x64 (Scalar.ofBits (F := Ideal) .f32 0x3C23D70A#32))
              (vecNorm (addf (addf
                  (matmul (DotDims.plain 4096 64 64) none (truncf .bf16 v1 bitsLt_bf16_f32) (truncf .bf16 v33 bitsLt_bf16_f32)
                    (constant (F := Ideal) S4096x64 .f32 0x00000000#32))
                  (matmul (DotDims.plain 4096 64 64) none (truncf .bf16 v31 bitsLt_bf16_f32) (truncf .bf16 v35 bitsLt_bf16_f32)
                    (constant (F := Ideal) S4096x64 .f32 0x00000000#32)))
                  (broadcastTo S4096x64 v37 broadcasts_S1x64_S4096x64))
                (shapeCast S1x64 v47 shapeCasts_S1x64_S1x64) (shapeCast S1x64 v49 shapeCasts_S1x64_S1x64)
                0x42800000#32 0x3727C5AC#32 reduces_S4096x64_S4096 shapeCasts_S4096_S4096x1 broadcasts_S4096x1_S4096x64
                broadcasts_S1x64_S4096x64))) := rfl
  rw [e, mulf_apply, Cert.Columns.broadcastTo_a1_ab_apply _ _ p q 0, select_apply, cmpf_apply, mulf_apply, broadcast_apply,
    broadcast_apply, vecNorm_apply]
  unfold leakyS
  simp only [addf_apply, Cert.Lib.PlainDot.matmul_plain_zero_apply, Cert.Lib.Rows.broadcastTo_row_apply, truncf_apply,
    shapeCast_self]
  rfl

/-- The unmarked part at (p, q): one minus the mark, times the node's own entry. -/
theorem pay9_apply (v1 : FVec Ideal S4096x64 .f32) (v5 : FVec Ideal S4096x1 .f32) (p : Fin 4096) (q : Fin 64) :
    k1_pay9 (F := Ideal) v1 v5 (ix2 p q) = (Ideal.ofBits .f32 0x3F800000#32 - v5 (ix2 p 0)) * v1 (ix2 p q) := by
  unfold k1_pay9
  rw [mulf_apply, Cert.Columns.broadcastTo_a1_ab_apply _ _ p q 0, subf_apply, broadcast_apply]
  rfl

/-- THE NODE BODY AT (p, q): what a grid point leaves at row p, lane q of its output block is the blend for the
    node in row p. -/
theorem out1_10_apply (x0 x1 : Vec Ideal S4096x64 .f32) (x2 : Vec Ideal S4096x1 .f32) (x3 x4 : Vec Ideal S64x64 .f32)
    (x5 x6 x7 x8 x9 : Vec Ideal S1x64 .f32) (p : Fin 4096) (q : Fin 64) :
    out1_10 (F := Ideal) x0 x1 x2 x3 x4 x5 x6 x7 x8 x9 (ix2 p q)
      = blendRow (x2 (ix2 p 0)) (fun k => x0 (ix2 p k)) (fun k => x1 (ix2 p k))
          (fun k j => x3 (ix2 k j)) (fun k j => x4 (ix2 k j)) (fun j => x5 (ix2 0 j))
          (fun j => x6 (ix2 0 j)) (fun j => x7 (ix2 0 j)) (fun j => x8 (ix2 0 j)) (fun j => x9 (ix2 0 j)) q := by
  unfold out1_10
  rw [View.canon_unit_zero hz]
  simp only [View.ld_unit_zero (S := S4096x64) hz, View.ld_unit_zero (S := S4096x1) hz,
    View.ld_unit_zero (S := S1x64) hz, View.ld_unit_zero (S := S64x64) hz]
  unfold k1_pay1
  rw [addf_apply, pay8_apply, pay9_apply]
  unfold blendRow fusedRow
  simp only [pay4_apply, pay2_apply, pay3_apply, pay5_apply, pay6_apply, pay7_apply]

end Cert.KernelIdeal.NodeBody

end
-- ==== Proof.LibRowGather.lean ====
/-
  Gathering whole rows of a table.  For a table `x : [N, C]` and a column of start indices `idx : [E, 1]`,
  the gather with offset axis 1, collapsed axis 0, start-index map [0], index-vector axis 1 and slices of one
  row ([1, C]) reads, at result index (e, j), the table at row `idx[e, 0]` — the index word read signed and
  clamped into [0, N - 1], as every gather clamps its start indices — and column j.  This is what `x[idx]`
  of a two-axis table at a flat integer array lowers to.
-/
import Idealize.ShloMosaic.Lib.ValueIdx

noncomputable section

namespace Idealize.ShloMosaic.RowGather

open Idealize.ShloMosaic Idealize.ShloMosaic.ValueIdx

variable {α : Type}

/-- The dimension numbers of a row gather from a table [N, C] at start indices [E, 1] into [E, C]; their
    conditions `wf` are decided on a program's literal shapes. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an index word names in a table of `N` rows: the word read signed, clamped into [0, N - 1]. -/
def clampRow (N : Nat) (hN : 0 < N) {w : Nat} (v : BitVec w) : Fin N :=
  ⟨min v.toInt.toNat (N - 1), by omega⟩

/-- THE ROW GATHER READ AT (e, j): the table at the clamped row `idx[e, 0]` and column `j`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N E C wf) x idx (ix2 e j)
      = x (ix2 (clampRow N hN (idx (ix2 e (0 : Fin 1)))) j) := by
  unfold Host.gather
  congr 1
  funext a
  refine Fin.ext ?_
  match a with
  | ⟨0, _⟩ =>
    show (rowDims N E C wf).start (ix2 e j) idx 0 + (rowDims N E C wf).batchCoord (ix2 e j) 0
      + (rowDims N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e j) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e j) idx 1 + (rowDims N E C wf).batchCoord (ix2 e j) 1
      + (rowDims N E C wf).offCoord (ix2 e j) 1 = j.val
    rw [GatherDims.batchCoord_eq_zero _ _ _ List.not_mem_nil]
    unfold GatherDims.start
    rw [dif_neg (show (1 : Fin 2) ∉ (rowDims N E C wf).startIndexMap from
      fun h => absurd (show (1 : Nat) = 0 from congrArg Fin.val (List.mem_singleton.mp h)) Nat.one_ne_zero)]
    unfold GatherDims.offCoord
    rw [dif_pos (show (1 : Fin 2) ∈ (rowDims N E C wf).sKept from (GatherDims.mem_sKept _ _).mpr
      ⟨fun h => absurd (show (1 : Nat) = 0 from congrArg Fin.val (List.mem_singleton.mp h)) Nat.one_ne_zero, List.not_mem_nil⟩)]
    simp only [Nat.zero_add]
    rfl

end Idealize.ShloMosaic.RowGather

end
-- ==== Proof.JoinIdx.lean ====
/-
  Index words and padded rows.

  An edge's two node indices are 32-bit words; a word below zero (read signed) has the number of nodes added before
  it is used (the negative-index wrap), a gather then clamps it into the table, a scatter drops it when it still falls
  outside.  The kernel works on the edge list padded with 3520 zero indices and zero weights to a whole number of
  blocks: below 1000000 the padded vectors are the original ones, from 1000000 on the padded weight is the number
  zero.  The kernel's gathers at the padded, wrapped indices are read here at a row.
-/
import proofs.«164651_j61959198212617_2_alg».proof.Proof.KerStages
import proofs.«164651_j61959198212617_2_alg».proof.Proof.RefStages
import proofs.«164651_j61959198212617_2_alg».proof.Proof.LibRowGather
import proofs.«164651_j61959198212617_2_alg».proof.Proof.LibHostColumns
import proofs.«164651_j61959198212617_2_alg».proof.Proof.LibRowBroadcast
import proofs.«164651_j61959198212617_2_alg».proof.Proof.LibColumns
import Idealize.ShloMosaic.Lib.KernelVsHost

set_option maxRecDepth 16384

noncomputable section

namespace Cert.Join

open Idealize.ShloMosaic Idealize.ShloMosaic.ValueIdx

/-- The negative-index wrap of one word: 262144 added when the word is below zero, read signed. -/
def wrapW (x : BitVec 32) : BitVec 32 := Scalar.select (IntOp.cmpi .slt x 0#32) (IntOp.addi x 262144#32) x

/-- The kernel's wrapped column of the padded indices, at row e. -/
theorem K_wrapColP_apply (w : IVec Cert.KernelIdeal.S1003520 32) (e : Fin 1003520) (u : Fin 1) :
    Cert.KernelIdeal.Hand.wrapColP w (ix2 e u) = wrapW (w (ix1 e)) := by
  unfold Cert.KernelIdeal.Hand.wrapColP
  rw [Cert.Lib.HostColumns.bcast_vec_col_apply]
  show Scalar.select (IntOp.cmpi .slt (w (ix1 e)) (Cert.KernelIdeal.Hand.splatP 0#32 (ix1 e)))
      (IntOp.addi (w (ix1 e)) (Cert.KernelIdeal.Hand.splatP 262144#32 (ix1 e))) (w (ix1 e)) = _
  unfold Cert.KernelIdeal.Hand.splatP
  rw [Cert.Lib.RowBroadcast.broadcastInDim_scalar_apply _ _ _ ix0, Cert.Lib.RowBroadcast.broadcastInDim_scalar_apply _ _ _ ix0]
  rfl

/-- The kernel's wrapped column of the unpadded indices (the mark's scatter), at row e. -/
theorem K_wrapCol_apply (v : IVec Cert.KernelIdeal.S1000000 32) (e : Fin 1000000) (u : Fin 1) :
    Cert.KernelIdeal.Hand.wrapCol v (ix2 e u) = wrapW (v (ix1 e)) := by
  unfold Cert.KernelIdeal.Hand.wrapCol
  rw [Cert.Lib.HostColumns.bcast_vec_col_apply]
  show Scalar.select (IntOp.cmpi .slt (v (ix1 e)) (Cert.KernelIdeal.Hand.splatE 0#32 (ix1 e)))
      (IntOp.addi (v (ix1 e)) (Cert.KernelIdeal.Hand.splatE 262144#32 (ix1 e))) (v (ix1 e)) = _
  unfold Cert.KernelIdeal.Hand.splatE
  rw [Cert.Lib.RowBroadcast.broadcastInDim_scalar_apply _ _ _ ix0, Cert.Lib.RowBroadcast.broadcastInDim_scalar_apply _ _ _ ix0]
  rfl

/-- The reference's wrapped column, at row e. -/
theorem R_wrapCol_apply (v : IVec Cert.ReferenceIdeal.S1000000 32) (e : Fin 1000000) (u : Fin 1) :
    Cert.ReferenceIdeal.Hand.wrapCol (F := Ideal) v (ix2 e u) = wrapW (v (ix1 e)) := by
  unfold Cert.ReferenceIdeal.Hand.wrapCol
  simp only [Cert.Lib.HostColumns.bcast_vec_col_apply, select_apply]
  show Scalar.select (IntOp.cmpi .slt (v (ix1 e)) _) (IntOp.addi (v (ix1 e)) _) (v (ix1 e)) = _
  rw [Cert.Lib.RowBroadcast.broadcastInDim_scalar_apply _ _ _ ix0, Cert.Lib.RowBroadcast.broadcastInDim_scalar_apply _ _ _ ix0]
  rfl

/-- Below 1000000 the padded index vector is the original one. -/
theorem K_padI_lt (v : IVec Cert.KernelIdeal.S1000000 32) (e : Fin 1003520) (h : e.val < 1000000) :
    Cert.KernelIdeal.Hand.padI v (ix1 e) = v (ix1 ⟨e.val, h⟩) := by
  unfold Cert.KernelIdeal.Hand.padI
  refine pad_apply_of_inside _ _ _ v _ _ _ (ix1 e) (ix1 ⟨e.val, h⟩) (fun a => ?_)
  match a with
  | ⟨0, _⟩ => show e.val = 0 + e.val * (0 + 1); omega

/-- Below 1000000 the padded weight vector is the original one. -/
theorem K_padW_lt (w : FVec Ideal Cert.KernelIdeal.S1000000 .f32) (e : Fin 1003520) (h : e.val < 1000000) :
    Cert.KernelIdeal.Hand.padW (F := Ideal) w (ix1 e) = w (ix1 ⟨e.val, h⟩) := by
  unfold Cert.KernelIdeal.Hand.padW
  refine pad_apply_of_inside _ _ _ w _ _ _ (ix1 e) (ix1 ⟨e.val, h⟩) (fun a => ?_)
  match a with
  | ⟨0, _⟩ => show e.val = 0 + e.val * (0 + 1); omega

/-- From 1000000 on the padded weight is the number zero (the integer zero converted to a float). -/
theorem K_padW_ge (w : FVec Ideal Cert.KernelIdeal.S1000000 .f32) (e : Fin 1003520) (h : 1000000 ≤ e.val) :
    (Cert.KernelIdeal.Hand.padW (F := Ideal) w (ix1 e) : EReal) = 0 := by
  unfold Cert.KernelIdeal.Hand.padW
  rw [pad_apply_of_not_inside _ _ _ w _ _ _ (ix1 e) (0 : Fin 1) (fun hc => by
    have h3 := hc.2.2
    have : (e.val - 0) / (0 + 1) < 1000000 := h3
    omega)]
  show ((((0#32 : BitVec 32).toInt : ℝ)) : EReal) = 0
  simp

/-- The weight column at a row below 1000000, and from 1000000 on. -/
theorem K_weightCol_lt (w : FVec Ideal Cert.KernelIdeal.S1000000 .f32) (e : Fin 1003520) (h : e.val < 1000000) (u : Fin 1) :
    Cert.KernelIdeal.Hand.weightCol (F := Ideal) w (ix2 e u) = w (ix1 ⟨e.val, h⟩) := by
  unfold Cert.KernelIdeal.Hand.weightCol
  rw [Cert.Columns.shapeCast_a_a1_apply, K_padW_lt w e h]

theorem K_weightCol_ge (w : FVec Ideal Cert.KernelIdeal.S1000000 .f32) (e : Fin 1003520) (h : 1000000 ≤ e.val) (u : Fin 1) :
    (Cert.KernelIdeal.Hand.weightCol (F := Ideal) w (ix2 e u) : EReal) = 0 := by
  unfold Cert.KernelIdeal.Hand.weightCol
  rw [Cert.Columns.shapeCast_a_a1_apply, K_padW_ge w e h]

section KernelRecords
open Cert.KernelIdeal Cert.KernelIdeal.Gen

/-- The kernel's gathers are row gathers at a column of start indices. -/
theorem K_gather64_eq : Cert.KernelIdeal.gather_S262144x64_S1003520x1_S1003520x64_1_0_n_n_0_1_164
    = RowGather.rowDims 262144 1003520 64 gather_S262144x64_S1003520x1_S1003520x64_1_0_n_n_0_1_164_wf := rfl
theorem K_gather2_eq : Cert.KernelIdeal.gather_S262144x2_S1003520x1_S1003520x2_1_0_n_n_0_1_12
    = RowGather.rowDims 262144 1003520 2 gather_S262144x2_S1003520x1_S1003520x2_1_0_n_n_0_1_12_wf := rfl

end KernelRecords

/-- Row e of the kernel's gathered features: the table's row named by the wrapped word, clamped. -/
theorem K_valueP_apply (xb : FVec Ideal Cert.KernelIdeal.S262144x64 .bf16) (pre : IVec Cert.KernelIdeal.S1003520 32)
    (e : Fin 1003520) (j : Fin 64) :
    Cert.KernelIdeal.Hand.valueP (F := Ideal) xb pre (ix2 e j)
      = xb (ix2 (RowGather.clampRow 262144 (by decide) (wrapW (pre (ix1 e)))) j) := by
  unfold Cert.KernelIdeal.Hand.valueP
  rw [K_gather64_eq, RowGather.gather_rows_apply (by decide) _ xb _ e j, K_wrapColP_apply]

/-- Row e of the kernel's position difference. -/
theorem K_posDistP_apply (p : FVec Ideal Cert.KernelIdeal.S262144x2 .f32) (pre suc : IVec Cert.KernelIdeal.S1003520 32)
    (e : Fin 1003520) (a : Fin 2) :
    Cert.KernelIdeal.Hand.posDistP (F := Ideal) p pre suc (ix2 e a)
      = p (ix2 (RowGather.clampRow 262144 (by decide) (wrapW (suc (ix1 e)))) a)
        - p (ix2 (RowGather.clampRow 262144 (by decide) (wrapW (pre (ix1 e)))) a) := by
  unfold Cert.KernelIdeal.Hand.posDistP Cert.KernelIdeal.Hand.posAt
  rw [subf_apply, K_gather2_eq, RowGather.gather_rows_apply (by decide) _ p _ e a,
    RowGather.gather_rows_apply (by decide) _ p _ e a, K_wrapColP_apply, K_wrapColP_apply]

end Cert.Join

end
-- ==== Proof.LibIdxSums.lean ====
/-
  Sums over the entries of a vector and of a one-row matrix.

  An index of a vector of n entries is its one coordinate, and an index of a matrix [1, n] is its column (the row
  coordinate can only be 0). So a sum over all entries of such an array, in any commutative additive monoid, is the
  sum over the n positions: what a total sum of an array of shape [n] or [1, n] comes to, entry by entry.
-/
import Idealize.ShloMosaic.Lib.ValueIdx
import Mathlib.Algebra.BigOperators.Fin

noncomputable section

namespace Cert.Lib.IdxSums

open Idealize.ShloMosaic Idealize.ShloMosaic.ValueIdx
open scoped BigOperators

/-- A sum over the indices of a vector of n entries is the sum over its n positions. -/
theorem sum_idx1 {M : Type*} [AddCommMonoid M] {n : Nat} (f : (⟨1, ![n]⟩ : Shape).Idx → M) :
    ∑ j, f j = ∑ e : Fin n, f (ix1 e) :=
  Fintype.sum_equiv ⟨fun j => j 0, ix1, fun j => (eq_ix1 j).symm, fun _ => rfl⟩ f (fun e => f (ix1 e))
    (fun j => congrArg f (eq_ix1 j))

/-- A sum over the indices of a one-row matrix of n entries is the sum over its n columns. -/
theorem sum_row {M : Type*} [AddCommMonoid M] {n : Nat} (f : (⟨2, ![1, n]⟩ : Shape).Idx → M) :
    ∑ i, f i = ∑ e : Fin n, f (ix2 (0 : Fin 1) e) := by
  rw [sum_idx2, Fin.sum_univ_one]

end Cert.Lib.IdxSums

end
-- ==== Proof.LibScatterAdd.lean ====
/-
  The host's accumulating scatter (a segment sum) read at an index, at the ideal values.

  For an operand of N entries, a column of scatter indices `idx : [E, 1]` and E updates, the scatter with
  inserted window axis 0, scatter-dims-to-operand-dims [0] and index-vector axis 1 adds update e into the
  entry that the index word `idx[e, 0]`, read signed, names; an update whose word names no entry (negative,
  or N and beyond) is dropped — a scatter does not clamp.  At the ideal values the result at entry i is the
  operand's entry plus the plain sum, over all e, of the updates whose word names i: no order of addition is
  left in it.  The row form does the same for an [N, C] operand and [E, C] updates (update window axis 1):
  row e of the updates is added into the row its word names, lane by lane.
-/
import Idealize.ShloMosaic.Lib.ValueIdx
import Idealize.ShloMosaic.PureOps.Ideal
import Mathlib.Algebra.BigOperators.Fin
import proofs.«164651_j61959198212617_2_alg».proof.Proof.LibIdxSums

noncomputable section

namespace Cert.Lib.ScatterAdd

open Idealize.ShloMosaic Idealize.ShloMosaic.ValueIdx
open scoped BigOperators

/-- The dimension numbers of an entry scatter into a vector [N] at scatter indices [E, 1] of updates [E]; their
    conditions `wf` are decided on a program's literal shapes. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The dimension numbers of a row scatter into a table [N, C] at scatter indices [E, 1] of updates [E, C]. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)

/-- Update e of an entry scatter lands at the position its index word, read signed, names. -/
theorem vec_landing (idx : IVec ⟨2, ![E, 1]⟩ w) (e : Fin E) (a : Fin 1) :
    (vecDims N E wf).start (ix1 e) idx a + ((vecDims N E wf).window (ix1 e) a : Int)
      = (idx (ix2 e (0 : Fin 1))).toInt := by
  obtain rfl : a = 0 := Subsingleton.elim _ _
  have h1 : (vecDims N E wf).start (ix1 e) idx 0 = (idx (ix2 e (0 : Fin 1))).toInt := by
    unfold ScatterDims.start
    rw [dif_pos (show (0 : Fin 1) ∈ (vecDims N E wf).scatterDimsToOperandDims from List.mem_singleton.mpr rfl)]
    have hsi : (vecDims N E wf).siIdx (ix1 e) ⟨List.idxOf (0 : Fin 1) (vecDims N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have h2 : (vecDims N E wf).window (ix1 e) 0 = 0 := by
    unfold ScatterDims.window
    rw [dif_neg (fun h => by simp [Shape.kept] at h)]
  rw [h1, h2]; simp

/-- Update e lands on entry i exactly when its index word, read signed, is i. -/
theorem vec_resultIdx_iff (idx : IVec ⟨2, ![E, 1]⟩ w) (e : Fin E) (i : (⟨1, ![N]⟩ : Shape).Idx) :
    (vecDims N E wf).resultIdx? (ix1 e) idx = some i ↔ (idx (ix2 e (0 : Fin 1))).toInt = ((i 0).val : Int) := by
  unfold ScatterDims.resultIdx?
  split
  · next h =>
    rw [Option.some.injEq]
    constructor
    · intro hf
      have h0 := congrArg (fun g : (⟨1, ![N]⟩ : Shape).Idx => (g 0).val) hf
      simp only at h0
      have hl := vec_landing wf idx e 0
      have hp := (h 0).1
      rw [hl] at h0 hp
      omega
    · intro hv
      funext a
      obtain rfl : a = 0 := Subsingleton.elim _ _
      refine Fin.ext ?_
      show ((vecDims N E wf).start (ix1 e) idx 0 + ((vecDims N E wf).window (ix1 e) 0 : Int)).toNat = (i 0).val
      rw [vec_landing wf idx e 0, hv]; simp
  · next h =>
    constructor
    · intro hf; cases hf
    · intro hv
      exfalso; apply h
      intro a
      obtain rfl : a = 0 := Subsingleton.elim _ _
      rw [vec_landing wf idx e 0, hv]
      exact ⟨Int.natCast_nonneg _, by exact_mod_cast (i 0).isLt⟩

/-- THE ENTRY SCATTER-ADD READ AT i: the operand's entry plus the sum of the updates whose word names i. -/
theorem scatterAdd_vec_apply {φ : FTy} (x : FVec Ideal ⟨1, ![N]⟩ φ) (idx : IVec ⟨2, ![E, 1]⟩ w)
    (upd : FVec Ideal ⟨1, ![E]⟩ φ) (i : (⟨1, ![N]⟩ : Shape).Idx) :
    (Host.scatterAdd (vecDims N E wf) x idx upd i : EReal)
      = x i + ∑ e : Fin E, if (idx (ix2 e (0 : Fin 1))).toInt = ((i 0).val : Int) then (upd (ix1 e) : EReal) else 0 := by
  show Ideal.hostScatterAdd (vecDims N E wf) x idx upd i = _
  unfold Ideal.hostScatterAdd
  congr 1
  rw [Finset.sum_filter]
  rw [Cert.Lib.IdxSums.sum_idx1]
  refine Finset.sum_congr rfl fun e _ => ?_
  simp only [vec_resultIdx_iff wf idx e i]

end Vec

section Row
variable {N E C w : Nat} (wf : ScatterDims.WF ⟨2, ![N, C]⟩ ⟨2, ![E, 1]⟩ ⟨2, ![E, C]⟩ [1] [0] [0] 1)

/-- Row e of the updates lands in the row its index word, read signed, names… -/
theorem row_landing0 (idx : IVec ⟨2, ![E, 1]⟩ w) (e : Fin E) (q : Fin C) :
    (rowDims N E C wf).start (ix2 e q) idx 0 + ((rowDims N E C wf).window (ix2 e q) 0 : Int)
      = (idx (ix2 e (0 : Fin 1))).toInt := by
  have h1 : (rowDims N E C wf).start (ix2 e q) idx 0 = (idx (ix2 e (0 : Fin 1))).toInt := by
    unfold ScatterDims.start
    rw [dif_pos (show (0 : Fin 2) ∈ (rowDims N E C wf).scatterDimsToOperandDims from List.mem_singleton.mpr rfl)]
    have hsi : (rowDims N E C wf).siIdx (ix2 e q) ⟨List.idxOf (0 : Fin 2) (rowDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have h2 : (rowDims N E C wf).window (ix2 e q) 0 = 0 := by
    unfold ScatterDims.window
    rw [dif_neg (fun h => by simp [Shape.kept] at h)]
  rw [h1, h2]; simp

/-- …lane for lane. -/
theorem row_landing1 (idx : IVec ⟨2, ![E, 1]⟩ w) (e : Fin E) (q : Fin C) :
    (rowDims N E C wf).start (ix2 e q) idx 1 + ((rowDims N E C wf).window (ix2 e q) 1 : Int) = (q.val : Int) := by
  have h1 : (rowDims N E C wf).start (ix2 e q) idx 1 = 0 := by
    unfold ScatterDims.start
    rw [dif_neg (fun h => absurd (show (1 : Nat) = 0 from congrArg Fin.val (List.mem_singleton.mp h)) Nat.one_ne_zero)]
  have h2 : (rowDims N E C wf).window (ix2 e q) 1 = q.val := by
    unfold ScatterDims.window
    rw [dif_pos (show (1 : Fin 2) ∈ (rowDims N E C wf).sKept by simp [Shape.kept])]
    rfl
  rw [h1, h2]; simp

/-- Update (e, q) lands on entry (r, c) exactly when its row's index word, read signed, is r and q = c. -/
theorem row_resultIdx_iff (idx : IVec ⟨2, ![E, 1]⟩ w) (e : Fin E) (q : Fin C) (r : Fin N) (c : Fin C) :
    (rowDims N E C wf).resultIdx? (ix2 e q) idx = some (ix2 r c)
      ↔ (idx (ix2 e (0 : Fin 1))).toInt = (r.val : Int) ∧ q = c := by
  unfold ScatterDims.resultIdx?
  split
  · next h =>
    rw [Option.some.injEq]
    constructor
    · intro hf
      have h0 := congrArg (fun g : (⟨2, ![N, C]⟩ : Shape).Idx => (g 0).val) hf
      have h1 := congrArg (fun g : (⟨2, ![N, C]⟩ : Shape).Idx => (g 1).val) hf
      simp only at h0 h1
      have hp := (h 0).1
      rw [row_landing0 wf idx e q] at h0 hp
      rw [row_landing1 wf idx e q] at h1
      refine ⟨?_, Fin.ext ?_⟩
      · change ((idx (ix2 e (0 : Fin 1))).toInt).toNat = r.val at h0
        omega
      · change ((q.val : Int)).toNat = c.val at h1
        omega
    · rintro ⟨hv, rfl⟩
      funext a
      refine Fin.ext ?_
      match a with
      | ⟨0, _⟩ =>
        show ((rowDims N E C wf).start (ix2 e q) idx 0 + ((rowDims N E C wf).window (ix2 e q) 0 : Int)).toNat = r.val
        rw [row_landing0 wf idx e q, hv]; simp
      | ⟨1, _⟩ =>
        show ((rowDims N E C wf).start (ix2 e q) idx 1 + ((rowDims N E C wf).window (ix2 e q) 1 : Int)).toNat = q.val
        rw [row_landing1 wf idx e q]; simp
  · next h =>
    constructor
    · intro hf; cases hf
    · rintro ⟨hv, rfl⟩
      exfalso; apply h
      intro a
      match a with
      | ⟨0, _⟩ =>
        show 0 ≤ (rowDims N E C wf).start (ix2 e q) idx 0 + ((rowDims N E C wf).window (ix2 e q) 0 : Int)
          ∧ (rowDims N E C wf).start (ix2 e q) idx 0 + ((rowDims N E C wf).window (ix2 e q) 0 : Int) < (N : Int)
        rw [row_landing0 wf idx e q, hv]
        exact ⟨Int.natCast_nonneg _, by exact_mod_cast r.isLt⟩
      | ⟨1, _⟩ =>
        show 0 ≤ (rowDims N E C wf).start (ix2 e q) idx 1 + ((rowDims N E C wf).window (ix2 e q) 1 : Int)
          ∧ (rowDims N E C wf).start (ix2 e q) idx 1 + ((rowDims N E C wf).window (ix2 e q) 1 : Int) < (C : Int)
        rw [row_landing1 wf idx e q]
        exact ⟨Int.natCast_nonneg _, by exact_mod_cast q.isLt⟩

/-- THE ROW SCATTER-ADD READ AT (r, c): the operand's entry plus the sum, over the update rows whose word names
    row r, of their lane c. -/
theorem scatterAdd_rows_apply {φ : FTy} (x : FVec Ideal ⟨2, ![N, C]⟩ φ) (idx : IVec ⟨2, ![E, 1]⟩ w)
    (upd : FVec Ideal ⟨2, ![E, C]⟩ φ) (r : Fin N) (c : Fin C) :
    (Host.scatterAdd (rowDims N E C wf) x idx upd (ix2 r c) : EReal)
      = x (ix2 r c)
        + ∑ e : Fin E, if (idx (ix2 e (0 : Fin 1))).toInt = (r.val : Int) then (upd (ix2 e c) : EReal) else 0 := by
  show Ideal.hostScatterAdd (rowDims N E C wf) x idx upd (ix2 r c) = _
  unfold Ideal.hostScatterAdd
  congr 1
  rw [Finset.sum_filter, sum_idx2]
  refine Finset.sum_congr rfl fun e _ => ?_
  simp only [row_resultIdx_iff wf idx e _ r c]
  by_cases hv : (idx (ix2 e (0 : Fin 1))).toInt = (r.val : Int)
  · simp only [hv, true_and, if_true]
    rw [Finset.sum_ite_eq' Finset.univ c (fun q => (upd (ix2 e q) : EReal))]
    simp
  · simp only [hv, false_and, if_false, Finset.sum_const_zero]

end Row

end Cert.Lib.ScatterAdd

end
-- ==== Proof.LibScatterConst.lean ====
/-
  A "set" scatter of one constant into a table of another constant, read at an index.

  The host's scatter takes the update indices one after the other and each one that lands inside the operand
  replaces the element at its landing index by the update's element.  When every update element is the same value c
  and the operand holds the same value z everywhere, the order and the repetitions do not matter: the result holds c
  exactly at the indices where at least one update lands, and z elsewhere.  For any shapes, dimension numbers, index
  width and entry type.
-/
import Idealize.ShloMosaic.PureOps.ShapeOps

namespace Cert.Lib.ScatterConst

open Idealize.ShloMosaic

/-- THE CONSTANT "SET" SCATTER READ AT i': c if some update index lands at i', z otherwise. -/
theorem scatter_const_apply {s si u : Shape} {α : Type} {w : Nat} (d : ScatterDims s si u) (z c : α) (idx : IVec si w)
    (i' : s.Idx) [Decidable (∃ j : u.Idx, d.resultIdx? j idx = some i')] :
    Host.scatter d (fun _ b => b) (fun _ => z) idx (fun _ => c) i'
      = if ∃ j : u.Idx, d.resultIdx? j idx = some i' then c else z := by
  classical
  have hiff : (∃ a ∈ List.finRange u.numel, d.resultIdx? (u.rowMajor.symm a) idx = some i')
      ↔ ∃ j : u.Idx, d.resultIdx? j idx = some i' := by
    constructor
    · rintro ⟨a, _, h⟩; exact ⟨_, h⟩
    · rintro ⟨j, h⟩
      exact ⟨u.rowMajor j, List.mem_finRange _, by rw [Equiv.symm_apply_apply]; exact h⟩
  unfold Host.scatter
  refine Eq.trans ((?_ : ∀ l : List (Fin u.numel), List.foldl _ (fun _ => z) l i'
      = if ∃ a ∈ l, d.resultIdx? (u.rowMajor.symm a) idx = some i' then c else z) (List.finRange u.numel)) ?_
  · intro l
    induction l using List.reverseRecOn with
    | nil => simp
    | append_singleton l a ih =>
      rw [List.foldl_append, List.foldl_cons, List.foldl_nil]
      have hstep : ∀ (hyp : Prop), ((∃ a' ∈ l ++ [a], d.resultIdx? (u.rowMajor.symm a') idx = some i')
          ↔ (∃ a' ∈ l, d.resultIdx? (u.rowMajor.symm a') idx = some i') ∨ d.resultIdx? (u.rowMajor.symm a) idx = some i') := by
        intro _
        constructor
        · rintro ⟨a', ha', h⟩
          rcases List.mem_append.1 ha' with h1 | h1
          · exact Or.inl ⟨a', h1, h⟩
          · have : a' = a := by simpa using h1
            subst this; exact Or.inr h
        · rintro (⟨a', ha', h⟩ | h)
          · exact ⟨a', List.mem_append.2 (Or.inl ha'), h⟩
          · exact ⟨a, List.mem_append.2 (Or.inr (List.mem_singleton.2 rfl)), h⟩
      cases hra : d.resultIdx? (u.rowMajor.symm a) idx with
      | none =>
        refine ih.trans ?_
        have : ¬ (none : Option s.Idx) = some i' := by simp
        rw [hra] at hstep
        simp only [hstep True, this, or_false]
      | some i =>
        show (if i' = i then c else _) = _
        rw [hra] at hstep
        by_cases hi : i' = i
        · rw [if_pos hi, if_pos ((hstep True).2 (Or.inr (by rw [hi])))]
        · rw [if_neg hi]
          refine ih.trans ?_
          have : ¬ (some i : Option s.Idx) = some i' := fun h => hi (Option.some.inj h).symm
          simp only [hstep True, this, or_false]
  · by_cases hex : ∃ j : u.Idx, d.resultIdx? j idx = some i'
    · rw [if_pos hex, if_pos (hiff.2 hex)]
    · rw [if_neg hex, if_neg (fun h => hex (hiff.1 h))]

end Cert.Lib.ScatterConst
-- ==== Proof.JoinSum.lean ====
/-
  The aggregate and the mark, on both sides.

  The kernel sums the contributions of 1003520 padded edges into the node table, the reference those of the 1000000
  real ones.  A padded edge beyond the real ones carries the weight zero, so whatever node its (zero) index names, it
  adds the number zero: the two sums agree.  A node's mark is set by a scatter that writes one constant wherever a
  real edge's target index lands: the number one into zeros in the kernel, a true bit into false bits in the
  reference.  Both hold their "set" value exactly at the nodes some real edge names.
-/
import proofs.«164651_j61959198212617_2_alg».proof.Proof.JoinIdx
import proofs.«164651_j61959198212617_2_alg».proof.Proof.LibScatterAdd
import proofs.«164651_j61959198212617_2_alg».proof.Proof.LibScatterConst
import proofs.«164651_j61959198212617_2_alg».proof.Proof.LibDenseLayers

set_option maxRecDepth 16384

noncomputable section

namespace Cert.Join

open Idealize.ShloMosaic Idealize.ShloMosaic.ValueIdx
open scoped BigOperators

/-- A sum over the 1003520 padded edges whose terms vanish from 1000000 on is the sum over the first 1000000. -/
theorem sum_padded (f : Fin 1003520 → EReal) (hz : ∀ e : Fin 1003520, 1000000 ≤ e.val → f e = 0) :
    ∑ e : Fin 1003520, f e = ∑ e : Fin 1000000, f ⟨e.val, by omega⟩ := by
  rw [Cert.Lib.DenseLayers.sum_split (K1 := 1000000) (K2 := 3520) rfl f]
  have h2 : ∑ k : Fin 3520, f ⟨1000000 + k.val, by omega⟩ = 0 :=
    Finset.sum_eq_zero fun k _ => hz _ (by show 1000000 ≤ 1000000 + k.val; omega)
  rw [h2, add_zero]

section KernelRecords
open Cert.KernelIdeal Cert.KernelIdeal.Gen

theorem K_scatter64_eq : Cert.KernelIdeal.scatter_S262144x64_S1003520x1_S1003520x64_1_0_0_1
    = Cert.Lib.ScatterAdd.rowDims 262144 1003520 64 scatter_S262144x64_S1003520x1_S1003520x64_1_0_0_1_wf := rfl
theorem K_scatterMark_eq : Cert.KernelIdeal.scatter_S262144_S1000000x1_S1000000_n_0_0_1
    = Cert.Lib.ScatterAdd.vecDims 262144 1000000 scatter_S262144_S1000000x1_S1000000_n_0_0_1_wf := rfl

end KernelRecords

section ReferenceRecords
open Cert.ReferenceIdeal Cert.ReferenceIdeal.Gen

theorem R_scatterMark_eq : Cert.ReferenceIdeal.scatter_S262144_S1000000x1_S1000000_n_0_0_1
    = Cert.Lib.ScatterAdd.vecDims 262144 1000000 scatter_S262144_S1000000x1_S1000000_n_0_0_1_wf := rfl

end ReferenceRecords

/-- The kernel's aggregate at (n, k): the sum of lane k of the padded update rows whose wrapped word names node n. -/
theorem K_aggr_apply (suc : IVec Cert.KernelIdeal.S1003520 32) (msg : FVec Ideal Cert.KernelIdeal.S1003520x64 .f32)
    (n : Fin 262144) (k : Fin 64) :
    (Cert.KernelIdeal.Hand.aggr (F := Ideal) suc msg (ix2 n k) : EReal)
      = ∑ e : Fin 1003520, if (wrapW (suc (ix1 e))).toInt = (n.val : Int) then (msg (ix2 e k) : EReal) else 0 := by
  unfold Cert.KernelIdeal.Hand.aggr
  rw [K_scatter64_eq, Cert.Lib.ScatterAdd.scatterAdd_rows_apply, Cert.Lib.RowBroadcast.broadcastInDim_scalar_apply _ _ _ ix0]
  show Ideal.ofBits .f32 0x00000000#32 + _ = _
  rw [Ideal.ofBits_zero_f32, zero_add]
  simp only [K_wrapColP_apply]

/-- Whether some real edge's wrapped target word names node n. -/
def hit (suc : Fin 1000000 → BitVec 32) (n : Fin 262144) : Prop := ∃ e : Fin 1000000, (wrapW (suc e)).toInt = (n.val : Int)

/-- An update of the mark's scatter lands on node n exactly when its wrapped word names n. -/
theorem landing_iff (wf : ScatterDims.WF ⟨1, ![262144]⟩ ⟨2, ![1000000, 1]⟩ ⟨1, ![1000000]⟩ [] [0] [0] 1)
    (idx : IVec ⟨2, ![1000000, 1]⟩ 32) (sw : Fin 1000000 → BitVec 32) (hidx : ∀ e : Fin 1000000, idx (ix2 e (0 : Fin 1)) = wrapW (sw e))
    (n : Fin 262144) :
    (∃ j : (⟨1, ![1000000]⟩ : Shape).Idx, (Cert.Lib.ScatterAdd.vecDims 262144 1000000 wf).resultIdx? j idx = some (ix1 n))
      ↔ hit sw n := by
  constructor
  · rintro ⟨j, hj⟩
    obtain ⟨e, rfl⟩ : ∃ e : Fin 1000000, j = ix1 e := ⟨j 0, eq_ix1 j⟩
    exact ⟨e, by rw [← hidx]; exact (Cert.Lib.ScatterAdd.vec_resultIdx_iff wf idx e (ix1 n)).1 hj⟩
  · rintro ⟨e, he⟩
    exact ⟨ix1 e, (Cert.Lib.ScatterAdd.vec_resultIdx_iff wf idx e (ix1 n)).2 (by rw [hidx]; exact he)⟩

/-- The kernel's mark at node n: the number one if some real edge names n, the number zero if none does. -/
theorem K_maskCol_hit (suc : IVec Cert.KernelIdeal.S1000000 32) (n : Fin 262144) (u : Fin 1)
    (h : hit (fun e => suc (ix1 e)) n) :
    Cert.KernelIdeal.Hand.maskCol (F := Ideal) suc (ix2 n u) = Ideal.ofBits .f32 0x3F800000#32 := by
  classical
  unfold Cert.KernelIdeal.Hand.maskCol
  rw [Cert.Columns.shapeCast_a_a1_apply, K_scatterMark_eq]
  refine (Cert.Lib.ScatterConst.scatter_const_apply _ (Ideal.ofBits .f32 0x00000000#32) (Ideal.ofBits .f32 0x3F800000#32) _ (ix1 n)).trans ?_
  rw [if_pos ((landing_iff _ _ (fun e => suc (ix1 e)) (fun e => K_wrapCol_apply suc e 0) n).2 h)]

theorem K_maskCol_miss (suc : IVec Cert.KernelIdeal.S1000000 32) (n : Fin 262144) (u : Fin 1)
    (h : ¬ hit (fun e => suc (ix1 e)) n) :
    Cert.KernelIdeal.Hand.maskCol (F := Ideal) suc (ix2 n u) = Ideal.ofBits .f32 0x00000000#32 := by
  classical
  unfold Cert.KernelIdeal.Hand.maskCol
  rw [Cert.Columns.shapeCast_a_a1_apply, K_scatterMark_eq]
  refine (Cert.Lib.ScatterConst.scatter_const_apply _ (Ideal.ofBits .f32 0x00000000#32) (Ideal.ofBits .f32 0x3F800000#32) _ (ix1 n)).trans ?_
  rw [if_neg (fun hc => h ((landing_iff _ _ (fun e => suc (ix1 e)) (fun e => K_wrapCol_apply suc e 0) n).1 hc))]

/-- The reference's mark at node n: the true bit if some real edge names n, the false bit if none does. -/
theorem R_maskB_hit (suc : IVec Cert.ReferenceIdeal.S1000000 32) (n : Fin 262144)
    (h : hit (fun e => suc (ix1 e)) n) :
    Cert.ReferenceIdeal.Hand.maskB (F := Ideal) (Cert.ReferenceIdeal.Hand.wrapCol (F := Ideal) suc) (ix1 n) = 1#1 := by
  classical
  unfold Cert.ReferenceIdeal.Hand.maskB
  show Host.scatter Cert.ReferenceIdeal.scatter_S262144_S1000000x1_S1000000_n_0_0_1 (fun _ b => b) (fun _ => (0#1 : BitVec 1))
      (Cert.ReferenceIdeal.Hand.wrapCol (F := Ideal) suc) (fun _ => (1#1 : BitVec 1)) (ix1 n) = _
  rw [R_scatterMark_eq]
  refine (Cert.Lib.ScatterConst.scatter_const_apply _ (0#1 : BitVec 1) (1#1 : BitVec 1) _ (ix1 n)).trans ?_
  rw [if_pos ((landing_iff _ _ (fun e => suc (ix1 e)) (fun e => R_wrapCol_apply suc e 0) n).2 h)]

theorem R_maskB_miss (suc : IVec Cert.ReferenceIdeal.S1000000 32) (n : Fin 262144)
    (h : ¬ hit (fun e => suc (ix1 e)) n) :
    Cert.ReferenceIdeal.Hand.maskB (F := Ideal) (Cert.ReferenceIdeal.Hand.wrapCol (F := Ideal) suc) (ix1 n) = 0#1 := by
  classical
  unfold Cert.ReferenceIdeal.Hand.maskB
  show Host.scatter Cert.ReferenceIdeal.scatter_S262144_S1000000x1_S1000000_n_0_0_1 (fun _ b => b) (fun _ => (0#1 : BitVec 1))
      (Cert.ReferenceIdeal.Hand.wrapCol (F := Ideal) suc) (fun _ => (1#1 : BitVec 1)) (ix1 n) = _
  rw [R_scatterMark_eq]
  refine (Cert.Lib.ScatterConst.scatter_const_apply _ (0#1 : BitVec 1) (1#1 : BitVec 1) _ (ix1 n)).trans ?_
  rw [if_neg (fun hc => h ((landing_iff _ _ (fun e => suc (ix1 e)) (fun e => R_wrapCol_apply suc e 0) n).1 hc))]

end Cert.Join

end
-- ==== Proof.RefReadE.lean ====
/-
  The reference's per-edge stages, read at an index, at the ideal values.

  Every stage of the reference up to the scatter acts row by row on arrays of 1000000 rows: two gathers pick rows of
  the node tables, the dense layers are plain matrix products plus a bias row, the rectifier is pointwise, the
  normalisation is the host's chain of the group-norm module, and the weight multiplies the whole row.  Read at
  (e, q) their composition is the contribution `edgeRow` of edge e.
-/
import proofs.«164651_j61959198212617_2_alg».proof.Proof.RefStages
import proofs.«164651_j61959198212617_2_alg».proof.Proof.Spec
import proofs.«164651_j61959198212617_2_alg».proof.Proof.LibRowBlocks
import proofs.«164651_j61959198212617_2_alg».proof.Proof.LibRowBroadcast
import proofs.«164651_j61959198212617_2_alg».proof.Proof.LibDenseLayers
import proofs.«164651_j61959198212617_2_alg».proof.Proof.LibHostColumns
import proofs.«164651_j61959198212617_2_alg».proof.Proof.LibRowGather

set_option maxRecDepth 16384

noncomputable section

namespace Cert.ReferenceIdeal.Read

open Cert.ReferenceIdeal Cert.ReferenceIdeal.Gen Cert.ReferenceIdeal.Hand Idealize.ShloMosaic Idealize.ShloMosaic.ValueIdx Cert.Spec
open Cert.Lib.GroupNorm (hostNorm hostNorm_apply gnAt)
open scoped BigOperators

/-- The reference's matrix products are plain: rows against columns. -/
theorem dot2_eq : dot_S1000000x2_S2x64_S1000000x64_1_0_0_1_n_n = DotDims.plain 1000000 2 64 := rfl
theorem dot64_eq : dot_S1000000x64_S64x64_S1000000x64_1_0_0_1_n_n = DotDims.plain 1000000 64 64 := rfl

/-- The first dense layer at (e, j). -/
theorem affine2_apply (x : FVec Ideal S1000000x2 .f32) (W : FVec Ideal S2x64 .f32) (b : FVec Ideal S64 .f32)
    (e : Fin 1000000) (j : Fin 64) :
    affine2 (F := Ideal) x W b (ix2 e j)
      = affS (fun a => x (ix2 e a)) (fun a j => W (ix2 a j)) (fun j => b (ix1 j)) j := by
  unfold affine2 affS
  simp only [addf_apply, dot2_eq, Cert.Lib.RowBlocks.dotGeneral_plain_apply,
    Cert.Lib.RowBroadcast.broadcastInDim_row_apply, Cert.Lib.DenseLayers.vec_row_apply]

/-- A dense layer of 64 inputs at (e, j). -/
theorem affine64_apply (x : FVec Ideal S1000000x64 .f32) (W : FVec Ideal S64x64 .f32) (b : FVec Ideal S64 .f32)
    (e : Fin 1000000) (j : Fin 64) :
    affine64 (F := Ideal) x W b (ix2 e j)
      = affS (fun a => x (ix2 e a)) (fun a j => W (ix2 a j)) (fun j => b (ix1 j)) j := by
  unfold affine64 affS
  simp only [addf_apply, dot64_eq, Cert.Lib.RowBlocks.dotGeneral_plain_apply,
    Cert.Lib.RowBroadcast.broadcastInDim_row_apply, Cert.Lib.DenseLayers.vec_row_apply]

/-- The leaky rectifier is pointwise. -/
theorem leakyE_apply (x : FVec Ideal S1000000x64 .f32) (i : S1000000x64.Idx) : leakyE (F := Ideal) x i = leakyS (x i) := by
  unfold leakyE leakyS
  simp only [select_apply, cmpf_apply, mulf_apply, Cert.Lib.RowBroadcast.broadcastInDim_scalar_apply _ _ _ ix0]
  rfl

/-- The normalisation of the 1000000 rows is the host's chain of the group-norm module. -/
theorem gnE_eq (x : FVec Ideal S1000000x64 .f32) (g b : FVec Ideal S64 .f32) :
    gnE (F := Ideal) x g b
      = hostNorm x g b 0x42800000#32 0x3727C5AC#32 reducesTo_S1000000x64_S1000000_d1 h_S_ bcast_S1000000_S1000000x1_0
          bcast_S_S1000000x1 bcast_S1000000x1_S1000000x64_0_1 bcast_S64_S1x64_1 bcast_S1x64_S1000000x64_0_1 := rfl

theorem gnE_apply (x : FVec Ideal S1000000x64 .f32) (g b : FVec Ideal S64 .f32) (e : Fin 1000000) (j : Fin 64) :
    gnE (F := Ideal) x g b (ix2 e j) = gn64 (fun k => x (ix2 e k)) (fun k => g (ix1 k)) (fun k => b (ix1 k)) j := by
  rw [gnE_eq, hostNorm_apply _ _ _ _ _ _ (by decide)]

/-- The weight multiplies the whole row. -/
theorem scaleW_apply (x : FVec Ideal S1000000x64 .f32) (w : FVec Ideal S1000000 .f32) (e : Fin 1000000) (j : Fin 64) :
    scaleW (F := Ideal) x w (ix2 e j) = x (ix2 e j) * w (ix1 e) := by
  unfold scaleW
  simp only [mulf_apply, Cert.Lib.HostColumns.bcast_col_lanes_apply _ _ e j 0, Cert.Lib.HostColumns.bcast_vec_col_apply]

/-- The two gathers are row gathers at a column of start indices. -/
theorem gather64_eq : gather_S262144x64_S1000000x1_S1000000x64_1_0_n_n_0_1_164
    = RowGather.rowDims 262144 1000000 64 gather_S262144x64_S1000000x1_S1000000x64_1_0_n_n_0_1_164_wf := rfl
theorem gather2_eq : gather_S262144x2_S1000000x1_S1000000x2_1_0_n_n_0_1_12
    = RowGather.rowDims 262144 1000000 2 gather_S262144x2_S1000000x1_S1000000x2_1_0_n_n_0_1_12_wf := rfl

/-- Row e of the gathered features is the table's row named by the start index, read signed and clamped. -/
theorem value_apply (g : FVec Ideal S262144x64 .f32) (ix : IVec S1000000x1 32) (e : Fin 1000000) (j : Fin 64) :
    value (F := Ideal) g ix (ix2 e j) = g (ix2 (RowGather.clampRow 262144 (by decide) (ix (ix2 e (0 : Fin 1)))) j) := by
  unfold value
  show Host.gather gather_S262144x64_S1000000x1_S1000000x64_1_0_n_n_0_1_164 g ix (ix2 e j) = _
  rw [gather64_eq]
  exact RowGather.gather_rows_apply (by decide) _ g ix e j

/-- Row e of the position difference: the position row at the first index minus the one at the second. -/
theorem posDist_apply (p : FVec Ideal S262144x2 .f32) (ixS ixP : IVec S1000000x1 32) (e : Fin 1000000) (a : Fin 2) :
    posDist (F := Ideal) p ixS ixP (ix2 e a)
      = p (ix2 (RowGather.clampRow 262144 (by decide) (ixS (ix2 e (0 : Fin 1)))) a)
        - p (ix2 (RowGather.clampRow 262144 (by decide) (ixP (ix2 e (0 : Fin 1)))) a) := by
  unfold posDist
  show Host.gather gather_S262144x2_S1000000x1_S1000000x2_1_0_n_n_0_1_12 p ixS (ix2 e a)
      - Host.gather gather_S262144x2_S1000000x1_S1000000x2_1_0_n_n_0_1_12 p ixP (ix2 e a) = _
  rw [gather2_eq, RowGather.gather_rows_apply (by decide) _ p ixS e a, RowGather.gather_rows_apply (by decide) _ p ixP e a]

/-- THE REFERENCE'S WEIGHTED ATTENTION ROW AT (e, q) is the contribution of edge e. -/
theorem attw_apply (d : FVec Ideal S1000000x2 .f32) (v : FVec Ideal S1000000x64 .f32) (w : FVec Ideal S1000000 .f32)
    (W1 : FVec Ideal S2x64 .f32) (b1 : FVec Ideal S64 .f32) (W2 : FVec Ideal S64x64 .f32) (b2 g β : FVec Ideal S64 .f32)
    (Wa : FVec Ideal S64x64 .f32) (ba : FVec Ideal S64 .f32) (e : Fin 1000000) (q : Fin 64) :
    scaleW (F := Ideal) (affine64 (sumE v (gnE (affine64 (leakyE (affine2 d W1 b1)) W2 b2) g β)) Wa ba) w (ix2 e q)
      = edgeRow (fun a => d (ix2 e a)) (fun k => v (ix2 e k)) (w (ix1 e))
          (fun a j => W1 (ix2 a j)) (fun j => b1 (ix1 j)) (fun i j => W2 (ix2 i j)) (fun j => b2 (ix1 j))
          (fun j => g (ix1 j)) (fun j => β (ix1 j)) (fun i j => Wa (ix2 i j)) (fun j => ba (ix1 j)) q := by
  rw [scaleW_apply, affine64_apply]
  unfold edgeRow attRow sumE
  simp only [addf_apply, gnE_apply, affine64_apply, leakyE_apply, affine2_apply]

end Cert.ReferenceIdeal.Read

end
-- ==== Proof.RefReadN.lean ====
/-
  The reference's per-node stages, read at an index, at the ideal values.

  The scatter-add gives every node the sum of the contributions of the edges whose target index names it.  Past it
  every stage acts row by row on arrays of 262144 rows: the normalisation, the product of the node's features joined
  with its normalised aggregate against the fusion matrix (the sum of the products against the matrix's upper and
  lower halves), a second normalisation, the leaky rectifier, and the selection by the node's mark.
-/
import proofs.«164651_j61959198212617_2_alg».proof.Proof.RefStages
import proofs.«164651_j61959198212617_2_alg».proof.Proof.Spec
import proofs.«164651_j61959198212617_2_alg».proof.Proof.LibRowBroadcast
import proofs.«164651_j61959198212617_2_alg».proof.Proof.LibDenseLayers
import proofs.«164651_j61959198212617_2_alg».proof.Proof.LibHostColumns
import proofs.«164651_j61959198212617_2_alg».proof.Proof.LibScatterAdd

set_option maxRecDepth 16384

noncomputable section

namespace Cert.ReferenceIdeal.Read

open Cert.ReferenceIdeal Cert.ReferenceIdeal.Gen Cert.ReferenceIdeal.Hand Idealize.ShloMosaic Idealize.ShloMosaic.ValueIdx Cert.Spec
open Cert.Lib.GroupNorm (hostNorm hostNorm_apply gnAt)
open scoped BigOperators

/-- The fusion product is plain: rows against columns. -/
theorem dot128_eq : dot_S262144x128_S128x64_S262144x64_1_0_0_1_n_n = DotDims.plain 262144 128 64 := rfl

/-- The normalisation of the 262144 rows is the host's chain of the group-norm module. -/
theorem gnN_eq (x : FVec Ideal S262144x64 .f32) (g b : FVec Ideal S64 .f32) :
    gnN (F := Ideal) x g b
      = hostNorm x g b 0x42800000#32 0x3727C5AC#32 reducesTo_S262144x64_S262144_d1 h_S_ bcast_S262144_S262144x1_0
          bcast_S_S262144x1 bcast_S262144x1_S262144x64_0_1 bcast_S64_S1x64_1 bcast_S1x64_S262144x64_0_1 := rfl

theorem gnN_apply (x : FVec Ideal S262144x64 .f32) (g b : FVec Ideal S64 .f32) (n : Fin 262144) (j : Fin 64) :
    gnN (F := Ideal) x g b (ix2 n j) = gn64 (fun k => x (ix2 n k)) (fun k => g (ix1 k)) (fun k => b (ix1 k)) j := by
  rw [gnN_eq, hostNorm_apply _ _ _ _ _ _ (by decide)]

/-- The leaky rectifier is pointwise. -/
theorem leakyN_apply (x : FVec Ideal S262144x64 .f32) (i : S262144x64.Idx) : leakyN (F := Ideal) x i = leakyS (x i) := by
  unfold leakyN leakyS
  simp only [select_apply, cmpf_apply, mulf_apply, Cert.Lib.RowBroadcast.broadcastInDim_scalar_apply _ _ _ ix0]
  rfl

/-- The fusion layer at (n, q): the node's features against the upper half of the matrix, plus its normalised
    aggregate against the lower half, plus the bias. -/
theorem fusePre_apply (gf cn : FVec Ideal S262144x64 .f32) (Wf : FVec Ideal S128x64 .f32) (bf : FVec Ideal S64 .f32)
    (n : Fin 262144) (q : Fin 64) :
    fusePre (F := Ideal) gf cn Wf bf (ix2 n q)
      = ((∑ k : Fin 64, gf (ix2 n k) * Wf (ix2 ⟨k.val, by omega⟩ q))
          + ∑ k : Fin 64, cn (ix2 n k) * Wf (ix2 ⟨64 + k.val, by omega⟩ q)) + bf (ix1 q) := by
  unfold fusePre
  simp only [addf_apply, dot128_eq, Cert.Lib.RowBroadcast.broadcastInDim_row_apply, Cert.Lib.DenseLayers.vec_row_apply]
  rw [Cert.Lib.DenseLayers.concat_dot_apply (H1 := 64) (H2 := 64) rfl]

/-- The selection at (n, q): by the node's mark, one entry or the other. -/
theorem pick_apply (m : IVec S262144 1) (a b : FVec Ideal S262144x64 .f32) (n : Fin 262144) (q : Fin 64) :
    pick (F := Ideal) m a b (ix2 n q) = Scalar.select (m (ix1 n)) (a (ix2 n q)) (b (ix2 n q)) := by
  unfold pick
  simp only [select_apply, Cert.Lib.HostColumns.bcast_col_lanes_apply _ _ n q 0, Cert.Lib.HostColumns.bcast_vec_col_apply]

/-- The scatter is a row scatter at a column of indices. -/
theorem scatter64_eq : scatter_S262144x64_S1000000x1_S1000000x64_1_0_0_1
    = Cert.Lib.ScatterAdd.rowDims 262144 1000000 64 scatter_S262144x64_S1000000x1_S1000000x64_1_0_0_1_wf := rfl

/-- The aggregate at (n, k): the sum of lane k of the update rows whose index word, read signed, names node n. -/
theorem copy_apply (u : FVec Ideal S1000000x64 .f32) (ix : IVec S1000000x1 32) (n : Fin 262144) (k : Fin 64) :
    (copy (F := Ideal) u ix (ix2 n k) : EReal)
      = ∑ e : Fin 1000000, if (ix (ix2 e (0 : Fin 1))).toInt = (n.val : Int) then (u (ix2 e k) : EReal) else 0 := by
  unfold copy
  show (Host.scatterAdd scatter_S262144x64_S1000000x1_S1000000x64_1_0_0_1
      (broadcastInDim S262144x64 ![] bcast_S_S262144x64 (constant (F := Ideal) S_ .f32 0x00000000#32)) ix u (ix2 n k) : EReal) = _
  rw [scatter64_eq, Cert.Lib.ScatterAdd.scatterAdd_rows_apply,
    Cert.Lib.RowBroadcast.broadcastInDim_scalar_apply _ _ _ ix0]
  show Ideal.ofBits .f32 0x00000000#32 + _ = _
  rw [Ideal.ofBits_zero_f32, zero_add]

/-- THE REFERENCE'S RESULT ROW AT (n, q): the fused features of node n if it is marked, its own features if not. -/
theorem refOut_apply (m : IVec S262144 1) (gf c : FVec Ideal S262144x64 .f32) (Wf : FVec Ideal S128x64 .f32)
    (bf g12 b13 g16 b17 : FVec Ideal S64 .f32) (n : Fin 262144) (q : Fin 64) :
    pick (F := Ideal) m (leakyN (gnN (fusePre gf (gnN c g12 b13) Wf bf) g16 b17)) gf (ix2 n q)
      = Scalar.select (m (ix1 n))
          (fusedRow (fun k => gf (ix2 n k)) (fun k => c (ix2 n k))
            (fun k j => Wf (ix2 ⟨k.val, by omega⟩ j)) (fun k j => Wf (ix2 ⟨64 + k.val, by omega⟩ j))
            (fun j => bf (ix1 j)) (fun j => g12 (ix1 j)) (fun j => b13 (ix1 j)) (fun j => g16 (ix1 j)) (fun j => b17 (ix1 j)) q)
          (gf (ix2 n q)) := by
  rw [pick_apply, leakyN_apply, gnN_apply]
  unfold fusedRow
  simp only [fusePre_apply, gnN_apply]

end Cert.ReferenceIdeal.Read

end
-- ==== Proof.JoinOut.lean ====
/-
  The two results are one array.

  Kernel side: the message array holds, at padded edge e and lane k, the contribution `edgeRow` of the padded rows;
  the output array holds, at node n, the blend `blendRow` by the numeric mark of the fused features and the node's
  own features, the aggregate being the scatter-add of the messages at the padded, wrapped target indices.
  Reference side: the same row functions on the unpadded arrays, the mark a bit, the choice a selection.
  They agree: below 1000000 the padded rows are the real rows; from there on the weight is zero and the message
  vanishes, so the aggregates agree; the marks are set at the same nodes; at mark one the blend is the fused row,
  at mark zero the node's own features; and the fusion matrix's two halves are its upper and lower 64 rows.
-/
import proofs.«164651_j61959198212617_2_alg».proof.Proof.JoinSum
import proofs.«164651_j61959198212617_2_alg».proof.Proof.RefReadE
import proofs.«164651_j61959198212617_2_alg».proof.Proof.RefReadN
import proofs.«164651_j61959198212617_2_alg».proof.Proof.LibRows

set_option maxRecDepth 16384

noncomputable section

namespace Cert.Join

open Idealize.ShloMosaic Idealize.ShloMosaic.ValueIdx Cert.Spec
open scoped BigOperators

/-! ## The shared prefix: the same operations in both programs -/

theorem flatPre_eq (a2 : IVec Cert.KernelIdeal.S1000000x4 32) :
    Cert.KernelIdeal.Hand.flatPre a2 = Cert.ReferenceIdeal.Hand.flatPre (F := Ideal) a2 := rfl
theorem flatSuc_eq (a2 : IVec Cert.KernelIdeal.S1000000x4 32) :
    Cert.KernelIdeal.Hand.flatSuc a2 = Cert.ReferenceIdeal.Hand.flatSuc (F := Ideal) a2 := rfl
theorem featRows_eq (a0 : FVec Ideal Cert.KernelIdeal.S4x16x4096x64 .f32) :
    Cert.KernelIdeal.Hand.featRows (F := Ideal) a0 = Cert.ReferenceIdeal.Hand.gf2 (F := Ideal) a0 := rfl
theorem posRows_eq (a1 : FVec Ideal Cert.KernelIdeal.S1x16x4096x2 .f32) :
    Cert.KernelIdeal.Hand.posRows (F := Ideal) a1 = Cert.ReferenceIdeal.Hand.pos2 (F := Ideal) a1 := rfl

/-- A vector [64] reshaped to a row, at (0, j). -/
theorem rowOf_apply (b : FVec Ideal Cert.KernelIdeal.S64 .f32) (j : Fin 64) :
    Cert.KernelIdeal.Hand.rowOf (F := Ideal) b (ix2 0 j) = b (ix1 j) := by
  unfold Cert.KernelIdeal.Hand.rowOf
  exact Cert.Lib.Rows.shapeCast_vec_row_apply b _ j

/-- The fusion matrix's halves: its upper and its lower 64 rows. -/
theorem topHalf_apply (W : FVec Ideal Cert.KernelIdeal.S128x64 .f32) (k j : Fin 64) :
    Cert.KernelIdeal.Hand.topHalf (F := Ideal) W (ix2 k j) = W (ix2 ⟨k.val, by omega⟩ j) := by
  unfold Cert.KernelIdeal.Hand.topHalf
  rw [Cert.Lib.Rows.slice_rows_apply W _ k j (by omega)]
  exact congrArg W (congrArg (fun r => ix2 r j) (Fin.ext (by simp)))
theorem botHalf_apply (W : FVec Ideal Cert.KernelIdeal.S128x64 .f32) (k j : Fin 64) :
    Cert.KernelIdeal.Hand.botHalf (F := Ideal) W (ix2 k j) = W (ix2 ⟨64 + k.val, by omega⟩ j) := by
  unfold Cert.KernelIdeal.Hand.botHalf
  rw [Cert.Lib.Rows.slice_rows_apply W _ k j (by omega)]

section Agree

variable (a0 : FVec Ideal Cert.KernelIdeal.S4x16x4096x64 .f32) (a1 : FVec Ideal Cert.KernelIdeal.S1x16x4096x2 .f32)
  (a2 : IVec Cert.KernelIdeal.S1000000x4 32) (a3 : FVec Ideal Cert.KernelIdeal.S1000000 .f32)
  (a4 : FVec Ideal Cert.KernelIdeal.S2x64 .f32) (a5 : FVec Ideal Cert.KernelIdeal.S64 .f32)
  (a6 : FVec Ideal Cert.KernelIdeal.S64x64 .f32) (a7 a8 a9 : FVec Ideal Cert.KernelIdeal.S64 .f32)
  (a10 : FVec Ideal Cert.KernelIdeal.S64x64 .f32) (a11 a12 a13 : FVec Ideal Cert.KernelIdeal.S64 .f32)
  (a14 : FVec Ideal Cert.KernelIdeal.S128x64 .f32) (a15 a16 a17 : FVec Ideal Cert.KernelIdeal.S64 .f32)

/-- The reference's weighted attention array. -/
abbrev refMsg : FVec Ideal Cert.ReferenceIdeal.S1000000x64 .f32 :=
  Cert.ReferenceIdeal.Hand.scaleW (F := Ideal)
    (Cert.ReferenceIdeal.Hand.affine64
      (Cert.ReferenceIdeal.Hand.sumE
        (Cert.ReferenceIdeal.Hand.value (Cert.ReferenceIdeal.Hand.gf2 a0)
          (Cert.ReferenceIdeal.Hand.wrapCol (Cert.ReferenceIdeal.Hand.flatPre a2)))
        (Cert.ReferenceIdeal.Hand.gnE
          (Cert.ReferenceIdeal.Hand.affine64
            (Cert.ReferenceIdeal.Hand.leakyE
              (Cert.ReferenceIdeal.Hand.affine2
                (Cert.ReferenceIdeal.Hand.posDist (Cert.ReferenceIdeal.Hand.pos2 a1)
                  (Cert.ReferenceIdeal.Hand.wrapCol (Cert.ReferenceIdeal.Hand.flatSuc a2))
                  (Cert.ReferenceIdeal.Hand.wrapCol (Cert.ReferenceIdeal.Hand.flatPre a2))) a4 a5)) a6 a7) a8 a9))
      a10 a11) a3

/-- The reference's aggregate. -/
abbrev refCopy : FVec Ideal Cert.ReferenceIdeal.S262144x64 .f32 :=
  Cert.ReferenceIdeal.Hand.copy (F := Ideal) (refMsg a0 a1 a2 a3 a4 a5 a6 a7 a8 a9 a10 a11)
    (Cert.ReferenceIdeal.Hand.wrapCol (Cert.ReferenceIdeal.Hand.flatSuc a2))

/-- The reference's result as rows. -/
abbrev refOut : FVec Ideal Cert.ReferenceIdeal.S262144x64 .f32 :=
  Cert.ReferenceIdeal.Hand.pick (F := Ideal)
    (Cert.ReferenceIdeal.Hand.maskB (Cert.ReferenceIdeal.Hand.wrapCol (Cert.ReferenceIdeal.Hand.flatSuc a2)))
    (Cert.ReferenceIdeal.Hand.leakyN
      (Cert.ReferenceIdeal.Hand.gnN
        (Cert.ReferenceIdeal.Hand.fusePre (Cert.ReferenceIdeal.Hand.gf2 a0)
          (Cert.ReferenceIdeal.Hand.gnN (refCopy a0 a1 a2 a3 a4 a5 a6 a7 a8 a9 a10 a11) a12 a13) a14 a15) a16 a17))
    (Cert.ReferenceIdeal.Hand.gf2 a0)

/-- The kernel's row-blocked inputs of the edge region, as functions of the arguments. -/
abbrev kPD : FVec Ideal Cert.KernelIdeal.S1003520x2 .f32 :=
  Cert.KernelIdeal.Hand.posDistP (F := Ideal) (Cert.KernelIdeal.Hand.posRows a1)
    (Cert.KernelIdeal.Hand.padI (Cert.KernelIdeal.Hand.flatPre a2)) (Cert.KernelIdeal.Hand.padI (Cert.KernelIdeal.Hand.flatSuc a2))
abbrev kVL : FVec Ideal Cert.KernelIdeal.S1003520x64 .bf16 :=
  Cert.KernelIdeal.Hand.valueP (F := Ideal) (Cert.KernelIdeal.Hand.featRowsB a0)
    (Cert.KernelIdeal.Hand.padI (Cert.KernelIdeal.Hand.flatPre a2))

/-- What the kernel's message array is asked to be: the contribution of each padded edge. -/
def IsMsg (MSG : FVec Ideal Cert.KernelIdeal.S1003520x64 .f32) : Prop :=
  ∀ (e : Fin 1003520) (k : Fin 64),
    MSG (ix2 e k) = edgeRow (fun a => kPD a1 a2 (ix2 e a)) (fun j => kVL a0 a2 (ix2 e j))
      (Cert.KernelIdeal.Hand.weightCol (F := Ideal) a3 (ix2 e 0))
      (fun a j => a4 (ix2 a j)) (fun j => Cert.KernelIdeal.Hand.rowOf (F := Ideal) a5 (ix2 0 j))
      (fun i j => a6 (ix2 i j)) (fun j => Cert.KernelIdeal.Hand.rowOf (F := Ideal) a7 (ix2 0 j))
      (fun j => Cert.KernelIdeal.Hand.rowOf (F := Ideal) a8 (ix2 0 j)) (fun j => Cert.KernelIdeal.Hand.rowOf (F := Ideal) a9 (ix2 0 j))
      (fun i j => a10 (ix2 i j)) (fun j => Cert.KernelIdeal.Hand.rowOf (F := Ideal) a11 (ix2 0 j)) k

/-- THE AGGREGATES AGREE: the scatter-add of the padded messages is the reference's scatter-add. -/
theorem aggr_eq (MSG : FVec Ideal Cert.KernelIdeal.S1003520x64 .f32)
    (hM : IsMsg a0 a1 a2 a3 a4 a5 a6 a7 a8 a9 a10 a11 MSG) (n : Fin 262144) (k : Fin 64) :
    (Cert.KernelIdeal.Hand.aggr (F := Ideal) (Cert.KernelIdeal.Hand.padI (Cert.KernelIdeal.Hand.flatSuc a2)) MSG (ix2 n k) : EReal)
      = refCopy a0 a1 a2 a3 a4 a5 a6 a7 a8 a9 a10 a11 (ix2 n k) := by
  unfold refCopy refMsg
  rw [K_aggr_apply, Cert.ReferenceIdeal.Read.copy_apply, sum_padded]
  · refine Finset.sum_congr rfl fun e _ => ?_
    have hlt : (⟨e.val, by omega⟩ : Fin 1003520).val < 1000000 := e.isLt
    have hsuc : wrapW (Cert.KernelIdeal.Hand.padI (Cert.KernelIdeal.Hand.flatSuc a2) (ix1 (⟨e.val, by omega⟩ : Fin 1003520)))
        = Cert.ReferenceIdeal.Hand.wrapCol (F := Ideal) (Cert.ReferenceIdeal.Hand.flatSuc a2) (ix2 e (0 : Fin 1)) := by
      rw [K_padI_lt _ _ hlt, R_wrapCol_apply, flatSuc_eq]
    have hpre : wrapW (Cert.KernelIdeal.Hand.padI (Cert.KernelIdeal.Hand.flatPre a2) (ix1 (⟨e.val, by omega⟩ : Fin 1003520)))
        = Cert.ReferenceIdeal.Hand.wrapCol (F := Ideal) (Cert.ReferenceIdeal.Hand.flatPre a2) (ix2 e (0 : Fin 1)) := by
      rw [K_padI_lt _ _ hlt, R_wrapCol_apply, flatPre_eq]
    have hd : ∀ a : Fin 2, kPD a1 a2 (ix2 (⟨e.val, by omega⟩ : Fin 1003520) a)
        = Cert.ReferenceIdeal.Hand.posDist (F := Ideal) (Cert.ReferenceIdeal.Hand.pos2 a1)
            (Cert.ReferenceIdeal.Hand.wrapCol (Cert.ReferenceIdeal.Hand.flatSuc a2))
            (Cert.ReferenceIdeal.Hand.wrapCol (Cert.ReferenceIdeal.Hand.flatPre a2)) (ix2 e a) := by
      intro a
      unfold kPD
      rw [K_posDistP_apply, Cert.ReferenceIdeal.Read.posDist_apply, hsuc, hpre, posRows_eq]
    have hv : ∀ j : Fin 64, (kVL a0 a2 (ix2 (⟨e.val, by omega⟩ : Fin 1003520) j) : EReal)
        = Cert.ReferenceIdeal.Hand.value (F := Ideal) (Cert.ReferenceIdeal.Hand.gf2 a0)
            (Cert.ReferenceIdeal.Hand.wrapCol (Cert.ReferenceIdeal.Hand.flatPre a2)) (ix2 e j) := by
      intro j
      unfold kVL
      rw [K_valueP_apply, Cert.ReferenceIdeal.Read.value_apply, hpre]
      rfl
    rw [hsuc, hM, Cert.ReferenceIdeal.Read.attw_apply]
    simp only [hd, hv, K_weightCol_lt a3 _ hlt, rowOf_apply]
  · intro e he
    rw [hM, K_weightCol_ge a3 e he, edgeRow_zero]
    simp

/-- What the kernel's output array is asked to be: the blend at each node. -/
def IsOut (MSG : FVec Ideal Cert.KernelIdeal.S1003520x64 .f32) (OUT : FVec Ideal Cert.KernelIdeal.S262144x64 .f32) : Prop :=
  ∀ (n : Fin 262144) (q : Fin 64),
    OUT (ix2 n q) = blendRow (Cert.KernelIdeal.Hand.maskCol (F := Ideal) (Cert.KernelIdeal.Hand.flatSuc a2) (ix2 n 0))
      (fun k => Cert.KernelIdeal.Hand.featRows (F := Ideal) a0 (ix2 n k))
      (fun k => Cert.KernelIdeal.Hand.aggr (F := Ideal) (Cert.KernelIdeal.Hand.padI (Cert.KernelIdeal.Hand.flatSuc a2)) MSG (ix2 n k))
      (fun k j => Cert.KernelIdeal.Hand.topHalf (F := Ideal) a14 (ix2 k j)) (fun k j => Cert.KernelIdeal.Hand.botHalf (F := Ideal) a14 (ix2 k j))
      (fun j => Cert.KernelIdeal.Hand.rowOf (F := Ideal) a15 (ix2 0 j))
      (fun j => Cert.KernelIdeal.Hand.rowOf (F := Ideal) a12 (ix2 0 j)) (fun j => Cert.KernelIdeal.Hand.rowOf (F := Ideal) a13 (ix2 0 j))
      (fun j => Cert.KernelIdeal.Hand.rowOf (F := Ideal) a16 (ix2 0 j)) (fun j => Cert.KernelIdeal.Hand.rowOf (F := Ideal) a17 (ix2 0 j)) q

/-- THE RESULTS AGREE, as arrays of rows. -/
theorem out_eq (MSG : FVec Ideal Cert.KernelIdeal.S1003520x64 .f32) (OUT : FVec Ideal Cert.KernelIdeal.S262144x64 .f32)
    (hM : IsMsg a0 a1 a2 a3 a4 a5 a6 a7 a8 a9 a10 a11 MSG) (hO : IsOut a0 a2 a12 a13 a14 a15 a16 a17 MSG OUT) :
    OUT = refOut a0 a1 a2 a3 a4 a5 a6 a7 a8 a9 a10 a11 a12 a13 a14 a15 a16 a17 := by
  funext i
  obtain ⟨n, q, rfl⟩ : ∃ (n : Fin 262144) (q : Fin 64), i = ix2 n q := ⟨i 0, i 1, eq_ix2 i⟩
  rw [hO]
  unfold refOut
  rw [Cert.ReferenceIdeal.Read.refOut_apply]
  have hrows : fusedRow (fun k => Cert.KernelIdeal.Hand.featRows (F := Ideal) a0 (ix2 n k))
      (fun k => Cert.KernelIdeal.Hand.aggr (F := Ideal) (Cert.KernelIdeal.Hand.padI (Cert.KernelIdeal.Hand.flatSuc a2)) MSG (ix2 n k))
      (fun k j => Cert.KernelIdeal.Hand.topHalf (F := Ideal) a14 (ix2 k j)) (fun k j => Cert.KernelIdeal.Hand.botHalf (F := Ideal) a14 (ix2 k j))
      (fun j => Cert.KernelIdeal.Hand.rowOf (F := Ideal) a15 (ix2 0 j))
      (fun j => Cert.KernelIdeal.Hand.rowOf (F := Ideal) a12 (ix2 0 j)) (fun j => Cert.KernelIdeal.Hand.rowOf (F := Ideal) a13 (ix2 0 j))
      (fun j => Cert.KernelIdeal.Hand.rowOf (F := Ideal) a16 (ix2 0 j)) (fun j => Cert.KernelIdeal.Hand.rowOf (F := Ideal) a17 (ix2 0 j)) q
      = fusedRow (fun k => Cert.ReferenceIdeal.Hand.gf2 (F := Ideal) a0 (ix2 n k))
          (fun k => refCopy a0 a1 a2 a3 a4 a5 a6 a7 a8 a9 a10 a11 (ix2 n k))
          (fun k j => a14 (ix2 ⟨k.val, by omega⟩ j)) (fun k j => a14 (ix2 ⟨64 + k.val, by omega⟩ j))
          (fun j => a15 (ix1 j)) (fun j => a12 (ix1 j)) (fun j => a13 (ix1 j)) (fun j => a16 (ix1 j)) (fun j => a17 (ix1 j)) q := by
    simp only [rowOf_apply, topHalf_apply, botHalf_apply, aggr_eq a0 a1 a2 a3 a4 a5 a6 a7 a8 a9 a10 a11 MSG hM, featRows_eq]
  by_cases hh : hit (fun e => Cert.KernelIdeal.Hand.flatSuc a2 (ix1 e)) n
  · rw [K_maskCol_hit _ n 0 hh, blendRow_one, hrows]
    have hb := R_maskB_hit (Cert.ReferenceIdeal.Hand.flatSuc (F := Ideal) a2) n (by rw [← flatSuc_eq]; exact hh)
    rw [hb, select_one]
  · rw [K_maskCol_miss _ n 0 hh, blendRow_zero]
    have hb := R_maskB_miss (Cert.ReferenceIdeal.Hand.flatSuc (F := Ideal) a2) n (by rw [← flatSuc_eq]; exact hh)
    rw [hb, select_zero, featRows_eq]

end Agree

end Cert.Join

end
-- ==== Proof.KerVal.lean ====
/-
  The kernel's two regions as row functions of the arrays they are entered with.

  The edge region's output array holds at padded edge e — row e mod 4096 of the block of grid point e div 4096 — the
  body's value at that row of the point's input blocks, and those blocks are the rows e of the row-blocked arrays
  and the whole matrices and rows: so it is the contribution `edgeRow` of the padded rows.  The node region's output
  array likewise holds the blend `blendRow` at every node.
-/
import proofs.«164651_j61959198212617_2_alg».proof.Proof.KerRegion0
import proofs.«164651_j61959198212617_2_alg».proof.Proof.EdgeBody
import proofs.«164651_j61959198212617_2_alg».proof.Proof.NodeBody
import proofs.«164651_j61959198212617_2_alg».proof.Proof.JoinOut

set_option maxRecDepth 16384

noncomputable section

namespace Cert.KernelIdeal.Val

open Cert.KernelIdeal Cert.KernelIdeal.Gen Cert.KernelIdeal.Hand Idealize.ShloMosaic Idealize.ShloMosaic.TcCoe
  Idealize.ShloMosaic.ValueIdx Cert.Spec

variable (V : (c : Dev nD) → (b : Ref sig .tc) → Buf (Elt Ideal) ((c : Thread nD τ).loc b)) (c : Dev nD)

/-- The edge region's output array is the array of contributions of the padded edges, when the region is entered
    with its windows' arrays at the named functions of the arguments. -/
theorem isMsg_of (a0 : FVec Ideal S4x16x4096x64 .f32) (a1 : FVec Ideal S1x16x4096x2 .f32) (a2 : IVec S1000000x4 32)
    (a3 : FVec Ideal S1000000 .f32) (a4 : FVec Ideal S2x64 .f32) (a5 : FVec Ideal S64 .f32) (a6 : FVec Ideal S64x64 .f32)
    (a7 a8 a9 : FVec Ideal S64 .f32) (a10 : FVec Ideal S64x64 .f32) (a11 : FVec Ideal S64 .f32)
    (h51 : V c main_v51 = Cert.Join.kPD a1 a2) (h36 : V c main_v36 = Cert.Join.kVL a0 a2)
    (h29 : V c main_v29 = weightCol (F := Ideal) a3) (h4 : V c main_arg4 = a4) (h52 : V c main_v52 = rowOf (F := Ideal) a5)
    (h6 : V c main_arg6 = a6) (h53 : V c main_v53 = rowOf (F := Ideal) a7) (h54 : V c main_v54 = rowOf (F := Ideal) a8)
    (h55 : V c main_v55 = rowOf (F := Ideal) a9) (h10 : V c main_arg10 = a10) (h56 : V c main_v56 = rowOf (F := Ideal) a11) :
    Cert.Join.IsMsg a0 a1 a2 a3 a4 a5 a6 a7 a8 a9 a10 a11 (edge0 V c) := by
  intro e k
  have hr : e.val = (t0 (ix2 e k)).val * 4096 + (⟨e.val % 4096, Nat.mod_lt _ (by decide)⟩ : Fin 4096).val := by
    show e.val = e.val / 4096 * 4096 + e.val % 4096
    omega
  show out0_11 (iblk0 V c 0 (t0 (ix2 e k))) (iblk0 V c 1 (t0 (ix2 e k))) (iblk0 V c 2 (t0 (ix2 e k)))
      (iblk0 V c 3 (t0 (ix2 e k))) (iblk0 V c 4 (t0 (ix2 e k))) (iblk0 V c 5 (t0 (ix2 e k))) (iblk0 V c 6 (t0 (ix2 e k)))
      (iblk0 V c 7 (t0 (ix2 e k))) (iblk0 V c 8 (t0 (ix2 e k))) (iblk0 V c 9 (t0 (ix2 e k))) (iblk0 V c 10 (t0 (ix2 e k)))
      (ix2 ⟨e.val % 4096, Nat.mod_lt _ (by decide)⟩ k) = _
  rw [Cert.KernelIdeal.Body.out0_11_apply]
  simp only [iblk0_0_apply V c _ _ _ e hr, iblk0_1_apply V c _ _ _ e hr, iblk0_2_apply V c _ _ _ e hr, iblk0_3_apply,
    iblk0_4_apply, iblk0_5_apply, iblk0_6_apply, iblk0_7_apply, iblk0_8_apply, iblk0_9_apply, iblk0_10_apply,
    h51, h36, h29, h4, h52, h6, h53, h54, h55, h10, h56]

/-- The node region's output array is the array of blends, when the region is entered with its windows' arrays at the
    named functions of the arguments and of the message array. -/
theorem isOut_of (a0 : FVec Ideal S4x16x4096x64 .f32) (a2 : IVec S1000000x4 32) (a12 a13 : FVec Ideal S64 .f32)
    (a14 : FVec Ideal S128x64 .f32) (a15 a16 a17 : FVec Ideal S64 .f32) (MSG : FVec Ideal S1003520x64 .f32)
    (h0 : V c main_v0 = featRows (F := Ideal) a0) (h65 : V c main_v65 = aggr (F := Ideal) (padI (flatSuc a2)) MSG)
    (h75 : V c main_v75 = maskCol (F := Ideal) (flatSuc a2)) (h76 : V c main_v76 = topHalf (F := Ideal) a14)
    (h77 : V c main_v77 = botHalf (F := Ideal) a14) (h78 : V c main_v78 = rowOf (F := Ideal) a15)
    (h79 : V c main_v79 = rowOf (F := Ideal) a12) (h80 : V c main_v80 = rowOf (F := Ideal) a13)
    (h81 : V c main_v81 = rowOf (F := Ideal) a16) (h82 : V c main_v82 = rowOf (F := Ideal) a17) :
    Cert.Join.IsOut a0 a2 a12 a13 a14 a15 a16 a17 MSG (node1 V c) := by
  intro n q
  have hr : n.val = (t1 (ix2 n q)).val * 4096 + (⟨n.val % 4096, Nat.mod_lt _ (by decide)⟩ : Fin 4096).val := by
    show n.val = n.val / 4096 * 4096 + n.val % 4096
    omega
  show out1_10 (iblk1 V c 0 (t1 (ix2 n q))) (iblk1 V c 1 (t1 (ix2 n q))) (iblk1 V c 2 (t1 (ix2 n q)))
      (iblk1 V c 3 (t1 (ix2 n q))) (iblk1 V c 4 (t1 (ix2 n q))) (iblk1 V c 5 (t1 (ix2 n q))) (iblk1 V c 6 (t1 (ix2 n q)))
      (iblk1 V c 7 (t1 (ix2 n q))) (iblk1 V c 8 (t1 (ix2 n q))) (iblk1 V c 9 (t1 (ix2 n q)))
      (ix2 ⟨n.val % 4096, Nat.mod_lt _ (by decide)⟩ q) = _
  rw [Cert.KernelIdeal.NodeBody.out1_10_apply]
  simp only [iblk1_0_apply V c _ _ _ n hr, iblk1_1_apply V c _ _ _ n hr, iblk1_2_apply V c _ _ _ n hr, iblk1_3_apply,
    iblk1_4_apply, iblk1_5_apply, iblk1_6_apply, iblk1_7_apply, iblk1_8_apply, iblk1_9_apply,
    h0, h65, h75, h76, h77, h78, h79, h80, h81, h82]

end Cert.KernelIdeal.Val

end
-- ==== Proof.Value.lean ====
/-
  The kernel's result is the reference's value of the same arguments.

  The kernel's result buffer holds, after the last reshape, the node region's output array; that array is the array
  of blends over the aggregate of the edge region's messages; and by the agreement of the row functions, the
  aggregates and the marks, it is the reference's array of selected rows.  Both programs end with the same reshape.
-/
import proofs.«164651_j61959198212617_2_alg».proof.Proof.KerBoundary
import proofs.«164651_j61959198212617_2_alg».proof.Proof.KerVal

set_option maxRecDepth 16384

noncomputable section

namespace Cert.Proof.Value

open Idealize.ShloMosaic Idealize.ShloMosaic.TcCoe Idealize.SL.Sem
open Cert.KernelIdeal.Hand Cert.KernelIdeal.Gen

/-- At the ideal values, on every device, the kernel's result buffer after the run is the reference's composed value
    of the launch contents of the eighteen arguments. -/
theorem ker_eq_ref (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    W11 (F := Ideal) m ρ c (Proc.devRef .tc Cert.KernelIdeal.main_v84)
      = Cert.ReferenceIdeal.Hand.RefVal (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12))
          (m ((c.tc : Thread Cert.KernelIdeal.nD Cert.KernelIdeal.τ).loc Cert.KernelIdeal.main_arg13))
          (m ((c.tc : Thread Cert.KernelIdeal.nD Cert.KernelIdeal.τ).loc Cert.KernelIdeal.main_arg14))
          (m ((c.tc : Thread Cert.KernelIdeal.nD Cert.KernelIdeal.τ).loc Cert.KernelIdeal.main_arg15))
          (m ((c.tc : Thread Cert.KernelIdeal.nD Cert.KernelIdeal.τ).loc Cert.KernelIdeal.main_arg16))
          (m ((c.tc : Thread Cert.KernelIdeal.nD Cert.KernelIdeal.τ).loc Cert.KernelIdeal.main_arg17)) := by
  rw [result_main_v84 (F := Ideal) m ρ c]
  have hM := Cert.KernelIdeal.Val.isMsg_of (V7 (F := Ideal) m ρ) c (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
    (V7_main_v51 m ρ c) (V7_main_v36 m ρ c) (V7_main_v29 m ρ c) (V7_main_arg4 m ρ c) (V7_main_v52 m ρ c) (V7_main_arg6 m ρ c)
    (V7_main_v53 m ρ c) (V7_main_v54 m ρ c) (V7_main_v55 m ρ c) (V7_main_arg10 m ρ c) (V7_main_v56 m ρ c)
  have hO := Cert.KernelIdeal.Val.isOut_of (V9 (F := Ideal) m ρ) c (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))
    (edge0 (V7 (F := Ideal) m ρ) c)
    (V9_main_v0 m ρ c) (V9_main_v65 m ρ c) (V9_main_v75 m ρ c) (V9_main_v76 m ρ c) (V9_main_v77 m ρ c) (V9_main_v78 m ρ c)
    (V9_main_v79 m ρ c) (V9_main_v80 m ρ c) (V9_main_v81 m ρ c) (V9_main_v82 m ρ c)
  rw [Cert.Join.out_eq _ _ _ _ _ _ _ _ _ _ _ _ _ _ _ _ _ _ _ _ hM hO]
  rfl

end Cert.Proof.Value

end
-- ==== Proof.lean ====
/-
  The certificate of the graph-attention layer: the kernel in two regions against the array program.

  One layer of message passing over 262144 nodes (4 x 16 x 4096, 64 features each) and 1000000 edges.  An edge from
  node s at one time step to node t at the next carries ((x_s + GN(leaky((p_t - p_s) W1 + b1) W2 + b2)) Wa + ba) * w;
  a node that receives edges is replaced by leaky(GN([x, GN(sum of what it received)] Wf + bf)), one that receives none
  keeps its features.  The kernel pads the edge list to 245 blocks of 4096 with zero indices and zero weights, runs the
  per-edge network in a first region, adds the contributions into the node table on the host, and runs the per-node
  fusion in a second region, blending by a 0/1 mark instead of selecting.  At the ideal values the two programs
  compute the same array: the matrix products are plain sums whatever the operand formats, the padded edges add
  zeros, the two halves of the fusion product split one sum, and the blend by a 0/1 mark is the selection.

  The three frames: the kernel's two are the generated frame certificates; the array program's is its run
  (the straight line of its operations, the called functions' bodies listed at their calls) with the result dropped.
  Nothing was rewritten by the idealisation, so `preserves` is trivial.  `algebraic`: the kernel's run with its
  result buffer named, the array program's run, and the equality of the two values.
-/
import proofs.«164651_j61959198212617_2_alg».proof.Defs
import proofs.«164651_j61959198212617_2_alg».proof.Proof.Gen.Kernel
import proofs.«164651_j61959198212617_2_alg».proof.Proof.Gen.Kernel.Frame
import proofs.«164651_j61959198212617_2_alg».proof.Proof.Gen.KernelIdeal
import proofs.«164651_j61959198212617_2_alg».proof.Proof.Gen.KernelIdeal.Frame
import proofs.«164651_j61959198212617_2_alg».proof.Proof.Gen.ReferenceIdeal
import proofs.«164651_j61959198212617_2_alg».proof.Proof.Gen.Pre_finite_inputs
import proofs.«164651_j61959198212617_2_alg».proof.Proof.KerRun
import proofs.«164651_j61959198212617_2_alg».proof.Proof.RefRun
import proofs.«164651_j61959198212617_2_alg».proof.Proof.Value
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as launched. -/
theorem frame_k : Cert.frame_Kernel := fun m ρ _ => Cert.Kernel.Gen.frame m ρ

/-- So does its idealisation. -/
theorem frame_ki : Cert.frame_KernelIdeal := fun m ρ _ => Cert.KernelIdeal.Gen.frame m ρ

/-- So does the array program: its run, the result forgotten. -/
theorem frame_ri : Cert.frame_ReferenceIdeal := fun m ρ _ =>
  (θ_run Cert.ReferenceIdeal.defs _ _).mono (fun _ h c => (h c).2) (Cert.ReferenceIdeal.Hand.run (F := Ideal) m ρ)

/-- The idealisation rewrote nothing. -/
theorem preserves : Cert.preserves_Kernel_KernelIdeal := trivial

/-- From memories agreeing on the eighteen arguments both programs run to the same result array. -/
theorem algebraic : Cert.algebraic_KernelIdeal_ReferenceIdeal := by
  intro m ρ m' ρ' _ hagree
  refine ⟨fun c => Cert.KernelIdeal.Gen.W11 (F := Ideal) m ρ c (Proc.devRef .tc Cert.KernelIdeal.main_v84),
    Cert.KernelIdeal.Hand.run_res (F := Ideal) m ρ, ?_⟩
  refine (θ_run Cert.ReferenceIdeal.defs _ _).mono (fun _ h c => ⟨(h c).1.trans ?_, (h c).2⟩)
    (Cert.ReferenceIdeal.Hand.run (F := Ideal) m' ρ')
  obtain ⟨h0, h1, h2, h3, h4, h5, h6, h7, h8, h9, h10, h11, h12, h13, h14, h15, h16, h17⟩ := hagree c
  rw [h0, h1, h2, h3, h4, h5, h6, h7, h8, h9, h10, h11, h12, h13, h14, h15, h16, h17]
  exact (Cert.Proof.Value.ker_eq_ref m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
